-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x32 : Shape := ⟨2, ![256, 32]⟩
abbrev S32 : Shape := ⟨1, ![32]⟩
abbrev S4x32x16 : Shape := ⟨3, ![4, 32, 16]⟩
abbrev S4x16 : Shape := ⟨2, ![4, 16]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S4x32x16 : S_.BroadcastsInDim S4x32x16 (![] : Fin 0 → Fin S4x32x16.rank)
  reducesTo_S4x32x16_S_d0_1_2 : S4x32x16.ReducesTo [0, 1, 2] S_
  bcast_S_S4x16 : S_.BroadcastsInDim S4x16 (![] : Fin 0 → Fin S4x16.rank)
  reducesTo_S4x16_S_d0_1 : S4x16.ReducesTo [0, 1] S_

variable [Facts]

def fn_part3 {F : FTy → Type} [FloatOps F] (main_v48 : IVec S_ 1) (main_v50 : IVec S32 1) : IVec S_ 1 :=
  let main_c_19 : IVec S_ 1 := constantI S_ 1 1#1
  let main_v51 : IVec S_ 1 := (fun x v => Host.reduce IntOp.andi x v reducesTo_S32_S_d0 h_S_) main_v50 main_c_19
  let main_v52 : IVec S_ 1 := andi main_v48 main_v51
  main_v52

def fn_part2 {F : FTy → Type} [FloatOps F] (main_arg7 : FVec F S32 .f32) (main_arg8 : FVec F S4x32x16 .f32) (main_arg9 : FVec F S4x16 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S4x32x16 .f32 := Host.absf main_arg8
  let main_cst_14 : FVec F S_ .f32 := constant S_ .f32 0x7F800000#32
  let main_v40 : FVec F S4x32x16 .f32 := broadcastInDim S4x32x16 ![] bcast_S_S4x32x16 main_cst_14
  let main_v41 : IVec S4x32x16 1 := cmpf .olt main_v39 main_v40
  let main_c_15 : IVec S_ 1 := constantI S_ 1 1#1
  let main_v42 : IVec S_ 1 := (fun x v => Host.reduce IntOp.andi x v reducesTo_S4x32x16_S_d0_1_2 h_S_) main_v41 main_c_15
  let main_v43 : IVec S_ 1 := andi main_v38 main_v42
  let main_v44 : FVec F S4x16 .f32 := Host.absf main_arg9
  let main_cst_16 : FVec F S_ .f32 := constant S_ .f32 0x7F800000#32
  let main_v45 : FVec F S4x16 .f32 := broadcastInDim S4x16 ![] bcast_S_S4x16 main_cst_16
  let main_v46 : IVec S4x16 1 := cmpf .olt main_v44 main_v45
  let main_c_17 : IVec S_ 1 := constantI S_ 1 1#1
  let main_v47 : IVec S_ 1 := (fun x v => Host.reduce IntOp.andi x v reducesTo_S4x16_S_d0_1 h_S_) main_v46 main_c_17
  let main_v48 : IVec S_ 1 := andi main_v43 main_v47
  let main_cst_18 : FVec F S_ .f32 := constant S_ .f32 0x00000000#32
  let main_v49 : FVec F S32 .f32 := broadcastInDim S32 ![] bcast_S_S32 main_cst_18
  let main_v50 : IVec S32 1 := cmpf .oge main_arg7 main_v49
  fn_part3 (F := F) main_v48 main_v50

def fn_part1 {F : FTy → Type} [FloatOps F] (main_arg4 : FVec F S32 .f32) (main_arg5 : FVec F S32 .f32) (main_arg6 : FVec F S32 .f32) (main_arg7 : FVec F S32 .f32) (main_arg8 : FVec F S4x32x16 .f32) (main_arg9 : FVec F S4x16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S4096x256 .f32) (main_arg1 : FVec F S4096x4096 .f32) (main_arg2 : FVec F S256x32 .f32) (main_arg3 : FVec F S32 .f32) (main_arg4 : FVec F S32 .f32) (main_arg5 : FVec F S32 .f32) (main_arg6 : FVec F S32 .f32) (main_arg7 : FVec F S32 .f32) (main_arg8 : FVec F S4x32x16 .f32) (main_arg9 : FVec F S4x16 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S4096x256 : Shape := ⟨2, ![4096, 256]⟩
abbrev S4096x4096 : Shape := ⟨2, ![4096, 4096]⟩
abbrev S256x32 : Shape := ⟨2, ![256, 32]⟩
abbrev S32 : Shape := ⟨1, ![32]⟩
abbrev S4x32x16 : Shape := ⟨3, ![4, 32, 16]⟩
abbrev S4x16 : Shape := ⟨2, ![4, 16]⟩
abbrev S_ : Shape := ⟨0, ![]⟩
abbrev S1x32 : Shape := ⟨2, ![1, 32]⟩
abbrev S32x4x16 : Shape := ⟨3, ![32, 4, 16]⟩
abbrev S32x64 : Shape := ⟨2, ![32, 64]⟩
abbrev S1x64 : Shape := ⟨2, ![1, 64]⟩
abbrev S4096x32 : Shape := ⟨2, ![4096, 32]⟩
abbrev S4096x64 : Shape := ⟨2, ![4096, 64]⟩
abbrev S512x4096 : Shape := ⟨2, ![512, 4096]⟩
abbrev S8x4096x512 : Shape := ⟨3, ![8, 4096, 512]⟩
abbrev S512x512 : Shape := ⟨2, ![512, 512]⟩
abbrev S1x512x512 : Shape := ⟨3, ![1, 512, 512]⟩
abbrev S512x32 : Shape := ⟨2, ![512, 32]⟩
abbrev S512x64 : Shape := ⟨2, ![512, 64]⟩
abbrev S512 : Shape := ⟨1, ![512]⟩
abbrev S512x1 : Shape := ⟨2, ![512, 1]⟩

abbrev nBuf : Space → Nat
  | .hbm => 29
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S4x32x16, .f32⟩
  | .hbm, ⟨9, _⟩ => ⟨S4x16, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S32x4x16, .f32⟩
  | .hbm, ⟨22, _⟩ => ⟨S32x64, .f32⟩
  | .hbm, ⟨23, _⟩ => ⟨S32x64, .bf16⟩
  | .hbm, ⟨24, _⟩ => ⟨S1x64, .f32⟩
  | .hbm, ⟨25, _⟩ => ⟨S4096x256, .bf16⟩
  | .hbm, ⟨26, _⟩ => ⟨S256x32, .bf16⟩
  | .hbm, ⟨27, _⟩ => ⟨S4096x32, .bf16⟩
  | .hbm, ⟨28, _⟩ => ⟨S4096x64, .f32⟩
  | .local _ .vmem, ⟨0, _⟩ => ⟨S4096x256, .bf16⟩
  | .local _ .vmem, ⟨1, _⟩ => ⟨S256x32, .bf16⟩
  | .local _ .vmem, ⟨2, _⟩ => ⟨S1x32, .f32⟩
  | .local _ .vmem, ⟨3, _⟩ => ⟨S4096x32, .bf16⟩
  | .local _ .vmem, ⟨4, _⟩ => ⟨S512x4096, .f32⟩
  | .local _ .vmem, ⟨5, _⟩ => ⟨S512x4096, .f32⟩
  | .local _ .vmem, ⟨6, _⟩ => ⟨S4096x32, .bf16⟩
  | .local _ .vmem, ⟨7, _⟩ => ⟨S1x32, .f32⟩
  | .local _ .vmem, ⟨8, _⟩ => ⟨S32x64, .bf16⟩
  | .local _ .vmem, ⟨9, _⟩ => ⟨S1x64, .f32⟩
  | .local _ .vmem, ⟨10, _⟩ => ⟨S4096x64, .f32⟩
  | .local _ .vmem, ⟨11, _⟩ => ⟨S8x4096x512, .bf16⟩
  | .local _ .vmem, ⟨12, _⟩ => ⟨S4096x64, .bf16⟩
  | .local _ .vmem, ⟨13, _⟩ => ⟨S4096x64, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10

abbrev nD : Nat := 1
abbrev τ : Topo := Topo.v7x

variable {F : FTy → Type} [FloatOps F]

abbrev grid0 : Pipeline.Grid := .none

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![8], ![false]⟩

def k1_off1 (i : grid1.Coords) : Fin 3 → Nat :=
  let c0_2 : Index := 0#32
  let arg0 : BitVec 32 := BitVec.ofNat 32 (i 0).val
  let c512_i32 : BitVec 32 := 512#32
  let v6 : BitVec 32 := Scalar.muli arg0 c512_i32
  let v7 : Index := Scalar.indexCast v6
  let c0_3 : Index := 0#32
  ![0, v7.toNat, 0]
def k1_off2 (i : grid1.Coords) : Fin 3 → Nat :=
  let c1 : Index := 1#32
  let arg0 : BitVec 32 := BitVec.ofNat 32 (i 0).val
  let c512_i32_4 : BitVec 32 := 512#32
  let v12 : BitVec 32 := Scalar.muli arg0 c512_i32_4
  let v13 : Index := Scalar.indexCast v12
  let c0_5 : Index := 0#32
  ![1, v13.toNat, 0]
def k1_off3 (i : grid1.Coords) : Fin 3 → Nat :=
  let c2 : Index := 2#32
  let arg0 : BitVec 32 := BitVec.ofNat 32 (i 0).val
  let c512_i32_6 : BitVec 32 := 512#32
  let v18 : BitVec 32 := Scalar.muli arg0 c512_i32_6
  let v19 : Index := Scalar.indexCast v18
  let c0_7 : Index := 0#32
  ![2, v19.toNat, 0]
def k1_off4 (i : grid1.Coords) : Fin 3 → Nat :=
  let c3 : Index := 3#32
  let arg0 : BitVec 32 := BitVec.ofNat 32 (i 0).val
  let c512_i32_8 : BitVec 32 := 512#32
  let v24 : BitVec 32 := Scalar.muli arg0 c512_i32_8
  let v25 : Index := Scalar.indexCast v24
  let c0_9 : Index := 0#32
  ![3, v25.toNat, 0]
def k1_off5 (i : grid1.Coords) : Fin 3 → Nat :=
  let c4 : Index := 4#32
  let arg0 : BitVec 32 := BitVec.ofNat 32 (i 0).val
  let c512_i32_10 : BitVec 32 := 512#32
  let v30 : BitVec 32 := Scalar.muli arg0 c512_i32_10
  let v31 : Index := Scalar.indexCast v30
  let c0_11 : Index := 0#32
  ![4, v31.toNat, 0]
def k1_off6 (i : grid1.Coords) : Fin 3 → Nat :=
  let c5 : Index := 5#32
  let arg0 : BitVec 32 := BitVec.ofNat 32 (i 0).val
  let c512_i32_12 : BitVec 32 := 512#32
  let v36 : BitVec 32 := Scalar.muli arg0 c512_i32_12
  let v37 : Index := Scalar.indexCast v36
  let c0_13 : Index := 0#32
  ![5, v37.toNat, 0]
def k1_off7 (i : grid1.Coords) : Fin 3 → Nat :=
  let c6 : Index := 6#32
  let arg0 : BitVec 32 := BitVec.ofNat 32 (i 0).val
  let c512_i32_14 : BitVec 32 := 512#32
  let v42 : BitVec 32 := Scalar.muli arg0 c512_i32_14
  let v43 : Index := Scalar.indexCast v42
  let c0_15 : Index := 0#32
  ![6, v43.toNat, 0]
def k1_off8 (i : grid1.Coords) : Fin 3 → Nat :=
  let c7 : Index := 7#32
  let arg0 : BitVec 32 := BitVec.ofNat 32 (i 0).val
  let c512_i32_16 : BitVec 32 := 512#32
  let v48 : BitVec 32 := Scalar.muli arg0 c512_i32_16
  let v49 : Index := Scalar.indexCast v48
  let c0_17 : Index := 0#32
  ![7, v49.toNat, 0]
def k1_off9 (i : grid1.Coords) : Fin 2 → Nat :=
  let arg0 : BitVec 32 := BitVec.ofNat 32 (i 0).val
  let c512_i32_29 : BitVec 32 := 512#32
  let v69 : BitVec 32 := Scalar.muli arg0 c512_i32_29
  let v70 : Index := Scalar.indexCast v69
  let c0_30 : Index := 0#32
  ![v70.toNat, 0]
def k1_cond2 (i : grid1.Coords) : BitVec 1 :=
  let arg0 : BitVec 32 := BitVec.ofNat 32 (i 0).val
  let c0_i32_33 : BitVec 32 := 0#32
  let v79 : BitVec 1 := Scalar.cmpi .sge arg0 c0_i32_33
  let v80 : BitVec 32 := Scalar.extui v79
  let c0_i32_34 : BitVec 32 := 0#32
  let v81 : BitVec 1 := Scalar.cmpi .ne v80 c0_i32_34
  v81

def k1_off10 (i : grid1.Coords) : Fin 3 → Nat :=
  let arg0 : BitVec 32 := BitVec.ofNat 32 (i 0).val
  let v106 : Index := Scalar.indexCast arg0
  let c0_44 : Index := 0#32
  let c0_45 : Index := 0#32
  ![v106.toNat, 0, 0]
def k1_cond3 (i : grid1.Coords) : BitVec 1 :=
  let arg0 : BitVec 32 := BitVec.ofNat 32 (i 0).val
  let c1_i32 : BitVec 32 := 1#32
  let v82 : BitVec 1 := Scalar.cmpi .sge arg0 c1_i32
  let v83 : BitVec 32 := Scalar.extui v82
  let c0_i32_35 : BitVec 32 := 0#32
  let v84 : BitVec 1 := Scalar.cmpi .ne v83 c0_i32_35
  v84

def k1_off11 (i : grid1.Coords) : Fin 3 → Nat :=
  let arg0 : BitVec 32 := BitVec.ofNat 32 (i 0).val
  let v106 : Index := Scalar.indexCast arg0
  let c512 : Index := 512#32
  let c0_44 : Index := 0#32
  ![v106.toNat, 512, 0]
def k1_cond4 (i : grid1.Coords) : BitVec 1 :=
  let arg0 : BitVec 32 := BitVec.ofNat 32 (i 0).val
  let c2_i32 : BitVec 32 := 2#32
  let v85 : BitVec 1 := Scalar.cmpi .sge arg0 c2_i32
  let v86 : BitVec 32 := Scalar.extui v85
  let c0_i32_36 : BitVec 32 := 0#32
  let v87 : BitVec 1 := Scalar.cmpi .ne v86 c0_i32_36
  v87

def k1_off12 (i : grid1.Coords) : Fin 3 → Nat :=
  let arg0 : BitVec 32 := BitVec.ofNat 32 (i 0).val
  let v106 : Index := Scalar.indexCast arg0
  let c1024 : Index := 1024#32
  let c0_44 : Index := 0#32
  ![v106.toNat, 1024, 0]
def k1_cond5 (i : grid1.Coords) : BitVec 1 :=
  let arg0 : BitVec 32 := BitVec.ofNat 32 (i 0).val
  let c3_i32 : BitVec 32 := 3#32
  let v88 : BitVec 1 := Scalar.cmpi .sge arg0 c3_i32
  let v89 : BitVec 32 := Scalar.extui v88
  let c0_i32_37 : BitVec 32 := 0#32
  let v90 : BitVec 1 := Scalar.cmpi .ne v89 c0_i32_37
  v90

def k1_off13 (i : grid1.Coords) : Fin 3 → Nat :=
  let arg0 : BitVec 32 := BitVec.ofNat 32 (i 0).val
  let v106 : Index := Scalar.indexCast arg0
  let c1536 : Index := 1536#32
  let c0_44 : Index := 0#32
  ![v106.toNat, 1536, 0]
def k1_cond6 (i : grid1.Coords) : BitVec 1 :=
  let arg0 : BitVec 32 := BitVec.ofNat 32 (i 0).val
  let c4_i32 : BitVec 32 := 4#32
  let v91 : BitVec 1 := Scalar.cmpi .sge arg0 c4_i32
  let v92 : BitVec 32 := Scalar.extui v91
  let c0_i32_38 : BitVec 32 := 0#32
  let v93 : BitVec 1 := Scalar.cmpi .ne v92 c0_i32_38
  v93

def k1_off14 (i : grid1.Coords) : Fin 3 → Nat :=
  let arg0 : BitVec 32 := BitVec.ofNat 32 (i 0).val
  let v106 : Index := Scalar.indexCast arg0
  let c2048 : Index := 2048#32
  let c0_44 : Index := 0#32
  ![v106.toNat, 2048, 0]
def k1_cond7 (i : grid1.Coords) : BitVec 1 :=
  let arg0 : BitVec 32 := BitVec.ofNat 32 (i 0).val
  let c5_i32 : BitVec 32 := 5#32
  let v94 : BitVec 1 := Scalar.cmpi .sge arg0 c5_i32
  let v95 : BitVec 32 := Scalar.extui v94
  let c0_i32_39 : BitVec 32 := 0#32
  let v96 : BitVec 1 := Scalar.cmpi .ne v95 c0_i32_39
  v96

def k1_off15 (i : grid1.Coords) : Fin 3 → Nat :=
  let arg0 : BitVec 32 := BitVec.ofNat 32 (i 0).val
  let v106 : Index := Scalar.indexCast arg0
  let c2560 : Index := 2560#32
  let c0_44 : Index := 0#32
  ![v106.toNat, 2560, 0]
def k1_cond8 (i : grid1.Coords) : BitVec 1 :=
  let arg0 : BitVec 32 := BitVec.ofNat 32 (i 0).val
  let c6_i32 : BitVec 32 := 6#32
  let v97 : BitVec 1 := Scalar.cmpi .sge arg0 c6_i32
  let v98 : BitVec 32 := Scalar.extui v97
  let c0_i32_40 : BitVec 32 := 0#32
  let v99 : BitVec 1 := Scalar.cmpi .ne v98 c0_i32_40
  v99

def k1_off16 (i : grid1.Coords) : Fin 3 → Nat :=
  let arg0 : BitVec 32 := BitVec.ofNat 32 (i 0).val
  let v106 : Index := Scalar.indexCast arg0
  let c3072 : Index := 3072#32
  let c0_44 : Index := 0#32
  ![v106.toNat, 3072, 0]
def k1_cond9 (i : grid1.Coords) : BitVec 1 :=
  let arg0 : BitVec 32 := BitVec.ofNat 32 (i 0).val
  let c7_i32 : BitVec 32 := 7#32
  let v100 : BitVec 1 := Scalar.cmpi .sge arg0 c7_i32
  let v101 : BitVec 32 := Scalar.extui v100
  let c0_i32_41 : BitVec 32 := 0#32
  let v102 : BitVec 1 := Scalar.cmpi .ne v101 c0_i32_41
  v102

def k1_off17 (i : grid1.Coords) : Fin 3 → Nat :=
  let arg0 : BitVec 32 := BitVec.ofNat 32 (i 0).val
  let v106 : Index := Scalar.indexCast arg0
  let c3584 : Index := 3584#32
  let c0_44 : Index := 0#32
  ![v106.toNat, 3584, 0]
def k1_cond10 (i : grid1.Coords) : BitVec 1 :=
  let arg0 : BitVec 32 := BitVec.ofNat 32 (i 0).val
  let c7_i32_42 : BitVec 32 := 7#32
  let v103 : BitVec 1 := Scalar.cmpi .eq arg0 c7_i32_42
  let v104 : BitVec 32 := Scalar.extui v103
  let c0_i32_43 : BitVec 32 := 0#32
  let v105 : BitVec 1 := Scalar.cmpi .ne v104 c0_i32_43
  v105

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S32 : S_.BroadcastsInDim S32 (![] : Fin 0 → Fin S32.rank)
  shapeCasts_S32_S1x32 : S32.ShapeCasts S1x32
  shapeCasts_S1x32_S32 : S1x32.ShapeCasts S32
  transposes_S4x32x16_S32x4x16_1_0_2 : S4x32x16.Transposes [1, 0, 2] S32x4x16
  shapeCasts_S32x4x16_S32x64 : S32x4x16.ShapeCasts S32x64
  bitsLt_bf16_f32 : FTy.bits .bf16 < FTy.bits .f32
  shapeCasts_S4x16_S1x64 : S4x16.ShapeCasts S1x64
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  packedbf16_S4096x32_S4096x32_0_0 : (Rect.unit (s := S4096x32) ![0, 0] S4096x32.size inb_S4096x32_S4096x32_0_0).PackedRows (EltTy.packing .bf16)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S512x4096_S512x4096_0_0 : ∀ a, (![0, 0] : Fin 2 → Nat) a + S512x4096.size a ≤ S512x4096.size a
  h_S512x4096 : 0 < S512x4096.numel
  slices_S512x4096_o0_0_S512x512 : S512x4096.Slices ![0, 0] S512x512
  h_S1x512x512 : 0 < S1x512x512.numel
  shapeCasts_S1x512x512_S512x512 : S1x512x512.ShapeCasts S512x512
  shapeCasts_S512x512_S1x512x512 : S512x512.ShapeCasts S1x512x512
  slices_S512x4096_o0_512_S512x512 : S512x4096.Slices ![0, 512] S512x512
  slices_S512x4096_o0_1024_S512x512 : S512x4096.Slices ![0, 1024] S512x512
  slices_S512x4096_o0_1536_S512x512 : S512x4096.Slices ![0, 1536] S512x512
  slices_S512x4096_o0_2048_S512x512 : S512x4096.Slices ![0, 2048] S512x512
  slices_S512x4096_o0_2560_S512x512 : S512x4096.Slices ![0, 2560] S512x512
  slices_S512x4096_o0_3072_S512x512 : S512x4096.Slices ![0, 3072] S512x512
  slices_S512x4096_o0_3584_S512x512 : S512x4096.Slices ![0, 3584] S512x512
  shapeCasts_S4096x32_S4096x32 : S4096x32.ShapeCasts S4096x32
  broadcasts_S1x32_S512x32 : S1x32.Broadcasts S512x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  h_S512x64 : 0 < S512x64.numel
  shapeCasts_S512x64_S512x64 : S512x64.ShapeCasts S512x64
  inb_S4096x64_S512x64_0_0 : ∀ a, (![0, 0] : Fin 2 → Nat) a + S512x64.size a ≤ S4096x64.size a
  inb_S4096x64_S512x64_512_0 : ∀ a, (![512, 0] : Fin 2 → Nat) a + S512x64.size a ≤ S4096x64.size a
  inb_S4096x64_S512x64_1024_0 : ∀ a, (![1024, 0] : Fin 2 → Nat) a + S512x64.size a ≤ S4096x64.size a
  inb_S4096x64_S512x64_1536_0 : ∀ a, (![1536, 0] : Fin 2 → Nat) a + S512x64.size a ≤ S4096x64.size a
  inb_S4096x64_S512x64_2048_0 : ∀ a, (![2048, 0] : Fin 2 → Nat) a + S512x64.size a ≤ S4096x64.size a
  inb_S4096x64_S512x64_2560_0 : ∀ a, (![2560, 0] : Fin 2 → Nat) a + S512x64.size a ≤ S4096x64.size a
  inb_S4096x64_S512x64_3072_0 : ∀ a, (![3072, 0] : Fin 2 → Nat) a + S512x64.size a ≤ S4096x64.size a
  inb_S4096x64_S512x64_3584_0 : ∀ a, (![3584, 0] : Fin 2 → Nat) a + S512x64.size a ≤ S4096x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  dot_S4096x256_S256x32_S4096x32_1_0_0_1_n_n_wf : DotDims.WF S4096x256 S256x32 S4096x32 [1] [0] [0] [1] [] []
  dot_S512x4096_S4096x32_S512x32_1_0_0_1_n_n_wf : DotDims.WF S512x4096 S4096x32 S512x32 [1] [0] [0] [1] [] []
  dot_S512x32_S32x64_S512x64_1_0_0_1_n_n_wf : DotDims.WF S512x32 S32x64 S512x64 [1] [0] [0] [1] [] []
  dot_S512x4096_S4096x64_S512x64_1_0_0_1_n_n_wf : DotDims.WF S512x4096 S4096x64 S512x64 [1] [0] [0] [1] [] []
  dot_S512x512_S512x64_S512x64_1_0_0_1_n_n_wf : DotDims.WF S512x512 S512x64 S512x64 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  k1_off1_inb : ∀ i : grid1.Coords, ∀ a, (k1_off1 i) a + S1x512x512.size a ≤ S8x4096x512.size a
  k1_off1_packedbf16 : ∀ i : grid1.Coords, (Rect.unit (s := S8x4096x512) (k1_off1 i) S1x512x512.size (k1_off1_inb i)).PackedRows (EltTy.packing .bf16)
  k1_off2_inb : ∀ i : grid1.Coords, ∀ a, (k1_off2 i) a + S1x512x512.size a ≤ S8x4096x512.size a
  k1_off2_packedbf16 : ∀ i : grid1.Coords, (Rect.unit (s := S8x4096x512) (k1_off2 i) S1x512x512.size (k1_off2_inb i)).PackedRows (EltTy.packing .bf16)
  k1_off3_inb : ∀ i : grid1.Coords, ∀ a, (k1_off3 i) a + S1x512x512.size a ≤ S8x4096x512.size a
  k1_off3_packedbf16 : ∀ i : grid1.Coords, (Rect.unit (s := S8x4096x512) (k1_off3 i) S1x512x512.size (k1_off3_inb i)).PackedRows (EltTy.packing .bf16)
  k1_off4_inb : ∀ i : grid1.Coords, ∀ a, (k1_off4 i) a + S1x512x512.size a ≤ S8x4096x512.size a
  k1_off4_packedbf16 : ∀ i : grid1.Coords, (Rect.unit (s := S8x4096x512) (k1_off4 i) S1x512x512.size (k1_off4_inb i)).PackedRows (EltTy.packing .bf16)
  k1_off5_inb : ∀ i : grid1.Coords, ∀ a, (k1_off5 i) a + S1x512x512.size a ≤ S8x4096x512.size a
  k1_off5_packedbf16 : ∀ i : grid1.Coords, (Rect.unit (s := S8x4096x512) (k1_off5 i) S1x512x512.size (k1_off5_inb i)).PackedRows (EltTy.packing .bf16)
  k1_off6_inb : ∀ i : grid1.Coords, ∀ a, (k1_off6 i) a + S1x512x512.size a ≤ S8x4096x512.size a
  k1_off6_packedbf16 : ∀ i : grid1.Coords, (Rect.unit (s := S8x4096x512) (k1_off6 i) S1x512x512.size (k1_off6_inb i)).PackedRows (EltTy.packing .bf16)
  k1_off7_inb : ∀ i : grid1.Coords, ∀ a, (k1_off7 i) a + S1x512x512.size a ≤ S8x4096x512.size a
  k1_off7_packedbf16 : ∀ i : grid1.Coords, (Rect.unit (s := S8x4096x512) (k1_off7 i) S1x512x512.size (k1_off7_inb i)).PackedRows (EltTy.packing .bf16)
  k1_off8_inb : ∀ i : grid1.Coords, ∀ a, (k1_off8 i) a + S1x512x512.size a ≤ S8x4096x512.size a
  k1_off8_packedbf16 : ∀ i : grid1.Coords, (Rect.unit (s := S8x4096x512) (k1_off8 i) S1x512x512.size (k1_off8_inb i)).PackedRows (EltTy.packing .bf16)
  k1_off9_inb : ∀ i : grid1.Coords, ∀ a, (k1_off9 i) a + S512x64.size a ≤ S4096x64.size a
  k1_off9_packedbf16 : ∀ i : grid1.Coords, (Rect.unit (s := S4096x64) (k1_off9 i) S512x64.size (k1_off9_inb i)).PackedRows (EltTy.packing .bf16)
  k1_off10_inb : ∀ i : grid1.Coords, ∀ (k1_h2 : k1_cond2 i = 1#1), ∀ a, (k1_off10 i) a + S1x512x512.size a ≤ S8x4096x512.size a
  k1_off11_inb : ∀ i : grid1.Coords, ∀ (k1_h3 : k1_cond3 i = 1#1), ∀ a, (k1_off11 i) a + S1x512x512.size a ≤ S8x4096x512.size a
  k1_off12_inb : ∀ i : grid1.Coords, ∀ (k1_h4 : k1_cond4 i = 1#1), ∀ a, (k1_off12 i) a + S1x512x512.size a ≤ S8x4096x512.size a
  k1_off13_inb : ∀ i : grid1.Coords, ∀ (k1_h5 : k1_cond5 i = 1#1), ∀ a, (k1_off13 i) a + S1x512x512.size a ≤ S8x4096x512.size a
  k1_off14_inb : ∀ i : grid1.Coords, ∀ (k1_h6 : k1_cond6 i = 1#1), ∀ a, (k1_off14 i) a + S1x512x512.size a ≤ S8x4096x512.size a
  k1_off15_inb : ∀ i : grid1.Coords, ∀ (k1_h7 : k1_cond7 i = 1#1), ∀ a, (k1_off15 i) a + S1x512x512.size a ≤ S8x4096x512.size a
  k1_off16_inb : ∀ i : grid1.Coords, ∀ (k1_h8 : k1_cond8 i = 1#1), ∀ a, (k1_off16 i) a + S1x512x512.size a ≤ S8x4096x512.size a
  k1_off17_inb : ∀ i : grid1.Coords, ∀ (k1_h9 : k1_cond9 i = 1#1), ∀ a, (k1_off17 i) a + S1x512x512.size a ≤ S8x4096x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S4096x32.size a
  hwx1_1 : ∀ i : grid1.Coords, EltTy.bits .bf16 = 32 ∨ (Rect.block (s := S4096x32) S4096x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .bf16 = 32 ∨ (Rect.block (s := S32x64) S32x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x64.size a ≤ S4096x64.size a
  hwx1_5 : ∀ i : grid1.Coords, EltTy.bits .f32 = 32 ∨ (Rect.block (s := S4096x64) S4096x64.size (cc1_transform_5 i) (hinb1_5 i)).WholeWords (EltTy.packing .f32)

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x32_S32x64_S512x64_1_0_0_1_n_n : DotDims S512x32 S32x64 S512x64 where
  lhsContracting := [1]
  rhsContracting := [0]
  lhsNonContracting := [0]
  rhsNonContracting := [1]
  lhsBatch := []
  rhsBatch := []
  wf := dot_S512x32_S32x64_S512x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.whole (Memref.whole main_v14) false false (stage0_0 0) (sem0_0 0) (Memref.isWhole_whole _) (hstage0_0 0)

abbrev win0_1 : Pipeline.Window sig grid0 :=
  Pipeline.Window.whole (Memref.whole main_v15) false false (stage0_1 0) (sem0_1 0) (Memref.isWhole_whole _) (hstage0_1 0)

abbrev win0_2 : Pipeline.Window sig grid0 :=
  Pipeline.Window.whole (Memref.whole main_v4) false false (stage0_2 0) (sem0_2 0) (Memref.isWhole_whole _) (hstage0_2 0)

abbrev win0_3 : Pipeline.Window sig grid0 :=
  Pipeline.Window.whole (Memref.whole main_v16) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4096x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S4096x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond10 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S256x32 : Shape := ⟨2, ![256, 32]⟩
abbrev S32 : Shape := ⟨1, ![32]⟩
abbrev S4x32x16 : Shape := ⟨3, ![4, 32, 16]⟩
abbrev S4x16 : Shape := ⟨2, ![4, 16]⟩
abbrev S4096x32 : Shape := ⟨2, ![4096, 32]⟩
abbrev S1x32 : Shape := ⟨2, ![1, 32]⟩
abbrev S_ : Shape := ⟨0, ![]⟩
abbrev S1x32x16 : Shape := ⟨3, ![1, 32, 16]⟩
abbrev S32x16 : Shape := ⟨2, ![32, 16]⟩
abbrev S4096x16 : Shape := ⟨2, ![4096, 16]⟩
abbrev S1x16 : Shape := ⟨2, ![1, 16]⟩
abbrev S16 : Shape := ⟨1, ![16]⟩
abbrev S4096x64 : Shape := ⟨2, ![4096, 64]⟩
abbrev S4096 : Shape := ⟨1, ![4096]⟩
abbrev S4096x1 : Shape := ⟨2, ![4096, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S4x32x16, .f32⟩
  | .hbm, ⟨9, _⟩ => ⟨S4x16, .f32⟩
  | .hbm, ⟨10, _⟩ => ⟨S4096x32, .f32⟩
  | .hbm, ⟨11, _⟩ => ⟨S4096x32, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S_, .f32⟩
  | .hbm, ⟨32, _⟩ => ⟨S4096x32, .f32⟩
  | .hbm, ⟨33, _⟩ => ⟨S4096x32, .f32⟩
  | .hbm, ⟨34, _⟩ => ⟨S1x32x16, .f32⟩
  | .hbm, ⟨35, _⟩ => ⟨S32x16, .f32⟩
  | .hbm, ⟨36, _⟩ => ⟨S4096x16, .f32⟩
  | .hbm, ⟨37, _⟩ => ⟨S4096x16, .f32⟩
  | .hbm, ⟨38, _⟩ => ⟨S1x16, .f32⟩
  | .hbm, ⟨39, _⟩ => ⟨S16, .f32⟩
  | .hbm, ⟨40, _⟩ => ⟨S1x16, .f32⟩
  | .hbm, ⟨41, _⟩ => ⟨S4096x16, .f32⟩
  | .hbm, ⟨42, _⟩ => ⟨S4096x16, .f32⟩
  | .hbm, ⟨43, _⟩ => ⟨S1x32x16, .f32⟩
  | .hbm, ⟨44, _⟩ => ⟨S32x16, .f32⟩
  | .hbm, ⟨45, _⟩ => ⟨S4096x16, .f32⟩
  | .hbm, ⟨46, _⟩ => ⟨S4096x16, .f32⟩
  | .hbm, ⟨47, _⟩ => ⟨S1x16, .f32⟩
  | .hbm, ⟨48, _⟩ => ⟨S16, .f32⟩
  | .hbm, ⟨49, _⟩ => ⟨S1x16, .f32⟩
  | .hbm, ⟨50, _⟩ => ⟨S4096x16, .f32⟩
  | .hbm, ⟨51, _⟩ => ⟨S4096x16, .f32⟩
  | .hbm, ⟨52, _⟩ => ⟨S1x32x16, .f32⟩
  | .hbm, ⟨53, _⟩ => ⟨S32x16, .f32⟩
  | .hbm, ⟨54, _⟩ => ⟨S4096x16, .f32⟩
  | .hbm, ⟨55, _⟩ => ⟨S4096x16, .f32⟩
  | .hbm, ⟨56, _⟩ => ⟨S1x16, .f32⟩
  | .hbm, ⟨57, _⟩ => ⟨S16, .f32⟩
  | .hbm, ⟨58, _⟩ => ⟨S1x16, .f32⟩
  | .hbm, ⟨59, _⟩ => ⟨S4096x16, .f32⟩
  | .hbm, ⟨60, _⟩ => ⟨S4096x16, .f32⟩
  | .hbm, ⟨61, _⟩ => ⟨S1x32x16, .f32⟩
  | .hbm, ⟨62, _⟩ => ⟨S32x16, .f32⟩
  | .hbm, ⟨63, _⟩ => ⟨S4096x16, .f32⟩
  | .hbm, ⟨64, _⟩ => ⟨S4096x16, .f32⟩
  | .hbm, ⟨65, _⟩ => ⟨S1x16, .f32⟩
  | .hbm, ⟨66, _⟩ => ⟨S16, .f32⟩
  | .hbm, ⟨67, _⟩ => ⟨S1x16, .f32⟩
  | .hbm, ⟨68, _⟩ => ⟨S4096x16, .f32⟩
  | .hbm, ⟨69, _⟩ => ⟨S4096x16, .f32⟩
  | .hbm, ⟨70, _⟩ => ⟨S4096x64, .f32⟩
  | .hbm, ⟨71, _⟩ => ⟨S_, .f32⟩
  | .hbm, ⟨72, _⟩ => ⟨S4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S4096x1, .f32⟩
  | .hbm, ⟨77, _⟩ => ⟨S4096x64, .f32⟩
  | .hbm, ⟨78, _⟩ => ⟨S4096x64, .f32⟩
  | .hbm, ⟨79, _⟩ => ⟨S4096x64, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1, .f32⟩
  | .hbm, ⟨84, _⟩ => ⟨S4096x64, .f32⟩
  | .hbm, ⟨85, _⟩ => ⟨S4096x64, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_call1_cst : Ref sig .tc := ⟨.hbm, 71, rfl⟩
abbrev main_call1_v0 : Ref sig .tc := ⟨.hbm, 72, rfl⟩
abbrev main_call1_cst_0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_cst_1 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S32 : S_.BroadcastsInDim S32 (![] : Fin 0 → Fin S32.rank)
  bcast_S_S4096x32 : S_.BroadcastsInDim S4096x32 (![] : Fin 0 → Fin S4096x32.rank)
  slices_S4x32x16_S1x32x16_0_0_0 : S4x32x16.Slices ![0, 0, 0] S1x32x16
  shapeCasts_S1x32x16_S32x16 : S1x32x16.ShapeCasts S32x16
  slices_S4x16_S1x16_0_0 : S4x16.Slices ![0, 0] S1x16
  shapeCasts_S1x16_S16 : S1x16.ShapeCasts S16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  slices_S4x32x16_S1x32x16_1_0_0 : S4x32x16.Slices ![1, 0, 0] S1x32x16
  slices_S4x16_S1x16_1_0 : S4x16.Slices ![1, 0] S1x16
  slices_S4x32x16_S1x32x16_2_0_0 : S4x32x16.Slices ![2, 0, 0] S1x32x16
  slices_S4x16_S1x16_2_0 : S4x16.Slices ![2, 0] S1x16
  slices_S4x32x16_S1x32x16_3_0_0 : S4x32x16.Slices ![3, 0, 0] S1x32x16
  slices_S4x16_S1x16_3_0 : S4x16.Slices ![3, 0] S1x16
  concatenates_S4096x16_S4096x16_S4096x16_S4096x16_S4096x64_d1 : Shape.Concatenates [S4096x16, S4096x16, S4096x16, S4096x16] S4096x64 1
  reducesTo_S4096x64_S4096_d1 : S4096x64.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  dot_S4096x256_S256x32_S4096x32_1_0_0_1_n_n_wf : DotDims.WF S4096x256 S256x32 S4096x32 [1] [0] [0] [1] [] []
  dot_S4096x4096_S4096x32_S4096x32_1_0_0_1_n_n_wf : DotDims.WF S4096x4096 S4096x32 S4096x32 [1] [0] [0] [1] [] []
  dot_S4096x32_S32x16_S4096x16_1_0_0_1_n_n_wf : DotDims.WF S4096x32 S32x16 S4096x16 [1] [0] [0] [1] [] []
  dot_S4096x4096_S4096x16_S4096x16_1_0_0_1_n_n_wf : DotDims.WF S4096x4096 S4096x16 S4096x16 [1] [0] [0] [1] [] []

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.PrepBits.lean ====
/- scratch/gen_cases.js bits Prep — proof/Proof/PrepIdeal.lean with the namespace Cert.KernelIdeal replaced by Cert.Kernel (the word-level program's copy) -/
/-
  The first pallas_call: T' = (x · W₁) scaled column by column, one grid point, whole blocks.

  Its body loads the three operand blocks whole, forms the product on a zero accumulator, multiplies by the scale row
  broadcast down the rows, narrows the format and stores the result block whole. So after the body the output's
  staging buffer holds ONE function of the three input blocks (`prepOut`), whatever it held before, and the inputs'
  buffers are as they were. Stated for any float instance and for any contents `V` the region is entered from.
-/
import proofs.«150466_g82282983457293_cont_9to1_m_405_12_alg».proof.Proof.Gen.Kernel.Launch
import proofs.«150466_g82282983457293_cont_9to1_m_405_12_alg».proof.Proof.Gen.Kernel.Skeleton
import proofs.«150466_g82282983457293_cont_9to1_m_405_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Prep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs: fetched at the point, never idle, uncut. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole rectangles the body loads and stores through. -/
abbrev rX : Rect S4096x256 := Rect.unit (s := S4096x256) ![0, 0] S4096x256.size inb_S4096x256_S4096x256_0_0
abbrev rW : Rect S256x32 := Rect.unit (s := S256x32) ![0, 0] S256x32.size inb_S256x32_S256x32_0_0
abbrev rS : Rect S1x32 := Rect.unit (s := S1x32) ![0, 0] S1x32.size inb_S1x32_S1x32_0_0
abbrev rT : Rect S4096x32 := Rect.unit (s := S4096x32) ![0, 0] S4096x32.size inb_S4096x32_S4096x32_0_0

/-- What the body leaves in the output's staging buffer: its one whole store, of the product scaled, of the three
    input blocks. -/
def prepOut (x0 : Vec F S4096x256 .bf16) (x1 : Vec F S256x32 .bf16) (x2 : Vec F S1x32 .f32) : Vec F S4096x32 .bf16 :=
  View.canon [⟨rT, k0_pay1 (View.ld x0 rX) (View.ld x1 rW) (View.ld x2 rS)⟩]

/-- The one store is the whole block, so it covers it. -/
theorem prep_cover (p0 : Vec F S4096x32 .bf16) (y : S4096x32.Idx) :
    ∃ pc ∈ ([⟨rT, p0⟩] : List (View.Piece (Elt F) S4096x32 .bf16)), y ∈ pc.1.set :=
  View.cover_of_tiled [⟨rT, p0⟩] S4096x32.size (by rfl) y

set_option maxHeartbeats 2000000 in
/-- The body on whole staging memrefs: the inputs' at their contents, the output's at anything; it runs to the
    continuation with the inputs' as they were and the output's at `prepOut` of them. -/
theorem sound_prep (c : Dev nD) (E : Set ℕ) (arg0 : Memref sig .tc .vmem S4096x256 .bf16) (harg0 : arg0.IsWhole) (arg1 : Memref sig .tc .vmem S256x32 .bf16) (harg1 : arg1.IsWhole)
    (arg2 : Memref sig .tc .vmem S1x32 .f32) (harg2 : arg2.IsWhole) (arg3 : Memref sig .tc .vmem S4096x32 .bf16) (harg3 : arg3.IsWhole)
    (x0 : Vec F S4096x256 .bf16) (x1 : Vec F S256x32 .bf16) (x2 : Vec F S1x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (prepOut x0 x1 x2)) -∗ K ⟨⟩))
      ⊢ wp frame (wpE (defs₀ (F := F)) Variants.none c none) E (cc0__prep_kernel arg0 harg0 arg1 harg1 arg2 harg2 arg3 harg3) K := by
  simp only [cc0__prep_kernel_eq_skeleton]; unfold cc0__prep_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prep_cover _)

/-- The proof data of this pipeline on core `c`: the arrays as the region finds them; after the body each input's buffer
    at its block and the output's at `prepOut` of the input blocks; the scoped rest and the generator register pass
    through untouched; nothing owed; full shares. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => prepOut (blk V c 0 t) (blk V c 1 t) (blk V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = blk V c 2 t := by dsimp only [dat0]
theorem after0_3 (c : Dev nD) (t : Fin cfg0.N) : (dat0 V c).after 3 t = prepOut (blk V c 0 t) (blk V c 1 t) (blk V c 2 t) := by dsimp only [dat0]

theorem before0_0 (c : Dev nD) (t : Fin cfg0.N) (d) : (dat0 V c).before 0 t d = blk V c 0 t :=
  before_in0 V (dat0 V c) (A_eq0 V c 0) (after0_0 V c) t d
theorem before0_1 (c : Dev nD) (t : Fin cfg0.N) (d) : (dat0 V c).before 1 t d = blk V c 1 t :=
  before_in1 V (dat0 V c) (A_eq0 V c 1) (after0_1 V c) t d
theorem before0_2 (c : Dev nD) (t : Fin cfg0.N) (d) : (dat0 V c).before 2 t d = blk V c 2 t :=
  before_in2 V (dat0 V c) (A_eq0 V c 2) (after0_2 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_prep c Set.univ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of this pipeline, at its one point. -/
theorem body_obligation0 (c : Dev nD) : BodyObligation (dat0 (F := F) V c) (defs₀ (F := F)) Variants.none () Set.univ := fun t => by
  rw [bigSep_W0, bigSep_W0]
  exact sound_body0 V c t

end Cert.Kernel.Prep

end
-- ==== Proof.GcnMainBits.lean ====
/- scratch/gen_cases.js bits GcnMain — proof/Proof/GcnMainIdeal.lean with the namespace Cert.KernelIdeal replaced by Cert.Kernel (the word-level program's copy) -/
/-
  The run of the whole program through its two pipelines.

  The program is seventeen host operations followed by two kernel calls and the return. Between these three items the
  TensorCore's unscoped buffers hold known contents: at launch the memory the program is started from; after the host
  operations what those operations compute from it; after the first call the same except that the call's arrays hold what
  its pipeline leaves in them (its inputs as entered, its output the write-backs folded); after the second call likewise.
  The first call's proof data are fixed (the scaled product, whole blocks, one grid point). The second call's are a
  PARAMETER here: any proof data, given at every entry contents, that read their arrays off the entry contents, hold their
  inputs at the full share, owe nothing, put no bound on the pairs recorded before their first point, meet the body obligation
  and exchange the class invariant for their own at the two ends. From these the run terminates without fault; the returned array holds the second pipeline's fold of its output
  window, and every argument array holds what it was launched with, because no host operation writes an argument and each
  call reads the arguments it touches through input windows only.
-/
import proofs.«150466_g82282983457293_cont_9to1_m_405_12_alg».proof.Proof.PrepBits
import proofs.«150466_g82282983457293_cont_9to1_m_405_12_alg».proof.Proof.Gen.Kernel.Launch
import proofs.«150466_g82282983457293_cont_9to1_m_405_12_alg».proof.Proof.Gen.Kernel.Points
import proofs.«150466_g82282983457293_cont_9to1_m_405_12_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GcnMain

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of the TensorCore's buffers on every core, read at the TensorCore's references: what a pipeline's proof data
    are stated at. -/
abbrev Entry (F : FTy → Type) [FloatOps F] : Type :=
  (c : Dev nD) → (b : Ref sig .tc) → Buf (Elt F) ((c : Thread nD τ).loc b)

variable (m : (ℓ : Loc nD τ sig) → Buf (Elt F) ℓ) (ρ : Dev nD → PrngReg)

/-! ## The buffers' contents between the items, up to the second call -/

/-- At launch. -/
abbrev W0 : Dev nD → Valuation τ sig (Elt F) := fun c b => (s₀ m ρ).mem ((c : Dev nD), b)
/-- After the host operations: what the first call is entered from. -/
abbrev W1 : Dev nD → Valuation τ sig (Elt F) := fun c => StableHlo.after hostOps0 (W0 m ρ c)
/-- The same, read at the TensorCore's references. -/
abbrev Vin0 : Entry F := fun c b => W1 m ρ c b
/-- After the first call: its arrays at what its pipeline leaves, every other buffer as entered. What the second call
    is entered from. -/
def W2 (c : Dev nD) : Valuation τ sig (Elt F) :=
  Pipeline.withArrays spec0 c (W1 m ρ c) fun w => (Prep.dat0 (Vin0 m ρ) c).arrAt w cfg0.N
theorem W2_arr (c : Dev nD) (w : Fin cfg0.W) :
    W2 m ρ c (Proc.devRef .tc (Pipeline.arrRef spec0 w)) = (Prep.dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev Vin1 : Entry F := fun c b => W2 m ρ c b

/-- The host operations leave alone every buffer none of them writes. -/
theorem W1_of_unwritten (c : Dev nD) (r : Ref sig .tc) (h : r ∉ hostOps0_W) :
    W1 m ρ c (Proc.devRef .tc r) = W0 m ρ c (Proc.devRef .tc r) :=
  StableHlo.after_of_writes_sub hostOps0 _ hostOps0_writes h

/-- At the first call's exit each of its arrays holds what the pipeline leaves, and every other buffer what it held at
    entry. -/
theorem exitArr0 (c : Dev nD) (w : Fin cfg0.W) :
    (Prep.dat0 (Vin0 m ρ) c).arrAt w cfg0.N = Vin1 m ρ c (Pipeline.arrRef spec0 w) :=
  (W2_arr m ρ c w).symm
theorem exitRest0 (c : Dev nD) : ∀ b, b ∉ Finset.univ.image (Pipeline.arrRef spec0) → Vin1 m ρ c b = Vin0 m ρ c b :=
  fun b hb => W2_of_ne m ρ c b fun w e => hb (Finset.mem_image.mpr ⟨w, Finset.mem_univ _, e⟩)

/-! ### What the two calls' input windows find

The first call reads three buffers the host operations wrote; the second reads the first call's output, one argument
and three more buffers the host operations wrote, none of them an array of the first call other than its output. -/

theorem Vin0_main_v14 (c : Dev nD) : Vin0 m ρ c main_v14 = StableHlo.after hostOps0 (W0 m ρ c) (Proc.devRef .tc main_v14) := rfl
theorem Vin0_main_v15 (c : Dev nD) : Vin0 m ρ c main_v15 = StableHlo.after hostOps0 (W0 m ρ c) (Proc.devRef .tc main_v15) := rfl
theorem Vin0_main_v4 (c : Dev nD) : Vin0 m ρ c main_v4 = StableHlo.after hostOps0 (W0 m ρ c) (Proc.devRef .tc main_v4) := rfl

/-- The second call's window 1 finds the first call's output as its pipeline left it. -/
theorem Vin1_main_v16 (c : Dev nD) : Vin1 m ρ c main_v16 = (Prep.dat0 (Vin0 m ρ) c).arrAt 3 cfg0.N :=
  W2_arr m ρ c 3
theorem Vin1_main_arg1 (c : Dev nD) : Vin1 m ρ c main_arg1 = StableHlo.after hostOps0 (W0 m ρ c) (Proc.devRef .tc main_arg1) :=
  W2_of_ne m ρ c main_arg1 (by decide)
theorem Vin1_main_v9 (c : Dev nD) : Vin1 m ρ c main_v9 = StableHlo.after hostOps0 (W0 m ρ c) (Proc.devRef .tc main_v9) :=
  W2_of_ne m ρ c main_v9 (by decide)
theorem Vin1_main_v12 (c : Dev nD) : Vin1 m ρ c main_v12 = StableHlo.after hostOps0 (W0 m ρ c) (Proc.devRef .tc main_v12) :=
  W2_of_ne m ρ c main_v12 (by decide)
theorem Vin1_main_v13 (c : Dev nD) : Vin1 m ρ c main_v13 = StableHlo.after hostOps0 (W0 m ρ c) (Proc.devRef .tc main_v13) :=
  W2_of_ne m ρ c main_v13 (by decide)
/-- The one argument the second call reads is still as launched. -/
theorem Vin1_main_arg1_launch (c : Dev nD) : Vin1 m ρ c main_arg1 = m ((c : Thread nD τ).loc main_arg1) :=
  (Vin1_main_arg1 m ρ c).trans ((W1_of_unwritten m ρ c main_arg1 (by decide)).trans rfl)

/-! ## The second call, at any proof data -/

section Second

variable (dat1 : Entry F → (c : Dev nD) → Dat τ (Elt F) Unit ℕ (UR sig nD τ) ℕ cfg1 c)

/-- After the second call: its arrays at what its pipeline leaves, every other buffer as entered. What the program
    returns from. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ dat1 c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ dat1 c (Proc.devRef .tc b) = W2 m ρ c (Proc.devRef .tc b) := by
  unfold W3; exact Pipeline.withArrays_of_ne spec1 c _ _ b hb
/-- The same, read at the TensorCore's references. -/
abbrev Vout : Entry F := fun c b => W3 m ρ dat1 c b
theorem exitArr1 (c : Dev nD) (w : Fin cfg1.W) :
    (dat1 (Vin1 m ρ) c).arrAt w cfg1.N = Vout m ρ dat1 c (Pipeline.arrRef spec1 w) :=
  (W3_arr m ρ dat1 c w).symm
theorem exitRest1 (c : Dev nD) : ∀ b, b ∉ Finset.univ.image (Pipeline.arrRef spec1) → Vout m ρ dat1 c b = Vin1 m ρ c b :=
  fun b hb => W3_of_ne m ρ dat1 c b fun w e => hb (Finset.mem_image.mpr ⟨w, Finset.mem_univ _, e⟩)

/-- The returned array ends holding the second pipeline's fold of its output window. -/
theorem W3_main_v17 (c : Dev nD) : W3 m ρ dat1 c (Proc.devRef .tc main_v17) = (dat1 (Vin1 m ρ) c).arrAt 5 cfg1.N :=
  W3_arr m ρ dat1 c 5

/-! ### The arguments end as launched

No host operation writes an argument; the first call has no argument among its arrays; the second has one, its window
0, an input, whose array the pipeline leaves as it found it. So the fold at an argument's buffer walks back to the
launch memory. -/

theorem W3_main_arg0 (c : Dev nD) : W3 m ρ dat1 c (Proc.devRef .tc main_arg0) = m ((c : Thread nD τ).loc main_arg0) :=
  calc W3 m ρ dat1 c (Proc.devRef .tc main_arg0)
    _ = W2 m ρ c (Proc.devRef .tc main_arg0) := W3_of_ne m ρ dat1 c main_arg0 (by decide)
    _ = W1 m ρ c (Proc.devRef .tc main_arg0) := W2_of_ne m ρ c main_arg0 (by decide)
    _ = W0 m ρ c (Proc.devRef .tc main_arg0) := W1_of_unwritten m ρ c main_arg0 (by decide)
    _ = m ((c : Thread nD τ).loc main_arg0) := rfl
theorem W3_main_arg2 (c : Dev nD) : W3 m ρ dat1 c (Proc.devRef .tc main_arg2) = m ((c : Thread nD τ).loc main_arg2) :=
  calc W3 m ρ dat1 c (Proc.devRef .tc main_arg2)
    _ = W2 m ρ c (Proc.devRef .tc main_arg2) := W3_of_ne m ρ dat1 c main_arg2 (by decide)
    _ = W1 m ρ c (Proc.devRef .tc main_arg2) := W2_of_ne m ρ c main_arg2 (by decide)
    _ = W0 m ρ c (Proc.devRef .tc main_arg2) := W1_of_unwritten m ρ c main_arg2 (by decide)
    _ = m ((c : Thread nD τ).loc main_arg2) := rfl
theorem W3_main_arg3 (c : Dev nD) : W3 m ρ dat1 c (Proc.devRef .tc main_arg3) = m ((c : Thread nD τ).loc main_arg3) :=
  calc W3 m ρ dat1 c (Proc.devRef .tc main_arg3)
    _ = W2 m ρ c (Proc.devRef .tc main_arg3) := W3_of_ne m ρ dat1 c main_arg3 (by decide)
    _ = W1 m ρ c (Proc.devRef .tc main_arg3) := W2_of_ne m ρ c main_arg3 (by decide)
    _ = W0 m ρ c (Proc.devRef .tc main_arg3) := W1_of_unwritten m ρ c main_arg3 (by decide)
    _ = m ((c : Thread nD τ).loc main_arg3) := rfl
theorem W3_main_arg4 (c : Dev nD) : W3 m ρ dat1 c (Proc.devRef .tc main_arg4) = m ((c : Thread nD τ).loc main_arg4) :=
  calc W3 m ρ dat1 c (Proc.devRef .tc main_arg4)
    _ = W2 m ρ c (Proc.devRef .tc main_arg4) := W3_of_ne m ρ dat1 c main_arg4 (by decide)
    _ = W1 m ρ c (Proc.devRef .tc main_arg4) := W2_of_ne m ρ c main_arg4 (by decide)
    _ = W0 m ρ c (Proc.devRef .tc main_arg4) := W1_of_unwritten m ρ c main_arg4 (by decide)
    _ = m ((c : Thread nD τ).loc main_arg4) := rfl
theorem W3_main_arg5 (c : Dev nD) : W3 m ρ dat1 c (Proc.devRef .tc main_arg5) = m ((c : Thread nD τ).loc main_arg5) :=
  calc W3 m ρ dat1 c (Proc.devRef .tc main_arg5)
    _ = W2 m ρ c (Proc.devRef .tc main_arg5) := W3_of_ne m ρ dat1 c main_arg5 (by decide)
    _ = W1 m ρ c (Proc.devRef .tc main_arg5) := W2_of_ne m ρ c main_arg5 (by decide)
    _ = W0 m ρ c (Proc.devRef .tc main_arg5) := W1_of_unwritten m ρ c main_arg5 (by decide)
    _ = m ((c : Thread nD τ).loc main_arg5) := rfl
theorem W3_main_arg6 (c : Dev nD) : W3 m ρ dat1 c (Proc.devRef .tc main_arg6) = m ((c : Thread nD τ).loc main_arg6) :=
  calc W3 m ρ dat1 c (Proc.devRef .tc main_arg6)
    _ = W2 m ρ c (Proc.devRef .tc main_arg6) := W3_of_ne m ρ dat1 c main_arg6 (by decide)
    _ = W1 m ρ c (Proc.devRef .tc main_arg6) := W2_of_ne m ρ c main_arg6 (by decide)
    _ = W0 m ρ c (Proc.devRef .tc main_arg6) := W1_of_unwritten m ρ c main_arg6 (by decide)
    _ = m ((c : Thread nD τ).loc main_arg6) := rfl
theorem W3_main_arg7 (c : Dev nD) : W3 m ρ dat1 c (Proc.devRef .tc main_arg7) = m ((c : Thread nD τ).loc main_arg7) :=
  calc W3 m ρ dat1 c (Proc.devRef .tc main_arg7)
    _ = W2 m ρ c (Proc.devRef .tc main_arg7) := W3_of_ne m ρ dat1 c main_arg7 (by decide)
    _ = W1 m ρ c (Proc.devRef .tc main_arg7) := W2_of_ne m ρ c main_arg7 (by decide)
    _ = W0 m ρ c (Proc.devRef .tc main_arg7) := W1_of_unwritten m ρ c main_arg7 (by decide)
    _ = m ((c : Thread nD τ).loc main_arg7) := rfl
theorem W3_main_arg8 (c : Dev nD) : W3 m ρ dat1 c (Proc.devRef .tc main_arg8) = m ((c : Thread nD τ).loc main_arg8) :=
  calc W3 m ρ dat1 c (Proc.devRef .tc main_arg8)
    _ = W2 m ρ c (Proc.devRef .tc main_arg8) := W3_of_ne m ρ dat1 c main_arg8 (by decide)
    _ = W1 m ρ c (Proc.devRef .tc main_arg8) := W2_of_ne m ρ c main_arg8 (by decide)
    _ = W0 m ρ c (Proc.devRef .tc main_arg8) := W1_of_unwritten m ρ c main_arg8 (by decide)
    _ = m ((c : Thread nD τ).loc main_arg8) := rfl
theorem W3_main_arg9 (c : Dev nD) : W3 m ρ dat1 c (Proc.devRef .tc main_arg9) = m ((c : Thread nD τ).loc main_arg9) :=
  calc W3 m ρ dat1 c (Proc.devRef .tc main_arg9)
    _ = W2 m ρ c (Proc.devRef .tc main_arg9) := W3_of_ne m ρ dat1 c main_arg9 (by decide)
    _ = W1 m ρ c (Proc.devRef .tc main_arg9) := W2_of_ne m ρ c main_arg9 (by decide)
    _ = W0 m ρ c (Proc.devRef .tc main_arg9) := W1_of_unwritten m ρ c main_arg9 (by decide)
    _ = m ((c : Thread nD τ).loc main_arg9) := rfl

theorem W3_main_arg1 (hA1 : ∀ (V : Entry F) (c : Dev nD) (w : Fin cfg1.W), (dat1 V c).A w = V c (Pipeline.arrRef spec1 w))
    (c : Dev nD) : W3 m ρ dat1 c (Proc.devRef .tc main_arg1) = m ((c : Thread nD τ).loc main_arg1) :=
  calc W3 m ρ dat1 c (Proc.devRef .tc main_arg1)
    _ = (dat1 (Vin1 m ρ) c).arrAt 0 cfg1.N := W3_arr m ρ dat1 c 0
    _ = Vin1 m ρ c main_arg1 := ((dat1 (Vin1 m ρ) c).arrAt_in 0 rfl _).trans (hA1 (Vin1 m ρ) c 0)
    _ = m ((c : Thread nD τ).loc main_arg1) := Vin1_main_arg1_launch m ρ c

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => Prep.dat0 (Vin0 m ρ) c
  | ⟨1, _⟩ => fun c => dat1 (Vin1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing
    nothing. -/
abbrev R (c : Dev nD) : sProp 𝕄 := iprop((∃ r, prngReg c r) ∗ ∃ W, owes (c : Thread nD τ) (0 : CellTallies nD τ sig Unit) W)
/-- The host operations as one item: run over the unscoped buffers from the launch contents, `R` riding along; they end
    at `W1`. -/
abbrev hostItem : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents `W3`, the generator register at
    some state. -/
abbrev Tend (c : Dev nD) : sProp 𝕄 := iprop(StableHlo.held (c : Thread nD τ) (Pipeline.ucRefs τ sig) (W3 m ρ dat1 c) ∗ ∃ r, prngReg c r)

/-! ## The two calls as items -/

set_option backward.isDefEq.respectTransparency.types false in
/-- THE FIRST CALL over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ dat1) () defs₀ 𝒱₀ L lv 0 where
  win := launch0.win.to₀
  block_pos := launch0.block_pos
  stage_whole := launch0.stage_whole
  K := PEmpty
  osem k := k.elim
  ho := Pipeline.OwnSemFacts.none _
  hbody c := (Prep.body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ dat1) launch0.win launch0.arr_whole c
      ((pdats m ρ dat1 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat1) ((pdats m ρ dat1 0 c).share_full fun _ => rfl)
      (Vin0 m ρ c) (Vin1 m ρ c) ((pdats m ρ dat1 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant from what the region hands in: the generator register and the scoped buffers no window stages. -/
theorem classInv_in (c : Dev nD) :
    iprop((∃ r, prngReg c r) ∗ Pipeline.prefHeld (pcfgs (F := F) 1).pre c (fun _ => fullShare) (adm 1).1 ∗ Pipeline.scopedRest (Pipeline.pin (pcfgs (F := F)) adm 1).spec c)
      ⊢ (Pipeline.ΦA spec1 c : sProp 𝕄) := by
  unfold Pipeline.ΦA
  iintro ⟨Hp, -, Hr⟩
  isplitl [Hr]; · iexact Hr
  iexact Hp

/-- and back. -/
theorem classInv_out (c : Dev nD) :
    (Pipeline.ΦA spec1 c : sProp 𝕄)
      ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- THE SECOND CALL over the thread state: entered from every unscoped buffer at `W2`, left at `W3`, which the launch
    reads at the end. As the first, with the given proof data's facts in place of the first's definitional ones. -/
def reg1
    (hA1 : ∀ (V : Entry F) (c : Dev nD) (w : Fin cfg1.W), (dat1 V c).A w = V c (Pipeline.arrRef spec1 w))
    (hq1 : ∀ (V : Entry F) (c : Dev nD) (w : Fin cfg1.W), (dat1 V c).q w = fullShare)
    (howed1 : ∀ (V : Entry F) (c : Dev nD) (t : Fin (cfg1.N + 1)), (dat1 V c).owed t = 0)
    (hrec1 : ∀ (V : Entry F) (c : Dev nD), (dat1 V c).recorded 0 = Set.univ)
    (hbody1 : ∀ (V : Entry F) (c : Dev nD), BodyObligation (dat1 V c) (defs₀ (F := F)) Variants.none () Set.univ)
    (hin1 : ∀ (V : Entry F) (c : Dev nD), (Pipeline.ΦA spec1 c : sProp 𝕄) ⊢ (dat1 V c).Φ 0)
    (hout1 : ∀ (V : Entry F) (c : Dev nD), (dat1 V c).Φ (Fin.last cfg1.N) ⊢ (Pipeline.ΦA spec1 c : sProp 𝕄)) :
    Pipeline.RegionSeg (pcfgs (F := F)) adm (pdats m ρ dat1) () defs₀ 𝒱₀ L lv 1 where
  win := launch1.win.to₀
  block_pos := launch1.block_pos
  stage_whole := launch1.stage_whole
  K := PEmpty
  osem k := k.elim
  ho := Pipeline.OwnSemFacts.none _
  hbody c := (hbody1 (Vin1 m ρ) c).loose
  hwaits := Pipeline.hwaits_of_owed_zero _ _ _ _ L lv 1 fun c t => howed1 (Vin1 m ρ) c t
  pre c := iprop(StableHlo.held (c : Thread nD τ) (Pipeline.ucRefs τ sig) (W2 m ρ c) ∗ R c)
  post c := iprop(Tend m ρ dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ dat1) launch1.win launch1.arr_whole c
      ((pdats m ρ dat1 1 c).share_full fun w => hq1 (Vin1 m ρ) c w) (Vin1 m ρ c) fun w => hA1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat1 1 c).owed 0 = 0 from howed1 (Vin1 m ρ) c 0]
      icases HO with ⟨%W, HO⟩; iexists W; isplitr
      · ipureintro
        exact fun x _ => Or.inl (show x ∈ (dat1 (Vin1 m ρ) c).recorded 0 by rw [hrec1 (Vin1 m ρ) c]; exact Set.mem_univ x)
      iexact HO
    isplitl [Hp]; · iexact Hp
    iexact Hrest
  hin c := (classInv_in (F := F) c).trans (hin1 (Vin1 m ρ) c)
  hout c := by
    rw [Pipeline.ownSems0_none]
    exact (hout1 (Vin1 m ρ) c).trans (classInv_out (F := F) c)
  hexit c := by
    have hjoin := Pipeline.unscopedBufs_of_arrays (p := 1) (pcfgs (F := F)) adm (Ix := Unit) (Name := ℕ) (U := UR sig nD τ) (Lvl := ℕ)
      launch1.win launch1.arr_whole c (pdats m ρ dat1) ((pdats m ρ dat1 1 c).share_full fun w => hq1 (Vin1 m ρ) c w)
      (Vin1 m ρ c) (Vout m ρ dat1 c) ((pdats m ρ dat1 1 c).arrAt · cfg1.N) (exitArr1 m ρ dat1 c) (exitRest1 m ρ dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ dat1 1 c).owed (Fin.last _) = 0 from howed1 (Vin1 m ρ) c _]
    icases HO with ⟨%W, -, HO⟩; iexists W; iexact HO

/-! ## The program as its items, and the launch -/

/-- The program's three items in order. -/
abbrev items
    (hA1 : ∀ (V : Entry F) (c : Dev nD) (w : Fin cfg1.W), (dat1 V c).A w = V c (Pipeline.arrRef spec1 w))
    (hq1 : ∀ (V : Entry F) (c : Dev nD) (w : Fin cfg1.W), (dat1 V c).q w = fullShare)
    (howed1 : ∀ (V : Entry F) (c : Dev nD) (t : Fin (cfg1.N + 1)), (dat1 V c).owed t = 0)
    (hrec1 : ∀ (V : Entry F) (c : Dev nD), (dat1 V c).recorded 0 = Set.univ)
    (hbody1 : ∀ (V : Entry F) (c : Dev nD), BodyObligation (dat1 V c) (defs₀ (F := F)) Variants.none () Set.univ)
    (hin1 : ∀ (V : Entry F) (c : Dev nD), (Pipeline.ΦA spec1 c : sProp 𝕄) ⊢ (dat1 V c).Φ 0)
    (hout1 : ∀ (V : Entry F) (c : Dev nD), (dat1 V c).Φ (Fin.last cfg1.N) ⊢ (Pipeline.ΦA spec1 c : sProp 𝕄)) :
    List (Pipeline.Seg (pcfgs (F := F)) adm (pdats m ρ dat1) () defs₀ 𝒱₀ L lv) :=
  [ .host (hostItem m ρ),
    .region (reg0 m ρ dat1),
    .region (reg1 m ρ dat1 hA1 hq1 howed1 hrec1 hbody1 hin1 hout1) ]
/-- The program IS the run of its items. -/
theorem main_items
    (hA1 : ∀ (V : Entry F) (c : Dev nD) (w : Fin cfg1.W), (dat1 V c).A w = V c (Pipeline.arrRef spec1 w))
    (hq1 : ∀ (V : Entry F) (c : Dev nD) (w : Fin cfg1.W), (dat1 V c).q w = fullShare)
    (howed1 : ∀ (V : Entry F) (c : Dev nD) (t : Fin (cfg1.N + 1)), (dat1 V c).owed t = 0)
    (hrec1 : ∀ (V : Entry F) (c : Dev nD), (dat1 V c).recorded 0 = Set.univ)
    (hbody1 : ∀ (V : Entry F) (c : Dev nD), BodyObligation (dat1 V c) (defs₀ (F := F)) Variants.none () Set.univ)
    (hin1 : ∀ (V : Entry F) (c : Dev nD), (Pipeline.ΦA spec1 c : sProp 𝕄) ⊢ (dat1 V c).Φ 0)
    (hout1 : ∀ (V : Entry F) (c : Dev nD), (dat1 V c).Φ (Fin.last cfg1.N) ⊢ (Pipeline.ΦA spec1 c : sProp 𝕄))
    (c : Dev nD) : main (F := F) c = Pipeline.Seg.run (items m ρ dat1 hA1 hq1 howed1 hrec1 hbody1 hin1 hout1) :=
  (main_chain c).trans (by chain_rfl)

set_option backward.isDefEq.respectTransparency.types false in
/-- THE RUN. At the compiled mesh, from any memory with zero counters, every weakly fair execution of the program on
    the TensorCores terminates, nothing faulting, and in every final state the returned array holds the second
    pipeline's fold of its output window and every argument array holds its launch contents. -/
theorem run_main
    (hA1 : ∀ (V : Entry F) (c : Dev nD) (w : Fin cfg1.W), (dat1 V c).A w = V c (Pipeline.arrRef spec1 w))
    (hq1 : ∀ (V : Entry F) (c : Dev nD) (w : Fin cfg1.W), (dat1 V c).q w = fullShare)
    (howed1 : ∀ (V : Entry F) (c : Dev nD) (t : Fin (cfg1.N + 1)), (dat1 V c).owed t = 0)
    (hrec1 : ∀ (V : Entry F) (c : Dev nD), (dat1 V c).recorded 0 = Set.univ)
    (hbody1 : ∀ (V : Entry F) (c : Dev nD), BodyObligation (dat1 V c) (defs₀ (F := F)) Variants.none () Set.univ)
    (hin1 : ∀ (V : Entry F) (c : Dev nD), (Pipeline.ΦA spec1 c : sProp 𝕄) ⊢ (dat1 V c).Φ 0)
    (hout1 : ∀ (V : Entry F) (c : Dev nD), (dat1 V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v17) = (dat1 (Vin1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ dat1) () cellOf_inj emb₁ defs₀ 𝒱₀ L lv m ρ main
    (items m ρ dat1 hA1 hq1 howed1 hrec1 hbody1 hin1 hout1)
    (fun c Q => by rw [main_items m ρ dat1 hA1 hq1 howed1 hrec1 hbody1 hin1 hout1 c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ dat1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ dat1 c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ dat1 c) s')
      isplitl [Hh] <;> iassumption)
    (hQ := fun s h c =>
      ⟨(h c _ (mem_uc main_v17 (by decide))).trans (W3_main_v17 m ρ dat1 c),
       (h c _ (mem_uc main_arg0 (by decide))).trans (W3_main_arg0 m ρ dat1 c),
       (h c _ (mem_uc main_arg1 (by decide))).trans (W3_main_arg1 m ρ dat1 hA1 c),
       (h c _ (mem_uc main_arg2 (by decide))).trans (W3_main_arg2 m ρ dat1 c),
       (h c _ (mem_uc main_arg3 (by decide))).trans (W3_main_arg3 m ρ dat1 c),
       (h c _ (mem_uc main_arg4 (by decide))).trans (W3_main_arg4 m ρ dat1 c),
       (h c _ (mem_uc main_arg5 (by decide))).trans (W3_main_arg5 m ρ dat1 c),
       (h c _ (mem_uc main_arg6 (by decide))).trans (W3_main_arg6 m ρ dat1 c),
       (h c _ (mem_uc main_arg7 (by decide))).trans (W3_main_arg7 m ρ dat1 c),
       (h c _ (mem_uc main_arg8 (by decide))).trans (W3_main_arg8 m ρ dat1 c),
       (h c _ (mem_uc main_arg9 (by decide))).trans (W3_main_arg9 m ρ dat1 c)⟩)

end Second

end Cert.Kernel.GcnMain

end
-- ==== Proof.GcnModelBits.lean ====
/- scratch/gen_cases.js bits GcnModel — proof/Proof/GcnModelIdeal.lean with the namespace Cert.KernelIdeal replaced by Cert.Kernel (the word-level program's copy) -/
/-
  The streamed pass as pure functions of its operand blocks: what each grid point stores into the three scratch buffers
  and, at the last point, into the output block — the body's stores as lists of pieces over literal rectangles, and the
  values they carry as the body's arithmetic (the skeleton's payload functions) of the operand blocks and of what the
  scratch buffers hold.

  Notation. The adjacency is streamed in eight row blocks a₀ … a₇ (512 × 4096 each). Point j
    • writes the eight 512 × 512 column slabs of a_j (narrowed) into the slab scratch at [k, 512 j …, ·], k = 0 … 7;
    • computes its 512 hidden rows and their projection p_j, and stores p_j into rows 512 j … of the projection
      scratch P (zero-filled whole at point 0);
    • stores  a_j · P  (P as it is BEFORE p_j is stored: rows ≥ 512 j are zero) into rows 512 j … of the accumulator;
    • for every row block b ≤ j adds  slab[j, rows of b] · p_j  to the accumulator's rows of b;
    • at point 7 turns every accumulator row block, plus the bias row, into its log-softmax and stores it in the output.
-/
import proofs.«150466_g82282983457293_cont_9to1_m_405_12_alg».proof.Proof.Gen.Kernel.Launch
import proofs.«150466_g82282983457293_cont_9to1_m_405_12_alg».proof.Proof.Gen.Kernel.Skeleton
import proofs.«150466_g82282983457293_cont_9to1_m_405_12_alg».proof.Proof.Gen.Kernel.Points
import Idealize.ShloMosaic.Lib.Pipeline.FrameBody

noncomputable section

namespace Cert.Kernel.GcnModel

open Cert.Kernel Cert.Kernel.Gen
open Idealize.ShloMosaic Idealize.ShloMosaic.TcCoe

variable {F : FTy → Type} [FloatOps F]

/-! ## The scratch buffers and the rectangles the body stores through -/

abbrev scM7 : Memref sig .tc .vmem S8x4096x512 .bf16 := Memref.whole cc1_scratch0
abbrev scM8 : Memref sig .tc .vmem S4096x64 .bf16 := Memref.whole cc1_scratch1
abbrev scM9 : Memref sig .tc .vmem S4096x64 .f32 := Memref.whole cc1_scratch2
theorem h7 : scM7.IsWhole := Memref.isWhole_whole _
theorem h8 : scM8.IsWhole := Memref.isWhole_whole _
theorem h9 : scM9.IsWhole := Memref.isWhole_whole _

theorem slab_inb (k j : Fin 8) : ∀ a, (![k.val, j.val * 512, 0] : Fin 3 → ℕ) a + S1x512x512.size a ≤ S8x4096x512.size a := by
  intro a; fin_cases a <;> simp [Shape.size] <;> omega
theorem rows_inb (b : Fin 8) : ∀ a, (![b.val * 512, 0] : Fin 2 → ℕ) a + S512x64.size a ≤ S4096x64.size a := by
  intro a; fin_cases a <;> simp [Shape.size] <;> omega

/-- Slab k, rows of block j, of the slab scratch. -/
abbrev slabR (k j : Fin 8) : Rect S8x4096x512 := Rect.unit (s := S8x4096x512) ![k.val, j.val * 512, 0] S1x512x512.size (slab_inb k j)
/-- The rows of block b of a 4096 × 64 buffer (the projection scratch, the accumulator, the output block). -/
abbrev rowsR (b : Fin 8) : Rect S4096x64 := Rect.unit (s := S4096x64) ![b.val * 512, 0] S512x64.size (rows_inb b)
/-- A 4096 × 64 buffer whole. -/
abbrev wholeR : Rect S4096x64 := Rect.unit (s := S4096x64) ![0, 0] S4096x64.size inb_S4096x64_S4096x64_0_0

/-- The operand blocks loaded whole. -/
abbrev rA : Rect S512x4096 := Rect.unit (s := S512x4096) ![0, 0] S512x4096.size inb_S512x4096_S512x4096_0_0
abbrev rT : Rect S4096x32 := Rect.unit (s := S4096x32) ![0, 0] S4096x32.size inb_S4096x32_S4096x32_0_0
abbrev rC : Rect S1x32 := Rect.unit (s := S1x32) ![0, 0] S1x32.size inb_S1x32_S1x32_0_0
abbrev rWa : Rect S32x64 := Rect.unit (s := S32x64) ![0, 0] S32x64.size inb_S32x64_S32x64_0_0
abbrev rBa : Rect S1x64 := Rect.unit (s := S1x64) ![0, 0] S1x64.size inb_S1x64_S1x64_0_0

/-! ## The body's arithmetic per point -/

/-- Column slab k of an adjacency row block, narrowed. -/
def slabOf (k : Fin 8) (x1 : Vec F S512x4096 .f32) : FVec F S1x512x512 .bf16 :=
  match k with
  | 0 => k1_pay15 (View.ld x1 rA) | 1 => k1_pay16 (View.ld x1 rA) | 2 => k1_pay17 (View.ld x1 rA) | 3 => k1_pay18 (View.ld x1 rA)
  | 4 => k1_pay19 (View.ld x1 rA) | 5 => k1_pay20 (k1_pay14 (View.ld x1 rA)) | 6 => k1_pay21 (k1_pay14 (View.ld x1 rA)) | 7 => k1_pay22 (k1_pay14 (View.ld x1 rA))

/-- The projection of a row block's hidden rows: p_j. -/
def projOf (x1 : Vec F S512x4096 .f32) (x2 : Vec F S4096x32 .bf16) (x3 : Vec F S1x32 .f32) (x4 : Vec F S32x64 .bf16) : FVec F S512x64 .bf16 :=
  k1_pay23 (k1_pay14 (View.ld x1 rA)) (View.ld x2 rT) (View.ld x3 rC) (View.ld x4 rWa)

/-- The fresh row block against the projection scratch as it stands:  a_j · P. -/
def freshOf (x1 : Vec F S512x4096 .f32) (P : Vec F S4096x64 .bf16) : FVec F S512x64 .f32 :=
  k1_pay25 (k1_pay24 (k1_pay14 (View.ld x1 rA)) P)

/-- One accumulation: the accumulator rows of block b plus  slab · p_j. -/
def accOf (b : Fin 8) : FVec F S512x64 .bf16 → Vec F S1x512x512 .bf16 → Vec F S512x64 .f32 → FVec F S512x64 .f32 :=
  match b with
  | 0 => k1_pay27 | 1 => k1_pay28 | 2 => k1_pay29 | 3 => k1_pay30 | 4 => k1_pay31 | 5 => k1_pay32 | 6 => k1_pay33 | 7 => k1_pay1

/-- The epilogue on one accumulator row block and the bias row: the block's log-softmax. -/
def lsmOf (b : Fin 8) (a : Vec F S512x64 .f32) (x5 : Vec F S1x64 .f32) : FVec F S512x64 .f32 :=
  match b with
  | 0 => k1_pay3 a (View.ld x5 rBa) | 1 => k1_pay4 a (View.ld x5 rBa) | 2 => k1_pay6 (k1_pay5 a (View.ld x5 rBa)) | 3 => k1_pay7 a (View.ld x5 rBa)
  | 4 => k1_pay10 (k1_pay8 a (View.ld x5 rBa)) (k1_pay9 a (View.ld x5 rBa)) | 5 => k1_pay11 a (View.ld x5 rBa) | 6 => k1_pay12 a (View.ld x5 rBa) | 7 => k1_pay2 a (View.ld x5 rBa)

/-! ## What a buffer reads after stores -/

/-- The slab scratch's contents `xs` overwritten by the stores `L` (last first). -/
def upd7 (xs : Vec F S8x4096x512 .bf16) (L : List (View.Piece (Elt F) S8x4096x512 .bf16)) : Vec F S8x4096x512 .bf16 :=
  scM7.view.read (Elt F) (scM7.view.writes (Elt F) (h7.unread xs) L)
def upd8 (xs : Vec F S4096x64 .bf16) (L : List (View.Piece (Elt F) S4096x64 .bf16)) : Vec F S4096x64 .bf16 :=
  scM8.view.read (Elt F) (scM8.view.writes (Elt F) (h8.unread xs) L)
def upd9 (xs : Vec F S4096x64 .f32) (L : List (View.Piece (Elt F) S4096x64 .f32)) : Vec F S4096x64 .f32 :=
  scM9.view.read (Elt F) (scM9.view.writes (Elt F) (h9.unread xs) L)

/-! ## The stores of point j, last first -/

/-- The eight slab stores of point j. -/
def L7 (j : Fin 8) (x1 : Vec F S512x4096 .f32) : List (View.Piece (Elt F) S8x4096x512 .bf16) :=
  [⟨slabR 7 j, slabOf 7 x1⟩, ⟨slabR 6 j, slabOf 6 x1⟩, ⟨slabR 5 j, slabOf 5 x1⟩, ⟨slabR 4 j, slabOf 4 x1⟩,
   ⟨slabR 3 j, slabOf 3 x1⟩, ⟨slabR 2 j, slabOf 2 x1⟩, ⟨slabR 1 j, slabOf 1 x1⟩, ⟨slabR 0 j, slabOf 0 x1⟩]

/-- The projection scratch's stores at point j: p_j into its rows (after the whole zero fill, at point 0). -/
def L8 (j : Fin 8) (pj : FVec F S512x64 .bf16) : List (View.Piece (Elt F) S4096x64 .bf16) :=
  if j.val = 0 then [⟨rowsR j, k1_pay26 pj⟩, ⟨wholeR, k1_pay13⟩] else [⟨rowsR j, k1_pay26 pj⟩]

/-- The accumulator's stores at point j up to and including the accumulation into row block b (b ≤ j), last first:
    the fresh block into rows of j, then row blocks 0 … b each read back, added to and stored. The slab scratch is read
    as it stands after the point's own slab stores (`s7`), the accumulator as the stores so far leave it. -/
def L9upto (j : Fin 8) (pj : FVec F S512x64 .bf16) (fresh : FVec F S512x64 .f32) (s7 : Vec F S8x4096x512 .bf16) (xs9 : Vec F S4096x64 .f32) :
    ℕ → List (View.Piece (Elt F) S4096x64 .f32)
  | 0 => [⟨rowsR j, fresh⟩]
  | b + 1 =>
    if hb : b < 8 then
      ⟨rowsR ⟨b, hb⟩, accOf ⟨b, hb⟩ pj (View.ld s7 (slabR j ⟨b, hb⟩)) (View.ld (upd9 xs9 (L9upto j pj fresh s7 xs9 b)) (rowsR ⟨b, hb⟩))⟩
        :: L9upto j pj fresh s7 xs9 b
    else L9upto j pj fresh s7 xs9 b

/-- All the accumulator's stores of point j: the fresh block, then the accumulation into row blocks 0 … j. -/
def L9 (j : Fin 8) (pj : FVec F S512x64 .bf16) (fresh : FVec F S512x64 .f32) (s7 : Vec F S8x4096x512 .bf16) (xs9 : Vec F S4096x64 .f32) :
    List (View.Piece (Elt F) S4096x64 .f32) :=
  L9upto j pj fresh s7 xs9 (j.val + 1)

/-- The epilogue's stores into the output block, last first: each row block's log-softmax of the accumulator as it stands. -/
def L6 (s9 : Vec F S4096x64 .f32) (x5 : Vec F S1x64 .f32) : List (View.Piece (Elt F) S4096x64 .f32) :=
  [⟨rowsR 7, lsmOf 7 (View.ld s9 (rowsR 7)) x5⟩, ⟨rowsR 6, lsmOf 6 (View.ld s9 (rowsR 6)) x5⟩, ⟨rowsR 5, lsmOf 5 (View.ld s9 (rowsR 5)) x5⟩,
   ⟨rowsR 4, lsmOf 4 (View.ld s9 (rowsR 4)) x5⟩, ⟨rowsR 3, lsmOf 3 (View.ld s9 (rowsR 3)) x5⟩, ⟨rowsR 2, lsmOf 2 (View.ld s9 (rowsR 2)) x5⟩,
   ⟨rowsR 1, lsmOf 1 (View.ld s9 (rowsR 1)) x5⟩, ⟨rowsR 0, lsmOf 0 (View.ld s9 (rowsR 0)) x5⟩]

/-! ## One point as a step on the three scratch contents -/

/-- The projection scratch as the fresh product finds it at point j: zero-filled at the first point, as the point
    before left it otherwise. -/
def pSeen (j : Fin 8) (xs8 : Vec F S4096x64 .bf16) : Vec F S4096x64 .bf16 :=
  if j.val = 0 then View.ld (View.canon [⟨wholeR, (k1_pay13 : FVec F S4096x64 .bf16)⟩]) wholeR else View.ld xs8 wholeR

/-- Point j's step: from the operand blocks and the scratch contents before the point to the contents after it. -/
def step (j : Fin 8) (x1 : Vec F S512x4096 .f32) (x2 : Vec F S4096x32 .bf16) (x3 : Vec F S1x32 .f32) (x4 : Vec F S32x64 .bf16)
    (s : Vec F S8x4096x512 .bf16 × Vec F S4096x64 .bf16 × Vec F S4096x64 .f32) :
    Vec F S8x4096x512 .bf16 × Vec F S4096x64 .bf16 × Vec F S4096x64 .f32 :=
  let pj := projOf x1 x2 x3 x4
  let s7 := upd7 s.1 (L7 j x1)
  (s7, upd8 s.2.1 (L8 j pj), upd9 s.2.2 (L9 j pj (freshOf x1 (pSeen j s.2.1)) s7 s.2.2))

end Cert.Kernel.GcnModel

end
-- ==== Proof.GcnInvBits.lean ====
/- scratch/gen_cases.js bits GcnInv — proof/Proof/GcnInvIdeal.lean with the namespace Cert.KernelIdeal replaced by Cert.Kernel (the word-level program's copy) -/
/-
  What the scratch buffers hold after point n, from the operand blocks alone.

  After point n (n = 0 … 7):
    • the slab scratch holds, at [k, rows of block i, ·] for every i ≤ n, column slab k of a_i (`SlabInv`); the rows of
      later blocks are whatever the region found there;
    • the projection scratch holds `pAt n`: p_i in the rows of every block i ≤ n, zero elsewhere (it was zero-filled
      whole at point 0, so all of it is known);
    • the accumulator holds, in the rows of every block b ≤ n, `accAt n b`: the fresh product a_b · P (P before p_b was
      stored) plus  slab[i, rows of b] · p_i  for i = b … n (`AccInv`); the rows of later blocks are unknown.
  At point 7 the output block becomes, row block by row block, the log-softmax of `accAt 7 b` plus the bias (`outModel`).
-/
import proofs.«150466_g82282983457293_cont_9to1_m_405_12_alg».proof.Proof.GcnModelBits

noncomputable section

namespace Cert.Kernel.GcnModel

open Cert.Kernel Cert.Kernel.Gen
open Idealize.ShloMosaic Idealize.ShloMosaic.TcCoe

variable {F : FTy → Type} [FloatOps F]

variable (a : Fin 8 → Vec F S512x4096 .f32) (x2 : Vec F S4096x32 .bf16) (x3 : Vec F S1x32 .f32) (x4 : Vec F S32x64 .bf16) (x5 : Vec F S1x64 .f32)

/-- p_i: the projection of row block i's hidden rows. -/
def pj (i : Fin 8) : FVec F S512x64 .bf16 := projOf (a i) x2 x3 x4

/-- The projection scratch after point n (n < 8; at n ≥ 8 the recursion just repeats the last store: never used). -/
def pAt : ℕ → Vec F S4096x64 .bf16
  | 0 => View.canon (L8 (0 : Fin 8) (pj a x2 x3 x4 0))
  | n + 1 => upd8 (pAt n) (L8 (Fin.ofNat 8 (n + 1)) (pj a x2 x3 x4 (Fin.ofNat 8 (n + 1))))

/-- The fresh product of point n:  a_n · P  with P as point n finds it. -/
def freshAt (n : ℕ) : FVec F S512x64 .f32 :=
  freshOf (a (Fin.ofNat 8 n)) (pSeen (Fin.ofNat 8 n) (pAt a x2 x3 x4 (n - 1)))

/-- The accumulator's rows of block b after point n (meaningful for b ≤ n < 8). -/
def accAt : ℕ → Fin 8 → Vec F S512x64 .f32
  | 0, b => accOf b (pj a x2 x3 x4 0) (slabOf 0 (a b)) (freshAt a x2 x3 x4 0)
  | n + 1, b =>
    if b.val = n + 1 then accOf b (pj a x2 x3 x4 (Fin.ofNat 8 (n + 1))) (slabOf (Fin.ofNat 8 (n + 1)) (a b)) (freshAt a x2 x3 x4 (n + 1))
    else accOf b (pj a x2 x3 x4 (Fin.ofNat 8 (n + 1))) (slabOf (Fin.ofNat 8 (n + 1)) (a b)) (accAt n b)

/-- The slab scratch after point n: the slabs of every row block up to n are in place. -/
def SlabInv (n : ℕ) (s7 : Vec F S8x4096x512 .bf16) : Prop :=
  ∀ (i k : Fin 8), i.val ≤ n → View.ld s7 (slabR k i) = slabOf k (a i)

/-- The accumulator after point n: the rows of every block up to n hold `accAt n`. -/
def AccInv (n : ℕ) (s9 : Vec F S4096x64 .f32) : Prop :=
  ∀ b : Fin 8, b.val ≤ n → View.ld s9 (rowsR b) = accAt a x2 x3 x4 n b

/-- The output block after the epilogue: each row block's log-softmax of the finished accumulator and the bias row. -/
def outModel : Vec F S4096x64 .f32 :=
  View.canon [⟨rowsR 7, lsmOf 7 (accAt a x2 x3 x4 7 7) x5⟩, ⟨rowsR 6, lsmOf 6 (accAt a x2 x3 x4 7 6) x5⟩, ⟨rowsR 5, lsmOf 5 (accAt a x2 x3 x4 7 5) x5⟩,
    ⟨rowsR 4, lsmOf 4 (accAt a x2 x3 x4 7 4) x5⟩, ⟨rowsR 3, lsmOf 3 (accAt a x2 x3 x4 7 3) x5⟩, ⟨rowsR 2, lsmOf 2 (accAt a x2 x3 x4 7 2) x5⟩,
    ⟨rowsR 1, lsmOf 1 (accAt a x2 x3 x4 7 1) x5⟩, ⟨rowsR 0, lsmOf 0 (accAt a x2 x3 x4 7 0) x5⟩]

end Cert.Kernel.GcnModel

end
-- ==== Proof.GcnBaseBits.lean ====
/- scratch/gen_cases.js bits GcnBase — proof/Proof/GcnBaseIdeal.lean with the namespace Cert.KernelIdeal replaced by Cert.Kernel (the word-level program's copy) -/
/-
  What the eight control cases of the streamed pass share: the body's first conditional, as the body computes it from the
  grid coordinate (the point is the first one).
-/
import proofs.«150466_g82282983457293_cont_9to1_m_405_12_alg».proof.Proof.Gen.Kernel.Launch
import proofs.«150466_g82282983457293_cont_9to1_m_405_12_alg».proof.Proof.Gen.Kernel.Skeleton
import proofs.«150466_g82282983457293_cont_9to1_m_405_12_alg».proof.Proof.Gen.Kernel.Points

noncomputable section

namespace Cert.Kernel.GcnRun

open Cert.Kernel Cert.Kernel.Gen Idealize.ShloMosaic

/-- The body's first conditional (`j = 0`): the comparison chain the body computes from the grid coordinate. -/
abbrev cond1 (i : grid1.Coords) : Prop :=
  (Scalar.cmpi .ne (Scalar.extui (Scalar.cmpi .eq (BitVec.ofNat 32 (i 0).val) 0#32)) 0#32) = 1#1

end Cert.Kernel.GcnRun

end
-- ==== Proof.GcnKitBits.lean ====
/- scratch/gen_cases.js bits GcnKit — proof/Proof/GcnKitIdeal.lean with the namespace Cert.KernelIdeal replaced by Cert.Kernel (the word-level program's copy) -/
/-
  The second pallas_call (the streamed pass over the adjacency), what its grid points share: each window's block at a
  point; that an operand's staging buffer holds its block when the body runs; where the output window is live (the last
  point only); the body's conditionals and store offsets as functions of the point, decided over the eight points; and
  the region's invariant: before the first point the scratch buffers hold anything, after point n they hold what the
  model says (the slabs of row blocks 0 … n, the projections p₀ … p_n over zero, the accumulated row blocks 0 … n).
-/
import proofs.«150466_g82282983457293_cont_9to1_m_405_12_alg».proof.Proof.GcnInvBits
import proofs.«150466_g82282983457293_cont_9to1_m_405_12_alg».proof.Proof.GcnBaseBits
import Idealize.ShloMosaic.Lib.Pipeline.FrameBody
import Idealize.ShloMosaic.Lib.Ring
import Idealize.ShloMosaic.Lib.Tactic

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point, fetched there or not (an operand whose
    block index does not move is fetched once and stays). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The eight points -/

/-- Point `j` of the grid. -/
def pt (j : Fin 8) : Fin cfg1.N := ⟨j.val, lt_of_lt_of_eq j.isLt (show 8 = cfg1.N from N_1.symm)⟩
theorem pt_val (j : Fin 8) : (pt j).val = j.val := rfl
theorem eq_pt (t : Fin cfg1.N) : t = pt ⟨t.val, lt_of_lt_of_eq t.isLt (show cfg1.N = 8 from N_1)⟩ := rfl

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- The output window is idle, and not written back, at every point but the last. -/
theorem idleAt1_5 : ∀ t : Fin cfg1.N, t.val ≠ 7 → cfg1.idle 5 (grid1.coords t) = true := by decide +kernel
theorem noFlush1_5 : ∀ t : Fin cfg1.N, t.val ≠ 7 → (cfg1.win 5).flush t = false := by decide +kernel
theorem liveAt1_5 : ∀ t : Fin cfg1.N, t.val = 7 → cfg1.idle 5 (grid1.coords t) = false := by decide +kernel

/-! ## The body's conditionals, decided over the grid -/

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, k1_cond2 (grid1.coords t) = 1#1 ↔ 0 ≤ t.val :=
  (by decide +kernel : ∀ t : Fin grid1.N, k1_cond2 (grid1.coords t) = 1#1 ↔ 0 ≤ t.val)
theorem hcond3 : ∀ t : Fin cfg1.N, k1_cond3 (grid1.coords t) = 1#1 ↔ 1 ≤ t.val :=
  (by decide +kernel : ∀ t : Fin grid1.N, k1_cond3 (grid1.coords t) = 1#1 ↔ 1 ≤ t.val)
theorem hcond4 : ∀ t : Fin cfg1.N, k1_cond4 (grid1.coords t) = 1#1 ↔ 2 ≤ t.val :=
  (by decide +kernel : ∀ t : Fin grid1.N, k1_cond4 (grid1.coords t) = 1#1 ↔ 2 ≤ t.val)
theorem hcond5 : ∀ t : Fin cfg1.N, k1_cond5 (grid1.coords t) = 1#1 ↔ 3 ≤ t.val :=
  (by decide +kernel : ∀ t : Fin grid1.N, k1_cond5 (grid1.coords t) = 1#1 ↔ 3 ≤ t.val)
theorem hcond6 : ∀ t : Fin cfg1.N, k1_cond6 (grid1.coords t) = 1#1 ↔ 4 ≤ t.val :=
  (by decide +kernel : ∀ t : Fin grid1.N, k1_cond6 (grid1.coords t) = 1#1 ↔ 4 ≤ t.val)
theorem hcond7 : ∀ t : Fin cfg1.N, k1_cond7 (grid1.coords t) = 1#1 ↔ 5 ≤ t.val :=
  (by decide +kernel : ∀ t : Fin grid1.N, k1_cond7 (grid1.coords t) = 1#1 ↔ 5 ≤ t.val)
theorem hcond8 : ∀ t : Fin cfg1.N, k1_cond8 (grid1.coords t) = 1#1 ↔ 6 ≤ t.val :=
  (by decide +kernel : ∀ t : Fin grid1.N, k1_cond8 (grid1.coords t) = 1#1 ↔ 6 ≤ t.val)
theorem hcond9 : ∀ t : Fin cfg1.N, k1_cond9 (grid1.coords t) = 1#1 ↔ 7 ≤ t.val :=
  (by decide +kernel : ∀ t : Fin grid1.N, k1_cond9 (grid1.coords t) = 1#1 ↔ 7 ≤ t.val)
theorem hcond10 : ∀ t : Fin cfg1.N, k1_cond10 (grid1.coords t) = 1#1 ↔ t.val = 7 :=
  (by decide +kernel : ∀ t : Fin grid1.N, k1_cond10 (grid1.coords t) = 1#1 ↔ t.val = 7)

/-! ## The store offsets, decided over the grid -/

theorem off1 : ∀ t : Fin cfg1.N, k1_off1 (grid1.coords t) = ![0, t.val * 512, 0] := (by decide +kernel : ∀ t : Fin grid1.N, k1_off1 (grid1.coords t) = ![0, t.val * 512, 0])
theorem off2 : ∀ t : Fin cfg1.N, k1_off2 (grid1.coords t) = ![1, t.val * 512, 0] := (by decide +kernel : ∀ t : Fin grid1.N, k1_off2 (grid1.coords t) = ![1, t.val * 512, 0])
theorem off3 : ∀ t : Fin cfg1.N, k1_off3 (grid1.coords t) = ![2, t.val * 512, 0] := (by decide +kernel : ∀ t : Fin grid1.N, k1_off3 (grid1.coords t) = ![2, t.val * 512, 0])
theorem off4 : ∀ t : Fin cfg1.N, k1_off4 (grid1.coords t) = ![3, t.val * 512, 0] := (by decide +kernel : ∀ t : Fin grid1.N, k1_off4 (grid1.coords t) = ![3, t.val * 512, 0])
theorem off5 : ∀ t : Fin cfg1.N, k1_off5 (grid1.coords t) = ![4, t.val * 512, 0] := (by decide +kernel : ∀ t : Fin grid1.N, k1_off5 (grid1.coords t) = ![4, t.val * 512, 0])
theorem off6 : ∀ t : Fin cfg1.N, k1_off6 (grid1.coords t) = ![5, t.val * 512, 0] := (by decide +kernel : ∀ t : Fin grid1.N, k1_off6 (grid1.coords t) = ![5, t.val * 512, 0])
theorem off7 : ∀ t : Fin cfg1.N, k1_off7 (grid1.coords t) = ![6, t.val * 512, 0] := (by decide +kernel : ∀ t : Fin grid1.N, k1_off7 (grid1.coords t) = ![6, t.val * 512, 0])
theorem off8 : ∀ t : Fin cfg1.N, k1_off8 (grid1.coords t) = ![7, t.val * 512, 0] := (by decide +kernel : ∀ t : Fin grid1.N, k1_off8 (grid1.coords t) = ![7, t.val * 512, 0])
theorem off9 : ∀ t : Fin cfg1.N, k1_off9 (grid1.coords t) = ![t.val * 512, 0] := (by decide +kernel : ∀ t : Fin grid1.N, k1_off9 (grid1.coords t) = ![t.val * 512, 0])
theorem off10 : ∀ t : Fin cfg1.N, k1_off10 (grid1.coords t) = ![t.val, 0, 0] := (by decide +kernel : ∀ t : Fin grid1.N, k1_off10 (grid1.coords t) = ![t.val, 0, 0])
theorem off11 : ∀ t : Fin cfg1.N, k1_off11 (grid1.coords t) = ![t.val, 512, 0] := (by decide +kernel : ∀ t : Fin grid1.N, k1_off11 (grid1.coords t) = ![t.val, 512, 0])
theorem off12 : ∀ t : Fin cfg1.N, k1_off12 (grid1.coords t) = ![t.val, 1024, 0] := (by decide +kernel : ∀ t : Fin grid1.N, k1_off12 (grid1.coords t) = ![t.val, 1024, 0])
theorem off13 : ∀ t : Fin cfg1.N, k1_off13 (grid1.coords t) = ![t.val, 1536, 0] := (by decide +kernel : ∀ t : Fin grid1.N, k1_off13 (grid1.coords t) = ![t.val, 1536, 0])
theorem off14 : ∀ t : Fin cfg1.N, k1_off14 (grid1.coords t) = ![t.val, 2048, 0] := (by decide +kernel : ∀ t : Fin grid1.N, k1_off14 (grid1.coords t) = ![t.val, 2048, 0])
theorem off15 : ∀ t : Fin cfg1.N, k1_off15 (grid1.coords t) = ![t.val, 2560, 0] := (by decide +kernel : ∀ t : Fin grid1.N, k1_off15 (grid1.coords t) = ![t.val, 2560, 0])
theorem off16 : ∀ t : Fin cfg1.N, k1_off16 (grid1.coords t) = ![t.val, 3072, 0] := (by decide +kernel : ∀ t : Fin grid1.N, k1_off16 (grid1.coords t) = ![t.val, 3072, 0])
theorem off17 : ∀ t : Fin cfg1.N, k1_off17 (grid1.coords t) = ![t.val, 3584, 0] := (by decide +kernel : ∀ t : Fin grid1.N, k1_off17 (grid1.coords t) = ![t.val, 3584, 0])

/-! ## The staging memrefs the pipeline passes at a point -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x64 .f32 := win1_5.stage (cfg1.slots t 5)
abbrev hs1_5 (t : Fin cfg1.N) : (ms1_5 t).IsWhole := hstage1_5 ((cfg1.slots t 5).cast nbuf1_5)

/-! ## The operands of the model -/

/-- The adjacency's row block of point i, as fetched. -/
def aOf (c : Dev nD) : Fin 8 → Vec F S512x4096 .f32 := fun i => blk1 V c 0 (pt i)
/-- The four unmoving operands (read at the first point; they are the same at every point: `blk1_const`). -/
def x2Of (c : Dev nD) : Vec F S4096x32 .bf16 := blk1 V c 1 (pt 0)
def x3Of (c : Dev nD) : Vec F S1x32 .f32 := blk1 V c 2 (pt 0)
def x4Of (c : Dev nD) : Vec F S32x64 .bf16 := blk1 V c 3 (pt 0)
def x5Of (c : Dev nD) : Vec F S1x64 .f32 := blk1 V c 4 (pt 0)

/-- Region 0's four staging buffers are scoped buffers this region does not stage: they ride along at anything. -/
def rest0 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f))

/-- The launch's invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ d, owns (c : Thread nD τ) scM7 fullShare d) ∗ (∃ d, owns (c : Thread nD τ) scM8 fullShare d) ∗ (∃ d, owns (c : Thread nD τ) scM9 fullShare d))
        ∗ (∃ r, prngReg c r)) := by
  unfold Pipeline.ΦA; rw [scopedRest1_eq]; simp only [scM7, scM8, scM9, owns_whole]; try rfl

/-- THE INVARIANT before point n: before the first point the launch's; afterwards region 0's staging buffers at anything,
    the slab scratch and the accumulator at contents satisfying the model's invariants for point n − 1, the projection
    scratch at the model's contents, the generator register at some state. -/
def PhiS (c : Dev nD) : ℕ → sProp 𝕄
  | 0 => Pipeline.ΦA spec1 c
  | n + 1 => iprop(iprop(rest0 c
      ∗ (∃ s7, owns (c : Thread nD τ) scM7 fullShare s7 ∗ ⌜SlabInv (aOf V c) n s7⌝)
      ∗ owns (c : Thread nD τ) scM8 fullShare (pAt (aOf V c) (x2Of V c) (x3Of V c) (x4Of V c) n)
      ∗ (∃ s9, owns (c : Thread nD τ) scM9 fullShare s9 ∗ ⌜AccInv (aOf V c) (x2Of V c) (x3Of V c) (x4Of V c) n s9⌝))
    ∗ (∃ r, prngReg c r))

theorem PhiS_zero (c : Dev nD) : PhiS V c 0 = Pipeline.ΦA spec1 c := rfl
theorem PhiS_succ (c : Dev nD) (n : ℕ) : PhiS V c (n + 1) = iprop(iprop(rest0 c
      ∗ (∃ s7, owns (c : Thread nD τ) scM7 fullShare s7 ∗ ⌜SlabInv (aOf V c) n s7⌝)
      ∗ owns (c : Thread nD τ) scM8 fullShare (pAt (aOf V c) (x2Of V c) (x3Of V c) (x4Of V c) n)
      ∗ (∃ s9, owns (c : Thread nD τ) scM9 fullShare s9 ∗ ⌜AccInv (aOf V c) (x2Of V c) (x3Of V c) (x4Of V c) n s9⌝))
    ∗ (∃ r, prngReg c r)) := rfl

/-- After any point the invariant gives the launch's back: the scratch contents are forgotten. -/
theorem PhiS_out (c : Dev nD) (n : ℕ) : PhiS V c (n + 1) ⊢ Pipeline.ΦA spec1 c := by
  rw [PhiS_succ, PhiA1_eq]; unfold rest0
  iintro ⟨⟨⟨Ha, Hb, Hc, Hd⟩, ⟨%s7, H7, -⟩, H8, ⟨%s9, H9, -⟩⟩, Hg⟩
  isplitl [Ha Hb Hc Hd H7 H8 H9]
  · isplitl [Ha]; · iexact Ha
    isplitl [Hb]; · iexact Hb
    isplitl [Hc]; · iexact Hc
    isplitl [Hd]; · iexact Hd
    isplitl [H7]; · iexists _; iexact H7
    isplitl [H8]; · iexists _; iexact H8
    iexists _; iexact H9
  iexact Hg

/-! ## The proof data -/

/-- The proof data of this pipeline on core `c`: the arrays as the region finds them; after the body each operand's buffer
    at its block; the output's at the model's output block (it is live at the last point only); the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outModel (aOf V c) (x2Of V c) (x3Of V c) (x4Of V c) (x5Of V c)
  Φ t := PhiS V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = outModel (aOf V c) (x2Of V c) (x3Of V c) (x4Of V c) (x5Of V c) := by dsimp only [dat1]

theorem before1_0 (c : Dev nD) (t : Fin cfg1.N) (d) : (dat1 V c).before 0 t d = blk1 V c 0 t := before1_0_of V (dat1 V c) (A_eq1 V c 0) (after1_0 V c) t d
theorem before1_1 (c : Dev nD) (t : Fin cfg1.N) (d) : (dat1 V c).before 1 t d = blk1 V c 1 t := before1_1_of V (dat1 V c) (A_eq1 V c 1) (after1_1 V c) t d
theorem before1_2 (c : Dev nD) (t : Fin cfg1.N) (d) : (dat1 V c).before 2 t d = blk1 V c 2 t := before1_2_of V (dat1 V c) (A_eq1 V c 2) (after1_2 V c) t d
theorem before1_3 (c : Dev nD) (t : Fin cfg1.N) (d) : (dat1 V c).before 3 t d = blk1 V c 3 t := before1_3_of V (dat1 V c) (A_eq1 V c 3) (after1_3 V c) t d
theorem before1_4 (c : Dev nD) (t : Fin cfg1.N) (d) : (dat1 V c).before 4 t d = blk1 V c 4 t := before1_4_of V (dat1 V c) (A_eq1 V c 4) (after1_4 V c) t d

/-- What the launch hands the region is the invariant before the first point; after the last point the invariant gives it back. -/
theorem hin1 (c : Dev nD) : Pipeline.ΦA spec1 c ⊢ (dat1 V c).Φ 0 := by
  rw [show (dat1 V c).Φ 0 = PhiS V c 0 from rfl, PhiS_zero]
  try exact Idealize.SL.BI.Entails.refl _
theorem hout1 (c : Dev nD) : (dat1 V c).Φ (Fin.last cfg1.N) ⊢ Pipeline.ΦA spec1 c := by
  rw [show (dat1 V c).Φ (Fin.last cfg1.N) = PhiS V c (7 + 1) from rfl]
  exact PhiS_out V c 7

end Cert.Kernel.GcnKit

end
-- ==== Proof.PrepIdeal.lean ====
/-
  The first pallas_call: T' = (x · W₁) scaled column by column, one grid point, whole blocks.

  Its body loads the three operand blocks whole, forms the product on a zero accumulator, multiplies by the scale row
  broadcast down the rows, narrows the format and stores the result block whole. So after the body the output's
  staging buffer holds ONE function of the three input blocks (`prepOut`), whatever it held before, and the inputs'
  buffers are as they were. Stated for any float instance and for any contents `V` the region is entered from.
-/
import proofs.«150466_g82282983457293_cont_9to1_m_405_12_alg».proof.Proof.Gen.KernelIdeal.Launch
import proofs.«150466_g82282983457293_cont_9to1_m_405_12_alg».proof.Proof.Gen.KernelIdeal.Skeleton
import proofs.«150466_g82282983457293_cont_9to1_m_405_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs: fetched at the point, never idle, uncut. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole rectangles the body loads and stores through. -/
abbrev rX : Rect S4096x256 := Rect.unit (s := S4096x256) ![0, 0] S4096x256.size inb_S4096x256_S4096x256_0_0
abbrev rW : Rect S256x32 := Rect.unit (s := S256x32) ![0, 0] S256x32.size inb_S256x32_S256x32_0_0
abbrev rS : Rect S1x32 := Rect.unit (s := S1x32) ![0, 0] S1x32.size inb_S1x32_S1x32_0_0
abbrev rT : Rect S4096x32 := Rect.unit (s := S4096x32) ![0, 0] S4096x32.size inb_S4096x32_S4096x32_0_0

/-- What the body leaves in the output's staging buffer: its one whole store, of the product scaled, of the three
    input blocks. -/
def prepOut (x0 : Vec F S4096x256 .bf16) (x1 : Vec F S256x32 .bf16) (x2 : Vec F S1x32 .f32) : Vec F S4096x32 .bf16 :=
  View.canon [⟨rT, k0_pay1 (View.ld x0 rX) (View.ld x1 rW) (View.ld x2 rS)⟩]

/-- The one store is the whole block, so it covers it. -/
theorem prep_cover (p0 : Vec F S4096x32 .bf16) (y : S4096x32.Idx) :
    ∃ pc ∈ ([⟨rT, p0⟩] : List (View.Piece (Elt F) S4096x32 .bf16)), y ∈ pc.1.set :=
  View.cover_of_tiled [⟨rT, p0⟩] S4096x32.size (by rfl) y

set_option maxHeartbeats 2000000 in
/-- The body on whole staging memrefs: the inputs' at their contents, the output's at anything; it runs to the
    continuation with the inputs' as they were and the output's at `prepOut` of them. -/
theorem sound_prep (c : Dev nD) (E : Set ℕ) (arg0 : Memref sig .tc .vmem S4096x256 .bf16) (harg0 : arg0.IsWhole) (arg1 : Memref sig .tc .vmem S256x32 .bf16) (harg1 : arg1.IsWhole)
    (arg2 : Memref sig .tc .vmem S1x32 .f32) (harg2 : arg2.IsWhole) (arg3 : Memref sig .tc .vmem S4096x32 .bf16) (harg3 : arg3.IsWhole)
    (x0 : Vec F S4096x256 .bf16) (x1 : Vec F S256x32 .bf16) (x2 : Vec F S1x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (prepOut x0 x1 x2)) -∗ K ⟨⟩))
      ⊢ wp frame (wpE (defs₀ (F := F)) Variants.none c none) E (cc0__prep_kernel arg0 harg0 arg1 harg1 arg2 harg2 arg3 harg3) K := by
  simp only [cc0__prep_kernel_eq_skeleton]; unfold cc0__prep_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prep_cover _)

/-- The proof data of this pipeline on core `c`: the arrays as the region finds them; after the body each input's buffer
    at its block and the output's at `prepOut` of the input blocks; the scoped rest and the generator register pass
    through untouched; nothing owed; full shares. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => prepOut (blk V c 0 t) (blk V c 1 t) (blk V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = blk V c 2 t := by dsimp only [dat0]
theorem after0_3 (c : Dev nD) (t : Fin cfg0.N) : (dat0 V c).after 3 t = prepOut (blk V c 0 t) (blk V c 1 t) (blk V c 2 t) := by dsimp only [dat0]

theorem before0_0 (c : Dev nD) (t : Fin cfg0.N) (d) : (dat0 V c).before 0 t d = blk V c 0 t :=
  before_in0 V (dat0 V c) (A_eq0 V c 0) (after0_0 V c) t d
theorem before0_1 (c : Dev nD) (t : Fin cfg0.N) (d) : (dat0 V c).before 1 t d = blk V c 1 t :=
  before_in1 V (dat0 V c) (A_eq0 V c 1) (after0_1 V c) t d
theorem before0_2 (c : Dev nD) (t : Fin cfg0.N) (d) : (dat0 V c).before 2 t d = blk V c 2 t :=
  before_in2 V (dat0 V c) (A_eq0 V c 2) (after0_2 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_prep c Set.univ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of this pipeline, at its one point. -/
theorem body_obligation0 (c : Dev nD) : BodyObligation (dat0 (F := F) V c) (defs₀ (F := F)) Variants.none () Set.univ := fun t => by
  rw [bigSep_W0, bigSep_W0]
  exact sound_body0 V c t

end Cert.KernelIdeal.Prep

end
-- ==== Proof.GcnMainIdeal.lean ====
/-
  The run of the whole program through its two pipelines.

  The program is seventeen host operations followed by two kernel calls and the return. Between these three items the
  TensorCore's unscoped buffers hold known contents: at launch the memory the program is started from; after the host
  operations what those operations compute from it; after the first call the same except that the call's arrays hold what
  its pipeline leaves in them (its inputs as entered, its output the write-backs folded); after the second call likewise.
  The first call's proof data are fixed (the scaled product, whole blocks, one grid point). The second call's are a
  PARAMETER here: any proof data, given at every entry contents, that read their arrays off the entry contents, hold their
  inputs at the full share, owe nothing, put no bound on the pairs recorded before their first point, meet the body obligation
  and exchange the class invariant for their own at the two ends. From these the run terminates without fault; the returned array holds the second pipeline's fold of its output
  window, and every argument array holds what it was launched with, because no host operation writes an argument and each
  call reads the arguments it touches through input windows only.
-/
import proofs.«150466_g82282983457293_cont_9to1_m_405_12_alg».proof.Proof.PrepIdeal
import proofs.«150466_g82282983457293_cont_9to1_m_405_12_alg».proof.Proof.Gen.KernelIdeal.Launch
import proofs.«150466_g82282983457293_cont_9to1_m_405_12_alg».proof.Proof.Gen.KernelIdeal.Points
import proofs.«150466_g82282983457293_cont_9to1_m_405_12_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GcnMain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of the TensorCore's buffers on every core, read at the TensorCore's references: what a pipeline's proof data
    are stated at. -/
abbrev Entry (F : FTy → Type) [FloatOps F] : Type :=
  (c : Dev nD) → (b : Ref sig .tc) → Buf (Elt F) ((c : Thread nD τ).loc b)

variable (m : (ℓ : Loc nD τ sig) → Buf (Elt F) ℓ) (ρ : Dev nD → PrngReg)

/-! ## The buffers' contents between the items, up to the second call -/

/-- At launch. -/
abbrev W0 : Dev nD → Valuation τ sig (Elt F) := fun c b => (s₀ m ρ).mem ((c : Dev nD), b)
/-- After the host operations: what the first call is entered from. -/
abbrev W1 : Dev nD → Valuation τ sig (Elt F) := fun c => StableHlo.after hostOps0 (W0 m ρ c)
/-- The same, read at the TensorCore's references. -/
abbrev Vin0 : Entry F := fun c b => W1 m ρ c b
/-- After the first call: its arrays at what its pipeline leaves, every other buffer as entered. What the second call
    is entered from. -/
def W2 (c : Dev nD) : Valuation τ sig (Elt F) :=
  Pipeline.withArrays spec0 c (W1 m ρ c) fun w => (Prep.dat0 (Vin0 m ρ) c).arrAt w cfg0.N
theorem W2_arr (c : Dev nD) (w : Fin cfg0.W) :
    W2 m ρ c (Proc.devRef .tc (Pipeline.arrRef spec0 w)) = (Prep.dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev Vin1 : Entry F := fun c b => W2 m ρ c b

/-- The host operations leave alone every buffer none of them writes. -/
theorem W1_of_unwritten (c : Dev nD) (r : Ref sig .tc) (h : r ∉ hostOps0_W) :
    W1 m ρ c (Proc.devRef .tc r) = W0 m ρ c (Proc.devRef .tc r) :=
  StableHlo.after_of_writes_sub hostOps0 _ hostOps0_writes h

/-- At the first call's exit each of its arrays holds what the pipeline leaves, and every other buffer what it held at
    entry. -/
theorem exitArr0 (c : Dev nD) (w : Fin cfg0.W) :
    (Prep.dat0 (Vin0 m ρ) c).arrAt w cfg0.N = Vin1 m ρ c (Pipeline.arrRef spec0 w) :=
  (W2_arr m ρ c w).symm
theorem exitRest0 (c : Dev nD) : ∀ b, b ∉ Finset.univ.image (Pipeline.arrRef spec0) → Vin1 m ρ c b = Vin0 m ρ c b :=
  fun b hb => W2_of_ne m ρ c b fun w e => hb (Finset.mem_image.mpr ⟨w, Finset.mem_univ _, e⟩)

/-! ### What the two calls' input windows find

The first call reads three buffers the host operations wrote; the second reads the first call's output, one argument
and three more buffers the host operations wrote, none of them an array of the first call other than its output. -/

theorem Vin0_main_v14 (c : Dev nD) : Vin0 m ρ c main_v14 = StableHlo.after hostOps0 (W0 m ρ c) (Proc.devRef .tc main_v14) := rfl
theorem Vin0_main_v15 (c : Dev nD) : Vin0 m ρ c main_v15 = StableHlo.after hostOps0 (W0 m ρ c) (Proc.devRef .tc main_v15) := rfl
theorem Vin0_main_v4 (c : Dev nD) : Vin0 m ρ c main_v4 = StableHlo.after hostOps0 (W0 m ρ c) (Proc.devRef .tc main_v4) := rfl

/-- The second call's window 1 finds the first call's output as its pipeline left it. -/
theorem Vin1_main_v16 (c : Dev nD) : Vin1 m ρ c main_v16 = (Prep.dat0 (Vin0 m ρ) c).arrAt 3 cfg0.N :=
  W2_arr m ρ c 3
theorem Vin1_main_arg1 (c : Dev nD) : Vin1 m ρ c main_arg1 = StableHlo.after hostOps0 (W0 m ρ c) (Proc.devRef .tc main_arg1) :=
  W2_of_ne m ρ c main_arg1 (by decide)
theorem Vin1_main_v9 (c : Dev nD) : Vin1 m ρ c main_v9 = StableHlo.after hostOps0 (W0 m ρ c) (Proc.devRef .tc main_v9) :=
  W2_of_ne m ρ c main_v9 (by decide)
theorem Vin1_main_v12 (c : Dev nD) : Vin1 m ρ c main_v12 = StableHlo.after hostOps0 (W0 m ρ c) (Proc.devRef .tc main_v12) :=
  W2_of_ne m ρ c main_v12 (by decide)
theorem Vin1_main_v13 (c : Dev nD) : Vin1 m ρ c main_v13 = StableHlo.after hostOps0 (W0 m ρ c) (Proc.devRef .tc main_v13) :=
  W2_of_ne m ρ c main_v13 (by decide)
/-- The one argument the second call reads is still as launched. -/
theorem Vin1_main_arg1_launch (c : Dev nD) : Vin1 m ρ c main_arg1 = m ((c : Thread nD τ).loc main_arg1) :=
  (Vin1_main_arg1 m ρ c).trans ((W1_of_unwritten m ρ c main_arg1 (by decide)).trans rfl)

/-! ## The second call, at any proof data -/

section Second

variable (dat1 : Entry F → (c : Dev nD) → Dat τ (Elt F) Unit ℕ (UR sig nD τ) ℕ cfg1 c)

/-- After the second call: its arrays at what its pipeline leaves, every other buffer as entered. What the program
    returns from. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ dat1 c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ dat1 c (Proc.devRef .tc b) = W2 m ρ c (Proc.devRef .tc b) := by
  unfold W3; exact Pipeline.withArrays_of_ne spec1 c _ _ b hb
/-- The same, read at the TensorCore's references. -/
abbrev Vout : Entry F := fun c b => W3 m ρ dat1 c b
theorem exitArr1 (c : Dev nD) (w : Fin cfg1.W) :
    (dat1 (Vin1 m ρ) c).arrAt w cfg1.N = Vout m ρ dat1 c (Pipeline.arrRef spec1 w) :=
  (W3_arr m ρ dat1 c w).symm
theorem exitRest1 (c : Dev nD) : ∀ b, b ∉ Finset.univ.image (Pipeline.arrRef spec1) → Vout m ρ dat1 c b = Vin1 m ρ c b :=
  fun b hb => W3_of_ne m ρ dat1 c b fun w e => hb (Finset.mem_image.mpr ⟨w, Finset.mem_univ _, e⟩)

/-- The returned array ends holding the second pipeline's fold of its output window. -/
theorem W3_main_v17 (c : Dev nD) : W3 m ρ dat1 c (Proc.devRef .tc main_v17) = (dat1 (Vin1 m ρ) c).arrAt 5 cfg1.N :=
  W3_arr m ρ dat1 c 5

/-! ### The arguments end as launched

No host operation writes an argument; the first call has no argument among its arrays; the second has one, its window
0, an input, whose array the pipeline leaves as it found it. So the fold at an argument's buffer walks back to the
launch memory. -/

theorem W3_main_arg0 (c : Dev nD) : W3 m ρ dat1 c (Proc.devRef .tc main_arg0) = m ((c : Thread nD τ).loc main_arg0) :=
  calc W3 m ρ dat1 c (Proc.devRef .tc main_arg0)
    _ = W2 m ρ c (Proc.devRef .tc main_arg0) := W3_of_ne m ρ dat1 c main_arg0 (by decide)
    _ = W1 m ρ c (Proc.devRef .tc main_arg0) := W2_of_ne m ρ c main_arg0 (by decide)
    _ = W0 m ρ c (Proc.devRef .tc main_arg0) := W1_of_unwritten m ρ c main_arg0 (by decide)
    _ = m ((c : Thread nD τ).loc main_arg0) := rfl
theorem W3_main_arg2 (c : Dev nD) : W3 m ρ dat1 c (Proc.devRef .tc main_arg2) = m ((c : Thread nD τ).loc main_arg2) :=
  calc W3 m ρ dat1 c (Proc.devRef .tc main_arg2)
    _ = W2 m ρ c (Proc.devRef .tc main_arg2) := W3_of_ne m ρ dat1 c main_arg2 (by decide)
    _ = W1 m ρ c (Proc.devRef .tc main_arg2) := W2_of_ne m ρ c main_arg2 (by decide)
    _ = W0 m ρ c (Proc.devRef .tc main_arg2) := W1_of_unwritten m ρ c main_arg2 (by decide)
    _ = m ((c : Thread nD τ).loc main_arg2) := rfl
theorem W3_main_arg3 (c : Dev nD) : W3 m ρ dat1 c (Proc.devRef .tc main_arg3) = m ((c : Thread nD τ).loc main_arg3) :=
  calc W3 m ρ dat1 c (Proc.devRef .tc main_arg3)
    _ = W2 m ρ c (Proc.devRef .tc main_arg3) := W3_of_ne m ρ dat1 c main_arg3 (by decide)
    _ = W1 m ρ c (Proc.devRef .tc main_arg3) := W2_of_ne m ρ c main_arg3 (by decide)
    _ = W0 m ρ c (Proc.devRef .tc main_arg3) := W1_of_unwritten m ρ c main_arg3 (by decide)
    _ = m ((c : Thread nD τ).loc main_arg3) := rfl
theorem W3_main_arg4 (c : Dev nD) : W3 m ρ dat1 c (Proc.devRef .tc main_arg4) = m ((c : Thread nD τ).loc main_arg4) :=
  calc W3 m ρ dat1 c (Proc.devRef .tc main_arg4)
    _ = W2 m ρ c (Proc.devRef .tc main_arg4) := W3_of_ne m ρ dat1 c main_arg4 (by decide)
    _ = W1 m ρ c (Proc.devRef .tc main_arg4) := W2_of_ne m ρ c main_arg4 (by decide)
    _ = W0 m ρ c (Proc.devRef .tc main_arg4) := W1_of_unwritten m ρ c main_arg4 (by decide)
    _ = m ((c : Thread nD τ).loc main_arg4) := rfl
theorem W3_main_arg5 (c : Dev nD) : W3 m ρ dat1 c (Proc.devRef .tc main_arg5) = m ((c : Thread nD τ).loc main_arg5) :=
  calc W3 m ρ dat1 c (Proc.devRef .tc main_arg5)
    _ = W2 m ρ c (Proc.devRef .tc main_arg5) := W3_of_ne m ρ dat1 c main_arg5 (by decide)
    _ = W1 m ρ c (Proc.devRef .tc main_arg5) := W2_of_ne m ρ c main_arg5 (by decide)
    _ = W0 m ρ c (Proc.devRef .tc main_arg5) := W1_of_unwritten m ρ c main_arg5 (by decide)
    _ = m ((c : Thread nD τ).loc main_arg5) := rfl
theorem W3_main_arg6 (c : Dev nD) : W3 m ρ dat1 c (Proc.devRef .tc main_arg6) = m ((c : Thread nD τ).loc main_arg6) :=
  calc W3 m ρ dat1 c (Proc.devRef .tc main_arg6)
    _ = W2 m ρ c (Proc.devRef .tc main_arg6) := W3_of_ne m ρ dat1 c main_arg6 (by decide)
    _ = W1 m ρ c (Proc.devRef .tc main_arg6) := W2_of_ne m ρ c main_arg6 (by decide)
    _ = W0 m ρ c (Proc.devRef .tc main_arg6) := W1_of_unwritten m ρ c main_arg6 (by decide)
    _ = m ((c : Thread nD τ).loc main_arg6) := rfl
theorem W3_main_arg7 (c : Dev nD) : W3 m ρ dat1 c (Proc.devRef .tc main_arg7) = m ((c : Thread nD τ).loc main_arg7) :=
  calc W3 m ρ dat1 c (Proc.devRef .tc main_arg7)
    _ = W2 m ρ c (Proc.devRef .tc main_arg7) := W3_of_ne m ρ dat1 c main_arg7 (by decide)
    _ = W1 m ρ c (Proc.devRef .tc main_arg7) := W2_of_ne m ρ c main_arg7 (by decide)
    _ = W0 m ρ c (Proc.devRef .tc main_arg7) := W1_of_unwritten m ρ c main_arg7 (by decide)
    _ = m ((c : Thread nD τ).loc main_arg7) := rfl
theorem W3_main_arg8 (c : Dev nD) : W3 m ρ dat1 c (Proc.devRef .tc main_arg8) = m ((c : Thread nD τ).loc main_arg8) :=
  calc W3 m ρ dat1 c (Proc.devRef .tc main_arg8)
    _ = W2 m ρ c (Proc.devRef .tc main_arg8) := W3_of_ne m ρ dat1 c main_arg8 (by decide)
    _ = W1 m ρ c (Proc.devRef .tc main_arg8) := W2_of_ne m ρ c main_arg8 (by decide)
    _ = W0 m ρ c (Proc.devRef .tc main_arg8) := W1_of_unwritten m ρ c main_arg8 (by decide)
    _ = m ((c : Thread nD τ).loc main_arg8) := rfl
theorem W3_main_arg9 (c : Dev nD) : W3 m ρ dat1 c (Proc.devRef .tc main_arg9) = m ((c : Thread nD τ).loc main_arg9) :=
  calc W3 m ρ dat1 c (Proc.devRef .tc main_arg9)
    _ = W2 m ρ c (Proc.devRef .tc main_arg9) := W3_of_ne m ρ dat1 c main_arg9 (by decide)
    _ = W1 m ρ c (Proc.devRef .tc main_arg9) := W2_of_ne m ρ c main_arg9 (by decide)
    _ = W0 m ρ c (Proc.devRef .tc main_arg9) := W1_of_unwritten m ρ c main_arg9 (by decide)
    _ = m ((c : Thread nD τ).loc main_arg9) := rfl

theorem W3_main_arg1 (hA1 : ∀ (V : Entry F) (c : Dev nD) (w : Fin cfg1.W), (dat1 V c).A w = V c (Pipeline.arrRef spec1 w))
    (c : Dev nD) : W3 m ρ dat1 c (Proc.devRef .tc main_arg1) = m ((c : Thread nD τ).loc main_arg1) :=
  calc W3 m ρ dat1 c (Proc.devRef .tc main_arg1)
    _ = (dat1 (Vin1 m ρ) c).arrAt 0 cfg1.N := W3_arr m ρ dat1 c 0
    _ = Vin1 m ρ c main_arg1 := ((dat1 (Vin1 m ρ) c).arrAt_in 0 rfl _).trans (hA1 (Vin1 m ρ) c 0)
    _ = m ((c : Thread nD τ).loc main_arg1) := Vin1_main_arg1_launch m ρ c

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => Prep.dat0 (Vin0 m ρ) c
  | ⟨1, _⟩ => fun c => dat1 (Vin1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing
    nothing. -/
abbrev R (c : Dev nD) : sProp 𝕄 := iprop((∃ r, prngReg c r) ∗ ∃ W, owes (c : Thread nD τ) (0 : CellTallies nD τ sig Unit) W)
/-- The host operations as one item: run over the unscoped buffers from the launch contents, `R` riding along; they end
    at `W1`. -/
abbrev hostItem : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents `W3`, the generator register at
    some state. -/
abbrev Tend (c : Dev nD) : sProp 𝕄 := iprop(StableHlo.held (c : Thread nD τ) (Pipeline.ucRefs τ sig) (W3 m ρ dat1 c) ∗ ∃ r, prngReg c r)

/-! ## The two calls as items -/

set_option backward.isDefEq.respectTransparency.types false in
/-- THE FIRST CALL over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ dat1) () defs₀ 𝒱₀ L lv 0 where
  win := launch0.win.to₀
  block_pos := launch0.block_pos
  stage_whole := launch0.stage_whole
  K := PEmpty
  osem k := k.elim
  ho := Pipeline.OwnSemFacts.none _
  hbody c := (Prep.body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ dat1) launch0.win launch0.arr_whole c
      ((pdats m ρ dat1 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat1) ((pdats m ρ dat1 0 c).share_full fun _ => rfl)
      (Vin0 m ρ c) (Vin1 m ρ c) ((pdats m ρ dat1 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant from what the region hands in: the generator register and the scoped buffers no window stages. -/
theorem classInv_in (c : Dev nD) :
    iprop((∃ r, prngReg c r) ∗ Pipeline.prefHeld (pcfgs (F := F) 1).pre c (fun _ => fullShare) (adm 1).1 ∗ Pipeline.scopedRest (Pipeline.pin (pcfgs (F := F)) adm 1).spec c)
      ⊢ (Pipeline.ΦA spec1 c : sProp 𝕄) := by
  unfold Pipeline.ΦA
  iintro ⟨Hp, -, Hr⟩
  isplitl [Hr]; · iexact Hr
  iexact Hp

/-- and back. -/
theorem classInv_out (c : Dev nD) :
    (Pipeline.ΦA spec1 c : sProp 𝕄)
      ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- THE SECOND CALL over the thread state: entered from every unscoped buffer at `W2`, left at `W3`, which the launch
    reads at the end. As the first, with the given proof data's facts in place of the first's definitional ones. -/
def reg1
    (hA1 : ∀ (V : Entry F) (c : Dev nD) (w : Fin cfg1.W), (dat1 V c).A w = V c (Pipeline.arrRef spec1 w))
    (hq1 : ∀ (V : Entry F) (c : Dev nD) (w : Fin cfg1.W), (dat1 V c).q w = fullShare)
    (howed1 : ∀ (V : Entry F) (c : Dev nD) (t : Fin (cfg1.N + 1)), (dat1 V c).owed t = 0)
    (hrec1 : ∀ (V : Entry F) (c : Dev nD), (dat1 V c).recorded 0 = Set.univ)
    (hbody1 : ∀ (V : Entry F) (c : Dev nD), BodyObligation (dat1 V c) (defs₀ (F := F)) Variants.none () Set.univ)
    (hin1 : ∀ (V : Entry F) (c : Dev nD), (Pipeline.ΦA spec1 c : sProp 𝕄) ⊢ (dat1 V c).Φ 0)
    (hout1 : ∀ (V : Entry F) (c : Dev nD), (dat1 V c).Φ (Fin.last cfg1.N) ⊢ (Pipeline.ΦA spec1 c : sProp 𝕄)) :
    Pipeline.RegionSeg (pcfgs (F := F)) adm (pdats m ρ dat1) () defs₀ 𝒱₀ L lv 1 where
  win := launch1.win.to₀
  block_pos := launch1.block_pos
  stage_whole := launch1.stage_whole
  K := PEmpty
  osem k := k.elim
  ho := Pipeline.OwnSemFacts.none _
  hbody c := (hbody1 (Vin1 m ρ) c).loose
  hwaits := Pipeline.hwaits_of_owed_zero _ _ _ _ L lv 1 fun c t => howed1 (Vin1 m ρ) c t
  pre c := iprop(StableHlo.held (c : Thread nD τ) (Pipeline.ucRefs τ sig) (W2 m ρ c) ∗ R c)
  post c := iprop(Tend m ρ dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ dat1) launch1.win launch1.arr_whole c
      ((pdats m ρ dat1 1 c).share_full fun w => hq1 (Vin1 m ρ) c w) (Vin1 m ρ c) fun w => hA1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat1 1 c).owed 0 = 0 from howed1 (Vin1 m ρ) c 0]
      icases HO with ⟨%W, HO⟩; iexists W; isplitr
      · ipureintro
        exact fun x _ => Or.inl (show x ∈ (dat1 (Vin1 m ρ) c).recorded 0 by rw [hrec1 (Vin1 m ρ) c]; exact Set.mem_univ x)
      iexact HO
    isplitl [Hp]; · iexact Hp
    iexact Hrest
  hin c := (classInv_in (F := F) c).trans (hin1 (Vin1 m ρ) c)
  hout c := by
    rw [Pipeline.ownSems0_none]
    exact (hout1 (Vin1 m ρ) c).trans (classInv_out (F := F) c)
  hexit c := by
    have hjoin := Pipeline.unscopedBufs_of_arrays (p := 1) (pcfgs (F := F)) adm (Ix := Unit) (Name := ℕ) (U := UR sig nD τ) (Lvl := ℕ)
      launch1.win launch1.arr_whole c (pdats m ρ dat1) ((pdats m ρ dat1 1 c).share_full fun w => hq1 (Vin1 m ρ) c w)
      (Vin1 m ρ c) (Vout m ρ dat1 c) ((pdats m ρ dat1 1 c).arrAt · cfg1.N) (exitArr1 m ρ dat1 c) (exitRest1 m ρ dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ dat1 1 c).owed (Fin.last _) = 0 from howed1 (Vin1 m ρ) c _]
    icases HO with ⟨%W, -, HO⟩; iexists W; iexact HO

/-! ## The program as its items, and the launch -/

/-- The program's three items in order. -/
abbrev items
    (hA1 : ∀ (V : Entry F) (c : Dev nD) (w : Fin cfg1.W), (dat1 V c).A w = V c (Pipeline.arrRef spec1 w))
    (hq1 : ∀ (V : Entry F) (c : Dev nD) (w : Fin cfg1.W), (dat1 V c).q w = fullShare)
    (howed1 : ∀ (V : Entry F) (c : Dev nD) (t : Fin (cfg1.N + 1)), (dat1 V c).owed t = 0)
    (hrec1 : ∀ (V : Entry F) (c : Dev nD), (dat1 V c).recorded 0 = Set.univ)
    (hbody1 : ∀ (V : Entry F) (c : Dev nD), BodyObligation (dat1 V c) (defs₀ (F := F)) Variants.none () Set.univ)
    (hin1 : ∀ (V : Entry F) (c : Dev nD), (Pipeline.ΦA spec1 c : sProp 𝕄) ⊢ (dat1 V c).Φ 0)
    (hout1 : ∀ (V : Entry F) (c : Dev nD), (dat1 V c).Φ (Fin.last cfg1.N) ⊢ (Pipeline.ΦA spec1 c : sProp 𝕄)) :
    List (Pipeline.Seg (pcfgs (F := F)) adm (pdats m ρ dat1) () defs₀ 𝒱₀ L lv) :=
  [ .host (hostItem m ρ),
    .region (reg0 m ρ dat1),
    .region (reg1 m ρ dat1 hA1 hq1 howed1 hrec1 hbody1 hin1 hout1) ]
/-- The program IS the run of its items. -/
theorem main_items
    (hA1 : ∀ (V : Entry F) (c : Dev nD) (w : Fin cfg1.W), (dat1 V c).A w = V c (Pipeline.arrRef spec1 w))
    (hq1 : ∀ (V : Entry F) (c : Dev nD) (w : Fin cfg1.W), (dat1 V c).q w = fullShare)
    (howed1 : ∀ (V : Entry F) (c : Dev nD) (t : Fin (cfg1.N + 1)), (dat1 V c).owed t = 0)
    (hrec1 : ∀ (V : Entry F) (c : Dev nD), (dat1 V c).recorded 0 = Set.univ)
    (hbody1 : ∀ (V : Entry F) (c : Dev nD), BodyObligation (dat1 V c) (defs₀ (F := F)) Variants.none () Set.univ)
    (hin1 : ∀ (V : Entry F) (c : Dev nD), (Pipeline.ΦA spec1 c : sProp 𝕄) ⊢ (dat1 V c).Φ 0)
    (hout1 : ∀ (V : Entry F) (c : Dev nD), (dat1 V c).Φ (Fin.last cfg1.N) ⊢ (Pipeline.ΦA spec1 c : sProp 𝕄))
    (c : Dev nD) : main (F := F) c = Pipeline.Seg.run (items m ρ dat1 hA1 hq1 howed1 hrec1 hbody1 hin1 hout1) :=
  (main_chain c).trans (by chain_rfl)

set_option backward.isDefEq.respectTransparency.types false in
/-- THE RUN. At the compiled mesh, from any memory with zero counters, every weakly fair execution of the program on
    the TensorCores terminates, nothing faulting, and in every final state the returned array holds the second
    pipeline's fold of its output window and every argument array holds its launch contents. -/
theorem run_main
    (hA1 : ∀ (V : Entry F) (c : Dev nD) (w : Fin cfg1.W), (dat1 V c).A w = V c (Pipeline.arrRef spec1 w))
    (hq1 : ∀ (V : Entry F) (c : Dev nD) (w : Fin cfg1.W), (dat1 V c).q w = fullShare)
    (howed1 : ∀ (V : Entry F) (c : Dev nD) (t : Fin (cfg1.N + 1)), (dat1 V c).owed t = 0)
    (hrec1 : ∀ (V : Entry F) (c : Dev nD), (dat1 V c).recorded 0 = Set.univ)
    (hbody1 : ∀ (V : Entry F) (c : Dev nD), BodyObligation (dat1 V c) (defs₀ (F := F)) Variants.none () Set.univ)
    (hin1 : ∀ (V : Entry F) (c : Dev nD), (Pipeline.ΦA spec1 c : sProp 𝕄) ⊢ (dat1 V c).Φ 0)
    (hout1 : ∀ (V : Entry F) (c : Dev nD), (dat1 V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v17) = (dat1 (Vin1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ dat1) () cellOf_inj emb₁ defs₀ 𝒱₀ L lv m ρ main
    (items m ρ dat1 hA1 hq1 howed1 hrec1 hbody1 hin1 hout1)
    (fun c Q => by rw [main_items m ρ dat1 hA1 hq1 howed1 hrec1 hbody1 hin1 hout1 c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ dat1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ dat1 c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ dat1 c) s')
      isplitl [Hh] <;> iassumption)
    (hQ := fun s h c =>
      ⟨(h c _ (mem_uc main_v17 (by decide))).trans (W3_main_v17 m ρ dat1 c),
       (h c _ (mem_uc main_arg0 (by decide))).trans (W3_main_arg0 m ρ dat1 c),
       (h c _ (mem_uc main_arg1 (by decide))).trans (W3_main_arg1 m ρ dat1 hA1 c),
       (h c _ (mem_uc main_arg2 (by decide))).trans (W3_main_arg2 m ρ dat1 c),
       (h c _ (mem_uc main_arg3 (by decide))).trans (W3_main_arg3 m ρ dat1 c),
       (h c _ (mem_uc main_arg4 (by decide))).trans (W3_main_arg4 m ρ dat1 c),
       (h c _ (mem_uc main_arg5 (by decide))).trans (W3_main_arg5 m ρ dat1 c),
       (h c _ (mem_uc main_arg6 (by decide))).trans (W3_main_arg6 m ρ dat1 c),
       (h c _ (mem_uc main_arg7 (by decide))).trans (W3_main_arg7 m ρ dat1 c),
       (h c _ (mem_uc main_arg8 (by decide))).trans (W3_main_arg8 m ρ dat1 c),
       (h c _ (mem_uc main_arg9 (by decide))).trans (W3_main_arg9 m ρ dat1 c)⟩)

end Second

end Cert.KernelIdeal.GcnMain

end
-- ==== Proof.GcnModelIdeal.lean ====
/-
  The streamed pass as pure functions of its operand blocks: what each grid point stores into the three scratch buffers
  and, at the last point, into the output block — the body's stores as lists of pieces over literal rectangles, and the
  values they carry as the body's arithmetic (the skeleton's payload functions) of the operand blocks and of what the
  scratch buffers hold.

  Notation. The adjacency is streamed in eight row blocks a₀ … a₇ (512 × 4096 each). Point j
    • writes the eight 512 × 512 column slabs of a_j (narrowed) into the slab scratch at [k, 512 j …, ·], k = 0 … 7;
    • computes its 512 hidden rows and their projection p_j, and stores p_j into rows 512 j … of the projection
      scratch P (zero-filled whole at point 0);
    • stores  a_j · P  (P as it is BEFORE p_j is stored: rows ≥ 512 j are zero) into rows 512 j … of the accumulator;
    • for every row block b ≤ j adds  slab[j, rows of b] · p_j  to the accumulator's rows of b;
    • at point 7 turns every accumulator row block, plus the bias row, into its log-softmax and stores it in the output.
-/
import proofs.«150466_g82282983457293_cont_9to1_m_405_12_alg».proof.Proof.Gen.KernelIdeal.Launch
import proofs.«150466_g82282983457293_cont_9to1_m_405_12_alg».proof.Proof.Gen.KernelIdeal.Skeleton
import proofs.«150466_g82282983457293_cont_9to1_m_405_12_alg».proof.Proof.Gen.KernelIdeal.Points
import Idealize.ShloMosaic.Lib.Pipeline.FrameBody

noncomputable section

namespace Cert.KernelIdeal.GcnModel

open Cert.KernelIdeal Cert.KernelIdeal.Gen
open Idealize.ShloMosaic Idealize.ShloMosaic.TcCoe

variable {F : FTy → Type} [FloatOps F]

/-! ## The scratch buffers and the rectangles the body stores through -/

abbrev scM7 : Memref sig .tc .vmem S8x4096x512 .bf16 := Memref.whole cc1_scratch0
abbrev scM8 : Memref sig .tc .vmem S4096x64 .bf16 := Memref.whole cc1_scratch1
abbrev scM9 : Memref sig .tc .vmem S4096x64 .f32 := Memref.whole cc1_scratch2
theorem h7 : scM7.IsWhole := Memref.isWhole_whole _
theorem h8 : scM8.IsWhole := Memref.isWhole_whole _
theorem h9 : scM9.IsWhole := Memref.isWhole_whole _

theorem slab_inb (k j : Fin 8) : ∀ a, (![k.val, j.val * 512, 0] : Fin 3 → ℕ) a + S1x512x512.size a ≤ S8x4096x512.size a := by
  intro a; fin_cases a <;> simp [Shape.size] <;> omega
theorem rows_inb (b : Fin 8) : ∀ a, (![b.val * 512, 0] : Fin 2 → ℕ) a + S512x64.size a ≤ S4096x64.size a := by
  intro a; fin_cases a <;> simp [Shape.size] <;> omega

/-- Slab k, rows of block j, of the slab scratch. -/
abbrev slabR (k j : Fin 8) : Rect S8x4096x512 := Rect.unit (s := S8x4096x512) ![k.val, j.val * 512, 0] S1x512x512.size (slab_inb k j)
/-- The rows of block b of a 4096 × 64 buffer (the projection scratch, the accumulator, the output block). -/
abbrev rowsR (b : Fin 8) : Rect S4096x64 := Rect.unit (s := S4096x64) ![b.val * 512, 0] S512x64.size (rows_inb b)
/-- A 4096 × 64 buffer whole. -/
abbrev wholeR : Rect S4096x64 := Rect.unit (s := S4096x64) ![0, 0] S4096x64.size inb_S4096x64_S4096x64_0_0

/-- The operand blocks loaded whole. -/
abbrev rA : Rect S512x4096 := Rect.unit (s := S512x4096) ![0, 0] S512x4096.size inb_S512x4096_S512x4096_0_0
abbrev rT : Rect S4096x32 := Rect.unit (s := S4096x32) ![0, 0] S4096x32.size inb_S4096x32_S4096x32_0_0
abbrev rC : Rect S1x32 := Rect.unit (s := S1x32) ![0, 0] S1x32.size inb_S1x32_S1x32_0_0
abbrev rWa : Rect S32x64 := Rect.unit (s := S32x64) ![0, 0] S32x64.size inb_S32x64_S32x64_0_0
abbrev rBa : Rect S1x64 := Rect.unit (s := S1x64) ![0, 0] S1x64.size inb_S1x64_S1x64_0_0

/-! ## The body's arithmetic per point -/

/-- Column slab k of an adjacency row block, narrowed. -/
def slabOf (k : Fin 8) (x1 : Vec F S512x4096 .f32) : FVec F S1x512x512 .bf16 :=
  match k with
  | 0 => k1_pay15 (View.ld x1 rA) | 1 => k1_pay16 (View.ld x1 rA) | 2 => k1_pay17 (View.ld x1 rA) | 3 => k1_pay18 (View.ld x1 rA)
  | 4 => k1_pay19 (View.ld x1 rA) | 5 => k1_pay20 (k1_pay14 (View.ld x1 rA)) | 6 => k1_pay21 (k1_pay14 (View.ld x1 rA)) | 7 => k1_pay22 (k1_pay14 (View.ld x1 rA))

/-- The projection of a row block's hidden rows: p_j. -/
def projOf (x1 : Vec F S512x4096 .f32) (x2 : Vec F S4096x32 .bf16) (x3 : Vec F S1x32 .f32) (x4 : Vec F S32x64 .bf16) : FVec F S512x64 .bf16 :=
  k1_pay23 (k1_pay14 (View.ld x1 rA)) (View.ld x2 rT) (View.ld x3 rC) (View.ld x4 rWa)

/-- The fresh row block against the projection scratch as it stands:  a_j · P. -/
def freshOf (x1 : Vec F S512x4096 .f32) (P : Vec F S4096x64 .bf16) : FVec F S512x64 .f32 :=
  k1_pay25 (k1_pay24 (k1_pay14 (View.ld x1 rA)) P)

/-- One accumulation: the accumulator rows of block b plus  slab · p_j. -/
def accOf (b : Fin 8) : FVec F S512x64 .bf16 → Vec F S1x512x512 .bf16 → Vec F S512x64 .f32 → FVec F S512x64 .f32 :=
  match b with
  | 0 => k1_pay27 | 1 => k1_pay28 | 2 => k1_pay29 | 3 => k1_pay30 | 4 => k1_pay31 | 5 => k1_pay32 | 6 => k1_pay33 | 7 => k1_pay1

/-- The epilogue on one accumulator row block and the bias row: the block's log-softmax. -/
def lsmOf (b : Fin 8) (a : Vec F S512x64 .f32) (x5 : Vec F S1x64 .f32) : FVec F S512x64 .f32 :=
  match b with
  | 0 => k1_pay3 a (View.ld x5 rBa) | 1 => k1_pay4 a (View.ld x5 rBa) | 2 => k1_pay6 (k1_pay5 a (View.ld x5 rBa)) | 3 => k1_pay7 a (View.ld x5 rBa)
  | 4 => k1_pay10 (k1_pay8 a (View.ld x5 rBa)) (k1_pay9 a (View.ld x5 rBa)) | 5 => k1_pay11 a (View.ld x5 rBa) | 6 => k1_pay12 a (View.ld x5 rBa) | 7 => k1_pay2 a (View.ld x5 rBa)

/-! ## What a buffer reads after stores -/

/-- The slab scratch's contents `xs` overwritten by the stores `L` (last first). -/
def upd7 (xs : Vec F S8x4096x512 .bf16) (L : List (View.Piece (Elt F) S8x4096x512 .bf16)) : Vec F S8x4096x512 .bf16 :=
  scM7.view.read (Elt F) (scM7.view.writes (Elt F) (h7.unread xs) L)
def upd8 (xs : Vec F S4096x64 .bf16) (L : List (View.Piece (Elt F) S4096x64 .bf16)) : Vec F S4096x64 .bf16 :=
  scM8.view.read (Elt F) (scM8.view.writes (Elt F) (h8.unread xs) L)
def upd9 (xs : Vec F S4096x64 .f32) (L : List (View.Piece (Elt F) S4096x64 .f32)) : Vec F S4096x64 .f32 :=
  scM9.view.read (Elt F) (scM9.view.writes (Elt F) (h9.unread xs) L)

/-! ## The stores of point j, last first -/

/-- The eight slab stores of point j. -/
def L7 (j : Fin 8) (x1 : Vec F S512x4096 .f32) : List (View.Piece (Elt F) S8x4096x512 .bf16) :=
  [⟨slabR 7 j, slabOf 7 x1⟩, ⟨slabR 6 j, slabOf 6 x1⟩, ⟨slabR 5 j, slabOf 5 x1⟩, ⟨slabR 4 j, slabOf 4 x1⟩,
   ⟨slabR 3 j, slabOf 3 x1⟩, ⟨slabR 2 j, slabOf 2 x1⟩, ⟨slabR 1 j, slabOf 1 x1⟩, ⟨slabR 0 j, slabOf 0 x1⟩]

/-- The projection scratch's stores at point j: p_j into its rows (after the whole zero fill, at point 0). -/
def L8 (j : Fin 8) (pj : FVec F S512x64 .bf16) : List (View.Piece (Elt F) S4096x64 .bf16) :=
  if j.val = 0 then [⟨rowsR j, k1_pay26 pj⟩, ⟨wholeR, k1_pay13⟩] else [⟨rowsR j, k1_pay26 pj⟩]

/-- The accumulator's stores at point j up to and including the accumulation into row block b (b ≤ j), last first:
    the fresh block into rows of j, then row blocks 0 … b each read back, added to and stored. The slab scratch is read
    as it stands after the point's own slab stores (`s7`), the accumulator as the stores so far leave it. -/
def L9upto (j : Fin 8) (pj : FVec F S512x64 .bf16) (fresh : FVec F S512x64 .f32) (s7 : Vec F S8x4096x512 .bf16) (xs9 : Vec F S4096x64 .f32) :
    ℕ → List (View.Piece (Elt F) S4096x64 .f32)
  | 0 => [⟨rowsR j, fresh⟩]
  | b + 1 =>
    if hb : b < 8 then
      ⟨rowsR ⟨b, hb⟩, accOf ⟨b, hb⟩ pj (View.ld s7 (slabR j ⟨b, hb⟩)) (View.ld (upd9 xs9 (L9upto j pj fresh s7 xs9 b)) (rowsR ⟨b, hb⟩))⟩
        :: L9upto j pj fresh s7 xs9 b
    else L9upto j pj fresh s7 xs9 b

/-- All the accumulator's stores of point j: the fresh block, then the accumulation into row blocks 0 … j. -/
def L9 (j : Fin 8) (pj : FVec F S512x64 .bf16) (fresh : FVec F S512x64 .f32) (s7 : Vec F S8x4096x512 .bf16) (xs9 : Vec F S4096x64 .f32) :
    List (View.Piece (Elt F) S4096x64 .f32) :=
  L9upto j pj fresh s7 xs9 (j.val + 1)

/-- The epilogue's stores into the output block, last first: each row block's log-softmax of the accumulator as it stands. -/
def L6 (s9 : Vec F S4096x64 .f32) (x5 : Vec F S1x64 .f32) : List (View.Piece (Elt F) S4096x64 .f32) :=
  [⟨rowsR 7, lsmOf 7 (View.ld s9 (rowsR 7)) x5⟩, ⟨rowsR 6, lsmOf 6 (View.ld s9 (rowsR 6)) x5⟩, ⟨rowsR 5, lsmOf 5 (View.ld s9 (rowsR 5)) x5⟩,
   ⟨rowsR 4, lsmOf 4 (View.ld s9 (rowsR 4)) x5⟩, ⟨rowsR 3, lsmOf 3 (View.ld s9 (rowsR 3)) x5⟩, ⟨rowsR 2, lsmOf 2 (View.ld s9 (rowsR 2)) x5⟩,
   ⟨rowsR 1, lsmOf 1 (View.ld s9 (rowsR 1)) x5⟩, ⟨rowsR 0, lsmOf 0 (View.ld s9 (rowsR 0)) x5⟩]

/-! ## One point as a step on the three scratch contents -/

/-- The projection scratch as the fresh product finds it at point j: zero-filled at the first point, as the point
    before left it otherwise. -/
def pSeen (j : Fin 8) (xs8 : Vec F S4096x64 .bf16) : Vec F S4096x64 .bf16 :=
  if j.val = 0 then View.ld (View.canon [⟨wholeR, (k1_pay13 : FVec F S4096x64 .bf16)⟩]) wholeR else View.ld xs8 wholeR

/-- Point j's step: from the operand blocks and the scratch contents before the point to the contents after it. -/
def step (j : Fin 8) (x1 : Vec F S512x4096 .f32) (x2 : Vec F S4096x32 .bf16) (x3 : Vec F S1x32 .f32) (x4 : Vec F S32x64 .bf16)
    (s : Vec F S8x4096x512 .bf16 × Vec F S4096x64 .bf16 × Vec F S4096x64 .f32) :
    Vec F S8x4096x512 .bf16 × Vec F S4096x64 .bf16 × Vec F S4096x64 .f32 :=
  let pj := projOf x1 x2 x3 x4
  let s7 := upd7 s.1 (L7 j x1)
  (s7, upd8 s.2.1 (L8 j pj), upd9 s.2.2 (L9 j pj (freshOf x1 (pSeen j s.2.1)) s7 s.2.2))

end Cert.KernelIdeal.GcnModel

end
-- ==== Proof.GcnInvIdeal.lean ====
/-
  What the scratch buffers hold after point n, from the operand blocks alone.

  After point n (n = 0 … 7):
    • the slab scratch holds, at [k, rows of block i, ·] for every i ≤ n, column slab k of a_i (`SlabInv`); the rows of
      later blocks are whatever the region found there;
    • the projection scratch holds `pAt n`: p_i in the rows of every block i ≤ n, zero elsewhere (it was zero-filled
      whole at point 0, so all of it is known);
    • the accumulator holds, in the rows of every block b ≤ n, `accAt n b`: the fresh product a_b · P (P before p_b was
      stored) plus  slab[i, rows of b] · p_i  for i = b … n (`AccInv`); the rows of later blocks are unknown.
  At point 7 the output block becomes, row block by row block, the log-softmax of `accAt 7 b` plus the bias (`outModel`).
-/
import proofs.«150466_g82282983457293_cont_9to1_m_405_12_alg».proof.Proof.GcnModelIdeal

noncomputable section

namespace Cert.KernelIdeal.GcnModel

open Cert.KernelIdeal Cert.KernelIdeal.Gen
open Idealize.ShloMosaic Idealize.ShloMosaic.TcCoe

variable {F : FTy → Type} [FloatOps F]

variable (a : Fin 8 → Vec F S512x4096 .f32) (x2 : Vec F S4096x32 .bf16) (x3 : Vec F S1x32 .f32) (x4 : Vec F S32x64 .bf16) (x5 : Vec F S1x64 .f32)

/-- p_i: the projection of row block i's hidden rows. -/
def pj (i : Fin 8) : FVec F S512x64 .bf16 := projOf (a i) x2 x3 x4

/-- The projection scratch after point n (n < 8; at n ≥ 8 the recursion just repeats the last store: never used). -/
def pAt : ℕ → Vec F S4096x64 .bf16
  | 0 => View.canon (L8 (0 : Fin 8) (pj a x2 x3 x4 0))
  | n + 1 => upd8 (pAt n) (L8 (Fin.ofNat 8 (n + 1)) (pj a x2 x3 x4 (Fin.ofNat 8 (n + 1))))

/-- The fresh product of point n:  a_n · P  with P as point n finds it. -/
def freshAt (n : ℕ) : FVec F S512x64 .f32 :=
  freshOf (a (Fin.ofNat 8 n)) (pSeen (Fin.ofNat 8 n) (pAt a x2 x3 x4 (n - 1)))

/-- The accumulator's rows of block b after point n (meaningful for b ≤ n < 8). -/
def accAt : ℕ → Fin 8 → Vec F S512x64 .f32
  | 0, b => accOf b (pj a x2 x3 x4 0) (slabOf 0 (a b)) (freshAt a x2 x3 x4 0)
  | n + 1, b =>
    if b.val = n + 1 then accOf b (pj a x2 x3 x4 (Fin.ofNat 8 (n + 1))) (slabOf (Fin.ofNat 8 (n + 1)) (a b)) (freshAt a x2 x3 x4 (n + 1))
    else accOf b (pj a x2 x3 x4 (Fin.ofNat 8 (n + 1))) (slabOf (Fin.ofNat 8 (n + 1)) (a b)) (accAt n b)

/-- The slab scratch after point n: the slabs of every row block up to n are in place. -/
def SlabInv (n : ℕ) (s7 : Vec F S8x4096x512 .bf16) : Prop :=
  ∀ (i k : Fin 8), i.val ≤ n → View.ld s7 (slabR k i) = slabOf k (a i)

/-- The accumulator after point n: the rows of every block up to n hold `accAt n`. -/
def AccInv (n : ℕ) (s9 : Vec F S4096x64 .f32) : Prop :=
  ∀ b : Fin 8, b.val ≤ n → View.ld s9 (rowsR b) = accAt a x2 x3 x4 n b

/-- The output block after the epilogue: each row block's log-softmax of the finished accumulator and the bias row. -/
def outModel : Vec F S4096x64 .f32 :=
  View.canon [⟨rowsR 7, lsmOf 7 (accAt a x2 x3 x4 7 7) x5⟩, ⟨rowsR 6, lsmOf 6 (accAt a x2 x3 x4 7 6) x5⟩, ⟨rowsR 5, lsmOf 5 (accAt a x2 x3 x4 7 5) x5⟩,
    ⟨rowsR 4, lsmOf 4 (accAt a x2 x3 x4 7 4) x5⟩, ⟨rowsR 3, lsmOf 3 (accAt a x2 x3 x4 7 3) x5⟩, ⟨rowsR 2, lsmOf 2 (accAt a x2 x3 x4 7 2) x5⟩,
    ⟨rowsR 1, lsmOf 1 (accAt a x2 x3 x4 7 1) x5⟩, ⟨rowsR 0, lsmOf 0 (accAt a x2 x3 x4 7 0) x5⟩]

end Cert.KernelIdeal.GcnModel

end
-- ==== Proof.GcnBaseIdeal.lean ====
/-
  What the eight control cases of the streamed pass share: the body's first conditional, as the body computes it from the
  grid coordinate (the point is the first one).
-/
import proofs.«150466_g82282983457293_cont_9to1_m_405_12_alg».proof.Proof.Gen.KernelIdeal.Launch
import proofs.«150466_g82282983457293_cont_9to1_m_405_12_alg».proof.Proof.Gen.KernelIdeal.Skeleton
import proofs.«150466_g82282983457293_cont_9to1_m_405_12_alg».proof.Proof.Gen.KernelIdeal.Points

noncomputable section

namespace Cert.KernelIdeal.GcnRun

open Cert.KernelIdeal Cert.KernelIdeal.Gen Idealize.ShloMosaic

/-- The body's first conditional (`j = 0`): the comparison chain the body computes from the grid coordinate. -/
abbrev cond1 (i : grid1.Coords) : Prop :=
  (Scalar.cmpi .ne (Scalar.extui (Scalar.cmpi .eq (BitVec.ofNat 32 (i 0).val) 0#32)) 0#32) = 1#1

end Cert.KernelIdeal.GcnRun

end
-- ==== Proof.GcnKitIdeal.lean ====
/-
  The second pallas_call (the streamed pass over the adjacency), what its grid points share: each window's block at a
  point; that an operand's staging buffer holds its block when the body runs; where the output window is live (the last
  point only); the body's conditionals and store offsets as functions of the point, decided over the eight points; and
  the region's invariant: before the first point the scratch buffers hold anything, after point n they hold what the
  model says (the slabs of row blocks 0 … n, the projections p₀ … p_n over zero, the accumulated row blocks 0 … n).
-/
import proofs.«150466_g82282983457293_cont_9to1_m_405_12_alg».proof.Proof.GcnInvIdeal
import proofs.«150466_g82282983457293_cont_9to1_m_405_12_alg».proof.Proof.GcnBaseIdeal
import Idealize.ShloMosaic.Lib.Pipeline.FrameBody
import Idealize.ShloMosaic.Lib.Ring
import Idealize.ShloMosaic.Lib.Tactic

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point, fetched there or not (an operand whose
    block index does not move is fetched once and stays). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The eight points -/

/-- Point `j` of the grid. -/
def pt (j : Fin 8) : Fin cfg1.N := ⟨j.val, lt_of_lt_of_eq j.isLt (show 8 = cfg1.N from N_1.symm)⟩
theorem pt_val (j : Fin 8) : (pt j).val = j.val := rfl
theorem eq_pt (t : Fin cfg1.N) : t = pt ⟨t.val, lt_of_lt_of_eq t.isLt (show cfg1.N = 8 from N_1)⟩ := rfl

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- The output window is idle, and not written back, at every point but the last. -/
theorem idleAt1_5 : ∀ t : Fin cfg1.N, t.val ≠ 7 → cfg1.idle 5 (grid1.coords t) = true := by decide +kernel
theorem noFlush1_5 : ∀ t : Fin cfg1.N, t.val ≠ 7 → (cfg1.win 5).flush t = false := by decide +kernel
theorem liveAt1_5 : ∀ t : Fin cfg1.N, t.val = 7 → cfg1.idle 5 (grid1.coords t) = false := by decide +kernel

/-! ## The body's conditionals, decided over the grid -/

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, k1_cond2 (grid1.coords t) = 1#1 ↔ 0 ≤ t.val :=
  (by decide +kernel : ∀ t : Fin grid1.N, k1_cond2 (grid1.coords t) = 1#1 ↔ 0 ≤ t.val)
theorem hcond3 : ∀ t : Fin cfg1.N, k1_cond3 (grid1.coords t) = 1#1 ↔ 1 ≤ t.val :=
  (by decide +kernel : ∀ t : Fin grid1.N, k1_cond3 (grid1.coords t) = 1#1 ↔ 1 ≤ t.val)
theorem hcond4 : ∀ t : Fin cfg1.N, k1_cond4 (grid1.coords t) = 1#1 ↔ 2 ≤ t.val :=
  (by decide +kernel : ∀ t : Fin grid1.N, k1_cond4 (grid1.coords t) = 1#1 ↔ 2 ≤ t.val)
theorem hcond5 : ∀ t : Fin cfg1.N, k1_cond5 (grid1.coords t) = 1#1 ↔ 3 ≤ t.val :=
  (by decide +kernel : ∀ t : Fin grid1.N, k1_cond5 (grid1.coords t) = 1#1 ↔ 3 ≤ t.val)
theorem hcond6 : ∀ t : Fin cfg1.N, k1_cond6 (grid1.coords t) = 1#1 ↔ 4 ≤ t.val :=
  (by decide +kernel : ∀ t : Fin grid1.N, k1_cond6 (grid1.coords t) = 1#1 ↔ 4 ≤ t.val)
theorem hcond7 : ∀ t : Fin cfg1.N, k1_cond7 (grid1.coords t) = 1#1 ↔ 5 ≤ t.val :=
  (by decide +kernel : ∀ t : Fin grid1.N, k1_cond7 (grid1.coords t) = 1#1 ↔ 5 ≤ t.val)
theorem hcond8 : ∀ t : Fin cfg1.N, k1_cond8 (grid1.coords t) = 1#1 ↔ 6 ≤ t.val :=
  (by decide +kernel : ∀ t : Fin grid1.N, k1_cond8 (grid1.coords t) = 1#1 ↔ 6 ≤ t.val)
theorem hcond9 : ∀ t : Fin cfg1.N, k1_cond9 (grid1.coords t) = 1#1 ↔ 7 ≤ t.val :=
  (by decide +kernel : ∀ t : Fin grid1.N, k1_cond9 (grid1.coords t) = 1#1 ↔ 7 ≤ t.val)
theorem hcond10 : ∀ t : Fin cfg1.N, k1_cond10 (grid1.coords t) = 1#1 ↔ t.val = 7 :=
  (by decide +kernel : ∀ t : Fin grid1.N, k1_cond10 (grid1.coords t) = 1#1 ↔ t.val = 7)

/-! ## The store offsets, decided over the grid -/

theorem off1 : ∀ t : Fin cfg1.N, k1_off1 (grid1.coords t) = ![0, t.val * 512, 0] := (by decide +kernel : ∀ t : Fin grid1.N, k1_off1 (grid1.coords t) = ![0, t.val * 512, 0])
theorem off2 : ∀ t : Fin cfg1.N, k1_off2 (grid1.coords t) = ![1, t.val * 512, 0] := (by decide +kernel : ∀ t : Fin grid1.N, k1_off2 (grid1.coords t) = ![1, t.val * 512, 0])
theorem off3 : ∀ t : Fin cfg1.N, k1_off3 (grid1.coords t) = ![2, t.val * 512, 0] := (by decide +kernel : ∀ t : Fin grid1.N, k1_off3 (grid1.coords t) = ![2, t.val * 512, 0])
theorem off4 : ∀ t : Fin cfg1.N, k1_off4 (grid1.coords t) = ![3, t.val * 512, 0] := (by decide +kernel : ∀ t : Fin grid1.N, k1_off4 (grid1.coords t) = ![3, t.val * 512, 0])
theorem off5 : ∀ t : Fin cfg1.N, k1_off5 (grid1.coords t) = ![4, t.val * 512, 0] := (by decide +kernel : ∀ t : Fin grid1.N, k1_off5 (grid1.coords t) = ![4, t.val * 512, 0])
theorem off6 : ∀ t : Fin cfg1.N, k1_off6 (grid1.coords t) = ![5, t.val * 512, 0] := (by decide +kernel : ∀ t : Fin grid1.N, k1_off6 (grid1.coords t) = ![5, t.val * 512, 0])
theorem off7 : ∀ t : Fin cfg1.N, k1_off7 (grid1.coords t) = ![6, t.val * 512, 0] := (by decide +kernel : ∀ t : Fin grid1.N, k1_off7 (grid1.coords t) = ![6, t.val * 512, 0])
theorem off8 : ∀ t : Fin cfg1.N, k1_off8 (grid1.coords t) = ![7, t.val * 512, 0] := (by decide +kernel : ∀ t : Fin grid1.N, k1_off8 (grid1.coords t) = ![7, t.val * 512, 0])
theorem off9 : ∀ t : Fin cfg1.N, k1_off9 (grid1.coords t) = ![t.val * 512, 0] := (by decide +kernel : ∀ t : Fin grid1.N, k1_off9 (grid1.coords t) = ![t.val * 512, 0])
theorem off10 : ∀ t : Fin cfg1.N, k1_off10 (grid1.coords t) = ![t.val, 0, 0] := (by decide +kernel : ∀ t : Fin grid1.N, k1_off10 (grid1.coords t) = ![t.val, 0, 0])
theorem off11 : ∀ t : Fin cfg1.N, k1_off11 (grid1.coords t) = ![t.val, 512, 0] := (by decide +kernel : ∀ t : Fin grid1.N, k1_off11 (grid1.coords t) = ![t.val, 512, 0])
theorem off12 : ∀ t : Fin cfg1.N, k1_off12 (grid1.coords t) = ![t.val, 1024, 0] := (by decide +kernel : ∀ t : Fin grid1.N, k1_off12 (grid1.coords t) = ![t.val, 1024, 0])
theorem off13 : ∀ t : Fin cfg1.N, k1_off13 (grid1.coords t) = ![t.val, 1536, 0] := (by decide +kernel : ∀ t : Fin grid1.N, k1_off13 (grid1.coords t) = ![t.val, 1536, 0])
theorem off14 : ∀ t : Fin cfg1.N, k1_off14 (grid1.coords t) = ![t.val, 2048, 0] := (by decide +kernel : ∀ t : Fin grid1.N, k1_off14 (grid1.coords t) = ![t.val, 2048, 0])
theorem off15 : ∀ t : Fin cfg1.N, k1_off15 (grid1.coords t) = ![t.val, 2560, 0] := (by decide +kernel : ∀ t : Fin grid1.N, k1_off15 (grid1.coords t) = ![t.val, 2560, 0])
theorem off16 : ∀ t : Fin cfg1.N, k1_off16 (grid1.coords t) = ![t.val, 3072, 0] := (by decide +kernel : ∀ t : Fin grid1.N, k1_off16 (grid1.coords t) = ![t.val, 3072, 0])
theorem off17 : ∀ t : Fin cfg1.N, k1_off17 (grid1.coords t) = ![t.val, 3584, 0] := (by decide +kernel : ∀ t : Fin grid1.N, k1_off17 (grid1.coords t) = ![t.val, 3584, 0])

/-! ## The staging memrefs the pipeline passes at a point -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x64 .f32 := win1_5.stage (cfg1.slots t 5)
abbrev hs1_5 (t : Fin cfg1.N) : (ms1_5 t).IsWhole := hstage1_5 ((cfg1.slots t 5).cast nbuf1_5)

/-! ## The operands of the model -/

/-- The adjacency's row block of point i, as fetched. -/
def aOf (c : Dev nD) : Fin 8 → Vec F S512x4096 .f32 := fun i => blk1 V c 0 (pt i)
/-- The four unmoving operands (read at the first point; they are the same at every point: `blk1_const`). -/
def x2Of (c : Dev nD) : Vec F S4096x32 .bf16 := blk1 V c 1 (pt 0)
def x3Of (c : Dev nD) : Vec F S1x32 .f32 := blk1 V c 2 (pt 0)
def x4Of (c : Dev nD) : Vec F S32x64 .bf16 := blk1 V c 3 (pt 0)
def x5Of (c : Dev nD) : Vec F S1x64 .f32 := blk1 V c 4 (pt 0)

/-- Region 0's four staging buffers are scoped buffers this region does not stage: they ride along at anything. -/
def rest0 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f))

/-- The launch's invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ d, owns (c : Thread nD τ) scM7 fullShare d) ∗ (∃ d, owns (c : Thread nD τ) scM8 fullShare d) ∗ (∃ d, owns (c : Thread nD τ) scM9 fullShare d))
        ∗ (∃ r, prngReg c r)) := by
  unfold Pipeline.ΦA; rw [scopedRest1_eq]; simp only [scM7, scM8, scM9, owns_whole]; try rfl

/-- THE INVARIANT before point n: before the first point the launch's; afterwards region 0's staging buffers at anything,
    the slab scratch and the accumulator at contents satisfying the model's invariants for point n − 1, the projection
    scratch at the model's contents, the generator register at some state. -/
def PhiS (c : Dev nD) : ℕ → sProp 𝕄
  | 0 => Pipeline.ΦA spec1 c
  | n + 1 => iprop(iprop(rest0 c
      ∗ (∃ s7, owns (c : Thread nD τ) scM7 fullShare s7 ∗ ⌜SlabInv (aOf V c) n s7⌝)
      ∗ owns (c : Thread nD τ) scM8 fullShare (pAt (aOf V c) (x2Of V c) (x3Of V c) (x4Of V c) n)
      ∗ (∃ s9, owns (c : Thread nD τ) scM9 fullShare s9 ∗ ⌜AccInv (aOf V c) (x2Of V c) (x3Of V c) (x4Of V c) n s9⌝))
    ∗ (∃ r, prngReg c r))

theorem PhiS_zero (c : Dev nD) : PhiS V c 0 = Pipeline.ΦA spec1 c := rfl
theorem PhiS_succ (c : Dev nD) (n : ℕ) : PhiS V c (n + 1) = iprop(iprop(rest0 c
      ∗ (∃ s7, owns (c : Thread nD τ) scM7 fullShare s7 ∗ ⌜SlabInv (aOf V c) n s7⌝)
      ∗ owns (c : Thread nD τ) scM8 fullShare (pAt (aOf V c) (x2Of V c) (x3Of V c) (x4Of V c) n)
      ∗ (∃ s9, owns (c : Thread nD τ) scM9 fullShare s9 ∗ ⌜AccInv (aOf V c) (x2Of V c) (x3Of V c) (x4Of V c) n s9⌝))
    ∗ (∃ r, prngReg c r)) := rfl

/-- After any point the invariant gives the launch's back: the scratch contents are forgotten. -/
theorem PhiS_out (c : Dev nD) (n : ℕ) : PhiS V c (n + 1) ⊢ Pipeline.ΦA spec1 c := by
  rw [PhiS_succ, PhiA1_eq]; unfold rest0
  iintro ⟨⟨⟨Ha, Hb, Hc, Hd⟩, ⟨%s7, H7, -⟩, H8, ⟨%s9, H9, -⟩⟩, Hg⟩
  isplitl [Ha Hb Hc Hd H7 H8 H9]
  · isplitl [Ha]; · iexact Ha
    isplitl [Hb]; · iexact Hb
    isplitl [Hc]; · iexact Hc
    isplitl [Hd]; · iexact Hd
    isplitl [H7]; · iexists _; iexact H7
    isplitl [H8]; · iexists _; iexact H8
    iexists _; iexact H9
  iexact Hg

/-! ## The proof data -/

/-- The proof data of this pipeline on core `c`: the arrays as the region finds them; after the body each operand's buffer
    at its block; the output's at the model's output block (it is live at the last point only); the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outModel (aOf V c) (x2Of V c) (x3Of V c) (x4Of V c) (x5Of V c)
  Φ t := PhiS V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = outModel (aOf V c) (x2Of V c) (x3Of V c) (x4Of V c) (x5Of V c) := by dsimp only [dat1]

theorem before1_0 (c : Dev nD) (t : Fin cfg1.N) (d) : (dat1 V c).before 0 t d = blk1 V c 0 t := before1_0_of V (dat1 V c) (A_eq1 V c 0) (after1_0 V c) t d
theorem before1_1 (c : Dev nD) (t : Fin cfg1.N) (d) : (dat1 V c).before 1 t d = blk1 V c 1 t := before1_1_of V (dat1 V c) (A_eq1 V c 1) (after1_1 V c) t d
theorem before1_2 (c : Dev nD) (t : Fin cfg1.N) (d) : (dat1 V c).before 2 t d = blk1 V c 2 t := before1_2_of V (dat1 V c) (A_eq1 V c 2) (after1_2 V c) t d
theorem before1_3 (c : Dev nD) (t : Fin cfg1.N) (d) : (dat1 V c).before 3 t d = blk1 V c 3 t := before1_3_of V (dat1 V c) (A_eq1 V c 3) (after1_3 V c) t d
theorem before1_4 (c : Dev nD) (t : Fin cfg1.N) (d) : (dat1 V c).before 4 t d = blk1 V c 4 t := before1_4_of V (dat1 V c) (A_eq1 V c 4) (after1_4 V c) t d

/-- What the launch hands the region is the invariant before the first point; after the last point the invariant gives it back. -/
theorem hin1 (c : Dev nD) : Pipeline.ΦA spec1 c ⊢ (dat1 V c).Φ 0 := by
  rw [show (dat1 V c).Φ 0 = PhiS V c 0 from rfl, PhiS_zero]
  try exact Idealize.SL.BI.Entails.refl _
theorem hout1 (c : Dev nD) : (dat1 V c).Φ (Fin.last cfg1.N) ⊢ Pipeline.ΦA spec1 c := by
  rw [show (dat1 V c).Φ (Fin.last cfg1.N) = PhiS V c (7 + 1) from rfl]
  exact PhiS_out V c 7

end Cert.KernelIdeal.GcnKit

end
-- ==== Proof.GcnArrIdeal.lean ====
/-
  From blocks to arrays: what the two pipelines' output arrays hold after the run, and the operand blocks read at an index.

  The first pipeline has one grid point and its output block is the whole array, written back at that point; the second
  writes its output block, again the whole array, back at the last of its eight points only. In both cases the one
  write-back covers every index, so the array ends holding exactly what the body left in the staging buffer. An operand
  block's element sits in its array at block index × block size + its coordinate inside the block; for a block that is the
  whole array the block index is zero and the block read is the array itself.
-/
import proofs.«150466_g82282983457293_cont_9to1_m_405_12_alg».proof.Proof.PrepIdeal
import proofs.«150466_g82282983457293_cont_9to1_m_405_12_alg».proof.Proof.GcnKitIdeal
import Idealize.ShloMosaic.Lib.Pipeline.Value
import Idealize.ShloMosaic.Lib.ValueIdx

set_option maxRecDepth 16384

noncomputable section

namespace Cert.KernelIdeal.GcnArr

open Cert.KernelIdeal Cert.KernelIdeal.Gen Cert.KernelIdeal.GcnModel
open Idealize.ShloMosaic Idealize.ShloMosaic.TcCoe Idealize.ShloMosaic.Tactic Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-! ## The second pipeline's output array -/

/-- The output window's block index is (0, 0) at every point. -/
theorem outIdx : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- What a point writes back is the whole of what the body left: the block is the whole array. -/
theorem flushed5_eq (c : Dev nD) (t : Fin cfg1.N) :
    (GcnKit.dat1 V c).flushed 5 t = ((cfg1.win 5).blk t).view.read (Elt F)
      (outModel (GcnKit.aOf V c) (GcnKit.x2Of V c) (GcnKit.x3Of V c) (GcnKit.x4Of V c) (GcnKit.x5Of V c)) := by
  show (cfg1.win 5).cut (grid1.coords t) ((GcnKit.dat1 V c).after 5 t) = _
  rw [GcnKit.after1_5]
  funext j
  obtain ⟨e0, e1⟩ := outIdx t
  show outModel (GcnKit.aOf V c) (GcnKit.x2Of V c) (GcnKit.x3Of V c) (GcnKit.x4Of V c) (GcnKit.x5Of V c) ((cfg1.win 5).xinj (grid1.coords t) j)
    = outModel (GcnKit.aOf V c) (GcnKit.x2Of V c) (GcnKit.x3Of V c) (GcnKit.x4Of V c) (GcnKit.x5Of V c) (((cfg1.win 5).blk t).view.emb j)
  refine congrArg _ ?_
  funext a; apply Fin.ext
  match a with
  | ⟨0, _⟩ => show (j 0).val = win1_5.index t (0 : Fin 2) * 4096 + 1 * (j 0).val; omega
  | ⟨1, _⟩ => show (j 1).val = win1_5.index t (1 : Fin 2) * 64 + 1 * (j 1).val; omega

/-- Every index of the output array is in the last point's block. -/
theorem mem_blk5 (t : Fin cfg1.N) (i : S4096x64.Idx) :
    i ∈ ((cfg1.win 5).blk t).view.set ↔ ∀ a : Fin 2, win1_5.index t a * S4096x64.size a ≤ (i a).val ∧ (i a).val < win1_5.index t a * S4096x64.size a + S4096x64.size a := by
  show i ∈ ((View.whole main_v17).slice (win1_5.rect t)).set ↔ _
  rw [View.set_slice_whole, Rect.mem_set_unit]
  exact Iff.rfl

/-- The last point. -/
abbrev tLast : Fin cfg1.N := GcnKit.pt 7

theorem cover5 (i : S4096x64.Idx) : ∃ t : Fin cfg1.N, (cfg1.win 5).flush t = true ∧ i ∈ ((cfg1.win 5).blk t).view.set := by
  refine ⟨tLast, (flush1_5 tLast).mpr (by decide), ?_⟩
  rw [mem_blk5]
  obtain ⟨e0, e1⟩ := outIdx tLast
  intro a
  match a with
  | ⟨0, _⟩ =>
    show win1_5.index tLast (0 : Fin 2) * 4096 ≤ (i 0).val ∧ (i 0).val < win1_5.index tLast (0 : Fin 2) * 4096 + 4096
    have h := (i 0).isLt
    have h' : (i 0).val < 4096 := h
    omega
  | ⟨1, _⟩ =>
    show win1_5.index tLast (1 : Fin 2) * 64 ≤ (i 1).val ∧ (i 1).val < win1_5.index tLast (1 : Fin 2) * 64 + 64
    have h := (i 1).isLt
    have h' : (i 1).val < 64 := h
    omega

/-- THE SECOND PIPELINE'S OUTPUT ARRAY after the run is what the body leaves in the output block at the last point. -/
theorem arrAt5 (c : Dev nD) :
    (GcnKit.dat1 V c).arrAt 5 cfg1.N
      = outModel (GcnKit.aOf V c) (GcnKit.x2Of V c) (GcnKit.x3Of V c) (GcnKit.x4Of V c) (GcnKit.x5Of V c) :=
  (GcnKit.dat1 V c).arrAt_eq_of_cover 5 _ (fun t _ => flushed5_eq V c t) cover5

/-! ## The first pipeline's output array -/

/-- Every window of the first pipeline sits at block index (0, 0) at its one point. -/
theorem prepIdx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem prepIdx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem prepIdx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem prepIdx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The output block is the whole array: its leading part is all of it, and reading the block off an array of that
    shape returns the array. -/
theorem cut3_eq (t : Fin cfg0.N) (G : Vec F S4096x32 .bf16) :
    (cfg0.win 3).cut (grid0.coords t) G = ((cfg0.win 3).blk t).view.read (Elt F) G := by
  funext j
  obtain ⟨e0, e1⟩ := prepIdx3 t
  show G ((cfg0.win 3).xinj (grid0.coords t) j) = G (((cfg0.win 3).blk t).view.emb j)
  refine congrArg _ ?_
  funext a; apply Fin.ext
  match a with
  | ⟨0, _⟩ => show (j 0).val = win0_3.index t (0 : Fin 2) * 4096 + 1 * (j 0).val; omega
  | ⟨1, _⟩ => show (j 1).val = win0_3.index t (1 : Fin 2) * 32 + 1 * (j 1).val; omega

/-- What the one point writes back is the whole of what the body left. -/
theorem flushed3_eq (c : Dev nD) (t : Fin cfg0.N) :
    (Prep.dat0 V c).flushed 3 t = ((cfg0.win 3).blk t).view.read (Elt F)
      (Prep.prepOut (Prep.blk V c 0 t0_0) (Prep.blk V c 1 t0_0) (Prep.blk V c 2 t0_0)) := by
  show (cfg0.win 3).cut (grid0.coords t) ((Prep.dat0 V c).after 3 t) = _
  rw [Prep.after0_3, cut3_eq]
  obtain rfl := fin_N0 t
  rfl

/-- An index of the array is in a point's block iff each coordinate is in the block's range on its axis. -/
theorem mem_blk3 (t : Fin cfg0.N) (i : S4096x32.Idx) :
    i ∈ ((cfg0.win 3).blk t).view.set ↔ ∀ a : Fin 2, win0_3.index t a * S4096x32.size a ≤ (i a).val ∧ (i a).val < win0_3.index t a * S4096x32.size a + S4096x32.size a := by
  show i ∈ ((View.whole main_v16).slice (win0_3.rect t)).set ↔ _
  rw [View.set_slice_whole, Rect.mem_set_unit]
  exact Iff.rfl

/-- Every index of the array is in the one point's block. -/
theorem cover3 (i : S4096x32.Idx) : ∃ t : Fin cfg0.N, (cfg0.win 3).flush t = true ∧ i ∈ ((cfg0.win 3).blk t).view.set := by
  refine ⟨t0_0, flush0_3 t0_0, ?_⟩
  rw [mem_blk3]
  obtain ⟨e0, e1⟩ := prepIdx3 t0_0
  intro a
  match a with
  | ⟨0, _⟩ =>
    show win0_3.index t0_0 (0 : Fin 2) * 4096 ≤ (i 0).val ∧ (i 0).val < win0_3.index t0_0 (0 : Fin 2) * 4096 + 4096
    have h' : (i 0).val < 4096 := (i 0).isLt
    omega
  | ⟨1, _⟩ =>
    show win0_3.index t0_0 (1 : Fin 2) * 32 ≤ (i 1).val ∧ (i 1).val < win0_3.index t0_0 (1 : Fin 2) * 32 + 32
    have h' : (i 1).val < 32 := (i 1).isLt
    omega

/-- THE FIRST PIPELINE'S OUTPUT ARRAY after the run is what the body leaves in the output block at its one point. -/
theorem arrAt3 (c : Dev nD) :
    (Prep.dat0 V c).arrAt 3 cfg0.N
      = Prep.prepOut (Prep.blk V c 0 t0_0) (Prep.blk V c 1 t0_0) (Prep.blk V c 2 t0_0) :=
  (Prep.dat0 V c).arrAt_eq_of_cover 3 _ (fun t _ => flushed3_eq V c t) cover3

/-! ## The operand blocks, read at an index -/

/-- The first pipeline's operand blocks are their arrays. -/
theorem prepBlk0_eq (c : Dev nD) : Prep.blk V c 0 t0_0 = (V c main_v14 : Vec F S4096x256 .bf16) := by
  funext y
  obtain ⟨e0, e1⟩ := prepIdx0 t0_0
  show V c main_v14 (((cfg0.win 0).blk t0_0).view.emb y) = V c main_v14 y
  refine congrArg _ ?_
  funext a; apply Fin.ext
  match a with
  | ⟨0, _⟩ => show win0_0.index t0_0 (0 : Fin 2) * 4096 + 1 * (y 0).val = (y 0).val; omega
  | ⟨1, _⟩ => show win0_0.index t0_0 (1 : Fin 2) * 256 + 1 * (y 1).val = (y 1).val; omega

theorem prepBlk1_eq (c : Dev nD) : Prep.blk V c 1 t0_0 = (V c main_v15 : Vec F S256x32 .bf16) := by
  funext y
  obtain ⟨e0, e1⟩ := prepIdx1 t0_0
  show V c main_v15 (((cfg0.win 1).blk t0_0).view.emb y) = V c main_v15 y
  refine congrArg _ ?_
  funext a; apply Fin.ext
  match a with
  | ⟨0, _⟩ => show win0_1.index t0_0 (0 : Fin 2) * 256 + 1 * (y 0).val = (y 0).val; omega
  | ⟨1, _⟩ => show win0_1.index t0_0 (1 : Fin 2) * 32 + 1 * (y 1).val = (y 1).val; omega

theorem prepBlk2_eq (c : Dev nD) : Prep.blk V c 2 t0_0 = (V c main_v4 : Vec F S1x32 .f32) := by
  funext y
  obtain ⟨e0, e1⟩ := prepIdx2 t0_0
  show V c main_v4 (((cfg0.win 2).blk t0_0).view.emb y) = V c main_v4 y
  refine congrArg _ ?_
  funext a; apply Fin.ext
  match a with
  | ⟨0, _⟩ => show win0_2.index t0_0 (0 : Fin 2) * 1 + 1 * (y 0).val = (y 0).val; omega
  | ⟨1, _⟩ => show win0_2.index t0_0 (1 : Fin 2) * 32 + 1 * (y 1).val = (y 1).val; omega

/-- The second pipeline's operand windows: the adjacency moves down its row blocks with the point, the other four stay
    at block index (0, 0). -/
theorem opIdx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem opIdx1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem opIdx2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem opIdx3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem opIdx4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- Row r of the adjacency's row block i is row 512 · i + r of the adjacency. -/
theorem aOf_apply (c : Dev nD) (i : Fin 8) (r : Fin 512) (k : Fin 4096) :
    GcnKit.aOf V c i (ix2 r k) = V c main_arg1 (ix2 (⟨i.val * 512 + r.val, by omega⟩ : Fin 4096) k) := by
  obtain ⟨e0, e1⟩ := opIdx0 (GcnKit.pt i)
  have hp : (GcnKit.pt i).val = i.val := rfl
  show V c main_arg1 (((cfg1.win 0).blk (GcnKit.pt i)).view.emb (ix2 r k)) = _
  refine congrArg _ ?_
  funext a; apply Fin.ext
  match a with
  | ⟨0, _⟩ => show win1_0.index (GcnKit.pt i) (0 : Fin 2) * 512 + 1 * r.val = i.val * 512 + r.val; omega
  | ⟨1, _⟩ => show win1_0.index (GcnKit.pt i) (1 : Fin 2) * 4096 + 1 * k.val = k.val; omega

/-- The four unmoving operand blocks are their arrays. -/
theorem x2Of_eq (c : Dev nD) : GcnKit.x2Of V c = (V c main_v16 : Vec F S4096x32 .bf16) := by
  funext y
  obtain ⟨e0, e1⟩ := opIdx1 (GcnKit.pt 0)
  show V c main_v16 (((cfg1.win 1).blk (GcnKit.pt 0)).view.emb y) = V c main_v16 y
  refine congrArg _ ?_
  funext a; apply Fin.ext
  match a with
  | ⟨0, _⟩ => show win1_1.index (GcnKit.pt 0) (0 : Fin 2) * 4096 + 1 * (y 0).val = (y 0).val; omega
  | ⟨1, _⟩ => show win1_1.index (GcnKit.pt 0) (1 : Fin 2) * 32 + 1 * (y 1).val = (y 1).val; omega

theorem x3Of_eq (c : Dev nD) : GcnKit.x3Of V c = (V c main_v9 : Vec F S1x32 .f32) := by
  funext y
  obtain ⟨e0, e1⟩ := opIdx2 (GcnKit.pt 0)
  show V c main_v9 (((cfg1.win 2).blk (GcnKit.pt 0)).view.emb y) = V c main_v9 y
  refine congrArg _ ?_
  funext a; apply Fin.ext
  match a with
  | ⟨0, _⟩ => show win1_2.index (GcnKit.pt 0) (0 : Fin 2) * 1 + 1 * (y 0).val = (y 0).val; omega
  | ⟨1, _⟩ => show win1_2.index (GcnKit.pt 0) (1 : Fin 2) * 32 + 1 * (y 1).val = (y 1).val; omega

theorem x4Of_eq (c : Dev nD) : GcnKit.x4Of V c = (V c main_v12 : Vec F S32x64 .bf16) := by
  funext y
  obtain ⟨e0, e1⟩ := opIdx3 (GcnKit.pt 0)
  show V c main_v12 (((cfg1.win 3).blk (GcnKit.pt 0)).view.emb y) = V c main_v12 y
  refine congrArg _ ?_
  funext a; apply Fin.ext
  match a with
  | ⟨0, _⟩ => show win1_3.index (GcnKit.pt 0) (0 : Fin 2) * 32 + 1 * (y 0).val = (y 0).val; omega
  | ⟨1, _⟩ => show win1_3.index (GcnKit.pt 0) (1 : Fin 2) * 64 + 1 * (y 1).val = (y 1).val; omega

theorem x5Of_eq (c : Dev nD) : GcnKit.x5Of V c = (V c main_v13 : Vec F S1x64 .f32) := by
  funext y
  obtain ⟨e0, e1⟩ := opIdx4 (GcnKit.pt 0)
  show V c main_v13 (((cfg1.win 4).blk (GcnKit.pt 0)).view.emb y) = V c main_v13 y
  refine congrArg _ ?_
  funext a; apply Fin.ext
  match a with
  | ⟨0, _⟩ => show win1_4.index (GcnKit.pt 0) (0 : Fin 2) * 1 + 1 * (y 0).val = (y 0).val; omega
  | ⟨1, _⟩ => show win1_4.index (GcnKit.pt 0) (1 : Fin 2) * 64 + 1 * (y 1).val = (y 1).val; omega

end Cert.KernelIdeal.GcnArr

end
-- ==== Proof.Spec.lean ====
/-
  The two-layer graph convolution as mathematics: what each program computes, as a function of the ten argument
  arrays, index by index over the extended reals.

  Layer one.  With  T = x · W₁  (4096×32), the reference forms  adj · T + b₁ , normalises each column j by the
  batch statistics,  (· − mean_j) / √(var_j + ε) · γ_j + β_j , and clips at zero (`hidR`).  The kernel scales
  the columns of T first, by  s_j = γ_j / √(var_j + ε) , and adds the folded offset  (b₁_j − mean_j) · s_j + β_j
  after the propagation (`hidK`).  The two agree when every entry is a real number and  √(var_j + ε)  is a positive
  real: then  (a / q) · γ = a · (γ / q)  and  (Σₖ aₖ tₖ) · s = Σₖ aₖ (tₖ · s)  hold, which they do not at an infinity.

  Layer two.  Four heads  h · Wa[a]  (4096×16 each), propagated through adj, plus a bias row, laid side by side into
  64 columns (column c is head c / 16, class c % 16); then a log-softmax along each row of 64.
-/
import Idealize.ShloMosaic.PureOps.Ideal
import Idealize.ShloMosaic.Lib.ValueIdx

noncomputable section

namespace Cert.Gcn

open Idealize.ShloMosaic Idealize.ShloMosaic.ValueIdx

/-- A matrix of extended reals, rows then columns. -/
abbrev Mat (a b : ℕ) : Type := Fin a → Fin b → EReal

/-- ε: the one literal both programs add to the variance (the f32 nearest to 10⁻⁵), as its exact value. -/
def eps : EReal := Ideal.ofBits .f32 0x3727C5AC#32

/-- The head of column `c` of the 64 concatenated columns, and its class inside the head. -/
def headOf (c : Fin 64) : Fin 4 := ⟨c.val / 16, by omega⟩
def classOf (c : Fin 64) : Fin 16 := ⟨c.val % 16, by omega⟩

/-- T = x · W₁. -/
def xw (x : Mat 4096 256) (W1 : Mat 256 32) : Mat 4096 32 := fun n j => ∑ k : Fin 256, x n k * W1 k j

/-- The reference's hidden layer: propagate, add the bias, normalise by the batch statistics, clip at zero. -/
def hidR (x : Mat 4096 256) (adj : Mat 4096 4096) (W1 : Mat 256 32) (b1 gamma beta mean var : Fin 32 → EReal) : Mat 4096 32 :=
  fun n j => max (Ideal.div (((∑ k : Fin 4096, adj n k * xw x W1 k j) + b1 j) - mean j) (Ideal.sqrt (var j + eps)) * gamma j + beta j) 0

/-- The kernel's folded column scale  γ_j / √(var_j + ε) . -/
def scale (gamma var : Fin 32 → EReal) : Fin 32 → EReal := fun j => Ideal.div (gamma j) (Ideal.sqrt (var j + eps))

/-- The kernel's folded column offset  (b₁_j − mean_j) · s_j + β_j . -/
def shift (b1 gamma beta mean var : Fin 32 → EReal) : Fin 32 → EReal := fun j => (b1 j - mean j) * scale gamma var j + beta j

/-- The kernel's first operand of the streamed pass:  T' = (x · W₁) scaled column by column. -/
def tScaled (x : Mat 4096 256) (W1 : Mat 256 32) (gamma var : Fin 32 → EReal) : Mat 4096 32 :=
  fun n j => xw x W1 n j * scale gamma var j

/-- The kernel's hidden layer: propagate the scaled T, add the folded offset, clip at zero. -/
def hidK (x : Mat 4096 256) (adj : Mat 4096 4096) (W1 : Mat 256 32) (b1 gamma beta mean var : Fin 32 → EReal) : Mat 4096 32 :=
  fun n j => max ((∑ k : Fin 4096, adj n k * tScaled x W1 gamma var k j) + shift b1 gamma beta mean var j) 0

/-- The four heads' projections side by side:  P[n, c] = Σ_j h[n, j] · Wa[c / 16, j, c % 16] . -/
def proj (h : Mat 4096 32) (Wa : Fin 4 → Fin 32 → Fin 16 → EReal) : Mat 4096 64 :=
  fun n c => ∑ j : Fin 32, h n j * Wa (headOf c) j (classOf c)

/-- The second propagation and the bias:  L[n, c] = Σ_k adj[n, k] · P[k, c] + ba[c / 16, c % 16] . -/
def logits (adj : Mat 4096 4096) (P : Mat 4096 64) (ba : Fin 4 → Fin 16 → EReal) : Mat 4096 64 :=
  fun n c => (∑ k : Fin 4096, adj n k * P k c) + ba (headOf c) (classOf c)

/-- The largest entry of row `n` (the bottom element for an empty row; here a row has 64 entries). -/
def rowMax (L : Mat 4096 64) (n : Fin 4096) : EReal := Finset.univ.sup (L n)

/-- The log-softmax along each row:  (L − max) − log Σ exp (L − max) . -/
def logSoftmax (L : Mat 4096 64) : Mat 4096 64 :=
  fun n c => (L n c - rowMax L n) - Ideal.log (∑ c' : Fin 64, Ideal.exp (L n c' - rowMax L n))

/-- What the reference returns. -/
def outR (x : Mat 4096 256) (adj : Mat 4096 4096) (W1 : Mat 256 32) (b1 gamma beta mean var : Fin 32 → EReal)
    (Wa : Fin 4 → Fin 32 → Fin 16 → EReal) (ba : Fin 4 → Fin 16 → EReal) : Mat 4096 64 :=
  logSoftmax (logits adj (proj (hidR x adj W1 b1 gamma beta mean var) Wa) ba)

/-- What the kernel returns. -/
def outK (x : Mat 4096 256) (adj : Mat 4096 4096) (W1 : Mat 256 32) (b1 gamma beta mean var : Fin 32 → EReal)
    (Wa : Fin 4 → Fin 32 → Fin 16 → EReal) (ba : Fin 4 → Fin 16 → EReal) : Mat 4096 64 :=
  logSoftmax (logits adj (proj (hidK x adj W1 b1 gamma beta mean var) Wa) ba)

/-! ## Arrays as matrices -/

/-- An array of shape [a, b] read as a matrix. -/
def mat2 {a b : ℕ} (X : (⟨2, ![a, b]⟩ : Shape).Idx → EReal) : Mat a b := fun n k => X (ix2 n k)
/-- An array of shape [a] read as a vector. -/
def vec1 {a : ℕ} (X : (⟨1, ![a]⟩ : Shape).Idx → EReal) : Fin a → EReal := fun n => X (ix1 n)
/-- An array of shape [a, b, c] read as a family of matrices. -/
def ten3 {a b c : ℕ} (X : (⟨3, ![a, b, c]⟩ : Shape).Idx → EReal) : Fin a → Fin b → Fin c → EReal := fun n k l => X (ix3 n k l)

end Cert.Gcn

end
-- ==== Proof.HostGlueIdeal.lean ====
/-
  The host operations that run before the first kernel region, read index by index over the extended reals.

  Seventeen operations prepare the kernel's small operands from the argument arrays.  The scale row is
  γ_j / √(var_j + ε) ; the offset row is  (b₁_j − mean_j) · s_j + β_j  with s the scale row; the four heads' weights
  Wa[a, j, k] are laid side by side, column 16·a + k of row j; the four heads' biases likewise in one row; x and W₁
  only change format, which over the extended reals is the identity.  Every other array is left as it was.
-/
import proofs.«150466_g82282983457293_cont_9to1_m_405_12_alg».proof.Proof.Gen.KernelIdeal.Launch
import proofs.«150466_g82282983457293_cont_9to1_m_405_12_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HostGlue

open Cert.KernelIdeal Cert.KernelIdeal.Gen
open Idealize.ShloMosaic Idealize.ShloMosaic.TcCoe Idealize.ShloMosaic.ValueIdx
open Cert.Gcn

variable (W : Valuation τ sig (Elt Ideal))

/-! ## The results as the operations' terms -/

/-- The scale vector γ / √(var + ε), before the unit axis is added. -/
abbrev scaleVec : S32.Idx → EReal :=
  Host.divf (F := Ideal) (W (Proc.devRef .tc main_arg4))
    (Host.sqrt (F := Ideal) (addf (W (Proc.devRef .tc main_arg7))
      (broadcastInDim S32 ![] bcast_S_S32 (constant (F := Ideal) S_ .f32 0x3727C5AC#32))))

/-- The scale row is the scale vector under a unit leading axis. -/
theorem v4_term :
    (StableHlo.after (hostOps0 (F := Ideal)) W (Proc.devRef .tc main_v4) : S1x32.Idx → EReal)
      = shapeCast S1x32 (scaleVec W) shapeCasts_S32_S1x32 := by
  dsimp only [hostOps0]; after_results; rfl

/-- The offset row:  (b₁ − mean) · s + β  with s the scale row read back as a vector, under a unit leading axis. -/
theorem v9_term :
    @Eq (S1x32.Idx → EReal) (StableHlo.after (hostOps0 (F := Ideal)) W (Proc.devRef .tc main_v9))
      (shapeCast S1x32
          (addf (F := Ideal) (φ := .f32) (mulf (F := Ideal) (φ := .f32) (subf (F := Ideal) (φ := .f32) (W (Proc.devRef .tc main_arg3)) (W (Proc.devRef .tc main_arg6)))
              (shapeCast S32 (shapeCast S1x32 (scaleVec W) shapeCasts_S32_S1x32) shapeCasts_S1x32_S32))
            (W (Proc.devRef .tc main_arg5))) shapeCasts_S32_S1x32) := by
  dsimp only [hostOps0]; after_results; rfl

/-- The heads' weights: axes 0 and 1 exchanged, the last two axes flattened, the format narrowed. -/
theorem v12_term :
    @Eq (S32x64.Idx → EReal) (StableHlo.after (hostOps0 (F := Ideal)) W (Proc.devRef .tc main_v12))
      (truncf (F := Ideal) (s := S32x64) (φ := .f32) .bf16 (shapeCast S32x64
          (transpose S32x4x16 [1, 0, 2] (W (Proc.devRef .tc main_arg8)) transposes_S4x32x16_S32x4x16_1_0_2)
          shapeCasts_S32x4x16_S32x64) bitsLt_bf16_f32) := by
  dsimp only [hostOps0]; after_results; rfl

/-- The heads' biases flattened into one row. -/
theorem v13_term :
    (StableHlo.after (hostOps0 (F := Ideal)) W (Proc.devRef .tc main_v13) : S1x64.Idx → EReal)
      = shapeCast S1x64 (W (Proc.devRef .tc main_arg9)) shapeCasts_S4x16_S1x64 := by
  dsimp only [hostOps0]; after_results; rfl

/-- x in the narrower format. -/
theorem v14_term :
    @Eq (S4096x256.Idx → EReal) (StableHlo.after (hostOps0 (F := Ideal)) W (Proc.devRef .tc main_v14))
      (truncf (F := Ideal) (s := S4096x256) (φ := .f32) .bf16 (W (Proc.devRef .tc main_arg0)) bitsLt_bf16_f32) := by
  dsimp only [hostOps0]; after_results

/-- W₁ in the narrower format. -/
theorem v15_term :
    @Eq (S256x32.Idx → EReal) (StableHlo.after (hostOps0 (F := Ideal)) W (Proc.devRef .tc main_v15))
      (truncf (F := Ideal) (s := S256x32) (φ := .f32) .bf16 (W (Proc.devRef .tc main_arg2)) bitsLt_bf16_f32) := by
  dsimp only [hostOps0]; after_results

/-! ## Read at an index -/

/-- The scale vector at j is  γ_j / √(var_j + ε). -/
theorem scaleVec_apply (j : Fin 32) :
    scaleVec W (ix1 j)
      = scale (vec1 (a := 32) (W (Proc.devRef .tc main_arg4))) (vec1 (a := 32) (W (Proc.devRef .tc main_arg7))) j := rfl

/-- (H4) The scale row at column j. -/
theorem v4_apply (j : Fin 32) :
    StableHlo.after (hostOps0 (F := Ideal)) W (Proc.devRef .tc main_v4) (ix2 (0 : Fin 1) j)
      = scale (vec1 (a := 32) (W (Proc.devRef .tc main_arg4))) (vec1 (a := 32) (W (Proc.devRef .tc main_arg7))) j := by
  rw [v4_term, shapeCast_a_1a_apply]
  exact scaleVec_apply W j

/-- (H9) The offset row at column j. -/
theorem v9_apply (j : Fin 32) :
    StableHlo.after (hostOps0 (F := Ideal)) W (Proc.devRef .tc main_v9) (ix2 (0 : Fin 1) j)
      = shift (vec1 (a := 32) (W (Proc.devRef .tc main_arg3))) (vec1 (a := 32) (W (Proc.devRef .tc main_arg4)))
          (vec1 (a := 32) (W (Proc.devRef .tc main_arg5))) (vec1 (a := 32) (W (Proc.devRef .tc main_arg6)))
          (vec1 (a := 32) (W (Proc.devRef .tc main_arg7))) j := by
  rw [v9_term, shapeCast_a_1a_apply, addf_apply, mulf_apply, subf_apply, shapeCast_1a_a_apply, shapeCast_a_1a_apply,
    scaleVec_apply]
  rfl

/-- (H12) The heads' weights side by side: row j, column q is head q / 16, class q % 16. -/
theorem v12_apply (j : Fin 32) (q : Fin 64) :
    StableHlo.after (hostOps0 (F := Ideal)) W (Proc.devRef .tc main_v12) (ix2 j q)
      = ten3 (a := 4) (b := 32) (c := 16) (W (Proc.devRef .tc main_arg8)) (headOf q) j (classOf q) := by
  rw [v12_term, truncf_apply]
  refine (shapeCast_apply _ shapeCasts_S32x4x16_S32x64 (ix2 j q) (ix3 j (headOf q) (classOf q)) ?_).trans ?_
  · rw [Shape.rowMajor_val_three, Shape.rowMajor_val_two]
    show (j.val * 4 + q.val / 16) * 16 + q.val % 16 = j.val * 64 + q.val
    omega
  · exact transpose_apply _ _ transposes_S4x32x16_S32x4x16_1_0_2 (ix3 j (headOf q) (classOf q)) (ix3 (headOf q) j (classOf q))
      fun b => match b with | ⟨0, _⟩ => rfl | ⟨1, _⟩ => rfl | ⟨2, _⟩ => rfl

/-- (H13) The heads' biases in one row: column q is head q / 16, class q % 16. -/
theorem v13_apply (q : Fin 64) :
    StableHlo.after (hostOps0 (F := Ideal)) W (Proc.devRef .tc main_v13) (ix2 (0 : Fin 1) q)
      = mat2 (a := 4) (b := 16) (W (Proc.devRef .tc main_arg9)) (headOf q) (classOf q) := by
  rw [v13_term]
  refine shapeCast_apply _ shapeCasts_S4x16_S1x64 (ix2 (0 : Fin 1) q) (ix2 (headOf q) (classOf q)) ?_
  rw [Shape.rowMajor_val_two, Shape.rowMajor_val_two]
  show q.val / 16 * 16 + q.val % 16 = 0 * 64 + q.val
  omega

/-- (H14) x passes through the change of format. -/
theorem v14_apply (n : Fin 4096) (k : Fin 256) :
    StableHlo.after (hostOps0 (F := Ideal)) W (Proc.devRef .tc main_v14) (ix2 n k)
      = mat2 (a := 4096) (b := 256) (W (Proc.devRef .tc main_arg0)) n k := by
  rw [v14_term]; rfl

/-- (H15) W₁ passes through the change of format. -/
theorem v15_apply (k : Fin 256) (j : Fin 32) :
    StableHlo.after (hostOps0 (F := Ideal)) W (Proc.devRef .tc main_v15) (ix2 k j)
      = mat2 (a := 256) (b := 32) (W (Proc.devRef .tc main_arg2)) k j := by
  rw [v15_term]; rfl

/-! ## The argument arrays are left as they were -/

theorem arg0_eq : StableHlo.after (hostOps0 (F := Ideal)) W (Proc.devRef .tc main_arg0) = W (Proc.devRef .tc main_arg0) := by
  dsimp only [hostOps0]; after_results
theorem arg1_eq : StableHlo.after (hostOps0 (F := Ideal)) W (Proc.devRef .tc main_arg1) = W (Proc.devRef .tc main_arg1) := by
  dsimp only [hostOps0]; after_results
theorem arg2_eq : StableHlo.after (hostOps0 (F := Ideal)) W (Proc.devRef .tc main_arg2) = W (Proc.devRef .tc main_arg2) := by
  dsimp only [hostOps0]; after_results
theorem arg3_eq : StableHlo.after (hostOps0 (F := Ideal)) W (Proc.devRef .tc main_arg3) = W (Proc.devRef .tc main_arg3) := by
  dsimp only [hostOps0]; after_results
theorem arg4_eq : StableHlo.after (hostOps0 (F := Ideal)) W (Proc.devRef .tc main_arg4) = W (Proc.devRef .tc main_arg4) := by
  dsimp only [hostOps0]; after_results
theorem arg5_eq : StableHlo.after (hostOps0 (F := Ideal)) W (Proc.devRef .tc main_arg5) = W (Proc.devRef .tc main_arg5) := by
  dsimp only [hostOps0]; after_results
theorem arg6_eq : StableHlo.after (hostOps0 (F := Ideal)) W (Proc.devRef .tc main_arg6) = W (Proc.devRef .tc main_arg6) := by
  dsimp only [hostOps0]; after_results
theorem arg7_eq : StableHlo.after (hostOps0 (F := Ideal)) W (Proc.devRef .tc main_arg7) = W (Proc.devRef .tc main_arg7) := by
  dsimp only [hostOps0]; after_results
theorem arg8_eq : StableHlo.after (hostOps0 (F := Ideal)) W (Proc.devRef .tc main_arg8) = W (Proc.devRef .tc main_arg8) := by
  dsimp only [hostOps0]; after_results
theorem arg9_eq : StableHlo.after (hostOps0 (F := Ideal)) W (Proc.devRef .tc main_arg9) = W (Proc.devRef .tc main_arg9) := by
  dsimp only [hostOps0]; after_results

/-! ## The three rows at any spelling of their one row coordinate -/

/-- (H4) whichever element of the one-element row range is written. -/
theorem v4_apply_unit (u : Fin 1) (j : Fin 32) :
    StableHlo.after (hostOps0 (F := Ideal)) W (Proc.devRef .tc main_v4) (ix2 u j)
      = scale (vec1 (a := 32) (W (Proc.devRef .tc main_arg4))) (vec1 (a := 32) (W (Proc.devRef .tc main_arg7))) j := by
  obtain rfl : u = 0 := Subsingleton.elim _ _
  exact v4_apply W j

/-- (H9) whichever element of the one-element row range is written. -/
theorem v9_apply_unit (u : Fin 1) (j : Fin 32) :
    StableHlo.after (hostOps0 (F := Ideal)) W (Proc.devRef .tc main_v9) (ix2 u j)
      = shift (vec1 (a := 32) (W (Proc.devRef .tc main_arg3))) (vec1 (a := 32) (W (Proc.devRef .tc main_arg4)))
          (vec1 (a := 32) (W (Proc.devRef .tc main_arg5))) (vec1 (a := 32) (W (Proc.devRef .tc main_arg6)))
          (vec1 (a := 32) (W (Proc.devRef .tc main_arg7))) j := by
  obtain rfl : u = 0 := Subsingleton.elim _ _
  exact v9_apply W j

/-- (H13) whichever element of the one-element row range is written. -/
theorem v13_apply_unit (u : Fin 1) (q : Fin 64) :
    StableHlo.after (hostOps0 (F := Ideal)) W (Proc.devRef .tc main_v13) (ix2 u q)
      = mat2 (a := 4) (b := 16) (W (Proc.devRef .tc main_arg9)) (headOf q) (classOf q) := by
  obtain rfl : u = 0 := Subsingleton.elim _ _
  exact v13_apply W q

end Cert.KernelIdeal.HostGlue

end
-- ==== Proof.PayMat.lean ====
/-
  The matrix-product payloads of the two kernel bodies, read at an index over the extended reals.

  Every matrix product here is a plain one, an M×K array times a K×N array contracted over K into the zero
  accumulator, so at an output index (n, j) it is the sum over k of lhs (n, k) · rhs (k, j).  A change of float
  format is the identity on the extended reals, a shape cast to the same shape is the identity, a leading unit axis
  added or dropped changes nothing but the spelling of the index, a row broadcast reads the one row, and a column
  slab of width 512 starting at column 512·c reads column 512·c + l.
-/
import proofs.«150466_g82282983457293_cont_9to1_m_405_12_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayMat

open Cert.KernelIdeal Cert.KernelIdeal.Gen Idealize.ShloMosaic Idealize.ShloMosaic.ValueIdx

/-! ## A plain matrix product into the zero accumulator, read at an index -/

/-- The left operand's row is the output row. -/
theorem plain_lhs0 (M K N : ℕ) (j : (⟨2, ![M, N]⟩ : Shape).Idx) (q : (DotDims.plain M K N).contr.Idx) :
    ((DotDims.plain M K N).lhsIdx j q 0).val = (j 0).val := rfl

/-- The right operand's column is the output column. -/
theorem plain_rhs1 (M K N : ℕ) (j : (⟨2, ![M, N]⟩ : Shape).Idx) (q : (DotDims.plain M K N).contr.Idx) :
    ((DotDims.plain M K N).rhsIdx j q 1).val = (j 1).val := rfl

/-- An M×K by K×N product into the zero accumulator is, at (n, j), the sum over k of lhs (n, k) · rhs (k, j). -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (n : Fin M) (j : Fin N) :
    FloatOps.matmul (DotDims.plain M K N) prec lhs rhs (constant (F := Ideal) ⟨2, ![M, N]⟩ .f32 0x00000000#32) (ix2 n j)
      = ∑ k : Fin K, lhs (ix2 n k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k :=
    funext fun a => Fin.ext (by
      match a with
      | ⟨0, _⟩ => exact plain_lhs0 M K N _ _
      | ⟨1, _⟩ => exact ((DotDims.plain M K N).lhsIdx_val_of_single rfl _ _).trans hk)
  have er : (DotDims.plain M K N).rhsIdx (ix2 n j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => exact plain_rhs1 M K N _ _)
  rw [el, er]

/-! ## The zero words -/

/-- The bf16 zero word is the extended real 0. -/
theorem ofBits_zero_bf16 : Ideal.ofBits .bf16 0x0000#16 = 0 := by simp [Ideal.ofBits, Ideal.ieee]

/-! ## The propagation of the projected rows: adj-block · P -/

theorem k1_pay24_apply (v4 : FVec Ideal S512x4096 .bf16) (v67 : Vec Ideal S4096x64 .bf16) (r : Fin 512) (q : Fin 64) :
    k1_pay24 (F := Ideal) v4 v67 (ix2 r q) = ∑ k : Fin 4096, v4 (ix2 r k) * v67 (ix2 k q) := by
  unfold k1_pay24
  exact matmul_plain_zero_apply 512 4096 64 none v4 v67 r q

theorem k1_pay25_eq (v68 : FVec Ideal S512x64 .f32) : k1_pay25 (F := Ideal) v68 = v68 := by
  unfold k1_pay25
  exact shapeCast_self _ _

theorem k1_pay26_eq (v66 : FVec Ideal S512x64 .bf16) : k1_pay26 (F := Ideal) v66 = v66 := by
  unfold k1_pay26
  exact shapeCast_self _ _

/-! ## One column slab's contribution added to the running block:  acc + A_c · P_c -/

theorem k1_pay1_apply (v66 : FVec Ideal S512x64 .bf16) (v107 : Vec Ideal S1x512x512 .bf16) (v110 : Vec Ideal S512x64 .f32)
    (r : Fin 512) (q : Fin 64) :
    k1_pay1 (F := Ideal) v66 v107 v110 (ix2 r q) = v110 (ix2 r q) + ∑ l : Fin 512, v107 (ix3 0 r l) * v66 (ix2 l q) := by
  unfold k1_pay1
  rw [shapeCast_self]
  refine (addf_apply _ _ _).trans ?_
  refine congrArg (v110 (ix2 r q) + ·) ?_
  refine (matmul_plain_zero_apply 512 512 64 none _ v66 r q).trans ?_
  refine Finset.sum_congr rfl fun l _ => ?_
  exact congrArg (· * v66 (ix2 l q)) (shapeCast_1ab_ab_apply v107 _ r l)

/-- The eight copies of that body are one function. -/
theorem k1_pay27_eq : @k1_pay27 Ideal _ = @k1_pay1 Ideal _ := rfl
theorem k1_pay28_eq : @k1_pay28 Ideal _ = @k1_pay1 Ideal _ := rfl
theorem k1_pay29_eq : @k1_pay29 Ideal _ = @k1_pay1 Ideal _ := rfl
theorem k1_pay30_eq : @k1_pay30 Ideal _ = @k1_pay1 Ideal _ := rfl
theorem k1_pay31_eq : @k1_pay31 Ideal _ = @k1_pay1 Ideal _ := rfl
theorem k1_pay32_eq : @k1_pay32 Ideal _ = @k1_pay1 Ideal _ := rfl
theorem k1_pay33_eq : @k1_pay33 Ideal _ = @k1_pay1 Ideal _ := rfl

/-- Each copy read at an index. -/
theorem k1_pay27_apply (v66 : FVec Ideal S512x64 .bf16) (v107 : Vec Ideal S1x512x512 .bf16) (v110 : Vec Ideal S512x64 .f32)
    (r : Fin 512) (q : Fin 64) :
    k1_pay27 (F := Ideal) v66 v107 v110 (ix2 r q) = v110 (ix2 r q) + ∑ l : Fin 512, v107 (ix3 0 r l) * v66 (ix2 l q) :=
  k1_pay1_apply v66 v107 v110 r q
theorem k1_pay28_apply (v66 : FVec Ideal S512x64 .bf16) (v107 : Vec Ideal S1x512x512 .bf16) (v110 : Vec Ideal S512x64 .f32)
    (r : Fin 512) (q : Fin 64) :
    k1_pay28 (F := Ideal) v66 v107 v110 (ix2 r q) = v110 (ix2 r q) + ∑ l : Fin 512, v107 (ix3 0 r l) * v66 (ix2 l q) :=
  k1_pay1_apply v66 v107 v110 r q
theorem k1_pay29_apply (v66 : FVec Ideal S512x64 .bf16) (v107 : Vec Ideal S1x512x512 .bf16) (v110 : Vec Ideal S512x64 .f32)
    (r : Fin 512) (q : Fin 64) :
    k1_pay29 (F := Ideal) v66 v107 v110 (ix2 r q) = v110 (ix2 r q) + ∑ l : Fin 512, v107 (ix3 0 r l) * v66 (ix2 l q) :=
  k1_pay1_apply v66 v107 v110 r q
theorem k1_pay30_apply (v66 : FVec Ideal S512x64 .bf16) (v107 : Vec Ideal S1x512x512 .bf16) (v110 : Vec Ideal S512x64 .f32)
    (r : Fin 512) (q : Fin 64) :
    k1_pay30 (F := Ideal) v66 v107 v110 (ix2 r q) = v110 (ix2 r q) + ∑ l : Fin 512, v107 (ix3 0 r l) * v66 (ix2 l q) :=
  k1_pay1_apply v66 v107 v110 r q
theorem k1_pay31_apply (v66 : FVec Ideal S512x64 .bf16) (v107 : Vec Ideal S1x512x512 .bf16) (v110 : Vec Ideal S512x64 .f32)
    (r : Fin 512) (q : Fin 64) :
    k1_pay31 (F := Ideal) v66 v107 v110 (ix2 r q) = v110 (ix2 r q) + ∑ l : Fin 512, v107 (ix3 0 r l) * v66 (ix2 l q) :=
  k1_pay1_apply v66 v107 v110 r q
theorem k1_pay32_apply (v66 : FVec Ideal S512x64 .bf16) (v107 : Vec Ideal S1x512x512 .bf16) (v110 : Vec Ideal S512x64 .f32)
    (r : Fin 512) (q : Fin 64) :
    k1_pay32 (F := Ideal) v66 v107 v110 (ix2 r q) = v110 (ix2 r q) + ∑ l : Fin 512, v107 (ix3 0 r l) * v66 (ix2 l q) :=
  k1_pay1_apply v66 v107 v110 r q
theorem k1_pay33_apply (v66 : FVec Ideal S512x64 .bf16) (v107 : Vec Ideal S1x512x512 .bf16) (v110 : Vec Ideal S512x64 .f32)
    (r : Fin 512) (q : Fin 64) :
    k1_pay33 (F := Ideal) v66 v107 v110 (ix2 r q) = v110 (ix2 r q) + ∑ l : Fin 512, v107 (ix3 0 r l) * v66 (ix2 l q) :=
  k1_pay1_apply v66 v107 v110 r q

/-! ## The hidden block and its projection:  max (A · T' + shift) 0 · W -/

theorem k1_pay23_apply (v4 : FVec Ideal S512x4096 .bf16) (v53 : Vec Ideal S4096x32 .bf16) (v56 : Vec Ideal S1x32 .f32)
    (v63 : Vec Ideal S32x64 .bf16) (r : Fin 512) (q : Fin 64) :
    k1_pay23 (F := Ideal) v4 v53 v56 v63 (ix2 r q)
      = ∑ j : Fin 32, max ((∑ k : Fin 4096, v4 (ix2 r k) * v53 (ix2 k j)) + v56 (ix2 0 j)) 0 * v63 (ix2 j q) := by
  unfold k1_pay23
  refine (truncf_apply (φ := .f32) (ψ := .bf16) _ bitsLt_bf16_f32 _).trans ?_
  refine (matmul_plain_zero_apply 512 32 64 none _ _ r q).trans ?_
  refine Finset.sum_congr rfl fun j _ => ?_
  rw [shapeCast_self, shapeCast_self, shapeCast_self]
  refine congrArg (· * v63 (ix2 j q)) ?_
  refine (truncf_apply (φ := .f32) (ψ := .bf16) _ bitsLt_bf16_f32 _).trans ?_
  refine (maximumf_apply _ _ _).trans ?_
  refine congrArg₂ max ?_ ?_
  · refine (addf_apply _ _ _).trans ?_
    refine congrArg₂ (· + ·) ?_ ?_
    · exact matmul_plain_zero_apply 512 4096 32 none v4 v53 r j
    · exact broadcastTo_1b_ab_apply v56 _ r j
  · exact Ideal.ofBits_zero_f32

/-! ## The prepared operand:  (x · W₁) scaled column by column -/

theorem k0_pay1_apply (v0 : Vec Ideal S4096x256 .bf16) (v2 : Vec Ideal S256x32 .bf16) (v5 : Vec Ideal S1x32 .f32)
    (n : Fin 4096) (j : Fin 32) :
    k0_pay1 (F := Ideal) v0 v2 v5 (ix2 n j) = (∑ k : Fin 256, v0 (ix2 n k) * v2 (ix2 k j)) * v5 (ix2 0 j) := by
  unfold k0_pay1
  refine (truncf_apply (φ := .f32) (ψ := .bf16) _ bitsLt_bf16_f32 _).trans ?_
  rw [shapeCast_self, shapeCast_self, shapeCast_self]
  refine (mulf_apply _ _ _).trans ?_
  refine congrArg₂ (· * ·) ?_ ?_
  · exact matmul_plain_zero_apply 4096 256 32 none v0 v2 n j
  · exact broadcastTo_1b_ab_apply v5 _ n j

/-! ## The adjacency block after the change of float format, and its eight column slabs -/

/-- A change of float format is the identity on the extended reals. -/
theorem k1_pay14_eq (v3 : Vec Ideal S512x4096 .f32) : k1_pay14 (F := Ideal) v3 = v3 := rfl

/-- The zero block: every entry is the extended real 0. -/
theorem k1_pay13_apply (i : S4096x64.Idx) : k1_pay13 (F := Ideal) i = 0 := by
  unfold k1_pay13
  rw [shapeCast_self]
  exact ofBits_zero_bf16

/-- A width-512 column slab starting at column o, with a unit axis put in front, reads column o + l. -/
theorem slab_apply (o : ℕ) (X : FVec Ideal S512x4096 .bf16) (h : S512x4096.Slices ![0, o] S512x512)
    (h' : S512x512.ShapeCasts S1x512x512) (r l : Fin 512) (k : Fin 4096) (hk : k.val = o + l.val) :
    shapeCast S1x512x512 (extractStridedSlice S512x512 ![0, o] X h) h' (ix3 0 r l) = X (ix2 r k) :=
  (shapeCast_ab_1ab_apply _ h' 0 r l).trans (slice2_axis1_apply o X h r l k hk)

theorem k1_pay15_apply (v3 : Vec Ideal S512x4096 .f32) (r l : Fin 512) :
    k1_pay15 (F := Ideal) v3 (ix3 0 r l) = v3 (ix2 r ⟨0 * 512 + l.val, by omega⟩) := by
  unfold k1_pay15
  exact slab_apply 0 _ _ _ r l _ (by show 0 * 512 + l.val = 0 + l.val; omega)

theorem k1_pay16_apply (v3 : Vec Ideal S512x4096 .f32) (r l : Fin 512) :
    k1_pay16 (F := Ideal) v3 (ix3 0 r l) = v3 (ix2 r ⟨1 * 512 + l.val, by omega⟩) := by
  unfold k1_pay16
  exact slab_apply 512 _ _ _ r l _ rfl

theorem k1_pay17_apply (v3 : Vec Ideal S512x4096 .f32) (r l : Fin 512) :
    k1_pay17 (F := Ideal) v3 (ix3 0 r l) = v3 (ix2 r ⟨2 * 512 + l.val, by omega⟩) := by
  unfold k1_pay17
  exact slab_apply 1024 _ _ _ r l _ rfl

theorem k1_pay18_apply (v3 : Vec Ideal S512x4096 .f32) (r l : Fin 512) :
    k1_pay18 (F := Ideal) v3 (ix3 0 r l) = v3 (ix2 r ⟨3 * 512 + l.val, by omega⟩) := by
  unfold k1_pay18
  exact slab_apply 1536 _ _ _ r l _ rfl

theorem k1_pay19_apply (v3 : Vec Ideal S512x4096 .f32) (r l : Fin 512) :
    k1_pay19 (F := Ideal) v3 (ix3 0 r l) = v3 (ix2 r ⟨4 * 512 + l.val, by omega⟩) := by
  unfold k1_pay19
  exact slab_apply 2048 _ _ _ r l _ rfl

theorem k1_pay20_apply (v4 : FVec Ideal S512x4096 .bf16) (r l : Fin 512) :
    k1_pay20 (F := Ideal) v4 (ix3 0 r l) = v4 (ix2 r ⟨5 * 512 + l.val, by omega⟩) := by
  unfold k1_pay20
  exact slab_apply 2560 _ _ _ r l _ rfl

theorem k1_pay21_apply (v4 : FVec Ideal S512x4096 .bf16) (r l : Fin 512) :
    k1_pay21 (F := Ideal) v4 (ix3 0 r l) = v4 (ix2 r ⟨6 * 512 + l.val, by omega⟩) := by
  unfold k1_pay21
  exact slab_apply 3072 _ _ _ r l _ rfl

theorem k1_pay22_apply (v4 : FVec Ideal S512x4096 .bf16) (r l : Fin 512) :
    k1_pay22 (F := Ideal) v4 (ix3 0 r l) = v4 (ix2 r ⟨7 * 512 + l.val, by omega⟩) := by
  unfold k1_pay22
  exact slab_apply 3584 _ _ _ r l _ rfl

end Cert.KernelIdeal.PayMat

end
-- ==== Proof.KernelValueIdeal.lean ====
/-
  What the kernel returns, index by index over the extended reals, as the specification's function of the argument arrays.

  The links.  The host operations give the scale row s, the offset row, the joined head weights and the joined biases
  as the specification's  scale, shift, Wa[c / 16, ·, c % 16], ba[c / 16, c % 16]  of the arguments.  The first call
  leaves  (x · W₁) · s  column by column, the specification's scaled T.  The second call leaves the model's output block
  of its five operands, and that block is the log-softmax of  adj · P + bias  with  P = clip(adj · T + offset) · Wc .
  Unfolding the specification, this is what it says the kernel returns.
-/
import proofs.«150466_g82282983457293_cont_9to1_m_405_12_alg».proof.Proof.HostGlueIdeal
import proofs.«150466_g82282983457293_cont_9to1_m_405_12_alg».proof.Proof.GcnMainIdeal
import proofs.«150466_g82282983457293_cont_9to1_m_405_12_alg».proof.Proof.GcnKitIdeal
import proofs.«150466_g82282983457293_cont_9to1_m_405_12_alg».proof.Proof.PrepIdeal
import proofs.«150466_g82282983457293_cont_9to1_m_405_12_alg».proof.Proof.PayMat
import proofs.«150466_g82282983457293_cont_9to1_m_405_12_alg».proof.Proof.Spec
import Idealize.ShloMosaic.Lib.Pipeline.Value
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.ShloMosaic.ValueIdx
open Cert.Gcn

/-! ## The first call's output block at an index -/

theorem zeros2 : (![0, 0] : Fin 2 → ℕ) = fun _ => 0 := funext fun a => by
  match a with | ⟨0, _⟩ => rfl | ⟨1, _⟩ => rfl

/-- The scaled product of the three input blocks:  (Σₖ x₀[n, k] · x₁[k, j]) · x₂[0, j]. -/
theorem prepOut_apply (x0 : Vec Ideal S4096x256 .bf16) (x1 : Vec Ideal S256x32 .bf16) (x2 : Vec Ideal S1x32 .f32)
    (n : Fin 4096) (j : Fin 32) :
    Prep.prepOut x0 x1 x2 (ix2 n j) = (∑ k : Fin 256, x0 (ix2 n k) * x1 (ix2 k j)) * x2 (ix2 (0 : Fin 1) j) := by
  unfold Prep.prepOut
  rw [View.canon_unit_zero zeros2, View.ld_unit_zero zeros2, View.ld_unit_zero zeros2, View.ld_unit_zero zeros2]
  exact PayMat.k0_pay1_apply x0 x1 x2 n j

/-! ## The specification unfolded -/

/-- The specification's kernel output is the log-softmax of  adj · P + bias,  P = clip(adj · T' + shift) · Wc . -/
theorem outK_eq (x : Mat 4096 256) (adj : Mat 4096 4096) (W1 : Mat 256 32) (b1 gamma beta mean var : Fin 32 → EReal)
    (Wa : Fin 4 → Fin 32 → Fin 16 → EReal) (ba : Fin 4 → Fin 16 → EReal) :
    logSoftmax (fun n q => (∑ k : Fin 4096, adj n k *
        (∑ j : Fin 32, max ((∑ i : Fin 4096, adj k i * tScaled x W1 gamma var i j) + shift b1 gamma beta mean var j) 0
          * Wa (headOf q) j (classOf q))) + ba (headOf q) (classOf q))
      = outK x adj W1 b1 gamma beta mean var Wa ba := rfl

/-! ## The argument arrays as the specification's matrices -/

section Args

variable (m : (ℓ : Loc nD τ sig) → Buf (Elt Ideal) ℓ) (ρ : Dev nD → PrngReg) (c : Dev nD)

abbrev xA : Mat 4096 256 := mat2 (a := 4096) (b := 256) (m ((c : Thread nD τ).loc main_arg0))
abbrev adjA : Mat 4096 4096 := mat2 (a := 4096) (b := 4096) (m ((c : Thread nD τ).loc main_arg1))
abbrev w1A : Mat 256 32 := mat2 (a := 256) (b := 32) (m ((c : Thread nD τ).loc main_arg2))
abbrev b1A : Fin 32 → EReal := vec1 (a := 32) (m ((c : Thread nD τ).loc main_arg3))
abbrev gammaA : Fin 32 → EReal := vec1 (a := 32) (m ((c : Thread nD τ).loc main_arg4))
abbrev betaA : Fin 32 → EReal := vec1 (a := 32) (m ((c : Thread nD τ).loc main_arg5))
abbrev meanA : Fin 32 → EReal := vec1 (a := 32) (m ((c : Thread nD τ).loc main_arg6))
abbrev varA : Fin 32 → EReal := vec1 (a := 32) (m ((c : Thread nD τ).loc main_arg7))
abbrev waA : Fin 4 → Fin 32 → Fin 16 → EReal := ten3 (a := 4) (b := 32) (c := 16) (m ((c : Thread nD τ).loc main_arg8))
abbrev baA : Mat 4 16 := mat2 (a := 4) (b := 16) (m ((c : Thread nD τ).loc main_arg9))

/-! ## What the second call's operand windows find -/

/-- The adjacency is as launched. -/
theorem vin1_arg1 (n k : Fin 4096) : GcnMain.Vin1 m ρ c main_arg1 (ix2 n k) = adjA m c n k := by
  rw [GcnMain.Vin1_main_arg1_launch]; rfl

/-- The offset row is the specification's folded offset. -/
theorem vin1_v9 (j : Fin 32) :
    GcnMain.Vin1 m ρ c main_v9 (ix2 (0 : Fin 1) j) = shift (b1A m c) (gammaA m c) (betaA m c) (meanA m c) (varA m c) j := by
  rw [GcnMain.Vin1_main_v9]
  exact HostGlue.v9_apply (GcnMain.W0 m ρ c) j

/-- The joined head weights. -/
theorem vin1_v12 (j : Fin 32) (q : Fin 64) :
    GcnMain.Vin1 m ρ c main_v12 (ix2 j q) = waA m c (headOf q) j (classOf q) := by
  rw [GcnMain.Vin1_main_v12]
  exact HostGlue.v12_apply (GcnMain.W0 m ρ c) j q

/-- The joined biases. -/
theorem vin1_v13 (q : Fin 64) :
    GcnMain.Vin1 m ρ c main_v13 (ix2 (0 : Fin 1) q) = baA m c (headOf q) (classOf q) := by
  rw [GcnMain.Vin1_main_v13]
  exact HostGlue.v13_apply (GcnMain.W0 m ρ c) q

/-- The first call's output is the specification's scaled T, once its array is known to be the body's one store
    (hA0) of the three blocks the windows find (hb0, hb1, hb2). -/
theorem vin1_v16
    (hA0 : (Prep.dat0 (GcnMain.Vin0 m ρ) c).arrAt 3 cfg0.N
      = Prep.prepOut (Prep.blk (GcnMain.Vin0 m ρ) c 0 t0_0) (Prep.blk (GcnMain.Vin0 m ρ) c 1 t0_0) (Prep.blk (GcnMain.Vin0 m ρ) c 2 t0_0))
    (hb0 : Prep.blk (GcnMain.Vin0 m ρ) c 0 t0_0 = GcnMain.Vin0 m ρ c main_v14)
    (hb1 : Prep.blk (GcnMain.Vin0 m ρ) c 1 t0_0 = GcnMain.Vin0 m ρ c main_v15)
    (hb2 : Prep.blk (GcnMain.Vin0 m ρ) c 2 t0_0 = GcnMain.Vin0 m ρ c main_v4)
    (n : Fin 4096) (j : Fin 32) :
    GcnMain.Vin1 m ρ c main_v16 (ix2 n j) = tScaled (xA m c) (w1A m c) (gammaA m c) (varA m c) n j := by
  rw [GcnMain.Vin1_main_v16, hA0, hb0, hb1, hb2]
  refine (prepOut_apply _ _ _ n j).trans ?_
  unfold tScaled xw
  refine congrArg₂ (· * ·) (Finset.sum_congr rfl fun k _ => congrArg₂ (· * ·) ?_ ?_) ?_
  · exact HostGlue.v14_apply (GcnMain.W0 m ρ c) n k
  · exact HostGlue.v15_apply (GcnMain.W0 m ρ c) k j
  · exact HostGlue.v4_apply (GcnMain.W0 m ρ c) j

/-! ## The kernel's value -/

/-- The returned array, index by index, is what the specification says the kernel returns — given the two calls' arrays
    as their bodies' stores (hA0, hA1), the windows' blocks as the arrays the region finds (hb0 … hb2, ha, hx2 … hx5) and
    the model's output block as the log-softmax of the propagated projection (hV). -/
theorem kernel_value_of
    (hA0 : (Prep.dat0 (GcnMain.Vin0 m ρ) c).arrAt 3 cfg0.N
      = Prep.prepOut (Prep.blk (GcnMain.Vin0 m ρ) c 0 t0_0) (Prep.blk (GcnMain.Vin0 m ρ) c 1 t0_0) (Prep.blk (GcnMain.Vin0 m ρ) c 2 t0_0))
    (hb0 : Prep.blk (GcnMain.Vin0 m ρ) c 0 t0_0 = GcnMain.Vin0 m ρ c main_v14)
    (hb1 : Prep.blk (GcnMain.Vin0 m ρ) c 1 t0_0 = GcnMain.Vin0 m ρ c main_v15)
    (hb2 : Prep.blk (GcnMain.Vin0 m ρ) c 2 t0_0 = GcnMain.Vin0 m ρ c main_v4)
    (hA1 : (GcnKit.dat1 (GcnMain.Vin1 m ρ) c).arrAt 5 cfg1.N
      = GcnModel.outModel (GcnKit.aOf (GcnMain.Vin1 m ρ) c) (GcnKit.x2Of (GcnMain.Vin1 m ρ) c) (GcnKit.x3Of (GcnMain.Vin1 m ρ) c)
          (GcnKit.x4Of (GcnMain.Vin1 m ρ) c) (GcnKit.x5Of (GcnMain.Vin1 m ρ) c))
    (ha : ∀ (i : Fin 8) (r : Fin 512) (k : Fin 4096),
      GcnKit.aOf (GcnMain.Vin1 m ρ) c i (ix2 r k) = GcnMain.Vin1 m ρ c main_arg1 (ix2 (⟨i.val * 512 + r.val, by omega⟩ : Fin 4096) k))
    (hx2 : ∀ (k : Fin 4096) (j : Fin 32), GcnKit.x2Of (GcnMain.Vin1 m ρ) c (ix2 k j) = GcnMain.Vin1 m ρ c main_v16 (ix2 k j))
    (hx3 : ∀ j : Fin 32, GcnKit.x3Of (GcnMain.Vin1 m ρ) c (ix2 (0 : Fin 1) j) = GcnMain.Vin1 m ρ c main_v9 (ix2 (0 : Fin 1) j))
    (hx4 : ∀ (j : Fin 32) (q : Fin 64), GcnKit.x4Of (GcnMain.Vin1 m ρ) c (ix2 j q) = GcnMain.Vin1 m ρ c main_v12 (ix2 j q))
    (hx5 : ∀ q : Fin 64, GcnKit.x5Of (GcnMain.Vin1 m ρ) c (ix2 (0 : Fin 1) q) = GcnMain.Vin1 m ρ c main_v13 (ix2 (0 : Fin 1) q))
    (hV : ∀ (adj : Mat 4096 4096) (T : Mat 4096 32) (cv : Fin 32 → EReal) (Wc : Mat 32 64) (bv : Fin 64 → EReal)
        (a : Fin 8 → Vec Ideal S512x4096 .f32) (x2 : Vec Ideal S4096x32 .bf16) (x3 : Vec Ideal S1x32 .f32)
        (x4 : Vec Ideal S32x64 .bf16) (x5 : Vec Ideal S1x64 .f32),
        (∀ (i : Fin 8) (r : Fin 512) (k : Fin 4096), a i (ix2 r k) = adj ⟨i.val * 512 + r.val, by omega⟩ k) →
        (∀ (k : Fin 4096) (j : Fin 32), x2 (ix2 k j) = T k j) → (∀ j : Fin 32, x3 (ix2 (0 : Fin 1) j) = cv j) →
        (∀ (j : Fin 32) (q : Fin 64), x4 (ix2 j q) = Wc j q) → (∀ q : Fin 64, x5 (ix2 (0 : Fin 1) q) = bv q) →
        ∀ (n : Fin 4096) (q : Fin 64), GcnModel.outModel a x2 x3 x4 x5 (ix2 n q)
          = logSoftmax (fun n q => (∑ k : Fin 4096, adj n k *
              (∑ j : Fin 32, max ((∑ i : Fin 4096, adj k i * T i j) + cv j) 0 * Wc j q)) + bv q) n q)
    (n : Fin 4096) (q : Fin 64) :
    (GcnKit.dat1 (GcnMain.Vin1 m ρ) c).arrAt 5 cfg1.N (ix2 n q)
      = outK (xA m c) (adjA m c) (w1A m c) (b1A m c) (gammaA m c) (betaA m c) (meanA m c) (varA m c) (waA m c) (baA m c) n q := by
  rw [hA1]
  refine (hV (adjA m c) (tScaled (xA m c) (w1A m c) (gammaA m c) (varA m c))
    (shift (b1A m c) (gammaA m c) (betaA m c) (meanA m c) (varA m c))
    (fun j q => waA m c (headOf q) j (classOf q)) (fun q => baA m c (headOf q) (classOf q)) _ _ _ _ _
    (fun i r k => (ha i r k).trans (vin1_arg1 m ρ c _ k))
    (fun k j => (hx2 k j).trans (vin1_v16 m ρ c hA0 hb0 hb1 hb2 k j))
    (fun j => (hx3 j).trans (vin1_v9 m ρ c j))
    (fun j q => (hx4 j q).trans (vin1_v12 m ρ c j q))
    (fun q => (hx5 q).trans (vin1_v13 m ρ c q)) n q).trans ?_
  exact congrFun (congrFun (outK_eq (xA m c) (adjA m c) (w1A m c) (b1A m c) (gammaA m c) (betaA m c) (meanA m c) (varA m c)
    (waA m c) (baA m c)) n) q

end Args

end Cert.KernelIdeal.KernelValue

end
-- ==== Proof.SpecLaws.lean ====
/-
  The algebra that joins the two hidden layers.

  The reference normalises after the propagation,  ((Σₖ aₖ tₖ + b − μ) / q) · γ + β  with  q = √(v + ε) ; the kernel
  scales the columns first and folds the offset,  Σₖ aₖ (tₖ · (γ / q)) + ((b − μ) · (γ / q) + β) .  Over the reals,
  with q a positive real, the two are one number:  division by q is multiplication by 1/q, and the factor γ · (1/q)
  moves through the finite sum.  Over the extended reals this needs every entry to be a real number: then each side is
  the coercion of a real expression and the identity is checked in ℝ.
-/
import proofs.«150466_g82282983457293_cont_9to1_m_405_12_alg».proof.Proof.Spec
import Mathlib.Tactic

noncomputable section

namespace Cert.Gcn

open Idealize.ShloMosaic

/-- ε's pattern: sign 0, exponent field 110, fraction 2606508, so ε = (2²³ + 2606508) · 2^(110 − 127 − 23)
    = 10995116 · 2⁻⁴⁰, a positive real (about 10⁻⁵). -/
theorem eps_pos : ∃ e : ℝ, eps = (e : EReal) ∧ 0 < e := by
  refine ⟨(10995116 : ℝ) * (2 : ℝ) ^ (-40 : ℤ), ?_, by positivity⟩
  simp [eps, Ideal.ofBits, Ideal.ieee, -EReal.coe_mul]

/-- The coercion ℝ → EReal commutes with a finite sum (it commutes with addition and sends 0 to 0). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two hidden layers agree when every input is a real number and the variance is non-negative. -/
theorem hid_eq (x : Mat 4096 256) (adj : Mat 4096 4096) (W1 : Mat 256 32) (b1 gamma beta mean var : Fin 32 → EReal)
    (hx : ∀ n k, ∃ r : ℝ, x n k = (r : EReal)) (hadj : ∀ n k, ∃ r : ℝ, adj n k = (r : EReal))
    (hW1 : ∀ k j, ∃ r : ℝ, W1 k j = (r : EReal))
    (hb1 : ∀ j, ∃ r : ℝ, b1 j = (r : EReal)) (hgamma : ∀ j, ∃ r : ℝ, gamma j = (r : EReal))
    (hbeta : ∀ j, ∃ r : ℝ, beta j = (r : EReal))
    (hmean : ∀ j, ∃ r : ℝ, mean j = (r : EReal)) (hvar : ∀ j, ∃ r : ℝ, var j = (r : EReal) ∧ 0 ≤ r) :
    hidK x adj W1 b1 gamma beta mean var = hidR x adj W1 b1 gamma beta mean var := by
  choose xr hxr using hx
  choose ar har using hadj
  choose wr hwr using hW1
  choose br hbr using hb1
  choose gr hgr using hgamma
  choose cr hcr using hbeta
  choose mr hmr using hmean
  choose vr hvr using hvar
  obtain ⟨e, he, hepos⟩ := eps_pos
  funext n j
  -- T = x · W₁ is a matrix of reals
  have hxw : ∀ k, xw x W1 k j = ((∑ i, xr k i * wr i j : ℝ) : EReal) := by
    intro k
    unfold xw
    rw [coe_sum]
    refine Finset.sum_congr rfl (fun i _ => ?_)
    rw [hxr, hwr, EReal.coe_mul]
  -- q = √(v + ε) is a positive real
  have hve : 0 < vr j + e := by linarith [(hvr j).2]
  have hq : Ideal.sqrt (var j + eps) = ((Real.sqrt (vr j + e) : ℝ) : EReal) := by
    rw [(hvr j).1, he, ← EReal.coe_add, Ideal.sqrt_coe, if_neg (not_lt.mpr hve.le)]
  have hqpos : 0 < Real.sqrt (vr j + e) := Real.sqrt_pos.mpr hve
  -- each side is the coercion of a real expression
  have hK : (∑ k : Fin 4096, adj n k * tScaled x W1 gamma var k j) + shift b1 gamma beta mean var j
      = (((∑ k : Fin 4096, ar n k * ((∑ i, xr k i * wr i j) * (gr j * (1 / Real.sqrt (vr j + e)))))
          + ((br j - mr j) * (gr j * (1 / Real.sqrt (vr j + e))) + cr j) : ℝ) : EReal) := by
    unfold tScaled shift scale
    rw [hq, Ideal.div_coe hqpos.ne', hgr, hbr, hmr, hcr]
    have h1 : (∑ k : Fin 4096, adj n k * (xw x W1 k j * ((gr j : EReal) * ((1 / Real.sqrt (vr j + e) : ℝ) : EReal))))
        = ∑ k : Fin 4096,
            ((ar n k * ((∑ i, xr k i * wr i j) * (gr j * (1 / Real.sqrt (vr j + e)))) : ℝ) : EReal) := by
      refine Finset.sum_congr rfl (fun k _ => ?_)
      rw [har, hxw, ← EReal.coe_mul, ← EReal.coe_mul, ← EReal.coe_mul]
    rw [h1, ← coe_sum, ← EReal.coe_sub, ← EReal.coe_mul, ← EReal.coe_mul, ← EReal.coe_add, ← EReal.coe_add]
  have hR : Ideal.div (((∑ k : Fin 4096, adj n k * xw x W1 k j) + b1 j) - mean j) (Ideal.sqrt (var j + eps))
        * gamma j + beta j
      = (((((∑ k : Fin 4096, ar n k * (∑ i, xr k i * wr i j)) + br j) - mr j) * (1 / Real.sqrt (vr j + e))
          * gr j + cr j : ℝ) : EReal) := by
    have hS : (∑ k : Fin 4096, adj n k * xw x W1 k j)
        = ((∑ k : Fin 4096, ar n k * (∑ i, xr k i * wr i j) : ℝ) : EReal) := by
      rw [coe_sum]
      refine Finset.sum_congr rfl (fun k _ => ?_)
      rw [har, hxw, ← EReal.coe_mul]
    rw [hq, Ideal.div_coe hqpos.ne', hS, hgr, hbr, hmr, hcr, ← EReal.coe_add, ← EReal.coe_sub, ← EReal.coe_mul,
      ← EReal.coe_mul, ← EReal.coe_add]
  show max ((∑ k : Fin 4096, adj n k * tScaled x W1 gamma var k j) + shift b1 gamma beta mean var j) 0
      = max (Ideal.div (((∑ k : Fin 4096, adj n k * xw x W1 k j) + b1 j) - mean j) (Ideal.sqrt (var j + eps))
        * gamma j + beta j) 0
  rw [hK, hR]
  refine congrArg (fun t : ℝ => max (t : EReal) 0) ?_
  -- the identity in ℝ: the factor γ · (1/q) moves through the sum
  have hsum : (∑ k : Fin 4096, ar n k * ((∑ i, xr k i * wr i j) * (gr j * (1 / Real.sqrt (vr j + e)))))
      = (∑ k : Fin 4096, ar n k * (∑ i, xr k i * wr i j)) * (gr j * (1 / Real.sqrt (vr j + e))) := by
    rw [Finset.sum_mul]
    refine Finset.sum_congr rfl (fun k _ => ?_)
    ring
  rw [hsum]
  ring

/-- Hence the two programs' outputs, as mathematics, agree under the same hypotheses. -/
theorem out_eq (x : Mat 4096 256) (adj : Mat 4096 4096) (W1 : Mat 256 32) (b1 gamma beta mean var : Fin 32 → EReal)
    (Wa : Fin 4 → Fin 32 → Fin 16 → EReal) (ba : Fin 4 → Fin 16 → EReal)
    (hx : ∀ n k, ∃ r : ℝ, x n k = (r : EReal)) (hadj : ∀ n k, ∃ r : ℝ, adj n k = (r : EReal))
    (hW1 : ∀ k j, ∃ r : ℝ, W1 k j = (r : EReal))
    (hb1 : ∀ j, ∃ r : ℝ, b1 j = (r : EReal)) (hgamma : ∀ j, ∃ r : ℝ, gamma j = (r : EReal))
    (hbeta : ∀ j, ∃ r : ℝ, beta j = (r : EReal))
    (hmean : ∀ j, ∃ r : ℝ, mean j = (r : EReal)) (hvar : ∀ j, ∃ r : ℝ, var j = (r : EReal) ∧ 0 ≤ r) :
    outK x adj W1 b1 gamma beta mean var Wa ba = outR x adj W1 b1 gamma beta mean var Wa ba := by
  unfold outK outR
  rw [hid_eq x adj W1 b1 gamma beta mean var hx hadj hW1 hb1 hgamma hbeta hmean hvar]

/-! ## Sums over 4096 indices, cut into 8 blocks of 512

  Only commutativity and associativity of addition are used, so nothing here asks the summands to be finite. -/

/-- A sum over 4096 indices is the sum over the 8 blocks of the sums over the 512 entries of each block:
    (b, l) ↦ b · 512 + l  is a bijection  Fin 8 × Fin 512 → Fin 4096 . -/
theorem sum_blocks (f : Fin 4096 → EReal) :
    (∑ k : Fin 4096, f k) = ∑ b : Fin 8, ∑ l : Fin 512, f ⟨b.val * 512 + l.val, by omega⟩ := by
  have h := Equiv.sum_comp (finProdFinEquiv (m := 8) (n := 512)) f
  rw [← h, Fintype.sum_prod_type]
  refine Finset.sum_congr rfl (fun b _ => Finset.sum_congr rfl (fun l _ => ?_))
  refine congrArg f (Fin.ext ?_)
  show l.val + 512 * b.val = b.val * 512 + l.val
  omega

/-- If every block outside a set p of blocks contributes zeros, only the blocks in p remain. -/
theorem sum_blocks_of_zero (f : Fin 4096 → EReal) (p : Fin 8 → Prop) [DecidablePred p]
    (hf : ∀ (b : Fin 8) (l : Fin 512), ¬ p b → f ⟨b.val * 512 + l.val, by omega⟩ = 0) :
    (∑ k : Fin 4096, f k)
      = ∑ b ∈ Finset.univ.filter p, ∑ l : Fin 512, f ⟨b.val * 512 + l.val, by omega⟩ := by
  rw [sum_blocks, Finset.sum_filter]
  refine Finset.sum_congr rfl (fun b _ => ?_)
  by_cases hb : p b
  · rw [if_pos hb]
  · rw [if_neg hb]
    exact Finset.sum_eq_zero (fun l _ => hf b l hb)

/-- A product sum whose second factor vanishes from index  j · 512  on keeps only the blocks below j
    ( a · 0 = 0  for every extended real a, an infinity included). -/
theorem sum_mul_blocks_lt (a g : Fin 4096 → EReal) (j : ℕ)
    (hg : ∀ k : Fin 4096, j * 512 ≤ k.val → g k = 0) :
    (∑ k : Fin 4096, a k * g k)
      = ∑ b ∈ Finset.univ.filter (fun b : Fin 8 => b.val < j),
          ∑ l : Fin 512, a ⟨b.val * 512 + l.val, by omega⟩ * g ⟨b.val * 512 + l.val, by omega⟩ := by
  refine sum_blocks_of_zero (fun k => a k * g k) (fun b : Fin 8 => b.val < j) (fun b l hb => ?_)
  have hjb : j ≤ b.val := not_lt.mp hb
  have hk : j * 512 ≤ b.val * 512 + l.val := by
    have := Nat.mul_le_mul_right 512 hjb
    omega
  show a ⟨b.val * 512 + l.val, _⟩ * g ⟨b.val * 512 + l.val, _⟩ = 0
  rw [hg ⟨b.val * 512 + l.val, _⟩ hk, mul_zero]

/-- The blocks below i and the blocks from i on make up all eight. -/
theorem sum_blocks_lt_add_ge (F : Fin 8 → EReal) (i : ℕ) :
    (∑ b ∈ Finset.univ.filter (fun b : Fin 8 => b.val < i), F b)
      + (∑ b ∈ Finset.univ.filter (fun b : Fin 8 => i ≤ b.val), F b) = ∑ b : Fin 8, F b := by
  have h := Finset.sum_filter_add_sum_filter_not (Finset.univ : Finset (Fin 8)) (fun b : Fin 8 => b.val < i) F
  rw [← h]
  refine congrArg (fun t => (∑ b ∈ Finset.univ.filter (fun b : Fin 8 => b.val < i), F b) + t) ?_
  refine Finset.sum_congr ?_ (fun _ _ => rfl)
  refine Finset.filter_congr (fun b _ => ?_)
  exact not_lt.symm

end Cert.Gcn

end
-- ==== Proof.PreFacts.lean ====
/-
  From the precondition to plain facts about the ten argument arrays.

  The precondition is a conjunction of eleven statements, each "for every index": for each of the ten float arrays,
  |x| < +∞ at every entry; and for the variance array, x ≥ 0 at every entry.  Over the extended reals, |x| is
  max x (−x), which is +∞ exactly at the two infinities; so |x| < +∞ says that x is (the image of) a real number,
  and then x ≥ 0 says that this real is non-negative.
-/
import proofs.«150466_g82282983457293_cont_9to1_m_405_12_alg».proof.Pre_finite_inputs
import proofs.«150466_g82282983457293_cont_9to1_m_405_12_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.Gcn.PreFacts

open Idealize.ShloMosaic Idealize.ShloMosaic.ValueIdx Cert.Pre_finite_inputs

/-- The f32 pattern with all exponent bits set and a zero significand denotes +∞. -/
theorem ofBits_inf_f32 : Ideal.ofBits .f32 0x7F800000#32 = (⊤ : EReal) := by
  simp [Ideal.ofBits, Ideal.ieee]

/-- A one-bit word made from a truth value is 1 exactly when the value is true. -/
theorem ofBool_eq_one (b : Bool) : BitVec.ofBool b = 1#1 ↔ b = true := by cases b <;> decide

/-- |x| < +∞ for an extended real x means x is a real number: at either infinity max x (−x) = +∞. -/
theorem real_of_abs_lt (x : EReal)
    (h : Ideal.cmp .olt (max x (-x)) (Ideal.ofBits .f32 0x7F800000#32) = 1#1) : ∃ r : ℝ, x = (r : EReal) := by
  rw [ofBits_inf_f32] at h
  unfold Ideal.cmp at h
  rw [ofBool_eq_one] at h
  simp only [decide_eq_true_eq] at h
  induction x using EReal.rec with
  | bot => simp at h
  | top => simp at h
  | coe r => exact ⟨r, rfl⟩

/-- A real whose image is ≥ the zero pattern's value is non-negative. -/
theorem nonneg_of_ge (r : ℝ)
    (h : Ideal.cmp .oge (r : EReal) (Ideal.ofBits .f32 0x00000000#32) = 1#1) : 0 ≤ r := by
  rw [Ideal.ofBits_zero_f32] at h
  unfold Ideal.cmp at h
  rw [ofBool_eq_one] at h
  simp only [decide_eq_true_eq] at h
  exact_mod_cast h

/-- The scalar shape has a single index. -/
instance : Subsingleton S_.Idx := ⟨fun a b => funext fun d => d.elim0⟩

/-- The precondition, read back: every entry of every array is a real number, and every variance is a non-negative real.
    The eleven conjuncts are separated; each "for all indices" is read at one index; the element statement is then
    one of the two lemmas above. -/
theorem facts_of_pre [Facts]
    (a0 : FVec Ideal S4096x256 .f32) (a1 : FVec Ideal S4096x4096 .f32) (a2 : FVec Ideal S256x32 .f32)
    (a3 a4 a5 a6 a7 : FVec Ideal S32 .f32) (a8 : FVec Ideal S4x32x16 .f32) (a9 : FVec Ideal S4x16 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal) ∧ 0 ≤ r) ∧
    (∀ i, ∃ r : ℝ, a8 i = (r : EReal)) ∧ (∀ i, ∃ r : ℝ, a9 i = (r : EReal)) := by
  have h0 := congrFun h ix0
  dsimp only [fn, fn_part1, fn_part2, fn_part3] at h0
  simp only [andi, IntOp.andi_eq_one] at h0
  obtain ⟨⟨⟨⟨⟨⟨⟨⟨⟨⟨e0, e1⟩, e2⟩, e3⟩, e4⟩, e5⟩, e6⟩, e7⟩, e8⟩, e9⟩, e10⟩ := h0
  refine ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i),
    fun i => real_of_abs_lt _ (Host.reduce_andi_all _ _ _ _ _ e6 i),
    fun i => ?_,
    fun i => real_of_abs_lt _ (Host.reduce_andi_all _ _ _ _ _ e8 i),
    fun i => real_of_abs_lt _ (Host.reduce_andi_all _ _ _ _ _ e9 i)⟩
  -- the variance: finite by its own conjunct, then the comparison with zero is a comparison of reals
  obtain ⟨r, hr⟩ := real_of_abs_lt _ (Host.reduce_andi_all _ _ _ _ _ e7 i)
  have g : Ideal.cmp .oge (a7 i) (Ideal.ofBits .f32 0x00000000#32) = 1#1 := Host.reduce_andi_all _ _ _ _ _ e10 i
  rw [hr] at g
  exact ⟨r, hr, nonneg_of_ge r g⟩

open Cert.Gcn in
/-- The same facts about the arrays read as matrices, vectors and a family of matrices: each is the statement above
    at the index with the given coordinates. -/
theorem spec_facts_of_pre [Facts]
    (a0 : FVec Ideal S4096x256 .f32) (a1 : FVec Ideal S4096x4096 .f32) (a2 : FVec Ideal S256x32 .f32)
    (a3 a4 a5 a6 a7 : FVec Ideal S32 .f32) (a8 : FVec Ideal S4x32x16 .f32) (a9 : FVec Ideal S4x16 .f32)
    (h : Cert.Pre_finite_inputs.fn (F := Ideal) a0 a1 a2 a3 a4 a5 a6 a7 a8 a9 = fun _ => 1#1) :
    (∀ n k, ∃ r : ℝ, mat2 a0 n k = (r : EReal)) ∧ (∀ n k, ∃ r : ℝ, mat2 a1 n k = (r : EReal)) ∧
    (∀ k j, ∃ r : ℝ, mat2 a2 k j = (r : EReal)) ∧ (∀ j, ∃ r : ℝ, vec1 a3 j = (r : EReal)) ∧
    (∀ j, ∃ r : ℝ, vec1 a4 j = (r : EReal)) ∧ (∀ j, ∃ r : ℝ, vec1 a5 j = (r : EReal)) ∧
    (∀ j, ∃ r : ℝ, vec1 a6 j = (r : EReal)) ∧ (∀ j, ∃ r : ℝ, vec1 a7 j = (r : EReal) ∧ 0 ≤ r) ∧
    (∀ a j c, ∃ r : ℝ, ten3 a8 a j c = (r : EReal)) ∧ (∀ a c, ∃ r : ℝ, mat2 a9 a c = (r : EReal)) := by
  obtain ⟨f0, f1, f2, f3, f4, f5, f6, f7, f8, f9⟩ := facts_of_pre a0 a1 a2 a3 a4 a5 a6 a7 a8 a9 h
  exact ⟨fun n k => f0 (ix2 n k), fun n k => f1 (ix2 n k), fun k j => f2 (ix2 k j), fun j => f3 (ix1 j),
    fun j => f4 (ix1 j), fun j => f5 (ix1 j), fun j => f6 (ix1 j), fun j => f7 (ix1 j),
    fun a j c => f8 (ix3 a j c), fun a c => f9 (ix2 a c)⟩

end Cert.Gcn.PreFacts

end
-- ==== Proof.GcnRun0Bits.lean ====
/- scratch/gen_cases.js bits GcnRun0 — proof/Proof/GcnRun0Ideal.lean with the namespace Cert.KernelIdeal replaced by Cert.Kernel (the word-level program's copy) -/
/-
  The streamed pass's body at grid point 0: the first conditional taken (the point is the first: the projection scratch is zero-filled), the accumulation taken for row block 0 only.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseBits
import Idealize.ShloMosaic.Lib.Pipeline.FrameBody
import Idealize.ShloMosaic.Lib.Ring
import Idealize.ShloMosaic.Lib.Tactic

set_option maxRecDepth 16384

noncomputable section

namespace Cert.Kernel.GcnRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run0 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : cond1 i) (hc2 : k1_cond2 i = 1#1) (hc3 : ¬ k1_cond3 i = 1#1) (hc4 : ¬ k1_cond4 i = 1#1) (hc5 : ¬ k1_cond5 i = 1#1) (hc6 : ¬ k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.Kernel.GcnRun

end
-- ==== Proof.GcnReadBits.lean ====
/- scratch/gen_cases.js bits GcnRead — proof/Proof/GcnReadIdeal.lean with the namespace Cert.KernelIdeal replaced by Cert.Kernel (the word-level program's copy) -/
/-
  A whole scratch buffer reads its contents back, in the spelling the body's run leaves (the buffer's view unfolded).
-/
import proofs.«150466_g82282983457293_cont_9to1_m_405_12_alg».proof.Proof.GcnModelBits

noncomputable section

namespace Cert.Kernel.GcnModel

open Cert.Kernel Cert.Kernel.Gen
open Idealize.ShloMosaic Idealize.ShloMosaic.TcCoe

variable {F : FTy → Type} [FloatOps F]

theorem read_unread7 (xs : Vec F S8x4096x512 .bf16) : View.read (Elt F) (View.whole cc1_scratch0) (h7.unread xs) = xs := h7.read_unread xs
theorem read_unread8 (xs : Vec F S4096x64 .bf16) : View.read (Elt F) (View.whole cc1_scratch1) (h8.unread xs) = xs := h8.read_unread xs
theorem read_unread9 (xs : Vec F S4096x64 .f32) : View.read (Elt F) (View.whole cc1_scratch2) (h9.unread xs) = xs := h9.read_unread xs

end Cert.Kernel.GcnModel

end
-- ==== Proof.GcnWit0Bits.lean ====
/- scratch/gen_cases.js bits GcnWit0 — proof/Proof/GcnWit0Ideal.lean with the namespace Cert.KernelIdeal replaced by Cert.Kernel (the word-level program's copy) -/
/-
  The stores the body's run finds at grid point 0 are the model's: the same rectangles (the offsets computed from the
  grid coordinate are the literal ones) carrying the same arithmetic of the operand blocks and of the scratch contents.
-/
import proofs.«150466_g82282983457293_cont_9to1_m_405_12_alg».proof.Proof.GcnRun0Bits
import proofs.«150466_g82282983457293_cont_9to1_m_405_12_alg».proof.Proof.GcnKitBits
import proofs.«150466_g82282983457293_cont_9to1_m_405_12_alg».proof.Proof.GcnReadBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.Sem

variable {F : FTy → Type} [FloatOps F]

set_option maxHeartbeats 4000000 in
theorem run0_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : cond1 (grid1.coords (pt 0))) (hc2 : k1_cond2 (grid1.coords (pt 0)) = 1#1) (hc3 : ¬ k1_cond3 (grid1.coords (pt 0)) = 1#1) (hc4 : ¬ k1_cond4 (grid1.coords (pt 0)) = 1#1) (hc5 : ¬ k1_cond5 (grid1.coords (pt 0)) = 1#1) (hc6 : ¬ k1_cond6 (grid1.coords (pt 0)) = 1#1) (hc7 : ¬ k1_cond7 (grid1.coords (pt 0)) = 1#1) (hc8 : ¬ k1_cond8 (grid1.coords (pt 0)) = 1#1) (hc9 : ¬ k1_cond9 (grid1.coords (pt 0)) = 1#1) (hc10 : ¬ k1_cond10 (grid1.coords (pt 0)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run0 c (grid1.coords (pt 0)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 0 x1
    ∧ (run0 c (grid1.coords (pt 0)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 0 (projOf x1 x2 x3 x4)
    ∧ (run0 c (grid1.coords (pt 0)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 0 (projOf x1 x2 x3 x4) (freshOf x1 (pSeen 0 xs8)) (upd7 xs7 (L7 0 x1)) xs9 := by
  unfold run0
  dsimp only
  sl_unfold_run_names
  simp only [View.readAt_eq_ld, Memref.IsWhole.read_unread, View.readCov_eq_canon', read_unread7, read_unread8, read_unread9]
  refine ⟨?_, ?_, ?_⟩ <;> sl_kernel_rfl

end Cert.Kernel.GcnKit

end
-- ==== Proof.GcnPostBits.lean ====
/- scratch/gen_cases.js bits GcnPost — proof/Proof/GcnPostIdeal.lean with the namespace Cert.KernelIdeal replaced by Cert.Kernel (the word-level program's copy) -/
/-
  The body obligation of the streamed pass, stated: what the body is called with at a point and what it must return;
  and that the four unmoving operands' blocks are the same at every point.
-/
import proofs.«150466_g82282983457293_cont_9to1_m_405_12_alg».proof.Proof.GcnKitBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four operands whose block index does not move read the same block at every point. -/
theorem blk1_1_const (c : Dev nD) (j : Fin 8) : blk1 V c 1 (pt j) = x2Of V c := by fin_cases j <;> rfl
theorem blk1_2_const (c : Dev nD) (j : Fin 8) : blk1 V c 2 (pt j) = x3Of V c := by fin_cases j <;> rfl
theorem blk1_3_const (c : Dev nD) (j : Fin 8) : blk1 V c 3 (pt j) = x4Of V c := by fin_cases j <;> rfl
theorem blk1_4_const (c : Dev nD) (j : Fin 8) : blk1 V c 4 (pt j) = x5Of V c := by fin_cases j <;> rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- A scratch buffer left at `writes (unread xs) L` is owned at the model's `upd` of it. -/
theorem owns_upd7 (c : Dev nD) (xs : Vec F S8x4096x512 .bf16) (L : List (View.Piece (Elt F) S8x4096x512 .bf16)) :
    (scM7.view.loc (c : Thread nD τ) ↦[scM7.view.set]{fullShare} scM7.view.writes (Elt F) (h7.unread xs) L : sProp 𝕄)
      ⊢ owns (c : Thread nD τ) scM7 fullShare (upd7 xs L) := by
  unfold owns upd7; iintro H; iexists _; isplitr; · ipureintro; rfl
  iexact H
theorem owns_upd8 (c : Dev nD) (xs : Vec F S4096x64 .bf16) (L : List (View.Piece (Elt F) S4096x64 .bf16)) :
    (scM8.view.loc (c : Thread nD τ) ↦[scM8.view.set]{fullShare} scM8.view.writes (Elt F) (h8.unread xs) L : sProp 𝕄)
      ⊢ owns (c : Thread nD τ) scM8 fullShare (upd8 xs L) := by
  unfold owns upd8; iintro H; iexists _; isplitr; · ipureintro; rfl
  iexact H
theorem owns_upd9 (c : Dev nD) (xs : Vec F S4096x64 .f32) (L : List (View.Piece (Elt F) S4096x64 .f32)) :
    (scM9.view.loc (c : Thread nD τ) ↦[scM9.view.set]{fullShare} scM9.view.writes (Elt F) (h9.unread xs) L : sProp 𝕄)
      ⊢ owns (c : Thread nD τ) scM9 fullShare (upd9 xs L) := by
  unfold owns upd9; iintro H; iexists _; isplitr; · ipureintro; rfl
  iexact H

end Cert.Kernel.GcnKit

end
-- ==== Proof.GcnStepBits.lean ====
/- scratch/gen_cases.js bits GcnStep — proof/Proof/GcnStepIdeal.lean with the namespace Cert.KernelIdeal replaced by Cert.Kernel (the word-level program's copy) -/
/-
  The streamed pass, one grid point at a time: what each scratch buffer reads after the stores of a point.

  A list of stores is read newest first: a load through the newest store's own rectangle reads that store's payload,
  a load through a rectangle disjoint from it reads what the older stores left, and with no store at all a whole buffer
  reads its contents back.  Every rectangle here is a block of consecutive rows (of a 4096 × 64 buffer) or a
  512 × 512 slab (of the 8 × 4096 × 512 slab scratch); two of them with different block indices are disjoint along
  the axis that carries the index.  From these three facts:
    • the slab scratch after point n holds the slabs of the row blocks 0 … n;
    • the projection scratch after point n is the recursion's value;
    • the accumulator after point n holds, in the rows of every block b ≤ n, the fresh product (b = n) or the earlier
      sum (b < n), plus the slab of row block b times the projection of point n;
    • the output block is the row blocks' log-softmax of the finished accumulator.
-/
import proofs.«150466_g82282983457293_cont_9to1_m_405_12_alg».proof.Proof.GcnInvBits
import Idealize.ShloMosaic.Lib.Writes
import Idealize.ShloMosaic.Lib.WritesUnit
import Idealize.ShloMosaic.Lib.Pipeline.FrameBody
import Idealize.ShloMosaic.Lib.Pipeline.Value

noncomputable section

namespace Cert.Kernel.GcnModel

open Cert.Kernel Cert.Kernel.Gen
open Idealize.ShloMosaic Idealize.ShloMosaic.TcCoe

/-! ## A list of stores read through a rectangle, newest first -/

section Generic

variable {sg : RefSig} {κ : Kind} {sp : Space} {s : Shape} {e : EltTy} {Val : EltTy → Type}
variable (v : View sg κ sp s e) (f : v.ty.Contents Val)

/-- A load through the newest store's own rectangle reads its payload. -/
theorem ld_cons_self (r : Rect s) (w : r.shape.Idx → Val e) (L : List (View.Piece Val s e)) :
    View.ld (v.read Val (v.writes Val f (⟨r, w⟩ :: L))) r = w :=
  funext fun x => View.read_writes_cons_emb v f r w L x

/-- A load through a rectangle disjoint from the newest store's reads what the older stores left. -/
theorem ld_cons_of_disjoint (p : View.Piece Val s e) (L : List (View.Piece Val s e)) (r : Rect s)
    (h : Disjoint p.1.set r.set) :
    View.ld (v.read Val (v.writes Val f (p :: L))) r = View.ld (v.read Val (v.writes Val f L)) r :=
  funext fun x => by
    show v.read Val (v.writes Val f (p :: L)) (r.idx x) = v.read Val (v.writes Val f L) (r.idx x)
    rw [View.writes_cons]
    exact View.read_slice_write_of_not_mem p.1 _ _ _ (by
      rw [Rect.map_emb_univ]
      exact Finset.disjoint_right.mp h (r.idx_mem x))

end Generic

variable {F : FTy → Type} [FloatOps F]

/-! ## The accumulator and the projection scratch: blocks of rows of a 4096 × 64 buffer -/

/-- Two different row blocks are disjoint. -/
theorem rowsR_disjoint (b b' : Fin 8) (h : b ≠ b') : Disjoint (rowsR b).set (rowsR b').set :=
  Rect.unit_disjoint (0 : Fin 2) (by
    have : b.val ≠ b'.val := fun e => h (Fin.ext e)
    show b.val * 512 + 512 ≤ b'.val * 512 ∨ b'.val * 512 + 512 ≤ b.val * 512
    omega)

theorem upd9_nil (xs : Vec F S4096x64 .f32) : upd9 xs [] = xs := h9.read_unread xs

theorem ld_upd9_cons_self (xs : Vec F S4096x64 .f32) (r : Rect S4096x64) (w : r.shape.Idx → Elt F .f32)
    (L : List (View.Piece (Elt F) S4096x64 .f32)) : View.ld (upd9 xs (⟨r, w⟩ :: L)) r = w :=
  ld_cons_self _ _ r w L

theorem ld_upd9_cons_of_disjoint (xs : Vec F S4096x64 .f32) (r' : Rect S4096x64) (w : r'.shape.Idx → Elt F .f32)
    (L : List (View.Piece (Elt F) S4096x64 .f32)) (r : Rect S4096x64) (h : Disjoint r'.set r.set) :
    View.ld (upd9 xs (⟨r', w⟩ :: L)) r = View.ld (upd9 xs L) r :=
  ld_cons_of_disjoint _ _ ⟨r', w⟩ L r h

/-! ## The accumulator after a point -/

section Acc

variable (a : Fin 8 → Vec F S512x4096 .f32) (x2 : Vec F S4096x32 .bf16) (x3 : Vec F S1x32 .f32) (x4 : Vec F S32x64 .bf16)
  (x5 : Vec F S1x64 .f32)

/-- The accumulation into row block b, b < 8, is one more store, of the block's rows as they stand plus the product. -/
theorem L9upto_succ (j : Fin 8) (pjv : FVec F S512x64 .bf16) (fresh : FVec F S512x64 .f32) (s7 : Vec F S8x4096x512 .bf16)
    (xs9 : Vec F S4096x64 .f32) (b : ℕ) (hb : b < 8) :
    L9upto j pjv fresh s7 xs9 (b + 1)
      = ⟨rowsR ⟨b, hb⟩, accOf ⟨b, hb⟩ pjv (View.ld s7 (slabR j ⟨b, hb⟩))
            (View.ld (upd9 xs9 (L9upto j pjv fresh s7 xs9 b)) (rowsR ⟨b, hb⟩))⟩ :: L9upto j pjv fresh s7 xs9 b := by
  rw [L9upto, dif_pos hb]

/-- Along the accumulations of point n: after those into the row blocks below b', every row block below b' holds its
    sum, and every other row block holds the fresh product (block n) or what it held before the point. -/
theorem acc_upto (n : Fin 8) (pjv : FVec F S512x64 .bf16) (fresh : FVec F S512x64 .f32) (s7 : Vec F S8x4096x512 .bf16)
    (xs9 : Vec F S4096x64 .f32) (h7 : ∀ b : Fin 8, b.val ≤ n.val → View.ld s7 (slabR n b) = slabOf n (a b)) :
    ∀ b' : ℕ, b' ≤ n.val + 1 →
      (∀ b : Fin 8, b.val < b' → View.ld (upd9 xs9 (L9upto n pjv fresh s7 xs9 b')) (rowsR b)
          = accOf b pjv (slabOf n (a b)) (if b.val = n.val then fresh else View.ld xs9 (rowsR b)))
      ∧ (∀ b : Fin 8, b' ≤ b.val → View.ld (upd9 xs9 (L9upto n pjv fresh s7 xs9 b')) (rowsR b)
          = if b.val = n.val then fresh else View.ld xs9 (rowsR b)) := by
  intro b'
  induction b' with
  | zero =>
    intro _
    refine ⟨fun b hb => absurd hb (Nat.not_lt_zero _), fun b _ => ?_⟩
    rw [L9upto]
    by_cases hbn : b.val = n.val
    · obtain rfl : b = n := Fin.ext hbn
      rw [if_pos rfl]
      exact ld_upd9_cons_self xs9 (rowsR b) fresh []
    · rw [if_neg hbn]
      exact (ld_upd9_cons_of_disjoint xs9 (rowsR n) fresh [] (rowsR b)
        (rowsR_disjoint n b fun e => hbn (congrArg Fin.val e.symm))).trans
        (congrArg (fun X => View.ld X (rowsR b)) (upd9_nil xs9))
  | succ b' ih =>
    intro hle
    have hb8 : b' < 8 := by have := n.isLt; omega
    obtain ⟨ih1, ih2⟩ := ih (by omega)
    rw [L9upto_succ n pjv fresh s7 xs9 b' hb8]
    refine ⟨fun b hb => ?_, fun b hb => ?_⟩
    · by_cases hbb : b.val = b'
      · obtain rfl : b = ⟨b', hb8⟩ := Fin.ext hbb
        refine (ld_upd9_cons_self xs9 (rowsR ⟨b', hb8⟩) _ _).trans ?_
        rw [h7 ⟨b', hb8⟩ (by show b' ≤ n.val; omega), ih2 ⟨b', hb8⟩ (Nat.le_refl _)]
      · refine (ld_upd9_cons_of_disjoint xs9 (rowsR ⟨b', hb8⟩) _ _ (rowsR b)
          (rowsR_disjoint ⟨b', hb8⟩ b fun e => hbb (congrArg Fin.val e.symm))).trans ?_
        exact ih1 b (by omega)
    · refine (ld_upd9_cons_of_disjoint xs9 (rowsR ⟨b', hb8⟩) _ _ (rowsR b)
        (rowsR_disjoint ⟨b', hb8⟩ b fun e => by
          have h := congrArg Fin.val e
          have h' : b' = b.val := h
          omega)).trans ?_
      exact ih2 b (by omega)

/-- The index of a point below 8 is the point. -/
theorem ofNat_val (n : Fin 8) : Fin.ofNat 8 n.val = n := Fin.ext (Nat.mod_eq_of_lt n.isLt)

/-- The recursion for the accumulator's rows, in one line: at point n the rows of block b ≤ n are the fresh product
    (b = n) or the rows after the point before (b < n), plus the slab of row block b times the projection of point n. -/
theorem accAt_eq (n b : Fin 8) (hb : b.val ≤ n.val) :
    accAt a x2 x3 x4 n.val b
      = accOf b (pj a x2 x3 x4 n) (slabOf n (a b))
          (if b.val = n.val then freshAt a x2 x3 x4 n.val else accAt a x2 x3 x4 (n.val - 1) b) := by
  obtain ⟨nv, hn⟩ := n
  cases nv with
  | zero =>
    have hb0 : b.val = 0 := by simpa using hb
    show accAt a x2 x3 x4 0 b = _
    rw [accAt, if_pos hb0]
    rfl
  | succ m =>
    have e : Fin.ofNat 8 (m + 1) = (⟨m + 1, hn⟩ : Fin 8) := ofNat_val ⟨m + 1, hn⟩
    show accAt a x2 x3 x4 (m + 1) b = _
    rw [accAt, e]
    by_cases hbm : b.val = m + 1
    · rw [if_pos hbm, if_pos hbm]
    · rw [if_neg hbm, if_neg hbm]
      rfl

/-- The accumulator after point n. -/
theorem acc_step (n : Fin 8) (s7 : Vec F S8x4096x512 .bf16) (xs9 : Vec F S4096x64 .f32) (h7 : SlabInv a n.val s7)
    (h9 : n.val = 0 ∨ AccInv a x2 x3 x4 (n.val - 1) xs9) :
    AccInv a x2 x3 x4 n.val (upd9 xs9 (L9 n (pj a x2 x3 x4 n) (freshAt a x2 x3 x4 n.val) s7 xs9)) := by
  intro b hb
  have hu := (acc_upto a n (pj a x2 x3 x4 n) (freshAt a x2 x3 x4 n.val) s7 xs9 (fun b' hb' => h7 b' n hb')
    (n.val + 1) (Nat.le_refl _)).1 b (by omega)
  rw [accAt_eq a x2 x3 x4 n b hb]
  refine hu.trans ?_
  by_cases hbn : b.val = n.val
  · rw [if_pos hbn, if_pos hbn]
  · rw [if_neg hbn, if_neg hbn]
    rcases h9 with h0 | h9
    · omega
    · rw [h9 b (by omega)]

end Acc

/-! ## The slab scratch after a point -/

section Slab

variable (a : Fin 8 → Vec F S512x4096 .f32)

/-- Two slabs with different slab indices are disjoint (along the slab axis). -/
theorem slabR_disjoint_slab (k k' j j' : Fin 8) (h : k ≠ k') : Disjoint (slabR k j).set (slabR k' j').set :=
  Rect.unit_disjoint (0 : Fin 3) (by
    have : k.val ≠ k'.val := fun e => h (Fin.ext e)
    show k.val + 1 ≤ k'.val ∨ k'.val + 1 ≤ k.val
    omega)

/-- Two slabs over different row blocks are disjoint (along the row axis). -/
theorem slabR_disjoint_rows (k k' j j' : Fin 8) (h : j ≠ j') : Disjoint (slabR k j).set (slabR k' j').set :=
  Rect.unit_disjoint (1 : Fin 3) (by
    have : j.val ≠ j'.val := fun e => h (Fin.ext e)
    show j.val * 512 + 512 ≤ j'.val * 512 ∨ j'.val * 512 + 512 ≤ j.val * 512
    omega)

theorem upd7_nil (xs : Vec F S8x4096x512 .bf16) : upd7 xs [] = xs := h7.read_unread xs

theorem ld_upd7_cons_self (xs : Vec F S8x4096x512 .bf16) (r : Rect S8x4096x512) (w : r.shape.Idx → Elt F .bf16)
    (L : List (View.Piece (Elt F) S8x4096x512 .bf16)) : View.ld (upd7 xs (⟨r, w⟩ :: L)) r = w :=
  ld_cons_self _ _ r w L

theorem ld_upd7_cons_of_disjoint (xs : Vec F S8x4096x512 .bf16) (r' : Rect S8x4096x512) (w : r'.shape.Idx → Elt F .bf16)
    (L : List (View.Piece (Elt F) S8x4096x512 .bf16)) (r : Rect S8x4096x512) (h : Disjoint r'.set r.set) :
    View.ld (upd7 xs (⟨r', w⟩ :: L)) r = View.ld (upd7 xs L) r :=
  ld_cons_of_disjoint _ _ ⟨r', w⟩ L r h

/-- The slab stores of point j for a list of slab indices. -/
def slabPieces (j : Fin 8) (x1 : Vec F S512x4096 .f32) (ks : List (Fin 8)) : List (View.Piece (Elt F) S8x4096x512 .bf16) :=
  ks.map fun k => ⟨slabR k j, slabOf k x1⟩

/-- The eight slab stores of point j are those of the slab indices 7, 6, …, 0. -/
theorem L7_eq (j : Fin 8) (x1 : Vec F S512x4096 .f32) : L7 j x1 = slabPieces j x1 [7, 6, 5, 4, 3, 2, 1, 0] := rfl

/-- Through slab k of row block j, after slab stores of that row block among which slab k's is, reads slab k. -/
theorem ld_slabPieces_self (xs : Vec F S8x4096x512 .bf16) (j : Fin 8) (x1 : Vec F S512x4096 .f32) (k : Fin 8) :
    ∀ ks : List (Fin 8), k ∈ ks → View.ld (upd7 xs (slabPieces j x1 ks)) (slabR k j) = slabOf k x1
  | [], h => absurd h List.not_mem_nil
  | k' :: ks, h => by
    show View.ld (upd7 xs (⟨slabR k' j, slabOf k' x1⟩ :: slabPieces j x1 ks)) (slabR k j) = _
    by_cases hk : k' = k
    · subst hk
      exact ld_upd7_cons_self xs (slabR k' j) (slabOf k' x1) _
    · refine (ld_upd7_cons_of_disjoint xs (slabR k' j) (slabOf k' x1) _ (slabR k j) (slabR_disjoint_slab k' k j j hk)).trans ?_
      exact ld_slabPieces_self xs j x1 k ks ((List.mem_cons.mp h).resolve_left fun e => hk e.symm)

/-- Through a slab of another row block the slab stores of row block j are not seen. -/
theorem ld_slabPieces_other (xs : Vec F S8x4096x512 .bf16) (j : Fin 8) (x1 : Vec F S512x4096 .f32) (k i : Fin 8) (hi : j ≠ i) :
    ∀ ks : List (Fin 8), View.ld (upd7 xs (slabPieces j x1 ks)) (slabR k i) = View.ld xs (slabR k i)
  | [] => congrArg (fun X => View.ld X (slabR k i)) (upd7_nil xs)
  | k' :: ks => by
    show View.ld (upd7 xs (⟨slabR k' j, slabOf k' x1⟩ :: slabPieces j x1 ks)) (slabR k i) = _
    refine (ld_upd7_cons_of_disjoint xs (slabR k' j) (slabOf k' x1) _ (slabR k i) (slabR_disjoint_rows k' k j i hi)).trans ?_
    exact ld_slabPieces_other xs j x1 k i hi ks

/-- The slab scratch after point n. -/
theorem slab_step (n : Fin 8) (xs7 : Vec F S8x4096x512 .bf16) (h : n.val = 0 ∨ SlabInv a (n.val - 1) xs7) :
    SlabInv a n.val (upd7 xs7 (L7 n (a n))) := by
  intro i k hi
  rw [L7_eq]
  by_cases hin : i = n
  · subst hin
    exact ld_slabPieces_self xs7 i (a i) k _ (by fin_cases k <;> simp)
  · have hlt : i.val < n.val := by
      have : i.val ≠ n.val := fun e => hin (Fin.ext e)
      omega
    refine (ld_slabPieces_other xs7 n (a n) k i (fun e => hin e.symm) _).trans ?_
    rcases h with h0 | h
    · omega
    · exact h i k (by omega)

end Slab

/-! ## The projection scratch after a point, and the output block -/

section Proj

variable (a : Fin 8 → Vec F S512x4096 .f32) (x2 : Vec F S4096x32 .bf16) (x3 : Vec F S1x32 .f32) (x4 : Vec F S32x64 .bf16)
  (x5 : Vec F S1x64 .f32)

/-- The whole-buffer rectangle holds every index. -/
theorem mem_wholeR (y : S4096x64.Idx) : y ∈ (wholeR).set :=
  Rect.mem_set_unit.mpr fun ax => by
    match ax with
    | ⟨0, h0⟩ =>
      refine ⟨Nat.zero_le _, ?_⟩
      show (y ⟨0, h0⟩).val < 0 + S4096x64.size ⟨0, h0⟩
      rw [Nat.zero_add]
      exact (y ⟨0, h0⟩).isLt
    | ⟨1, h1⟩ =>
      refine ⟨Nat.zero_le _, ?_⟩
      show (y ⟨1, h1⟩).val < 0 + S4096x64.size ⟨1, h1⟩
      rw [Nat.zero_add]
      exact (y ⟨1, h1⟩).isLt

/-- At the first point the zero fill covers the projection scratch, so what it held before is not seen. -/
theorem p_step_zero (xs8 : Vec F S4096x64 .bf16) :
    upd8 xs8 (L8 (0 : Fin 8) (pj a x2 x3 x4 0)) = pAt a x2 x3 x4 0 := by
  show scM8.view.read (Elt F) (scM8.view.writes (Elt F) (h8.unread xs8) (L8 (0 : Fin 8) (pj a x2 x3 x4 0)))
    = View.canon (L8 (0 : Fin 8) (pj a x2 x3 x4 0))
  refine View.read_writes_eq_canon _ _ _ fun y => ?_
  refine ⟨⟨wholeR, k1_pay13⟩, ?_, mem_wholeR y⟩
  have hL : L8 (0 : Fin 8) (pj a x2 x3 x4 0)
      = [⟨rowsR 0, k1_pay26 (pj a x2 x3 x4 0)⟩, ⟨wholeR, (k1_pay13 : FVec F S4096x64 .bf16)⟩] := if_pos rfl
  rw [hL]
  exact List.mem_cons_of_mem _ List.mem_cons_self

/-- At a later point the projection scratch is the recursion's next value. -/
theorem p_step_succ (n : ℕ) :
    upd8 (pAt a x2 x3 x4 n) (L8 (Fin.ofNat 8 (n + 1)) (pj a x2 x3 x4 (Fin.ofNat 8 (n + 1)))) = pAt a x2 x3 x4 (n + 1) := rfl

/-- At the first point the fresh product sees the zero block. -/
theorem pSeen_zero (xs8 : Vec F S4096x64 .bf16) :
    pSeen (0 : Fin 8) xs8 = View.ld (View.canon [⟨wholeR, (k1_pay13 : FVec F S4096x64 .bf16)⟩]) wholeR := if_pos rfl

/-- At a later point it sees the projection scratch as the point before left it. -/
theorem pSeen_pos (n : Fin 8) (hn : n.val ≠ 0) (xs8 : Vec F S4096x64 .bf16) : pSeen n xs8 = View.ld xs8 wholeR := if_neg hn

/-- The output block from the finished accumulator. -/
theorem out_of_acc (s9 : Vec F S4096x64 .f32) (h : AccInv a x2 x3 x4 7 s9) : View.canon (L6 s9 x5) = outModel a x2 x3 x4 x5 := by
  unfold L6 outModel
  rw [h 7 (by decide), h 6 (by decide), h 5 (by decide), h 4 (by decide), h 3 (by decide), h 2 (by decide),
    h 1 (by decide), h 0 (by decide)]

end Proj

/-! ## One point as a whole -/

section Step

variable (a : Fin 8 → Vec F S512x4096 .f32) (x2 : Vec F S4096x32 .bf16) (x3 : Vec F S1x32 .f32) (x4 : Vec F S32x64 .bf16)

/-- The fresh product of point n, with the point's index written as the point. -/
theorem freshAt_eq (n : Fin 8) :
    freshAt a x2 x3 x4 n.val = freshOf (a n) (pSeen n (pAt a x2 x3 x4 (n.val - 1))) := by
  unfold freshAt
  rw [ofNat_val]

/-- What the fresh product sees does not depend on the projection scratch at the first point. -/
theorem pSeen_congr (n : Fin 8) (xs8 ys8 : Vec F S4096x64 .bf16) (h : n.val = 0 ∨ xs8 = ys8) : pSeen n xs8 = pSeen n ys8 := by
  rcases h with h0 | h
  · unfold pSeen
    rw [if_pos h0, if_pos h0]
  · rw [h]

/-- Point n's step carries the three descriptions from point n − 1 to point n (at the first point from anything). -/
theorem step_inv (n : Fin 8) (s : Vec F S8x4096x512 .bf16 × Vec F S4096x64 .bf16 × Vec F S4096x64 .f32)
    (h : n.val = 0 ∨ (SlabInv a (n.val - 1) s.1 ∧ s.2.1 = pAt a x2 x3 x4 (n.val - 1) ∧ AccInv a x2 x3 x4 (n.val - 1) s.2.2)) :
    SlabInv a n.val (step n (a n) x2 x3 x4 s).1 ∧ (step n (a n) x2 x3 x4 s).2.1 = pAt a x2 x3 x4 n.val
      ∧ AccInv a x2 x3 x4 n.val (step n (a n) x2 x3 x4 s).2.2 := by
  have hs7 : SlabInv a n.val (upd7 s.1 (L7 n (a n))) := slab_step a n s.1 (h.imp id fun h' => h'.1)
  unfold step
  dsimp only
  refine ⟨hs7, ?_, ?_⟩
  · show upd8 s.2.1 (L8 n (pj a x2 x3 x4 n)) = pAt a x2 x3 x4 n.val
    obtain ⟨nv, hn⟩ := n
    cases nv with
    | zero => exact p_step_zero a x2 x3 x4 s.2.1
    | succ m =>
      rcases h with h0 | h
      · exact absurd h0 (Nat.succ_ne_zero m)
      · have e : Fin.ofNat 8 (m + 1) = (⟨m + 1, hn⟩ : Fin 8) := ofNat_val ⟨m + 1, hn⟩
        have hp := p_step_succ a x2 x3 x4 m
        rw [e] at hp
        rw [h.2.1]
        exact hp
  · show AccInv a x2 x3 x4 n.val
      (upd9 s.2.2 (L9 n (pj a x2 x3 x4 n) (freshOf (a n) (pSeen n s.2.1)) (upd7 s.1 (L7 n (a n))) s.2.2))
    have hf : freshOf (a n) (pSeen n s.2.1) = freshAt a x2 x3 x4 n.val := by
      rw [freshAt_eq, pSeen_congr n s.2.1 (pAt a x2 x3 x4 (n.val - 1)) (h.imp id fun h' => h'.2.1)]
    rw [hf]
    exact acc_step a x2 x3 x4 n _ s.2.2 hs7 (h.imp id fun h' => h'.2.2)

/-- The three components of a point's step, spelt out. -/
theorem step_fst (j : Fin 8) (x1 : Vec F S512x4096 .f32) (s : Vec F S8x4096x512 .bf16 × Vec F S4096x64 .bf16 × Vec F S4096x64 .f32) :
    (step j x1 x2 x3 x4 s).1 = upd7 s.1 (L7 j x1) := by
  unfold step
  dsimp only
theorem step_snd_fst (j : Fin 8) (x1 : Vec F S512x4096 .f32) (s : Vec F S8x4096x512 .bf16 × Vec F S4096x64 .bf16 × Vec F S4096x64 .f32) :
    (step j x1 x2 x3 x4 s).2.1 = upd8 s.2.1 (L8 j (projOf x1 x2 x3 x4)) := by
  unfold step
  dsimp only
theorem step_snd_snd (j : Fin 8) (x1 : Vec F S512x4096 .f32) (s : Vec F S8x4096x512 .bf16 × Vec F S4096x64 .bf16 × Vec F S4096x64 .f32) :
    (step j x1 x2 x3 x4 s).2.2
      = upd9 s.2.2 (L9 j (projOf x1 x2 x3 x4) (freshOf x1 (pSeen j s.2.1)) (upd7 s.1 (L7 j x1)) s.2.2) := by
  unfold step
  dsimp only

end Step

end Cert.Kernel.GcnModel

end
-- ==== Proof.GcnBody0Bits.lean ====
/- scratch/gen_cases.js bits GcnBody0 — proof/Proof/GcnBody0Ideal.lean with the namespace Cert.KernelIdeal replaced by Cert.Kernel (the word-level program's copy) -/
/-
  The body obligation of the streamed pass at grid point 0: the operands' buffers hold their blocks, the invariant hands the body
  the scratch buffers at contents satisfying the model's invariants (at anything: the first point), the run's stores are the model's, and the
  step lemmas give the invariants for point 0; the output window is idle and handed back untouched.
-/
import proofs.«150466_g82282983457293_cont_9to1_m_405_12_alg».proof.Proof.GcnWit0Bits
import proofs.«150466_g82282983457293_cont_9to1_m_405_12_alg».proof.Proof.GcnPostBits
import proofs.«150466_g82282983457293_cont_9to1_m_405_12_alg».proof.Proof.GcnStepBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt0 (c : Dev nD) :
    bodyPre1 V c (pt 0) ⊢ wp frame (wpE (defs₀ (F := F)) Variants.none c none) Set.univ (bodyAt1 (pt 0)) (fun _ => bodyPost1 V c (pt 0)) := by
  unfold bodyPre1 bodyPost1 bodyAt1
  simp only [before1_0, before1_1, before1_2, before1_3, before1_4]
  rw [show (dat1 V c).owesAt () (pt 0).succ = (dat1 V c).owesAt () (pt 0).castSucc from rfl]
  rw [show (dat1 V c).Φ (pt 0).succ = PhiS V c 1 from rfl, show (dat1 V c).Φ (pt 0).castSucc = PhiS V c 0 from rfl]
  rw [show (dat1 V c).leavesExact 0 (pt 0) = owns (c : Thread nD τ) (ms1_0 (pt 0)) fullShare ((dat1 V c).after 0 (pt 0)) from by
      unfold Dat.leavesExact; rw [liveAt1_0 (pt 0)], after1_0]
  rw [show (dat1 V c).leavesExact 1 (pt 0) = owns (c : Thread nD τ) (ms1_1 (pt 0)) fullShare ((dat1 V c).after 1 (pt 0)) from by
      unfold Dat.leavesExact; rw [liveAt1_1 (pt 0)], after1_1]
  rw [show (dat1 V c).leavesExact 2 (pt 0) = owns (c : Thread nD τ) (ms1_2 (pt 0)) fullShare ((dat1 V c).after 2 (pt 0)) from by
      unfold Dat.leavesExact; rw [liveAt1_2 (pt 0)], after1_2]
  rw [show (dat1 V c).leavesExact 3 (pt 0) = owns (c : Thread nD τ) (ms1_3 (pt 0)) fullShare ((dat1 V c).after 3 (pt 0)) from by
      unfold Dat.leavesExact; rw [liveAt1_3 (pt 0)], after1_3]
  rw [show (dat1 V c).leavesExact 4 (pt 0) = owns (c : Thread nD τ) (ms1_4 (pt 0)) fullShare ((dat1 V c).after 4 (pt 0)) from by
      unfold Dat.leavesExact; rw [liveAt1_4 (pt 0)], after1_4]
  rw [Dat.leavesExact_idle (dat1 V c) 5 (pt 0) (idleAt1_5 (pt 0) (by decide)) (noFlush1_5 (pt 0) (by decide))]
  rw [blk1_1_const V c 0, blk1_2_const V c 0, blk1_3_const V c 0, blk1_4_const V c 0]
  rw [show blk1 V c 0 (pt 0) = aOf V c 0 from rfl]
  rw [show PhiS V c 0 = _ from PhiS_zero V c, PhiA1_eq]
  rw [show PhiS V c 1 = _ from PhiS_succ V c 0]; unfold rest0
  iintro ⟨⟨⟨Ha, Hb, Hc, Hd, ⟨%s7, H7⟩, ⟨%s8, H8⟩, ⟨%s9, H9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run0 c (grid1.coords (pt 0)) (ms1_0 (pt 0)) (hs1_0 (pt 0)) (ms1_1 (pt 0)) (hs1_1 (pt 0)) (ms1_2 (pt 0)) (hs1_2 (pt 0)) (ms1_3 (pt 0)) (hs1_3 (pt 0)) (ms1_4 (pt 0)) (hs1_4 (pt 0)) (ms1_5 (pt 0)) (hs1_5 (pt 0)) scM7 h7 scM8 h8 scM9 h9 ((hcond1 (pt 0)).mpr rfl) ((hcond2 (pt 0)).mpr (by decide)) (fun h => absurd ((hcond3 (pt 0)).mp h) (by decide)) (fun h => absurd ((hcond4 (pt 0)).mp h) (by decide)) (fun h => absurd ((hcond5 (pt 0)).mp h) (by decide)) (fun h => absurd ((hcond6 (pt 0)).mp h) (by decide)) (fun h => absurd ((hcond7 (pt 0)).mp h) (by decide)) (fun h => absurd ((hcond8 (pt 0)).mp h) (by decide)) (fun h => absurd ((hcond9 (pt 0)).mp h) (by decide)) (fun h => absurd ((hcond10 (pt 0)).mp h) (by decide)) (aOf V c 0) (x2Of V c) (x3Of V c) (x4Of V c) (x5Of V c) s7 s8 s9 := ⟨_, rfl⟩
  obtain ⟨e7, e8, e9⟩ := run0_lists c (ms1_0 (pt 0)) (hs1_0 (pt 0)) (ms1_1 (pt 0)) (hs1_1 (pt 0)) (ms1_2 (pt 0)) (hs1_2 (pt 0)) (ms1_3 (pt 0)) (hs1_3 (pt 0)) (ms1_4 (pt 0)) (hs1_4 (pt 0)) (ms1_5 (pt 0)) (hs1_5 (pt 0)) ((hcond1 (pt 0)).mpr rfl) ((hcond2 (pt 0)).mpr (by decide)) (fun h => absurd ((hcond3 (pt 0)).mp h) (by decide)) (fun h => absurd ((hcond4 (pt 0)).mp h) (by decide)) (fun h => absurd ((hcond5 (pt 0)).mp h) (by decide)) (fun h => absurd ((hcond6 (pt 0)).mp h) (by decide)) (fun h => absurd ((hcond7 (pt 0)).mp h) (by decide)) (fun h => absurd ((hcond8 (pt 0)).mp h) (by decide)) (fun h => absurd ((hcond9 (pt 0)).mp h) (by decide)) (fun h => absurd ((hcond10 (pt 0)).mp h) (by decide)) (aOf V c 0) (x2Of V c) (x3Of V c) (x4Of V c) (x5Of V c) s7 s8 s9
  rw [← hR] at e7 e8 e9
  have h7' : SlabInv (aOf V c) 0 (upd7 s7 R.1) := by
    rw [e7]; exact slab_step (aOf V c) 0 s7 (Or.inl rfl)
  have h8' : upd8 s8 R.2.1 = pAt (aOf V c) (x2Of V c) (x3Of V c) (x4Of V c) 0 := by
    rw [e8]; exact (p_step_zero (aOf V c) (x2Of V c) (x3Of V c) (x4Of V c) s8)
  have h9' : AccInv (aOf V c) (x2Of V c) (x3Of V c) (x4Of V c) 0 (upd9 s9 R.2.2.1) := by
    rw [e9]; exact acc_step (aOf V c) (x2Of V c) (x3Of V c) (x4Of V c) 0 _ s9 (slab_step (aOf V c) 0 s7 (Or.inl rfl)) (Or.inl rfl)
  clear e7 e8 e9
  subst hR
  iapply ((run0 c (grid1.coords (pt 0)) (ms1_0 (pt 0)) (hs1_0 (pt 0)) (ms1_1 (pt 0)) (hs1_1 (pt 0)) (ms1_2 (pt 0)) (hs1_2 (pt 0)) (ms1_3 (pt 0)) (hs1_3 (pt 0)) (ms1_4 (pt 0)) (hs1_4 (pt 0)) (ms1_5 (pt 0)) (hs1_5 (pt 0)) scM7 h7 scM8 h8 scM9 h9 ((hcond1 (pt 0)).mpr rfl) ((hcond2 (pt 0)).mpr (by decide)) (fun h => absurd ((hcond3 (pt 0)).mp h) (by decide)) (fun h => absurd ((hcond4 (pt 0)).mp h) (by decide)) (fun h => absurd ((hcond5 (pt 0)).mp h) (by decide)) (fun h => absurd ((hcond6 (pt 0)).mp h) (by decide)) (fun h => absurd ((hcond7 (pt 0)).mp h) (by decide)) (fun h => absurd ((hcond8 (pt 0)).mp h) (by decide)) (fun h => absurd ((hcond9 (pt 0)).mp h) (by decide)) (fun h => absurd ((hcond10 (pt 0)).mp h) (by decide)) (aOf V c 0) (x2Of V c) (x3Of V c) (x4Of V c) (x5Of V c) s7 s8 s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.Kernel.GcnKit

end
-- ==== Proof.GcnRun1Bits.lean ====
/- scratch/gen_cases.js bits GcnRun1 — proof/Proof/GcnRun1Ideal.lean with the namespace Cert.KernelIdeal replaced by Cert.Kernel (the word-level program's copy) -/
/-
  The streamed pass's body at grid point 1: the first conditional not taken, the accumulation taken for row blocks 0 … 1.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseBits
import Idealize.ShloMosaic.Lib.Pipeline.FrameBody
import Idealize.ShloMosaic.Lib.Ring
import Idealize.ShloMosaic.Lib.Tactic

set_option maxRecDepth 16384

noncomputable section

namespace Cert.Kernel.GcnRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run1 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : ¬ k1_cond4 i = 1#1) (hc5 : ¬ k1_cond5 i = 1#1) (hc6 : ¬ k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.Kernel.GcnRun

end
-- ==== Proof.GcnWit1Bits.lean ====
/- scratch/gen_cases.js bits GcnWit1 — proof/Proof/GcnWit1Ideal.lean with the namespace Cert.KernelIdeal replaced by Cert.Kernel (the word-level program's copy) -/
/-
  The stores the body's run finds at grid point 1 are the model's: the same rectangles (the offsets computed from the
  grid coordinate are the literal ones) carrying the same arithmetic of the operand blocks and of the scratch contents.
-/
import proofs.«150466_g82282983457293_cont_9to1_m_405_12_alg».proof.Proof.GcnRun1Bits
import proofs.«150466_g82282983457293_cont_9to1_m_405_12_alg».proof.Proof.GcnKitBits
import proofs.«150466_g82282983457293_cont_9to1_m_405_12_alg».proof.Proof.GcnReadBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.Sem

variable {F : FTy → Type} [FloatOps F]

set_option maxHeartbeats 4000000 in
theorem run1_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 1))) (hc2 : k1_cond2 (grid1.coords (pt 1)) = 1#1) (hc3 : k1_cond3 (grid1.coords (pt 1)) = 1#1) (hc4 : ¬ k1_cond4 (grid1.coords (pt 1)) = 1#1) (hc5 : ¬ k1_cond5 (grid1.coords (pt 1)) = 1#1) (hc6 : ¬ k1_cond6 (grid1.coords (pt 1)) = 1#1) (hc7 : ¬ k1_cond7 (grid1.coords (pt 1)) = 1#1) (hc8 : ¬ k1_cond8 (grid1.coords (pt 1)) = 1#1) (hc9 : ¬ k1_cond9 (grid1.coords (pt 1)) = 1#1) (hc10 : ¬ k1_cond10 (grid1.coords (pt 1)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run1 c (grid1.coords (pt 1)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 1 x1
    ∧ (run1 c (grid1.coords (pt 1)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 1 (projOf x1 x2 x3 x4)
    ∧ (run1 c (grid1.coords (pt 1)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 1 (projOf x1 x2 x3 x4) (freshOf x1 (pSeen 1 xs8)) (upd7 xs7 (L7 1 x1)) xs9 := by
  unfold run1
  dsimp only
  sl_unfold_run_names
  simp only [View.readAt_eq_ld, Memref.IsWhole.read_unread, read_unread7, read_unread8, read_unread9]
  refine ⟨?_, ?_, ?_⟩ <;> sl_kernel_rfl

end Cert.Kernel.GcnKit

end
-- ==== Proof.GcnBody1Bits.lean ====
/- scratch/gen_cases.js bits GcnBody1 — proof/Proof/GcnBody1Ideal.lean with the namespace Cert.KernelIdeal replaced by Cert.Kernel (the word-level program's copy) -/
/-
  The body obligation of the streamed pass at grid point 1: the operands' buffers hold their blocks, the invariant hands the body
  the scratch buffers at contents satisfying the model's invariants for point 0, the run's stores are the model's, and the
  step lemmas give the invariants for point 1; the output window is idle and handed back untouched.
-/
import proofs.«150466_g82282983457293_cont_9to1_m_405_12_alg».proof.Proof.GcnWit1Bits
import proofs.«150466_g82282983457293_cont_9to1_m_405_12_alg».proof.Proof.GcnPostBits
import proofs.«150466_g82282983457293_cont_9to1_m_405_12_alg».proof.Proof.GcnStepBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt1 (c : Dev nD) :
    bodyPre1 V c (pt 1) ⊢ wp frame (wpE (defs₀ (F := F)) Variants.none c none) Set.univ (bodyAt1 (pt 1)) (fun _ => bodyPost1 V c (pt 1)) := by
  unfold bodyPre1 bodyPost1 bodyAt1
  simp only [before1_0, before1_1, before1_2, before1_3, before1_4]
  rw [show (dat1 V c).owesAt () (pt 1).succ = (dat1 V c).owesAt () (pt 1).castSucc from rfl]
  rw [show (dat1 V c).Φ (pt 1).succ = PhiS V c 2 from rfl, show (dat1 V c).Φ (pt 1).castSucc = PhiS V c 1 from rfl]
  rw [show (dat1 V c).leavesExact 0 (pt 1) = owns (c : Thread nD τ) (ms1_0 (pt 1)) fullShare ((dat1 V c).after 0 (pt 1)) from by
      unfold Dat.leavesExact; rw [liveAt1_0 (pt 1)], after1_0]
  rw [show (dat1 V c).leavesExact 1 (pt 1) = owns (c : Thread nD τ) (ms1_1 (pt 1)) fullShare ((dat1 V c).after 1 (pt 1)) from by
      unfold Dat.leavesExact; rw [liveAt1_1 (pt 1)], after1_1]
  rw [show (dat1 V c).leavesExact 2 (pt 1) = owns (c : Thread nD τ) (ms1_2 (pt 1)) fullShare ((dat1 V c).after 2 (pt 1)) from by
      unfold Dat.leavesExact; rw [liveAt1_2 (pt 1)], after1_2]
  rw [show (dat1 V c).leavesExact 3 (pt 1) = owns (c : Thread nD τ) (ms1_3 (pt 1)) fullShare ((dat1 V c).after 3 (pt 1)) from by
      unfold Dat.leavesExact; rw [liveAt1_3 (pt 1)], after1_3]
  rw [show (dat1 V c).leavesExact 4 (pt 1) = owns (c : Thread nD τ) (ms1_4 (pt 1)) fullShare ((dat1 V c).after 4 (pt 1)) from by
      unfold Dat.leavesExact; rw [liveAt1_4 (pt 1)], after1_4]
  rw [Dat.leavesExact_idle (dat1 V c) 5 (pt 1) (idleAt1_5 (pt 1) (by decide)) (noFlush1_5 (pt 1) (by decide))]
  rw [blk1_1_const V c 1, blk1_2_const V c 1, blk1_3_const V c 1, blk1_4_const V c 1]
  rw [show blk1 V c 0 (pt 1) = aOf V c 1 from rfl]
  rw [show PhiS V c 1 = _ from PhiS_succ V c 0]; unfold rest0
  rw [show PhiS V c 2 = _ from PhiS_succ V c 1]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run1 c (grid1.coords (pt 1)) (ms1_0 (pt 1)) (hs1_0 (pt 1)) (ms1_1 (pt 1)) (hs1_1 (pt 1)) (ms1_2 (pt 1)) (hs1_2 (pt 1)) (ms1_3 (pt 1)) (hs1_3 (pt 1)) (ms1_4 (pt 1)) (hs1_4 (pt 1)) (ms1_5 (pt 1)) (hs1_5 (pt 1)) scM7 h7 scM8 h8 scM9 h9 (fun h => absurd ((hcond1 (pt 1)).mp h) (by decide)) ((hcond2 (pt 1)).mpr (by decide)) ((hcond3 (pt 1)).mpr (by decide)) (fun h => absurd ((hcond4 (pt 1)).mp h) (by decide)) (fun h => absurd ((hcond5 (pt 1)).mp h) (by decide)) (fun h => absurd ((hcond6 (pt 1)).mp h) (by decide)) (fun h => absurd ((hcond7 (pt 1)).mp h) (by decide)) (fun h => absurd ((hcond8 (pt 1)).mp h) (by decide)) (fun h => absurd ((hcond9 (pt 1)).mp h) (by decide)) (fun h => absurd ((hcond10 (pt 1)).mp h) (by decide)) (aOf V c 1) (x2Of V c) (x3Of V c) (x4Of V c) (x5Of V c) s7 (pAt (aOf V c) (x2Of V c) (x3Of V c) (x4Of V c) 0) s9 := ⟨_, rfl⟩
  obtain ⟨e7, e8, e9⟩ := run1_lists c (ms1_0 (pt 1)) (hs1_0 (pt 1)) (ms1_1 (pt 1)) (hs1_1 (pt 1)) (ms1_2 (pt 1)) (hs1_2 (pt 1)) (ms1_3 (pt 1)) (hs1_3 (pt 1)) (ms1_4 (pt 1)) (hs1_4 (pt 1)) (ms1_5 (pt 1)) (hs1_5 (pt 1)) (fun h => absurd ((hcond1 (pt 1)).mp h) (by decide)) ((hcond2 (pt 1)).mpr (by decide)) ((hcond3 (pt 1)).mpr (by decide)) (fun h => absurd ((hcond4 (pt 1)).mp h) (by decide)) (fun h => absurd ((hcond5 (pt 1)).mp h) (by decide)) (fun h => absurd ((hcond6 (pt 1)).mp h) (by decide)) (fun h => absurd ((hcond7 (pt 1)).mp h) (by decide)) (fun h => absurd ((hcond8 (pt 1)).mp h) (by decide)) (fun h => absurd ((hcond9 (pt 1)).mp h) (by decide)) (fun h => absurd ((hcond10 (pt 1)).mp h) (by decide)) (aOf V c 1) (x2Of V c) (x3Of V c) (x4Of V c) (x5Of V c) s7 (pAt (aOf V c) (x2Of V c) (x3Of V c) (x4Of V c) 0) s9
  rw [← hR] at e7 e8 e9
  have h7' : SlabInv (aOf V c) 1 (upd7 s7 R.1) := by
    rw [e7]; exact slab_step (aOf V c) 1 s7 (Or.inr hs7)
  have h8' : upd8 (pAt (aOf V c) (x2Of V c) (x3Of V c) (x4Of V c) 0) R.2.1 = pAt (aOf V c) (x2Of V c) (x3Of V c) (x4Of V c) 1 := by
    rw [e8]; exact (p_step_succ (aOf V c) (x2Of V c) (x3Of V c) (x4Of V c) 0)
  have h9' : AccInv (aOf V c) (x2Of V c) (x3Of V c) (x4Of V c) 1 (upd9 s9 R.2.2.1) := by
    rw [e9]; exact acc_step (aOf V c) (x2Of V c) (x3Of V c) (x4Of V c) 1 _ s9 (slab_step (aOf V c) 1 s7 (Or.inr hs7)) (Or.inr hs9)
  clear e7 e8 e9
  subst hR
  iapply ((run1 c (grid1.coords (pt 1)) (ms1_0 (pt 1)) (hs1_0 (pt 1)) (ms1_1 (pt 1)) (hs1_1 (pt 1)) (ms1_2 (pt 1)) (hs1_2 (pt 1)) (ms1_3 (pt 1)) (hs1_3 (pt 1)) (ms1_4 (pt 1)) (hs1_4 (pt 1)) (ms1_5 (pt 1)) (hs1_5 (pt 1)) scM7 h7 scM8 h8 scM9 h9 (fun h => absurd ((hcond1 (pt 1)).mp h) (by decide)) ((hcond2 (pt 1)).mpr (by decide)) ((hcond3 (pt 1)).mpr (by decide)) (fun h => absurd ((hcond4 (pt 1)).mp h) (by decide)) (fun h => absurd ((hcond5 (pt 1)).mp h) (by decide)) (fun h => absurd ((hcond6 (pt 1)).mp h) (by decide)) (fun h => absurd ((hcond7 (pt 1)).mp h) (by decide)) (fun h => absurd ((hcond8 (pt 1)).mp h) (by decide)) (fun h => absurd ((hcond9 (pt 1)).mp h) (by decide)) (fun h => absurd ((hcond10 (pt 1)).mp h) (by decide)) (aOf V c 1) (x2Of V c) (x3Of V c) (x4Of V c) (x5Of V c) s7 (pAt (aOf V c) (x2Of V c) (x3Of V c) (x4Of V c) 0) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.Kernel.GcnKit

end
-- ==== Proof.GcnRun2Bits.lean ====
/- scratch/gen_cases.js bits GcnRun2 — proof/Proof/GcnRun2Ideal.lean with the namespace Cert.KernelIdeal replaced by Cert.Kernel (the word-level program's copy) -/
/-
  The streamed pass's body at grid point 2: the first conditional not taken, the accumulation taken for row blocks 0 … 2.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseBits
import Idealize.ShloMosaic.Lib.Pipeline.FrameBody
import Idealize.ShloMosaic.Lib.Ring
import Idealize.ShloMosaic.Lib.Tactic

set_option maxRecDepth 16384

noncomputable section

namespace Cert.Kernel.GcnRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run2 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : ¬ k1_cond5 i = 1#1) (hc6 : ¬ k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.Kernel.GcnRun

end
-- ==== Proof.GcnWit2Bits.lean ====
/- scratch/gen_cases.js bits GcnWit2 — proof/Proof/GcnWit2Ideal.lean with the namespace Cert.KernelIdeal replaced by Cert.Kernel (the word-level program's copy) -/
/-
  The stores the body's run finds at grid point 2 are the model's: the same rectangles (the offsets computed from the
  grid coordinate are the literal ones) carrying the same arithmetic of the operand blocks and of the scratch contents.
-/
import proofs.«150466_g82282983457293_cont_9to1_m_405_12_alg».proof.Proof.GcnRun2Bits
import proofs.«150466_g82282983457293_cont_9to1_m_405_12_alg».proof.Proof.GcnKitBits
import proofs.«150466_g82282983457293_cont_9to1_m_405_12_alg».proof.Proof.GcnReadBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.Sem

variable {F : FTy → Type} [FloatOps F]

set_option maxHeartbeats 4000000 in
theorem run2_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 2))) (hc2 : k1_cond2 (grid1.coords (pt 2)) = 1#1) (hc3 : k1_cond3 (grid1.coords (pt 2)) = 1#1) (hc4 : k1_cond4 (grid1.coords (pt 2)) = 1#1) (hc5 : ¬ k1_cond5 (grid1.coords (pt 2)) = 1#1) (hc6 : ¬ k1_cond6 (grid1.coords (pt 2)) = 1#1) (hc7 : ¬ k1_cond7 (grid1.coords (pt 2)) = 1#1) (hc8 : ¬ k1_cond8 (grid1.coords (pt 2)) = 1#1) (hc9 : ¬ k1_cond9 (grid1.coords (pt 2)) = 1#1) (hc10 : ¬ k1_cond10 (grid1.coords (pt 2)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run2 c (grid1.coords (pt 2)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 2 x1
    ∧ (run2 c (grid1.coords (pt 2)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 2 (projOf x1 x2 x3 x4)
    ∧ (run2 c (grid1.coords (pt 2)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 2 (projOf x1 x2 x3 x4) (freshOf x1 (pSeen 2 xs8)) (upd7 xs7 (L7 2 x1)) xs9 := by
  unfold run2
  dsimp only
  sl_unfold_run_names
  simp only [View.readAt_eq_ld, Memref.IsWhole.read_unread, read_unread7, read_unread8, read_unread9]
  refine ⟨?_, ?_, ?_⟩ <;> sl_kernel_rfl

end Cert.Kernel.GcnKit

end
-- ==== Proof.GcnBody2Bits.lean ====
/- scratch/gen_cases.js bits GcnBody2 — proof/Proof/GcnBody2Ideal.lean with the namespace Cert.KernelIdeal replaced by Cert.Kernel (the word-level program's copy) -/
/-
  The body obligation of the streamed pass at grid point 2: the operands' buffers hold their blocks, the invariant hands the body
  the scratch buffers at contents satisfying the model's invariants for point 1, the run's stores are the model's, and the
  step lemmas give the invariants for point 2; the output window is idle and handed back untouched.
-/
import proofs.«150466_g82282983457293_cont_9to1_m_405_12_alg».proof.Proof.GcnWit2Bits
import proofs.«150466_g82282983457293_cont_9to1_m_405_12_alg».proof.Proof.GcnPostBits
import proofs.«150466_g82282983457293_cont_9to1_m_405_12_alg».proof.Proof.GcnStepBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt2 (c : Dev nD) :
    bodyPre1 V c (pt 2) ⊢ wp frame (wpE (defs₀ (F := F)) Variants.none c none) Set.univ (bodyAt1 (pt 2)) (fun _ => bodyPost1 V c (pt 2)) := by
  unfold bodyPre1 bodyPost1 bodyAt1
  simp only [before1_0, before1_1, before1_2, before1_3, before1_4]
  rw [show (dat1 V c).owesAt () (pt 2).succ = (dat1 V c).owesAt () (pt 2).castSucc from rfl]
  rw [show (dat1 V c).Φ (pt 2).succ = PhiS V c 3 from rfl, show (dat1 V c).Φ (pt 2).castSucc = PhiS V c 2 from rfl]
  rw [show (dat1 V c).leavesExact 0 (pt 2) = owns (c : Thread nD τ) (ms1_0 (pt 2)) fullShare ((dat1 V c).after 0 (pt 2)) from by
      unfold Dat.leavesExact; rw [liveAt1_0 (pt 2)], after1_0]
  rw [show (dat1 V c).leavesExact 1 (pt 2) = owns (c : Thread nD τ) (ms1_1 (pt 2)) fullShare ((dat1 V c).after 1 (pt 2)) from by
      unfold Dat.leavesExact; rw [liveAt1_1 (pt 2)], after1_1]
  rw [show (dat1 V c).leavesExact 2 (pt 2) = owns (c : Thread nD τ) (ms1_2 (pt 2)) fullShare ((dat1 V c).after 2 (pt 2)) from by
      unfold Dat.leavesExact; rw [liveAt1_2 (pt 2)], after1_2]
  rw [show (dat1 V c).leavesExact 3 (pt 2) = owns (c : Thread nD τ) (ms1_3 (pt 2)) fullShare ((dat1 V c).after 3 (pt 2)) from by
      unfold Dat.leavesExact; rw [liveAt1_3 (pt 2)], after1_3]
  rw [show (dat1 V c).leavesExact 4 (pt 2) = owns (c : Thread nD τ) (ms1_4 (pt 2)) fullShare ((dat1 V c).after 4 (pt 2)) from by
      unfold Dat.leavesExact; rw [liveAt1_4 (pt 2)], after1_4]
  rw [Dat.leavesExact_idle (dat1 V c) 5 (pt 2) (idleAt1_5 (pt 2) (by decide)) (noFlush1_5 (pt 2) (by decide))]
  rw [blk1_1_const V c 2, blk1_2_const V c 2, blk1_3_const V c 2, blk1_4_const V c 2]
  rw [show blk1 V c 0 (pt 2) = aOf V c 2 from rfl]
  rw [show PhiS V c 2 = _ from PhiS_succ V c 1]; unfold rest0
  rw [show PhiS V c 3 = _ from PhiS_succ V c 2]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run2 c (grid1.coords (pt 2)) (ms1_0 (pt 2)) (hs1_0 (pt 2)) (ms1_1 (pt 2)) (hs1_1 (pt 2)) (ms1_2 (pt 2)) (hs1_2 (pt 2)) (ms1_3 (pt 2)) (hs1_3 (pt 2)) (ms1_4 (pt 2)) (hs1_4 (pt 2)) (ms1_5 (pt 2)) (hs1_5 (pt 2)) scM7 h7 scM8 h8 scM9 h9 (fun h => absurd ((hcond1 (pt 2)).mp h) (by decide)) ((hcond2 (pt 2)).mpr (by decide)) ((hcond3 (pt 2)).mpr (by decide)) ((hcond4 (pt 2)).mpr (by decide)) (fun h => absurd ((hcond5 (pt 2)).mp h) (by decide)) (fun h => absurd ((hcond6 (pt 2)).mp h) (by decide)) (fun h => absurd ((hcond7 (pt 2)).mp h) (by decide)) (fun h => absurd ((hcond8 (pt 2)).mp h) (by decide)) (fun h => absurd ((hcond9 (pt 2)).mp h) (by decide)) (fun h => absurd ((hcond10 (pt 2)).mp h) (by decide)) (aOf V c 2) (x2Of V c) (x3Of V c) (x4Of V c) (x5Of V c) s7 (pAt (aOf V c) (x2Of V c) (x3Of V c) (x4Of V c) 1) s9 := ⟨_, rfl⟩
  obtain ⟨e7, e8, e9⟩ := run2_lists c (ms1_0 (pt 2)) (hs1_0 (pt 2)) (ms1_1 (pt 2)) (hs1_1 (pt 2)) (ms1_2 (pt 2)) (hs1_2 (pt 2)) (ms1_3 (pt 2)) (hs1_3 (pt 2)) (ms1_4 (pt 2)) (hs1_4 (pt 2)) (ms1_5 (pt 2)) (hs1_5 (pt 2)) (fun h => absurd ((hcond1 (pt 2)).mp h) (by decide)) ((hcond2 (pt 2)).mpr (by decide)) ((hcond3 (pt 2)).mpr (by decide)) ((hcond4 (pt 2)).mpr (by decide)) (fun h => absurd ((hcond5 (pt 2)).mp h) (by decide)) (fun h => absurd ((hcond6 (pt 2)).mp h) (by decide)) (fun h => absurd ((hcond7 (pt 2)).mp h) (by decide)) (fun h => absurd ((hcond8 (pt 2)).mp h) (by decide)) (fun h => absurd ((hcond9 (pt 2)).mp h) (by decide)) (fun h => absurd ((hcond10 (pt 2)).mp h) (by decide)) (aOf V c 2) (x2Of V c) (x3Of V c) (x4Of V c) (x5Of V c) s7 (pAt (aOf V c) (x2Of V c) (x3Of V c) (x4Of V c) 1) s9
  rw [← hR] at e7 e8 e9
  have h7' : SlabInv (aOf V c) 2 (upd7 s7 R.1) := by
    rw [e7]; exact slab_step (aOf V c) 2 s7 (Or.inr hs7)
  have h8' : upd8 (pAt (aOf V c) (x2Of V c) (x3Of V c) (x4Of V c) 1) R.2.1 = pAt (aOf V c) (x2Of V c) (x3Of V c) (x4Of V c) 2 := by
    rw [e8]; exact (p_step_succ (aOf V c) (x2Of V c) (x3Of V c) (x4Of V c) 1)
  have h9' : AccInv (aOf V c) (x2Of V c) (x3Of V c) (x4Of V c) 2 (upd9 s9 R.2.2.1) := by
    rw [e9]; exact acc_step (aOf V c) (x2Of V c) (x3Of V c) (x4Of V c) 2 _ s9 (slab_step (aOf V c) 2 s7 (Or.inr hs7)) (Or.inr hs9)
  clear e7 e8 e9
  subst hR
  iapply ((run2 c (grid1.coords (pt 2)) (ms1_0 (pt 2)) (hs1_0 (pt 2)) (ms1_1 (pt 2)) (hs1_1 (pt 2)) (ms1_2 (pt 2)) (hs1_2 (pt 2)) (ms1_3 (pt 2)) (hs1_3 (pt 2)) (ms1_4 (pt 2)) (hs1_4 (pt 2)) (ms1_5 (pt 2)) (hs1_5 (pt 2)) scM7 h7 scM8 h8 scM9 h9 (fun h => absurd ((hcond1 (pt 2)).mp h) (by decide)) ((hcond2 (pt 2)).mpr (by decide)) ((hcond3 (pt 2)).mpr (by decide)) ((hcond4 (pt 2)).mpr (by decide)) (fun h => absurd ((hcond5 (pt 2)).mp h) (by decide)) (fun h => absurd ((hcond6 (pt 2)).mp h) (by decide)) (fun h => absurd ((hcond7 (pt 2)).mp h) (by decide)) (fun h => absurd ((hcond8 (pt 2)).mp h) (by decide)) (fun h => absurd ((hcond9 (pt 2)).mp h) (by decide)) (fun h => absurd ((hcond10 (pt 2)).mp h) (by decide)) (aOf V c 2) (x2Of V c) (x3Of V c) (x4Of V c) (x5Of V c) s7 (pAt (aOf V c) (x2Of V c) (x3Of V c) (x4Of V c) 1) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.Kernel.GcnKit

end
-- ==== Proof.GcnRun3Bits.lean ====
/- scratch/gen_cases.js bits GcnRun3 — proof/Proof/GcnRun3Ideal.lean with the namespace Cert.KernelIdeal replaced by Cert.Kernel (the word-level program's copy) -/
/-
  The streamed pass's body at grid point 3: the first conditional not taken, the accumulation taken for row blocks 0 … 3.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseBits
import Idealize.ShloMosaic.Lib.Pipeline.FrameBody
import Idealize.ShloMosaic.Lib.Ring
import Idealize.ShloMosaic.Lib.Tactic

set_option maxRecDepth 16384

noncomputable section

namespace Cert.Kernel.GcnRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run3 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : ¬ k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.Kernel.GcnRun

end
-- ==== Proof.GcnWit3Bits.lean ====
/- scratch/gen_cases.js bits GcnWit3 — proof/Proof/GcnWit3Ideal.lean with the namespace Cert.KernelIdeal replaced by Cert.Kernel (the word-level program's copy) -/
/-
  The stores the body's run finds at grid point 3 are the model's: the same rectangles (the offsets computed from the
  grid coordinate are the literal ones) carrying the same arithmetic of the operand blocks and of the scratch contents.
-/
import proofs.«150466_g82282983457293_cont_9to1_m_405_12_alg».proof.Proof.GcnRun3Bits
import proofs.«150466_g82282983457293_cont_9to1_m_405_12_alg».proof.Proof.GcnKitBits
import proofs.«150466_g82282983457293_cont_9to1_m_405_12_alg».proof.Proof.GcnReadBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.Sem

variable {F : FTy → Type} [FloatOps F]

set_option maxHeartbeats 4000000 in
theorem run3_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 3))) (hc2 : k1_cond2 (grid1.coords (pt 3)) = 1#1) (hc3 : k1_cond3 (grid1.coords (pt 3)) = 1#1) (hc4 : k1_cond4 (grid1.coords (pt 3)) = 1#1) (hc5 : k1_cond5 (grid1.coords (pt 3)) = 1#1) (hc6 : ¬ k1_cond6 (grid1.coords (pt 3)) = 1#1) (hc7 : ¬ k1_cond7 (grid1.coords (pt 3)) = 1#1) (hc8 : ¬ k1_cond8 (grid1.coords (pt 3)) = 1#1) (hc9 : ¬ k1_cond9 (grid1.coords (pt 3)) = 1#1) (hc10 : ¬ k1_cond10 (grid1.coords (pt 3)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run3 c (grid1.coords (pt 3)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 3 x1
    ∧ (run3 c (grid1.coords (pt 3)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 3 (projOf x1 x2 x3 x4)
    ∧ (run3 c (grid1.coords (pt 3)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 3 (projOf x1 x2 x3 x4) (freshOf x1 (pSeen 3 xs8)) (upd7 xs7 (L7 3 x1)) xs9 := by
  unfold run3
  dsimp only
  sl_unfold_run_names
  simp only [View.readAt_eq_ld, Memref.IsWhole.read_unread, read_unread7, read_unread8, read_unread9]
  refine ⟨?_, ?_, ?_⟩ <;> sl_kernel_rfl

end Cert.Kernel.GcnKit

end
-- ==== Proof.GcnBody3Bits.lean ====
/- scratch/gen_cases.js bits GcnBody3 — proof/Proof/GcnBody3Ideal.lean with the namespace Cert.KernelIdeal replaced by Cert.Kernel (the word-level program's copy) -/
/-
  The body obligation of the streamed pass at grid point 3: the operands' buffers hold their blocks, the invariant hands the body
  the scratch buffers at contents satisfying the model's invariants for point 2, the run's stores are the model's, and the
  step lemmas give the invariants for point 3; the output window is idle and handed back untouched.
-/
import proofs.«150466_g82282983457293_cont_9to1_m_405_12_alg».proof.Proof.GcnWit3Bits
import proofs.«150466_g82282983457293_cont_9to1_m_405_12_alg».proof.Proof.GcnPostBits
import proofs.«150466_g82282983457293_cont_9to1_m_405_12_alg».proof.Proof.GcnStepBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt3 (c : Dev nD) :
    bodyPre1 V c (pt 3) ⊢ wp frame (wpE (defs₀ (F := F)) Variants.none c none) Set.univ (bodyAt1 (pt 3)) (fun _ => bodyPost1 V c (pt 3)) := by
  unfold bodyPre1 bodyPost1 bodyAt1
  simp only [before1_0, before1_1, before1_2, before1_3, before1_4]
  rw [show (dat1 V c).owesAt () (pt 3).succ = (dat1 V c).owesAt () (pt 3).castSucc from rfl]
  rw [show (dat1 V c).Φ (pt 3).succ = PhiS V c 4 from rfl, show (dat1 V c).Φ (pt 3).castSucc = PhiS V c 3 from rfl]
  rw [show (dat1 V c).leavesExact 0 (pt 3) = owns (c : Thread nD τ) (ms1_0 (pt 3)) fullShare ((dat1 V c).after 0 (pt 3)) from by
      unfold Dat.leavesExact; rw [liveAt1_0 (pt 3)], after1_0]
  rw [show (dat1 V c).leavesExact 1 (pt 3) = owns (c : Thread nD τ) (ms1_1 (pt 3)) fullShare ((dat1 V c).after 1 (pt 3)) from by
      unfold Dat.leavesExact; rw [liveAt1_1 (pt 3)], after1_1]
  rw [show (dat1 V c).leavesExact 2 (pt 3) = owns (c : Thread nD τ) (ms1_2 (pt 3)) fullShare ((dat1 V c).after 2 (pt 3)) from by
      unfold Dat.leavesExact; rw [liveAt1_2 (pt 3)], after1_2]
  rw [show (dat1 V c).leavesExact 3 (pt 3) = owns (c : Thread nD τ) (ms1_3 (pt 3)) fullShare ((dat1 V c).after 3 (pt 3)) from by
      unfold Dat.leavesExact; rw [liveAt1_3 (pt 3)], after1_3]
  rw [show (dat1 V c).leavesExact 4 (pt 3) = owns (c : Thread nD τ) (ms1_4 (pt 3)) fullShare ((dat1 V c).after 4 (pt 3)) from by
      unfold Dat.leavesExact; rw [liveAt1_4 (pt 3)], after1_4]
  rw [Dat.leavesExact_idle (dat1 V c) 5 (pt 3) (idleAt1_5 (pt 3) (by decide)) (noFlush1_5 (pt 3) (by decide))]
  rw [blk1_1_const V c 3, blk1_2_const V c 3, blk1_3_const V c 3, blk1_4_const V c 3]
  rw [show blk1 V c 0 (pt 3) = aOf V c 3 from rfl]
  rw [show PhiS V c 3 = _ from PhiS_succ V c 2]; unfold rest0
  rw [show PhiS V c 4 = _ from PhiS_succ V c 3]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run3 c (grid1.coords (pt 3)) (ms1_0 (pt 3)) (hs1_0 (pt 3)) (ms1_1 (pt 3)) (hs1_1 (pt 3)) (ms1_2 (pt 3)) (hs1_2 (pt 3)) (ms1_3 (pt 3)) (hs1_3 (pt 3)) (ms1_4 (pt 3)) (hs1_4 (pt 3)) (ms1_5 (pt 3)) (hs1_5 (pt 3)) scM7 h7 scM8 h8 scM9 h9 (fun h => absurd ((hcond1 (pt 3)).mp h) (by decide)) ((hcond2 (pt 3)).mpr (by decide)) ((hcond3 (pt 3)).mpr (by decide)) ((hcond4 (pt 3)).mpr (by decide)) ((hcond5 (pt 3)).mpr (by decide)) (fun h => absurd ((hcond6 (pt 3)).mp h) (by decide)) (fun h => absurd ((hcond7 (pt 3)).mp h) (by decide)) (fun h => absurd ((hcond8 (pt 3)).mp h) (by decide)) (fun h => absurd ((hcond9 (pt 3)).mp h) (by decide)) (fun h => absurd ((hcond10 (pt 3)).mp h) (by decide)) (aOf V c 3) (x2Of V c) (x3Of V c) (x4Of V c) (x5Of V c) s7 (pAt (aOf V c) (x2Of V c) (x3Of V c) (x4Of V c) 2) s9 := ⟨_, rfl⟩
  obtain ⟨e7, e8, e9⟩ := run3_lists c (ms1_0 (pt 3)) (hs1_0 (pt 3)) (ms1_1 (pt 3)) (hs1_1 (pt 3)) (ms1_2 (pt 3)) (hs1_2 (pt 3)) (ms1_3 (pt 3)) (hs1_3 (pt 3)) (ms1_4 (pt 3)) (hs1_4 (pt 3)) (ms1_5 (pt 3)) (hs1_5 (pt 3)) (fun h => absurd ((hcond1 (pt 3)).mp h) (by decide)) ((hcond2 (pt 3)).mpr (by decide)) ((hcond3 (pt 3)).mpr (by decide)) ((hcond4 (pt 3)).mpr (by decide)) ((hcond5 (pt 3)).mpr (by decide)) (fun h => absurd ((hcond6 (pt 3)).mp h) (by decide)) (fun h => absurd ((hcond7 (pt 3)).mp h) (by decide)) (fun h => absurd ((hcond8 (pt 3)).mp h) (by decide)) (fun h => absurd ((hcond9 (pt 3)).mp h) (by decide)) (fun h => absurd ((hcond10 (pt 3)).mp h) (by decide)) (aOf V c 3) (x2Of V c) (x3Of V c) (x4Of V c) (x5Of V c) s7 (pAt (aOf V c) (x2Of V c) (x3Of V c) (x4Of V c) 2) s9
  rw [← hR] at e7 e8 e9
  have h7' : SlabInv (aOf V c) 3 (upd7 s7 R.1) := by
    rw [e7]; exact slab_step (aOf V c) 3 s7 (Or.inr hs7)
  have h8' : upd8 (pAt (aOf V c) (x2Of V c) (x3Of V c) (x4Of V c) 2) R.2.1 = pAt (aOf V c) (x2Of V c) (x3Of V c) (x4Of V c) 3 := by
    rw [e8]; exact (p_step_succ (aOf V c) (x2Of V c) (x3Of V c) (x4Of V c) 2)
  have h9' : AccInv (aOf V c) (x2Of V c) (x3Of V c) (x4Of V c) 3 (upd9 s9 R.2.2.1) := by
    rw [e9]; exact acc_step (aOf V c) (x2Of V c) (x3Of V c) (x4Of V c) 3 _ s9 (slab_step (aOf V c) 3 s7 (Or.inr hs7)) (Or.inr hs9)
  clear e7 e8 e9
  subst hR
  iapply ((run3 c (grid1.coords (pt 3)) (ms1_0 (pt 3)) (hs1_0 (pt 3)) (ms1_1 (pt 3)) (hs1_1 (pt 3)) (ms1_2 (pt 3)) (hs1_2 (pt 3)) (ms1_3 (pt 3)) (hs1_3 (pt 3)) (ms1_4 (pt 3)) (hs1_4 (pt 3)) (ms1_5 (pt 3)) (hs1_5 (pt 3)) scM7 h7 scM8 h8 scM9 h9 (fun h => absurd ((hcond1 (pt 3)).mp h) (by decide)) ((hcond2 (pt 3)).mpr (by decide)) ((hcond3 (pt 3)).mpr (by decide)) ((hcond4 (pt 3)).mpr (by decide)) ((hcond5 (pt 3)).mpr (by decide)) (fun h => absurd ((hcond6 (pt 3)).mp h) (by decide)) (fun h => absurd ((hcond7 (pt 3)).mp h) (by decide)) (fun h => absurd ((hcond8 (pt 3)).mp h) (by decide)) (fun h => absurd ((hcond9 (pt 3)).mp h) (by decide)) (fun h => absurd ((hcond10 (pt 3)).mp h) (by decide)) (aOf V c 3) (x2Of V c) (x3Of V c) (x4Of V c) (x5Of V c) s7 (pAt (aOf V c) (x2Of V c) (x3Of V c) (x4Of V c) 2) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.Kernel.GcnKit

end
-- ==== Proof.GcnRun4Bits.lean ====
/- scratch/gen_cases.js bits GcnRun4 — proof/Proof/GcnRun4Ideal.lean with the namespace Cert.KernelIdeal replaced by Cert.Kernel (the word-level program's copy) -/
/-
  The streamed pass's body at grid point 4: the first conditional not taken, the accumulation taken for row blocks 0 … 4.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseBits
import Idealize.ShloMosaic.Lib.Pipeline.FrameBody
import Idealize.ShloMosaic.Lib.Ring
import Idealize.ShloMosaic.Lib.Tactic

set_option maxRecDepth 16384

noncomputable section

namespace Cert.Kernel.GcnRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run4 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.Kernel.GcnRun

end
-- ==== Proof.GcnWit4Bits.lean ====
/- scratch/gen_cases.js bits GcnWit4 — proof/Proof/GcnWit4Ideal.lean with the namespace Cert.KernelIdeal replaced by Cert.Kernel (the word-level program's copy) -/
/-
  The stores the body's run finds at grid point 4 are the model's: the same rectangles (the offsets computed from the
  grid coordinate are the literal ones) carrying the same arithmetic of the operand blocks and of the scratch contents.
-/
import proofs.«150466_g82282983457293_cont_9to1_m_405_12_alg».proof.Proof.GcnRun4Bits
import proofs.«150466_g82282983457293_cont_9to1_m_405_12_alg».proof.Proof.GcnKitBits
import proofs.«150466_g82282983457293_cont_9to1_m_405_12_alg».proof.Proof.GcnReadBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.Sem

variable {F : FTy → Type} [FloatOps F]

set_option maxHeartbeats 4000000 in
theorem run4_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 4))) (hc2 : k1_cond2 (grid1.coords (pt 4)) = 1#1) (hc3 : k1_cond3 (grid1.coords (pt 4)) = 1#1) (hc4 : k1_cond4 (grid1.coords (pt 4)) = 1#1) (hc5 : k1_cond5 (grid1.coords (pt 4)) = 1#1) (hc6 : k1_cond6 (grid1.coords (pt 4)) = 1#1) (hc7 : ¬ k1_cond7 (grid1.coords (pt 4)) = 1#1) (hc8 : ¬ k1_cond8 (grid1.coords (pt 4)) = 1#1) (hc9 : ¬ k1_cond9 (grid1.coords (pt 4)) = 1#1) (hc10 : ¬ k1_cond10 (grid1.coords (pt 4)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run4 c (grid1.coords (pt 4)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 4 x1
    ∧ (run4 c (grid1.coords (pt 4)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 4 (projOf x1 x2 x3 x4)
    ∧ (run4 c (grid1.coords (pt 4)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 4 (projOf x1 x2 x3 x4) (freshOf x1 (pSeen 4 xs8)) (upd7 xs7 (L7 4 x1)) xs9 := by
  unfold run4
  dsimp only
  sl_unfold_run_names
  simp only [View.readAt_eq_ld, Memref.IsWhole.read_unread, read_unread7, read_unread8, read_unread9]
  refine ⟨?_, ?_, ?_⟩ <;> sl_kernel_rfl

end Cert.Kernel.GcnKit

end
-- ==== Proof.GcnBody4Bits.lean ====
/- scratch/gen_cases.js bits GcnBody4 — proof/Proof/GcnBody4Ideal.lean with the namespace Cert.KernelIdeal replaced by Cert.Kernel (the word-level program's copy) -/
/-
  The body obligation of the streamed pass at grid point 4: the operands' buffers hold their blocks, the invariant hands the body
  the scratch buffers at contents satisfying the model's invariants for point 3, the run's stores are the model's, and the
  step lemmas give the invariants for point 4; the output window is idle and handed back untouched.
-/
import proofs.«150466_g82282983457293_cont_9to1_m_405_12_alg».proof.Proof.GcnWit4Bits
import proofs.«150466_g82282983457293_cont_9to1_m_405_12_alg».proof.Proof.GcnPostBits
import proofs.«150466_g82282983457293_cont_9to1_m_405_12_alg».proof.Proof.GcnStepBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt4 (c : Dev nD) :
    bodyPre1 V c (pt 4) ⊢ wp frame (wpE (defs₀ (F := F)) Variants.none c none) Set.univ (bodyAt1 (pt 4)) (fun _ => bodyPost1 V c (pt 4)) := by
  unfold bodyPre1 bodyPost1 bodyAt1
  simp only [before1_0, before1_1, before1_2, before1_3, before1_4]
  rw [show (dat1 V c).owesAt () (pt 4).succ = (dat1 V c).owesAt () (pt 4).castSucc from rfl]
  rw [show (dat1 V c).Φ (pt 4).succ = PhiS V c 5 from rfl, show (dat1 V c).Φ (pt 4).castSucc = PhiS V c 4 from rfl]
  rw [show (dat1 V c).leavesExact 0 (pt 4) = owns (c : Thread nD τ) (ms1_0 (pt 4)) fullShare ((dat1 V c).after 0 (pt 4)) from by
      unfold Dat.leavesExact; rw [liveAt1_0 (pt 4)], after1_0]
  rw [show (dat1 V c).leavesExact 1 (pt 4) = owns (c : Thread nD τ) (ms1_1 (pt 4)) fullShare ((dat1 V c).after 1 (pt 4)) from by
      unfold Dat.leavesExact; rw [liveAt1_1 (pt 4)], after1_1]
  rw [show (dat1 V c).leavesExact 2 (pt 4) = owns (c : Thread nD τ) (ms1_2 (pt 4)) fullShare ((dat1 V c).after 2 (pt 4)) from by
      unfold Dat.leavesExact; rw [liveAt1_2 (pt 4)], after1_2]
  rw [show (dat1 V c).leavesExact 3 (pt 4) = owns (c : Thread nD τ) (ms1_3 (pt 4)) fullShare ((dat1 V c).after 3 (pt 4)) from by
      unfold Dat.leavesExact; rw [liveAt1_3 (pt 4)], after1_3]
  rw [show (dat1 V c).leavesExact 4 (pt 4) = owns (c : Thread nD τ) (ms1_4 (pt 4)) fullShare ((dat1 V c).after 4 (pt 4)) from by
      unfold Dat.leavesExact; rw [liveAt1_4 (pt 4)], after1_4]
  rw [Dat.leavesExact_idle (dat1 V c) 5 (pt 4) (idleAt1_5 (pt 4) (by decide)) (noFlush1_5 (pt 4) (by decide))]
  rw [blk1_1_const V c 4, blk1_2_const V c 4, blk1_3_const V c 4, blk1_4_const V c 4]
  rw [show blk1 V c 0 (pt 4) = aOf V c 4 from rfl]
  rw [show PhiS V c 4 = _ from PhiS_succ V c 3]; unfold rest0
  rw [show PhiS V c 5 = _ from PhiS_succ V c 4]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run4 c (grid1.coords (pt 4)) (ms1_0 (pt 4)) (hs1_0 (pt 4)) (ms1_1 (pt 4)) (hs1_1 (pt 4)) (ms1_2 (pt 4)) (hs1_2 (pt 4)) (ms1_3 (pt 4)) (hs1_3 (pt 4)) (ms1_4 (pt 4)) (hs1_4 (pt 4)) (ms1_5 (pt 4)) (hs1_5 (pt 4)) scM7 h7 scM8 h8 scM9 h9 (fun h => absurd ((hcond1 (pt 4)).mp h) (by decide)) ((hcond2 (pt 4)).mpr (by decide)) ((hcond3 (pt 4)).mpr (by decide)) ((hcond4 (pt 4)).mpr (by decide)) ((hcond5 (pt 4)).mpr (by decide)) ((hcond6 (pt 4)).mpr (by decide)) (fun h => absurd ((hcond7 (pt 4)).mp h) (by decide)) (fun h => absurd ((hcond8 (pt 4)).mp h) (by decide)) (fun h => absurd ((hcond9 (pt 4)).mp h) (by decide)) (fun h => absurd ((hcond10 (pt 4)).mp h) (by decide)) (aOf V c 4) (x2Of V c) (x3Of V c) (x4Of V c) (x5Of V c) s7 (pAt (aOf V c) (x2Of V c) (x3Of V c) (x4Of V c) 3) s9 := ⟨_, rfl⟩
  obtain ⟨e7, e8, e9⟩ := run4_lists c (ms1_0 (pt 4)) (hs1_0 (pt 4)) (ms1_1 (pt 4)) (hs1_1 (pt 4)) (ms1_2 (pt 4)) (hs1_2 (pt 4)) (ms1_3 (pt 4)) (hs1_3 (pt 4)) (ms1_4 (pt 4)) (hs1_4 (pt 4)) (ms1_5 (pt 4)) (hs1_5 (pt 4)) (fun h => absurd ((hcond1 (pt 4)).mp h) (by decide)) ((hcond2 (pt 4)).mpr (by decide)) ((hcond3 (pt 4)).mpr (by decide)) ((hcond4 (pt 4)).mpr (by decide)) ((hcond5 (pt 4)).mpr (by decide)) ((hcond6 (pt 4)).mpr (by decide)) (fun h => absurd ((hcond7 (pt 4)).mp h) (by decide)) (fun h => absurd ((hcond8 (pt 4)).mp h) (by decide)) (fun h => absurd ((hcond9 (pt 4)).mp h) (by decide)) (fun h => absurd ((hcond10 (pt 4)).mp h) (by decide)) (aOf V c 4) (x2Of V c) (x3Of V c) (x4Of V c) (x5Of V c) s7 (pAt (aOf V c) (x2Of V c) (x3Of V c) (x4Of V c) 3) s9
  rw [← hR] at e7 e8 e9
  have h7' : SlabInv (aOf V c) 4 (upd7 s7 R.1) := by
    rw [e7]; exact slab_step (aOf V c) 4 s7 (Or.inr hs7)
  have h8' : upd8 (pAt (aOf V c) (x2Of V c) (x3Of V c) (x4Of V c) 3) R.2.1 = pAt (aOf V c) (x2Of V c) (x3Of V c) (x4Of V c) 4 := by
    rw [e8]; exact (p_step_succ (aOf V c) (x2Of V c) (x3Of V c) (x4Of V c) 3)
  have h9' : AccInv (aOf V c) (x2Of V c) (x3Of V c) (x4Of V c) 4 (upd9 s9 R.2.2.1) := by
    rw [e9]; exact acc_step (aOf V c) (x2Of V c) (x3Of V c) (x4Of V c) 4 _ s9 (slab_step (aOf V c) 4 s7 (Or.inr hs7)) (Or.inr hs9)
  clear e7 e8 e9
  subst hR
  iapply ((run4 c (grid1.coords (pt 4)) (ms1_0 (pt 4)) (hs1_0 (pt 4)) (ms1_1 (pt 4)) (hs1_1 (pt 4)) (ms1_2 (pt 4)) (hs1_2 (pt 4)) (ms1_3 (pt 4)) (hs1_3 (pt 4)) (ms1_4 (pt 4)) (hs1_4 (pt 4)) (ms1_5 (pt 4)) (hs1_5 (pt 4)) scM7 h7 scM8 h8 scM9 h9 (fun h => absurd ((hcond1 (pt 4)).mp h) (by decide)) ((hcond2 (pt 4)).mpr (by decide)) ((hcond3 (pt 4)).mpr (by decide)) ((hcond4 (pt 4)).mpr (by decide)) ((hcond5 (pt 4)).mpr (by decide)) ((hcond6 (pt 4)).mpr (by decide)) (fun h => absurd ((hcond7 (pt 4)).mp h) (by decide)) (fun h => absurd ((hcond8 (pt 4)).mp h) (by decide)) (fun h => absurd ((hcond9 (pt 4)).mp h) (by decide)) (fun h => absurd ((hcond10 (pt 4)).mp h) (by decide)) (aOf V c 4) (x2Of V c) (x3Of V c) (x4Of V c) (x5Of V c) s7 (pAt (aOf V c) (x2Of V c) (x3Of V c) (x4Of V c) 3) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.Kernel.GcnKit

end
-- ==== Proof.GcnRun5Bits.lean ====
/- scratch/gen_cases.js bits GcnRun5 — proof/Proof/GcnRun5Ideal.lean with the namespace Cert.KernelIdeal replaced by Cert.Kernel (the word-level program's copy) -/
/-
  The streamed pass's body at grid point 5: the first conditional not taken, the accumulation taken for row blocks 0 … 5.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseBits
import Idealize.ShloMosaic.Lib.Pipeline.FrameBody
import Idealize.ShloMosaic.Lib.Ring
import Idealize.ShloMosaic.Lib.Tactic

set_option maxRecDepth 16384

noncomputable section

namespace Cert.Kernel.GcnRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run5 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : k1_cond6 i = 1#1) (hc7 : k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.Kernel.GcnRun

end
-- ==== Proof.GcnWit5Bits.lean ====
/- scratch/gen_cases.js bits GcnWit5 — proof/Proof/GcnWit5Ideal.lean with the namespace Cert.KernelIdeal replaced by Cert.Kernel (the word-level program's copy) -/
/-
  The stores the body's run finds at grid point 5 are the model's: the same rectangles (the offsets computed from the
  grid coordinate are the literal ones) carrying the same arithmetic of the operand blocks and of the scratch contents.
-/
import proofs.«150466_g82282983457293_cont_9to1_m_405_12_alg».proof.Proof.GcnRun5Bits
import proofs.«150466_g82282983457293_cont_9to1_m_405_12_alg».proof.Proof.GcnKitBits
import proofs.«150466_g82282983457293_cont_9to1_m_405_12_alg».proof.Proof.GcnReadBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.Sem

variable {F : FTy → Type} [FloatOps F]

set_option maxHeartbeats 4000000 in
theorem run5_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 5))) (hc2 : k1_cond2 (grid1.coords (pt 5)) = 1#1) (hc3 : k1_cond3 (grid1.coords (pt 5)) = 1#1) (hc4 : k1_cond4 (grid1.coords (pt 5)) = 1#1) (hc5 : k1_cond5 (grid1.coords (pt 5)) = 1#1) (hc6 : k1_cond6 (grid1.coords (pt 5)) = 1#1) (hc7 : k1_cond7 (grid1.coords (pt 5)) = 1#1) (hc8 : ¬ k1_cond8 (grid1.coords (pt 5)) = 1#1) (hc9 : ¬ k1_cond9 (grid1.coords (pt 5)) = 1#1) (hc10 : ¬ k1_cond10 (grid1.coords (pt 5)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run5 c (grid1.coords (pt 5)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 5 x1
    ∧ (run5 c (grid1.coords (pt 5)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 5 (projOf x1 x2 x3 x4)
    ∧ (run5 c (grid1.coords (pt 5)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 5 (projOf x1 x2 x3 x4) (freshOf x1 (pSeen 5 xs8)) (upd7 xs7 (L7 5 x1)) xs9 := by
  unfold run5
  dsimp only
  sl_unfold_run_names
  simp only [View.readAt_eq_ld, Memref.IsWhole.read_unread, read_unread7, read_unread8, read_unread9]
  refine ⟨?_, ?_, ?_⟩ <;> sl_kernel_rfl

end Cert.Kernel.GcnKit

end
-- ==== Proof.GcnBody5Bits.lean ====
/- scratch/gen_cases.js bits GcnBody5 — proof/Proof/GcnBody5Ideal.lean with the namespace Cert.KernelIdeal replaced by Cert.Kernel (the word-level program's copy) -/
/-
  The body obligation of the streamed pass at grid point 5: the operands' buffers hold their blocks, the invariant hands the body
  the scratch buffers at contents satisfying the model's invariants for point 4, the run's stores are the model's, and the
  step lemmas give the invariants for point 5; the output window is idle and handed back untouched.
-/
import proofs.«150466_g82282983457293_cont_9to1_m_405_12_alg».proof.Proof.GcnWit5Bits
import proofs.«150466_g82282983457293_cont_9to1_m_405_12_alg».proof.Proof.GcnPostBits
import proofs.«150466_g82282983457293_cont_9to1_m_405_12_alg».proof.Proof.GcnStepBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt5 (c : Dev nD) :
    bodyPre1 V c (pt 5) ⊢ wp frame (wpE (defs₀ (F := F)) Variants.none c none) Set.univ (bodyAt1 (pt 5)) (fun _ => bodyPost1 V c (pt 5)) := by
  unfold bodyPre1 bodyPost1 bodyAt1
  simp only [before1_0, before1_1, before1_2, before1_3, before1_4]
  rw [show (dat1 V c).owesAt () (pt 5).succ = (dat1 V c).owesAt () (pt 5).castSucc from rfl]
  rw [show (dat1 V c).Φ (pt 5).succ = PhiS V c 6 from rfl, show (dat1 V c).Φ (pt 5).castSucc = PhiS V c 5 from rfl]
  rw [show (dat1 V c).leavesExact 0 (pt 5) = owns (c : Thread nD τ) (ms1_0 (pt 5)) fullShare ((dat1 V c).after 0 (pt 5)) from by
      unfold Dat.leavesExact; rw [liveAt1_0 (pt 5)], after1_0]
  rw [show (dat1 V c).leavesExact 1 (pt 5) = owns (c : Thread nD τ) (ms1_1 (pt 5)) fullShare ((dat1 V c).after 1 (pt 5)) from by
      unfold Dat.leavesExact; rw [liveAt1_1 (pt 5)], after1_1]
  rw [show (dat1 V c).leavesExact 2 (pt 5) = owns (c : Thread nD τ) (ms1_2 (pt 5)) fullShare ((dat1 V c).after 2 (pt 5)) from by
      unfold Dat.leavesExact; rw [liveAt1_2 (pt 5)], after1_2]
  rw [show (dat1 V c).leavesExact 3 (pt 5) = owns (c : Thread nD τ) (ms1_3 (pt 5)) fullShare ((dat1 V c).after 3 (pt 5)) from by
      unfold Dat.leavesExact; rw [liveAt1_3 (pt 5)], after1_3]
  rw [show (dat1 V c).leavesExact 4 (pt 5) = owns (c : Thread nD τ) (ms1_4 (pt 5)) fullShare ((dat1 V c).after 4 (pt 5)) from by
      unfold Dat.leavesExact; rw [liveAt1_4 (pt 5)], after1_4]
  rw [Dat.leavesExact_idle (dat1 V c) 5 (pt 5) (idleAt1_5 (pt 5) (by decide)) (noFlush1_5 (pt 5) (by decide))]
  rw [blk1_1_const V c 5, blk1_2_const V c 5, blk1_3_const V c 5, blk1_4_const V c 5]
  rw [show blk1 V c 0 (pt 5) = aOf V c 5 from rfl]
  rw [show PhiS V c 5 = _ from PhiS_succ V c 4]; unfold rest0
  rw [show PhiS V c 6 = _ from PhiS_succ V c 5]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run5 c (grid1.coords (pt 5)) (ms1_0 (pt 5)) (hs1_0 (pt 5)) (ms1_1 (pt 5)) (hs1_1 (pt 5)) (ms1_2 (pt 5)) (hs1_2 (pt 5)) (ms1_3 (pt 5)) (hs1_3 (pt 5)) (ms1_4 (pt 5)) (hs1_4 (pt 5)) (ms1_5 (pt 5)) (hs1_5 (pt 5)) scM7 h7 scM8 h8 scM9 h9 (fun h => absurd ((hcond1 (pt 5)).mp h) (by decide)) ((hcond2 (pt 5)).mpr (by decide)) ((hcond3 (pt 5)).mpr (by decide)) ((hcond4 (pt 5)).mpr (by decide)) ((hcond5 (pt 5)).mpr (by decide)) ((hcond6 (pt 5)).mpr (by decide)) ((hcond7 (pt 5)).mpr (by decide)) (fun h => absurd ((hcond8 (pt 5)).mp h) (by decide)) (fun h => absurd ((hcond9 (pt 5)).mp h) (by decide)) (fun h => absurd ((hcond10 (pt 5)).mp h) (by decide)) (aOf V c 5) (x2Of V c) (x3Of V c) (x4Of V c) (x5Of V c) s7 (pAt (aOf V c) (x2Of V c) (x3Of V c) (x4Of V c) 4) s9 := ⟨_, rfl⟩
  obtain ⟨e7, e8, e9⟩ := run5_lists c (ms1_0 (pt 5)) (hs1_0 (pt 5)) (ms1_1 (pt 5)) (hs1_1 (pt 5)) (ms1_2 (pt 5)) (hs1_2 (pt 5)) (ms1_3 (pt 5)) (hs1_3 (pt 5)) (ms1_4 (pt 5)) (hs1_4 (pt 5)) (ms1_5 (pt 5)) (hs1_5 (pt 5)) (fun h => absurd ((hcond1 (pt 5)).mp h) (by decide)) ((hcond2 (pt 5)).mpr (by decide)) ((hcond3 (pt 5)).mpr (by decide)) ((hcond4 (pt 5)).mpr (by decide)) ((hcond5 (pt 5)).mpr (by decide)) ((hcond6 (pt 5)).mpr (by decide)) ((hcond7 (pt 5)).mpr (by decide)) (fun h => absurd ((hcond8 (pt 5)).mp h) (by decide)) (fun h => absurd ((hcond9 (pt 5)).mp h) (by decide)) (fun h => absurd ((hcond10 (pt 5)).mp h) (by decide)) (aOf V c 5) (x2Of V c) (x3Of V c) (x4Of V c) (x5Of V c) s7 (pAt (aOf V c) (x2Of V c) (x3Of V c) (x4Of V c) 4) s9
  rw [← hR] at e7 e8 e9
  have h7' : SlabInv (aOf V c) 5 (upd7 s7 R.1) := by
    rw [e7]; exact slab_step (aOf V c) 5 s7 (Or.inr hs7)
  have h8' : upd8 (pAt (aOf V c) (x2Of V c) (x3Of V c) (x4Of V c) 4) R.2.1 = pAt (aOf V c) (x2Of V c) (x3Of V c) (x4Of V c) 5 := by
    rw [e8]; exact (p_step_succ (aOf V c) (x2Of V c) (x3Of V c) (x4Of V c) 4)
  have h9' : AccInv (aOf V c) (x2Of V c) (x3Of V c) (x4Of V c) 5 (upd9 s9 R.2.2.1) := by
    rw [e9]; exact acc_step (aOf V c) (x2Of V c) (x3Of V c) (x4Of V c) 5 _ s9 (slab_step (aOf V c) 5 s7 (Or.inr hs7)) (Or.inr hs9)
  clear e7 e8 e9
  subst hR
  iapply ((run5 c (grid1.coords (pt 5)) (ms1_0 (pt 5)) (hs1_0 (pt 5)) (ms1_1 (pt 5)) (hs1_1 (pt 5)) (ms1_2 (pt 5)) (hs1_2 (pt 5)) (ms1_3 (pt 5)) (hs1_3 (pt 5)) (ms1_4 (pt 5)) (hs1_4 (pt 5)) (ms1_5 (pt 5)) (hs1_5 (pt 5)) scM7 h7 scM8 h8 scM9 h9 (fun h => absurd ((hcond1 (pt 5)).mp h) (by decide)) ((hcond2 (pt 5)).mpr (by decide)) ((hcond3 (pt 5)).mpr (by decide)) ((hcond4 (pt 5)).mpr (by decide)) ((hcond5 (pt 5)).mpr (by decide)) ((hcond6 (pt 5)).mpr (by decide)) ((hcond7 (pt 5)).mpr (by decide)) (fun h => absurd ((hcond8 (pt 5)).mp h) (by decide)) (fun h => absurd ((hcond9 (pt 5)).mp h) (by decide)) (fun h => absurd ((hcond10 (pt 5)).mp h) (by decide)) (aOf V c 5) (x2Of V c) (x3Of V c) (x4Of V c) (x5Of V c) s7 (pAt (aOf V c) (x2Of V c) (x3Of V c) (x4Of V c) 4) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.Kernel.GcnKit

end
-- ==== Proof.GcnRun6Bits.lean ====
/- scratch/gen_cases.js bits GcnRun6 — proof/Proof/GcnRun6Ideal.lean with the namespace Cert.KernelIdeal replaced by Cert.Kernel (the word-level program's copy) -/
/-
  The streamed pass's body at grid point 6: the first conditional not taken, the accumulation taken for row blocks 0 … 6.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseBits
import Idealize.ShloMosaic.Lib.Pipeline.FrameBody
import Idealize.ShloMosaic.Lib.Ring
import Idealize.ShloMosaic.Lib.Tactic

set_option maxRecDepth 16384

noncomputable section

namespace Cert.Kernel.GcnRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run6 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : k1_cond6 i = 1#1) (hc7 : k1_cond7 i = 1#1) (hc8 : k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.Kernel.GcnRun

end
-- ==== Proof.GcnWit6Bits.lean ====
/- scratch/gen_cases.js bits GcnWit6 — proof/Proof/GcnWit6Ideal.lean with the namespace Cert.KernelIdeal replaced by Cert.Kernel (the word-level program's copy) -/
/-
  The stores the body's run finds at grid point 6 are the model's: the same rectangles (the offsets computed from the
  grid coordinate are the literal ones) carrying the same arithmetic of the operand blocks and of the scratch contents.
-/
import proofs.«150466_g82282983457293_cont_9to1_m_405_12_alg».proof.Proof.GcnRun6Bits
import proofs.«150466_g82282983457293_cont_9to1_m_405_12_alg».proof.Proof.GcnKitBits
import proofs.«150466_g82282983457293_cont_9to1_m_405_12_alg».proof.Proof.GcnReadBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.Sem

variable {F : FTy → Type} [FloatOps F]

set_option maxHeartbeats 4000000 in
theorem run6_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 6))) (hc2 : k1_cond2 (grid1.coords (pt 6)) = 1#1) (hc3 : k1_cond3 (grid1.coords (pt 6)) = 1#1) (hc4 : k1_cond4 (grid1.coords (pt 6)) = 1#1) (hc5 : k1_cond5 (grid1.coords (pt 6)) = 1#1) (hc6 : k1_cond6 (grid1.coords (pt 6)) = 1#1) (hc7 : k1_cond7 (grid1.coords (pt 6)) = 1#1) (hc8 : k1_cond8 (grid1.coords (pt 6)) = 1#1) (hc9 : ¬ k1_cond9 (grid1.coords (pt 6)) = 1#1) (hc10 : ¬ k1_cond10 (grid1.coords (pt 6)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run6 c (grid1.coords (pt 6)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 6 x1
    ∧ (run6 c (grid1.coords (pt 6)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 6 (projOf x1 x2 x3 x4)
    ∧ (run6 c (grid1.coords (pt 6)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 6 (projOf x1 x2 x3 x4) (freshOf x1 (pSeen 6 xs8)) (upd7 xs7 (L7 6 x1)) xs9 := by
  unfold run6
  dsimp only
  sl_unfold_run_names
  simp only [View.readAt_eq_ld, Memref.IsWhole.read_unread, read_unread7, read_unread8, read_unread9]
  refine ⟨?_, ?_, ?_⟩ <;> sl_kernel_rfl

end Cert.Kernel.GcnKit

end
-- ==== Proof.GcnBody6Bits.lean ====
/- scratch/gen_cases.js bits GcnBody6 — proof/Proof/GcnBody6Ideal.lean with the namespace Cert.KernelIdeal replaced by Cert.Kernel (the word-level program's copy) -/
/-
  The body obligation of the streamed pass at grid point 6: the operands' buffers hold their blocks, the invariant hands the body
  the scratch buffers at contents satisfying the model's invariants for point 5, the run's stores are the model's, and the
  step lemmas give the invariants for point 6; the output window is idle and handed back untouched.
-/
import proofs.«150466_g82282983457293_cont_9to1_m_405_12_alg».proof.Proof.GcnWit6Bits
import proofs.«150466_g82282983457293_cont_9to1_m_405_12_alg».proof.Proof.GcnPostBits
import proofs.«150466_g82282983457293_cont_9to1_m_405_12_alg».proof.Proof.GcnStepBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt6 (c : Dev nD) :
    bodyPre1 V c (pt 6) ⊢ wp frame (wpE (defs₀ (F := F)) Variants.none c none) Set.univ (bodyAt1 (pt 6)) (fun _ => bodyPost1 V c (pt 6)) := by
  unfold bodyPre1 bodyPost1 bodyAt1
  simp only [before1_0, before1_1, before1_2, before1_3, before1_4]
  rw [show (dat1 V c).owesAt () (pt 6).succ = (dat1 V c).owesAt () (pt 6).castSucc from rfl]
  rw [show (dat1 V c).Φ (pt 6).succ = PhiS V c 7 from rfl, show (dat1 V c).Φ (pt 6).castSucc = PhiS V c 6 from rfl]
  rw [show (dat1 V c).leavesExact 0 (pt 6) = owns (c : Thread nD τ) (ms1_0 (pt 6)) fullShare ((dat1 V c).after 0 (pt 6)) from by
      unfold Dat.leavesExact; rw [liveAt1_0 (pt 6)], after1_0]
  rw [show (dat1 V c).leavesExact 1 (pt 6) = owns (c : Thread nD τ) (ms1_1 (pt 6)) fullShare ((dat1 V c).after 1 (pt 6)) from by
      unfold Dat.leavesExact; rw [liveAt1_1 (pt 6)], after1_1]
  rw [show (dat1 V c).leavesExact 2 (pt 6) = owns (c : Thread nD τ) (ms1_2 (pt 6)) fullShare ((dat1 V c).after 2 (pt 6)) from by
      unfold Dat.leavesExact; rw [liveAt1_2 (pt 6)], after1_2]
  rw [show (dat1 V c).leavesExact 3 (pt 6) = owns (c : Thread nD τ) (ms1_3 (pt 6)) fullShare ((dat1 V c).after 3 (pt 6)) from by
      unfold Dat.leavesExact; rw [liveAt1_3 (pt 6)], after1_3]
  rw [show (dat1 V c).leavesExact 4 (pt 6) = owns (c : Thread nD τ) (ms1_4 (pt 6)) fullShare ((dat1 V c).after 4 (pt 6)) from by
      unfold Dat.leavesExact; rw [liveAt1_4 (pt 6)], after1_4]
  rw [Dat.leavesExact_idle (dat1 V c) 5 (pt 6) (idleAt1_5 (pt 6) (by decide)) (noFlush1_5 (pt 6) (by decide))]
  rw [blk1_1_const V c 6, blk1_2_const V c 6, blk1_3_const V c 6, blk1_4_const V c 6]
  rw [show blk1 V c 0 (pt 6) = aOf V c 6 from rfl]
  rw [show PhiS V c 6 = _ from PhiS_succ V c 5]; unfold rest0
  rw [show PhiS V c 7 = _ from PhiS_succ V c 6]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run6 c (grid1.coords (pt 6)) (ms1_0 (pt 6)) (hs1_0 (pt 6)) (ms1_1 (pt 6)) (hs1_1 (pt 6)) (ms1_2 (pt 6)) (hs1_2 (pt 6)) (ms1_3 (pt 6)) (hs1_3 (pt 6)) (ms1_4 (pt 6)) (hs1_4 (pt 6)) (ms1_5 (pt 6)) (hs1_5 (pt 6)) scM7 h7 scM8 h8 scM9 h9 (fun h => absurd ((hcond1 (pt 6)).mp h) (by decide)) ((hcond2 (pt 6)).mpr (by decide)) ((hcond3 (pt 6)).mpr (by decide)) ((hcond4 (pt 6)).mpr (by decide)) ((hcond5 (pt 6)).mpr (by decide)) ((hcond6 (pt 6)).mpr (by decide)) ((hcond7 (pt 6)).mpr (by decide)) ((hcond8 (pt 6)).mpr (by decide)) (fun h => absurd ((hcond9 (pt 6)).mp h) (by decide)) (fun h => absurd ((hcond10 (pt 6)).mp h) (by decide)) (aOf V c 6) (x2Of V c) (x3Of V c) (x4Of V c) (x5Of V c) s7 (pAt (aOf V c) (x2Of V c) (x3Of V c) (x4Of V c) 5) s9 := ⟨_, rfl⟩
  obtain ⟨e7, e8, e9⟩ := run6_lists c (ms1_0 (pt 6)) (hs1_0 (pt 6)) (ms1_1 (pt 6)) (hs1_1 (pt 6)) (ms1_2 (pt 6)) (hs1_2 (pt 6)) (ms1_3 (pt 6)) (hs1_3 (pt 6)) (ms1_4 (pt 6)) (hs1_4 (pt 6)) (ms1_5 (pt 6)) (hs1_5 (pt 6)) (fun h => absurd ((hcond1 (pt 6)).mp h) (by decide)) ((hcond2 (pt 6)).mpr (by decide)) ((hcond3 (pt 6)).mpr (by decide)) ((hcond4 (pt 6)).mpr (by decide)) ((hcond5 (pt 6)).mpr (by decide)) ((hcond6 (pt 6)).mpr (by decide)) ((hcond7 (pt 6)).mpr (by decide)) ((hcond8 (pt 6)).mpr (by decide)) (fun h => absurd ((hcond9 (pt 6)).mp h) (by decide)) (fun h => absurd ((hcond10 (pt 6)).mp h) (by decide)) (aOf V c 6) (x2Of V c) (x3Of V c) (x4Of V c) (x5Of V c) s7 (pAt (aOf V c) (x2Of V c) (x3Of V c) (x4Of V c) 5) s9
  rw [← hR] at e7 e8 e9
  have h7' : SlabInv (aOf V c) 6 (upd7 s7 R.1) := by
    rw [e7]; exact slab_step (aOf V c) 6 s7 (Or.inr hs7)
  have h8' : upd8 (pAt (aOf V c) (x2Of V c) (x3Of V c) (x4Of V c) 5) R.2.1 = pAt (aOf V c) (x2Of V c) (x3Of V c) (x4Of V c) 6 := by
    rw [e8]; exact (p_step_succ (aOf V c) (x2Of V c) (x3Of V c) (x4Of V c) 5)
  have h9' : AccInv (aOf V c) (x2Of V c) (x3Of V c) (x4Of V c) 6 (upd9 s9 R.2.2.1) := by
    rw [e9]; exact acc_step (aOf V c) (x2Of V c) (x3Of V c) (x4Of V c) 6 _ s9 (slab_step (aOf V c) 6 s7 (Or.inr hs7)) (Or.inr hs9)
  clear e7 e8 e9
  subst hR
  iapply ((run6 c (grid1.coords (pt 6)) (ms1_0 (pt 6)) (hs1_0 (pt 6)) (ms1_1 (pt 6)) (hs1_1 (pt 6)) (ms1_2 (pt 6)) (hs1_2 (pt 6)) (ms1_3 (pt 6)) (hs1_3 (pt 6)) (ms1_4 (pt 6)) (hs1_4 (pt 6)) (ms1_5 (pt 6)) (hs1_5 (pt 6)) scM7 h7 scM8 h8 scM9 h9 (fun h => absurd ((hcond1 (pt 6)).mp h) (by decide)) ((hcond2 (pt 6)).mpr (by decide)) ((hcond3 (pt 6)).mpr (by decide)) ((hcond4 (pt 6)).mpr (by decide)) ((hcond5 (pt 6)).mpr (by decide)) ((hcond6 (pt 6)).mpr (by decide)) ((hcond7 (pt 6)).mpr (by decide)) ((hcond8 (pt 6)).mpr (by decide)) (fun h => absurd ((hcond9 (pt 6)).mp h) (by decide)) (fun h => absurd ((hcond10 (pt 6)).mp h) (by decide)) (aOf V c 6) (x2Of V c) (x3Of V c) (x4Of V c) (x5Of V c) s7 (pAt (aOf V c) (x2Of V c) (x3Of V c) (x4Of V c) 5) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.Kernel.GcnKit

end
-- ==== Proof.GcnRun7Bits.lean ====
/- scratch/gen_cases.js bits GcnRun7 — proof/Proof/GcnRun7Ideal.lean with the namespace Cert.KernelIdeal replaced by Cert.Kernel (the word-level program's copy) -/
/-
  The streamed pass's body at grid point 7: the first conditional not taken, the accumulation taken for row blocks 0 … 7, the epilogue taken (the point is the last).
  On whole memrefs — the five operand blocks at their contents, the output block at anything, the three scratch buffers at
  the contents `xs·` the point before left — the body runs to the continuation with the operands as they were and each
  scratch buffer at its contents overwritten by the point's stores, listed last first, the output block by the epilogue's eight row-block stores. The lists are
  the witness the symbolic run finds.
-/
import proofs.«150466_g82282983457293_cont_9to1_m_405_12_alg».proof.Proof.GcnBaseBits
import Idealize.ShloMosaic.Lib.Pipeline.FrameBody
import Idealize.ShloMosaic.Lib.Ring
import Idealize.ShloMosaic.Lib.Tactic

set_option maxRecDepth 16384

noncomputable section

namespace Cert.Kernel.GcnRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run7 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : k1_cond6 i = 1#1) (hc7 : k1_cond7 i = 1#1) (hc8 : k1_cond8 i = 1#1) (hc9 : k1_cond9 i = 1#1) (hc10 : k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L6 : List (View.Piece (Elt F) S4096x64 .f32)) (L7 : List (View.Piece (Elt F) S8x4096x512 .bf16)) (L8 : List (View.Piece (Elt F) S4096x64 .bf16)), { L9 : List (View.Piece (Elt F) S4096x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    isplitl [H8]; · iexact H8
    iexact H9

end Cert.Kernel.GcnRun

end
-- ==== Proof.GcnEpiBits.lean ====
/- scratch/gen_cases.js bits GcnEpi — proof/Proof/GcnEpiIdeal.lean with the namespace Cert.KernelIdeal replaced by Cert.Kernel (the word-level program's copy) -/
/-
  The last point's epilogue reads the accumulator through loads that the point's own stores cover.

  At point 7 the accumulation stores every one of the eight row blocks of the accumulator, so a load of a row block
  after those stores does not depend on what the buffer held before them: it is the load of the buffer as the stores
  leave it over any earlier contents.  The eight row blocks tile the 4096 × 64 output block: row y lies in block y / 512.
-/
import proofs.«150466_g82282983457293_cont_9to1_m_405_12_alg».proof.Proof.GcnStepBits

noncomputable section

namespace Cert.Kernel.GcnModel

open Cert.Kernel Cert.Kernel.Gen
open Idealize.ShloMosaic Idealize.ShloMosaic.TcCoe

variable {F : FTy → Type} [FloatOps F]

/-- The epilogue's stores with the accumulator's row blocks read as covered loads after the stores L9l. -/
def L6c (L9l : List (View.Piece (Elt F) S4096x64 .f32)) (x5 : Vec F S1x64 .f32) : List (View.Piece (Elt F) S4096x64 .f32) :=
  [⟨rowsR 7, lsmOf 7 (scM9.view.readCov L9l (rowsR 7).toLoadRect) x5⟩, ⟨rowsR 6, lsmOf 6 (scM9.view.readCov L9l (rowsR 6).toLoadRect) x5⟩,
   ⟨rowsR 5, lsmOf 5 (scM9.view.readCov L9l (rowsR 5).toLoadRect) x5⟩, ⟨rowsR 4, lsmOf 4 (scM9.view.readCov L9l (rowsR 4).toLoadRect) x5⟩,
   ⟨rowsR 3, lsmOf 3 (scM9.view.readCov L9l (rowsR 3).toLoadRect) x5⟩, ⟨rowsR 2, lsmOf 2 (scM9.view.readCov L9l (rowsR 2).toLoadRect) x5⟩,
   ⟨rowsR 1, lsmOf 1 (scM9.view.readCov L9l (rowsR 1).toLoadRect) x5⟩, ⟨rowsR 0, lsmOf 0 (scM9.view.readCov L9l (rowsR 0).toLoadRect) x5⟩]

/-- After the accumulations into the row blocks below b', each of those row blocks has a store of its own. -/
theorem rows_mem_L9upto (j : Fin 8) (pjv : FVec F S512x64 .bf16) (fresh : FVec F S512x64 .f32) (s7 : Vec F S8x4096x512 .bf16)
    (xs9 : Vec F S4096x64 .f32) :
    ∀ b' : ℕ, b' ≤ 8 → ∀ b : Fin 8, b.val < b' → ∃ w, (⟨rowsR b, w⟩ : View.Piece (Elt F) S4096x64 .f32) ∈ L9upto j pjv fresh s7 xs9 b' := by
  intro b'
  induction b' with
  | zero => intro _ b hb; exact absurd hb (Nat.not_lt_zero _)
  | succ b' ih =>
    intro hle b hb
    have hb8 : b' < 8 := by omega
    rw [L9upto_succ j pjv fresh s7 xs9 b' hb8]
    by_cases hbb : b.val = b'
    · obtain rfl : b = ⟨b', hb8⟩ := Fin.ext hbb
      exact ⟨_, List.mem_cons_self⟩
    · obtain ⟨w, hw⟩ := ih (by omega) b (by omega)
      exact ⟨w, List.mem_cons_of_mem _ hw⟩

/-- At point 7 the accumulator's stores hold every index of every row block. -/
theorem L9_seven_cover (pjv : FVec F S512x64 .bf16) (fresh : FVec F S512x64 .f32) (s7 : Vec F S8x4096x512 .bf16)
    (xs9 : Vec F S4096x64 .f32) (b : Fin 8) (j : (rowsR b).shape.Idx) :
    ∃ p ∈ L9 (7 : Fin 8) pjv fresh s7 xs9, (rowsR b).idx j ∈ p.1.set := by
  obtain ⟨w, hw⟩ := rows_mem_L9upto (7 : Fin 8) pjv fresh s7 xs9 8 (Nat.le_refl _) b b.isLt
  exact ⟨⟨rowsR b, w⟩, hw, (rowsR b).toLoadRect.idx_mem j⟩

/-- A load through a rectangle the stores cover is the load of the buffer as the stores leave it over any contents. -/
theorem readCov_eq_ld_upd9 (xs9 : Vec F S4096x64 .f32) (L : List (View.Piece (Elt F) S4096x64 .f32)) (r : Rect S4096x64)
    (hcov : ∀ j : r.shape.Idx, ∃ p ∈ L, r.idx j ∈ p.1.set) :
    scM9.view.readCov L r.toLoadRect = View.ld (upd9 xs9 L) r :=
  (View.readAt_writes_of_cover scM9.view (h9.unread xs9) L r.toLoadRect hcov).symm

/-- So, when the stores cover every row block, the epilogue's stores are those over the buffer as the stores leave it. -/
theorem L6c_eq_L6 (xs9 : Vec F S4096x64 .f32) (L9l : List (View.Piece (Elt F) S4096x64 .f32)) (x5 : Vec F S1x64 .f32)
    (hcov : ∀ (b : Fin 8) (j : (rowsR b).shape.Idx), ∃ p ∈ L9l, (rowsR b).idx j ∈ p.1.set) :
    L6c L9l x5 = L6 (upd9 xs9 L9l) x5 := by
  unfold L6c L6
  rw [readCov_eq_ld_upd9 xs9 L9l (rowsR 7) (hcov 7), readCov_eq_ld_upd9 xs9 L9l (rowsR 6) (hcov 6),
    readCov_eq_ld_upd9 xs9 L9l (rowsR 5) (hcov 5), readCov_eq_ld_upd9 xs9 L9l (rowsR 4) (hcov 4),
    readCov_eq_ld_upd9 xs9 L9l (rowsR 3) (hcov 3), readCov_eq_ld_upd9 xs9 L9l (rowsR 2) (hcov 2),
    readCov_eq_ld_upd9 xs9 L9l (rowsR 1) (hcov 1), readCov_eq_ld_upd9 xs9 L9l (rowsR 0) (hcov 0)]

section Out

variable (a : Fin 8 → Vec F S512x4096 .f32) (x2 : Vec F S4096x32 .bf16) (x3 : Vec F S1x32 .f32) (x4 : Vec F S32x64 .bf16)
  (x5 : Vec F S1x64 .f32)

/-- The output block from the accumulator as point 7's stores leave it, read through covered loads. -/
theorem out_of_acc_cov (xs9 : Vec F S4096x64 .f32) (pjv : FVec F S512x64 .bf16) (fresh : FVec F S512x64 .f32)
    (s7 : Vec F S8x4096x512 .bf16) (h : AccInv a x2 x3 x4 7 (upd9 xs9 (L9 (7 : Fin 8) pjv fresh s7 xs9))) :
    View.canon (L6c (L9 (7 : Fin 8) pjv fresh s7 xs9) x5) = outModel a x2 x3 x4 x5 := by
  rw [L6c_eq_L6 xs9 _ x5 (L9_seven_cover pjv fresh s7 xs9)]
  exact out_of_acc a x2 x3 x4 x5 _ h

end Out

/-- The epilogue's stores are those of the row blocks 7, 6, …, 0. -/
theorem L6c_eq_map (L9l : List (View.Piece (Elt F) S4096x64 .f32)) (x5 : Vec F S1x64 .f32) :
    L6c L9l x5 = ([7, 6, 5, 4, 3, 2, 1, 0] : List (Fin 8)).map fun b =>
      (⟨rowsR b, lsmOf b (scM9.view.readCov L9l (rowsR b).toLoadRect) x5⟩ : View.Piece (Elt F) S4096x64 .f32) := rfl

/-- The eight row blocks cover the output block: row y lies in block y / 512. -/
theorem L6c_cover (L9l : List (View.Piece (Elt F) S4096x64 .f32)) (x5 : Vec F S1x64 .f32) (y : S4096x64.Idx) :
    ∃ pc ∈ L6c L9l x5, y ∈ pc.1.set := by
  have hy0 : (y (0 : Fin 2)).val < 4096 := (y (0 : Fin 2)).isLt
  obtain ⟨b, hb⟩ : ∃ b : Fin 8, b.val = (y (0 : Fin 2)).val / 512 := ⟨⟨(y (0 : Fin 2)).val / 512, by omega⟩, rfl⟩
  refine ⟨⟨rowsR b, lsmOf b (scM9.view.readCov L9l (rowsR b).toLoadRect) x5⟩, ?_, ?_⟩
  · rw [L6c_eq_map]
    exact List.mem_map.mpr ⟨b, by fin_cases b <;> simp, rfl⟩
  · have hrow : b.val * 512 ≤ (y (0 : Fin 2)).val ∧ (y (0 : Fin 2)).val < b.val * 512 + 512 := ⟨by omega, by omega⟩
    exact (Rect.mem_set_unit (s := S4096x64) (off := ![b.val * 512, 0]) (size := S512x64.size) (inb := rows_inb b)
      (i := y)).mpr (Rect.unit_rows_mem (o := b.val * 512) (W := 512) y rfl rfl hrow)

end Cert.Kernel.GcnModel

end
-- ==== Proof.GcnWit7Bits.lean ====
/- scratch/gen_cases.js bits GcnWit7 — proof/Proof/GcnWit7Ideal.lean with the namespace Cert.KernelIdeal replaced by Cert.Kernel (the word-level program's copy) -/
/-
  The stores the body's run finds at grid point 7 are the model's: the same rectangles (the offsets computed from the
  grid coordinate are the literal ones) carrying the same arithmetic of the operand blocks and of the scratch contents.
-/
import proofs.«150466_g82282983457293_cont_9to1_m_405_12_alg».proof.Proof.GcnRun7Bits
import proofs.«150466_g82282983457293_cont_9to1_m_405_12_alg».proof.Proof.GcnKitBits
import proofs.«150466_g82282983457293_cont_9to1_m_405_12_alg».proof.Proof.GcnReadBits
import proofs.«150466_g82282983457293_cont_9to1_m_405_12_alg».proof.Proof.GcnEpiBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.Sem

variable {F : FTy → Type} [FloatOps F]

set_option maxHeartbeats 4000000 in
theorem run7_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 7))) (hc2 : k1_cond2 (grid1.coords (pt 7)) = 1#1) (hc3 : k1_cond3 (grid1.coords (pt 7)) = 1#1) (hc4 : k1_cond4 (grid1.coords (pt 7)) = 1#1) (hc5 : k1_cond5 (grid1.coords (pt 7)) = 1#1) (hc6 : k1_cond6 (grid1.coords (pt 7)) = 1#1) (hc7 : k1_cond7 (grid1.coords (pt 7)) = 1#1) (hc8 : k1_cond8 (grid1.coords (pt 7)) = 1#1) (hc9 : k1_cond9 (grid1.coords (pt 7)) = 1#1) (hc10 : k1_cond10 (grid1.coords (pt 7)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run7 c (grid1.coords (pt 7)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L7 7 x1
    ∧ (run7 c (grid1.coords (pt 7)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L8 7 (projOf x1 x2 x3 x4)
    ∧ (run7 c (grid1.coords (pt 7)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.2.1 = L9 7 (projOf x1 x2 x3 x4) (freshOf x1 (pSeen 7 xs8)) (upd7 xs7 (L7 7 x1)) xs9
    ∧ (run7 c (grid1.coords (pt 7)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L6c (L9 7 (projOf x1 x2 x3 x4) (freshOf x1 (pSeen 7 xs8)) (upd7 xs7 (L7 7 x1)) xs9) x5 := by
  unfold run7
  dsimp only
  sl_unfold_run_names
  simp only [View.readAt_eq_ld, Memref.IsWhole.read_unread, read_unread7, read_unread8, read_unread9]
  refine ⟨?_, ?_, ?_, ?_⟩ <;> sl_kernel_rfl

end Cert.Kernel.GcnKit

end
-- ==== Proof.GcnBody7Bits.lean ====
/- scratch/gen_cases.js bits GcnBody7 — proof/Proof/GcnBody7Ideal.lean with the namespace Cert.KernelIdeal replaced by Cert.Kernel (the word-level program's copy) -/
/-
  The body obligation of the streamed pass at grid point 7: the operands' buffers hold their blocks, the invariant hands the body
  the scratch buffers at contents satisfying the model's invariants for point 6, the run's stores are the model's, and the
  step lemmas give the invariants for point 7; the output block, live at this last point, is the model's.
-/
import proofs.«150466_g82282983457293_cont_9to1_m_405_12_alg».proof.Proof.GcnWit7Bits
import proofs.«150466_g82282983457293_cont_9to1_m_405_12_alg».proof.Proof.GcnPostBits
import proofs.«150466_g82282983457293_cont_9to1_m_405_12_alg».proof.Proof.GcnStepBits
import proofs.«150466_g82282983457293_cont_9to1_m_405_12_alg».proof.Proof.GcnEpiBits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt7 (c : Dev nD) :
    bodyPre1 V c (pt 7) ⊢ wp frame (wpE (defs₀ (F := F)) Variants.none c none) Set.univ (bodyAt1 (pt 7)) (fun _ => bodyPost1 V c (pt 7)) := by
  unfold bodyPre1 bodyPost1 bodyAt1
  simp only [before1_0, before1_1, before1_2, before1_3, before1_4]
  rw [show (dat1 V c).owesAt () (pt 7).succ = (dat1 V c).owesAt () (pt 7).castSucc from rfl]
  rw [show (dat1 V c).Φ (pt 7).succ = PhiS V c 8 from rfl, show (dat1 V c).Φ (pt 7).castSucc = PhiS V c 7 from rfl]
  rw [show (dat1 V c).leavesExact 0 (pt 7) = owns (c : Thread nD τ) (ms1_0 (pt 7)) fullShare ((dat1 V c).after 0 (pt 7)) from by
      unfold Dat.leavesExact; rw [liveAt1_0 (pt 7)], after1_0]
  rw [show (dat1 V c).leavesExact 1 (pt 7) = owns (c : Thread nD τ) (ms1_1 (pt 7)) fullShare ((dat1 V c).after 1 (pt 7)) from by
      unfold Dat.leavesExact; rw [liveAt1_1 (pt 7)], after1_1]
  rw [show (dat1 V c).leavesExact 2 (pt 7) = owns (c : Thread nD τ) (ms1_2 (pt 7)) fullShare ((dat1 V c).after 2 (pt 7)) from by
      unfold Dat.leavesExact; rw [liveAt1_2 (pt 7)], after1_2]
  rw [show (dat1 V c).leavesExact 3 (pt 7) = owns (c : Thread nD τ) (ms1_3 (pt 7)) fullShare ((dat1 V c).after 3 (pt 7)) from by
      unfold Dat.leavesExact; rw [liveAt1_3 (pt 7)], after1_3]
  rw [show (dat1 V c).leavesExact 4 (pt 7) = owns (c : Thread nD τ) (ms1_4 (pt 7)) fullShare ((dat1 V c).after 4 (pt 7)) from by
      unfold Dat.leavesExact; rw [liveAt1_4 (pt 7)], after1_4]
  rw [show (dat1 V c).leavesExact 5 (pt 7) = owns (c : Thread nD τ) (ms1_5 (pt 7)) fullShare ((dat1 V c).after 5 (pt 7)) from by
      unfold Dat.leavesExact; rw [liveAt1_5 (pt 7) rfl], after1_5]
  rw [blk1_1_const V c 7, blk1_2_const V c 7, blk1_3_const V c 7, blk1_4_const V c 7]
  rw [show blk1 V c 0 (pt 7) = aOf V c 7 from rfl]
  rw [show PhiS V c 7 = _ from PhiS_succ V c 6]; unfold rest0
  rw [show PhiS V c 8 = _ from PhiS_succ V c 7]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run7 c (grid1.coords (pt 7)) (ms1_0 (pt 7)) (hs1_0 (pt 7)) (ms1_1 (pt 7)) (hs1_1 (pt 7)) (ms1_2 (pt 7)) (hs1_2 (pt 7)) (ms1_3 (pt 7)) (hs1_3 (pt 7)) (ms1_4 (pt 7)) (hs1_4 (pt 7)) (ms1_5 (pt 7)) (hs1_5 (pt 7)) scM7 h7 scM8 h8 scM9 h9 (fun h => absurd ((hcond1 (pt 7)).mp h) (by decide)) ((hcond2 (pt 7)).mpr (by decide)) ((hcond3 (pt 7)).mpr (by decide)) ((hcond4 (pt 7)).mpr (by decide)) ((hcond5 (pt 7)).mpr (by decide)) ((hcond6 (pt 7)).mpr (by decide)) ((hcond7 (pt 7)).mpr (by decide)) ((hcond8 (pt 7)).mpr (by decide)) ((hcond9 (pt 7)).mpr (by decide)) ((hcond10 (pt 7)).mpr rfl) (aOf V c 7) (x2Of V c) (x3Of V c) (x4Of V c) (x5Of V c) s7 (pAt (aOf V c) (x2Of V c) (x3Of V c) (x4Of V c) 6) s9 := ⟨_, rfl⟩
  obtain ⟨e7, e8, e9, e6⟩ := run7_lists c (ms1_0 (pt 7)) (hs1_0 (pt 7)) (ms1_1 (pt 7)) (hs1_1 (pt 7)) (ms1_2 (pt 7)) (hs1_2 (pt 7)) (ms1_3 (pt 7)) (hs1_3 (pt 7)) (ms1_4 (pt 7)) (hs1_4 (pt 7)) (ms1_5 (pt 7)) (hs1_5 (pt 7)) (fun h => absurd ((hcond1 (pt 7)).mp h) (by decide)) ((hcond2 (pt 7)).mpr (by decide)) ((hcond3 (pt 7)).mpr (by decide)) ((hcond4 (pt 7)).mpr (by decide)) ((hcond5 (pt 7)).mpr (by decide)) ((hcond6 (pt 7)).mpr (by decide)) ((hcond7 (pt 7)).mpr (by decide)) ((hcond8 (pt 7)).mpr (by decide)) ((hcond9 (pt 7)).mpr (by decide)) ((hcond10 (pt 7)).mpr rfl) (aOf V c 7) (x2Of V c) (x3Of V c) (x4Of V c) (x5Of V c) s7 (pAt (aOf V c) (x2Of V c) (x3Of V c) (x4Of V c) 6) s9
  rw [← hR] at e7 e8 e9 e6
  have h7' : SlabInv (aOf V c) 7 (upd7 s7 R.2.1) := by
    rw [e7]; exact slab_step (aOf V c) 7 s7 (Or.inr hs7)
  have h8' : upd8 (pAt (aOf V c) (x2Of V c) (x3Of V c) (x4Of V c) 6) R.2.2.1 = pAt (aOf V c) (x2Of V c) (x3Of V c) (x4Of V c) 7 := by
    rw [e8]; exact (p_step_succ (aOf V c) (x2Of V c) (x3Of V c) (x4Of V c) 6)
  have h9' : AccInv (aOf V c) (x2Of V c) (x3Of V c) (x4Of V c) 7 (upd9 s9 R.2.2.2.1) := by
    rw [e9]; exact acc_step (aOf V c) (x2Of V c) (x3Of V c) (x4Of V c) 7 _ s9 (slab_step (aOf V c) 7 s7 (Or.inr hs7)) (Or.inr hs9)
  have hcov6 : ∀ y : S4096x64.Idx, ∃ pc ∈ R.1, y ∈ pc.1.set := by rw [e6]; exact L6c_cover _ _
  have h6' : View.canon R.1 = outModel (aOf V c) (x2Of V c) (x3Of V c) (x4Of V c) (x5Of V c) := by
    rw [e6]; exact out_of_acc_cov (aOf V c) (x2Of V c) (x3Of V c) (x4Of V c) (x5Of V c) s9 _ _ _ (acc_step (aOf V c) (x2Of V c) (x3Of V c) (x4Of V c) 7 _ s9 (slab_step (aOf V c) 7 s7 (Or.inr hs7)) (Or.inr hs9))
  clear e7 e8 e9 e6
  subst hR
  iapply ((run7 c (grid1.coords (pt 7)) (ms1_0 (pt 7)) (hs1_0 (pt 7)) (ms1_1 (pt 7)) (hs1_1 (pt 7)) (ms1_2 (pt 7)) (hs1_2 (pt 7)) (ms1_3 (pt 7)) (hs1_3 (pt 7)) (ms1_4 (pt 7)) (hs1_4 (pt 7)) (ms1_5 (pt 7)) (hs1_5 (pt 7)) scM7 h7 scM8 h8 scM9 h9 (fun h => absurd ((hcond1 (pt 7)).mp h) (by decide)) ((hcond2 (pt 7)).mpr (by decide)) ((hcond3 (pt 7)).mpr (by decide)) ((hcond4 (pt 7)).mpr (by decide)) ((hcond5 (pt 7)).mpr (by decide)) ((hcond6 (pt 7)).mpr (by decide)) ((hcond7 (pt 7)).mpr (by decide)) ((hcond8 (pt 7)).mpr (by decide)) ((hcond9 (pt 7)).mpr (by decide)) ((hcond10 (pt 7)).mpr rfl) (aOf V c 7) (x2Of V c) (x3Of V c) (x4Of V c) (x5Of V c) s7 (pAt (aOf V c) (x2Of V c) (x3Of V c) (x4Of V c) 6) s9).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H7]; · iexact H7
  isplitl [H8]; · iexact H8
  isplitl [H9]; · iexact H9
  iintro ⟨H0, H1, H2, H3, H4, ⟨%f6, H5⟩, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  rw [View.read_writes_eq_canon _ _ _ hcov6]
  exact h6'

end Cert.Kernel.GcnKit

end
-- ==== Proof.GcnAllBits.lean ====
/- scratch/gen_cases.js bits GcnAll — proof/Proof/GcnAllIdeal.lean with the namespace Cert.KernelIdeal replaced by Cert.Kernel (the word-level program's copy) -/
/-
  The body obligation of the streamed pass at every grid point: each point is one of the eight, and each of the eight has
  been met in its own module.
-/
import proofs.«150466_g82282983457293_cont_9to1_m_405_12_alg».proof.Proof.GcnBody0Bits
import proofs.«150466_g82282983457293_cont_9to1_m_405_12_alg».proof.Proof.GcnBody1Bits
import proofs.«150466_g82282983457293_cont_9to1_m_405_12_alg».proof.Proof.GcnBody2Bits
import proofs.«150466_g82282983457293_cont_9to1_m_405_12_alg».proof.Proof.GcnBody3Bits
import proofs.«150466_g82282983457293_cont_9to1_m_405_12_alg».proof.Proof.GcnBody4Bits
import proofs.«150466_g82282983457293_cont_9to1_m_405_12_alg».proof.Proof.GcnBody5Bits
import proofs.«150466_g82282983457293_cont_9to1_m_405_12_alg».proof.Proof.GcnBody6Bits
import proofs.«150466_g82282983457293_cont_9to1_m_405_12_alg».proof.Proof.GcnBody7Bits

set_option maxRecDepth 16384

noncomputable section

namespace Cert.Kernel.GcnKit

open Cert.Kernel Cert.Kernel.Gen Cert.Kernel.GcnModel Cert.Kernel.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body at any point: the point is one of the eight. -/
theorem sound_body1 (c : Dev nD) (t : Fin cfg1.N) :
    bodyPre1 V c t ⊢ wp frame (wpE (defs₀ (F := F)) Variants.none c none) Set.univ (bodyAt1 t) (fun _ => bodyPost1 V c t) := by
  rcases fin_N1 t with h | h | h | h | h | h | h | h <;> subst h
  · exact sound_pt0 V c
  · exact sound_pt1 V c
  · exact sound_pt2 V c
  · exact sound_pt3 V c
  · exact sound_pt4 V c
  · exact sound_pt5 V c
  · exact sound_pt6 V c
  · exact sound_pt7 V c

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.GcnKit

end
-- ==== Proof.GcnRun0Ideal.lean ====
/- scratch/gen_cases.js run 0 — case 0 of the table of eight control cases, from the one template -/
/-
  The streamed pass's body at grid point 0: the first conditional taken (the point is the first: the projection scratch is zero-filled), the accumulation taken for row block 0 only.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseIdeal
import Idealize.ShloMosaic.Lib.Pipeline.FrameBody
import Idealize.ShloMosaic.Lib.Ring
import Idealize.ShloMosaic.Lib.Tactic

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run0 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : cond1 i) (hc2 : k1_cond2 i = 1#1) (hc3 : ¬ k1_cond3 i = 1#1) (hc4 : ¬ k1_cond4 i = 1#1) (hc5 : ¬ k1_cond5 i = 1#1) (hc6 : ¬ k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.KernelIdeal.GcnRun

end
-- ==== Proof.GcnReadIdeal.lean ====
/-
  A whole scratch buffer reads its contents back, in the spelling the body's run leaves (the buffer's view unfolded).
-/
import proofs.«150466_g82282983457293_cont_9to1_m_405_12_alg».proof.Proof.GcnModelIdeal

noncomputable section

namespace Cert.KernelIdeal.GcnModel

open Cert.KernelIdeal Cert.KernelIdeal.Gen
open Idealize.ShloMosaic Idealize.ShloMosaic.TcCoe

variable {F : FTy → Type} [FloatOps F]

theorem read_unread7 (xs : Vec F S8x4096x512 .bf16) : View.read (Elt F) (View.whole cc1_scratch0) (h7.unread xs) = xs := h7.read_unread xs
theorem read_unread8 (xs : Vec F S4096x64 .bf16) : View.read (Elt F) (View.whole cc1_scratch1) (h8.unread xs) = xs := h8.read_unread xs
theorem read_unread9 (xs : Vec F S4096x64 .f32) : View.read (Elt F) (View.whole cc1_scratch2) (h9.unread xs) = xs := h9.read_unread xs

end Cert.KernelIdeal.GcnModel

end
-- ==== Proof.GcnWit0Ideal.lean ====
/- scratch/gen_cases.js wit 0 — case 0 of the table of eight control cases, from the one template -/
/-
  The stores the body's run finds at grid point 0 are the model's: the same rectangles (the offsets computed from the
  grid coordinate are the literal ones) carrying the same arithmetic of the operand blocks and of the scratch contents.
-/
import proofs.«150466_g82282983457293_cont_9to1_m_405_12_alg».proof.Proof.GcnRun0Ideal
import proofs.«150466_g82282983457293_cont_9to1_m_405_12_alg».proof.Proof.GcnKitIdeal
import proofs.«150466_g82282983457293_cont_9to1_m_405_12_alg».proof.Proof.GcnReadIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.Sem

variable {F : FTy → Type} [FloatOps F]

set_option maxHeartbeats 4000000 in
theorem run0_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : cond1 (grid1.coords (pt 0))) (hc2 : k1_cond2 (grid1.coords (pt 0)) = 1#1) (hc3 : ¬ k1_cond3 (grid1.coords (pt 0)) = 1#1) (hc4 : ¬ k1_cond4 (grid1.coords (pt 0)) = 1#1) (hc5 : ¬ k1_cond5 (grid1.coords (pt 0)) = 1#1) (hc6 : ¬ k1_cond6 (grid1.coords (pt 0)) = 1#1) (hc7 : ¬ k1_cond7 (grid1.coords (pt 0)) = 1#1) (hc8 : ¬ k1_cond8 (grid1.coords (pt 0)) = 1#1) (hc9 : ¬ k1_cond9 (grid1.coords (pt 0)) = 1#1) (hc10 : ¬ k1_cond10 (grid1.coords (pt 0)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run0 c (grid1.coords (pt 0)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 0 x1
    ∧ (run0 c (grid1.coords (pt 0)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 0 (projOf x1 x2 x3 x4)
    ∧ (run0 c (grid1.coords (pt 0)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 0 (projOf x1 x2 x3 x4) (freshOf x1 (pSeen 0 xs8)) (upd7 xs7 (L7 0 x1)) xs9 := by
  unfold run0
  dsimp only
  sl_unfold_run_names
  simp only [View.readAt_eq_ld, Memref.IsWhole.read_unread, View.readCov_eq_canon', read_unread7, read_unread8, read_unread9]
  refine ⟨?_, ?_, ?_⟩ <;> sl_kernel_rfl

end Cert.KernelIdeal.GcnKit

end
-- ==== Proof.GcnPostIdeal.lean ====
/-
  The body obligation of the streamed pass, stated: what the body is called with at a point and what it must return;
  and that the four unmoving operands' blocks are the same at every point.
-/
import proofs.«150466_g82282983457293_cont_9to1_m_405_12_alg».proof.Proof.GcnKitIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four operands whose block index does not move read the same block at every point. -/
theorem blk1_1_const (c : Dev nD) (j : Fin 8) : blk1 V c 1 (pt j) = x2Of V c := by fin_cases j <;> rfl
theorem blk1_2_const (c : Dev nD) (j : Fin 8) : blk1 V c 2 (pt j) = x3Of V c := by fin_cases j <;> rfl
theorem blk1_3_const (c : Dev nD) (j : Fin 8) : blk1 V c 3 (pt j) = x4Of V c := by fin_cases j <;> rfl
theorem blk1_4_const (c : Dev nD) (j : Fin 8) : blk1 V c 4 (pt j) = x5Of V c := by fin_cases j <;> rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- A scratch buffer left at `writes (unread xs) L` is owned at the model's `upd` of it. -/
theorem owns_upd7 (c : Dev nD) (xs : Vec F S8x4096x512 .bf16) (L : List (View.Piece (Elt F) S8x4096x512 .bf16)) :
    (scM7.view.loc (c : Thread nD τ) ↦[scM7.view.set]{fullShare} scM7.view.writes (Elt F) (h7.unread xs) L : sProp 𝕄)
      ⊢ owns (c : Thread nD τ) scM7 fullShare (upd7 xs L) := by
  unfold owns upd7; iintro H; iexists _; isplitr; · ipureintro; rfl
  iexact H
theorem owns_upd8 (c : Dev nD) (xs : Vec F S4096x64 .bf16) (L : List (View.Piece (Elt F) S4096x64 .bf16)) :
    (scM8.view.loc (c : Thread nD τ) ↦[scM8.view.set]{fullShare} scM8.view.writes (Elt F) (h8.unread xs) L : sProp 𝕄)
      ⊢ owns (c : Thread nD τ) scM8 fullShare (upd8 xs L) := by
  unfold owns upd8; iintro H; iexists _; isplitr; · ipureintro; rfl
  iexact H
theorem owns_upd9 (c : Dev nD) (xs : Vec F S4096x64 .f32) (L : List (View.Piece (Elt F) S4096x64 .f32)) :
    (scM9.view.loc (c : Thread nD τ) ↦[scM9.view.set]{fullShare} scM9.view.writes (Elt F) (h9.unread xs) L : sProp 𝕄)
      ⊢ owns (c : Thread nD τ) scM9 fullShare (upd9 xs L) := by
  unfold owns upd9; iintro H; iexists _; isplitr; · ipureintro; rfl
  iexact H

end Cert.KernelIdeal.GcnKit

end
-- ==== Proof.GcnStepIdeal.lean ====
/-
  The streamed pass, one grid point at a time: what each scratch buffer reads after the stores of a point.

  A list of stores is read newest first: a load through the newest store's own rectangle reads that store's payload,
  a load through a rectangle disjoint from it reads what the older stores left, and with no store at all a whole buffer
  reads its contents back.  Every rectangle here is a block of consecutive rows (of a 4096 × 64 buffer) or a
  512 × 512 slab (of the 8 × 4096 × 512 slab scratch); two of them with different block indices are disjoint along
  the axis that carries the index.  From these three facts:
    • the slab scratch after point n holds the slabs of the row blocks 0 … n;
    • the projection scratch after point n is the recursion's value;
    • the accumulator after point n holds, in the rows of every block b ≤ n, the fresh product (b = n) or the earlier
      sum (b < n), plus the slab of row block b times the projection of point n;
    • the output block is the row blocks' log-softmax of the finished accumulator.
-/
import proofs.«150466_g82282983457293_cont_9to1_m_405_12_alg».proof.Proof.GcnInvIdeal
import Idealize.ShloMosaic.Lib.Writes
import Idealize.ShloMosaic.Lib.WritesUnit
import Idealize.ShloMosaic.Lib.Pipeline.FrameBody
import Idealize.ShloMosaic.Lib.Pipeline.Value

noncomputable section

namespace Cert.KernelIdeal.GcnModel

open Cert.KernelIdeal Cert.KernelIdeal.Gen
open Idealize.ShloMosaic Idealize.ShloMosaic.TcCoe

/-! ## A list of stores read through a rectangle, newest first -/

section Generic

variable {sg : RefSig} {κ : Kind} {sp : Space} {s : Shape} {e : EltTy} {Val : EltTy → Type}
variable (v : View sg κ sp s e) (f : v.ty.Contents Val)

/-- A load through the newest store's own rectangle reads its payload. -/
theorem ld_cons_self (r : Rect s) (w : r.shape.Idx → Val e) (L : List (View.Piece Val s e)) :
    View.ld (v.read Val (v.writes Val f (⟨r, w⟩ :: L))) r = w :=
  funext fun x => View.read_writes_cons_emb v f r w L x

/-- A load through a rectangle disjoint from the newest store's reads what the older stores left. -/
theorem ld_cons_of_disjoint (p : View.Piece Val s e) (L : List (View.Piece Val s e)) (r : Rect s)
    (h : Disjoint p.1.set r.set) :
    View.ld (v.read Val (v.writes Val f (p :: L))) r = View.ld (v.read Val (v.writes Val f L)) r :=
  funext fun x => by
    show v.read Val (v.writes Val f (p :: L)) (r.idx x) = v.read Val (v.writes Val f L) (r.idx x)
    rw [View.writes_cons]
    exact View.read_slice_write_of_not_mem p.1 _ _ _ (by
      rw [Rect.map_emb_univ]
      exact Finset.disjoint_right.mp h (r.idx_mem x))

end Generic

variable {F : FTy → Type} [FloatOps F]

/-! ## The accumulator and the projection scratch: blocks of rows of a 4096 × 64 buffer -/

/-- Two different row blocks are disjoint. -/
theorem rowsR_disjoint (b b' : Fin 8) (h : b ≠ b') : Disjoint (rowsR b).set (rowsR b').set :=
  Rect.unit_disjoint (0 : Fin 2) (by
    have : b.val ≠ b'.val := fun e => h (Fin.ext e)
    show b.val * 512 + 512 ≤ b'.val * 512 ∨ b'.val * 512 + 512 ≤ b.val * 512
    omega)

theorem upd9_nil (xs : Vec F S4096x64 .f32) : upd9 xs [] = xs := h9.read_unread xs

theorem ld_upd9_cons_self (xs : Vec F S4096x64 .f32) (r : Rect S4096x64) (w : r.shape.Idx → Elt F .f32)
    (L : List (View.Piece (Elt F) S4096x64 .f32)) : View.ld (upd9 xs (⟨r, w⟩ :: L)) r = w :=
  ld_cons_self _ _ r w L

theorem ld_upd9_cons_of_disjoint (xs : Vec F S4096x64 .f32) (r' : Rect S4096x64) (w : r'.shape.Idx → Elt F .f32)
    (L : List (View.Piece (Elt F) S4096x64 .f32)) (r : Rect S4096x64) (h : Disjoint r'.set r.set) :
    View.ld (upd9 xs (⟨r', w⟩ :: L)) r = View.ld (upd9 xs L) r :=
  ld_cons_of_disjoint _ _ ⟨r', w⟩ L r h

/-! ## The accumulator after a point -/

section Acc

variable (a : Fin 8 → Vec F S512x4096 .f32) (x2 : Vec F S4096x32 .bf16) (x3 : Vec F S1x32 .f32) (x4 : Vec F S32x64 .bf16)
  (x5 : Vec F S1x64 .f32)

/-- The accumulation into row block b, b < 8, is one more store, of the block's rows as they stand plus the product. -/
theorem L9upto_succ (j : Fin 8) (pjv : FVec F S512x64 .bf16) (fresh : FVec F S512x64 .f32) (s7 : Vec F S8x4096x512 .bf16)
    (xs9 : Vec F S4096x64 .f32) (b : ℕ) (hb : b < 8) :
    L9upto j pjv fresh s7 xs9 (b + 1)
      = ⟨rowsR ⟨b, hb⟩, accOf ⟨b, hb⟩ pjv (View.ld s7 (slabR j ⟨b, hb⟩))
            (View.ld (upd9 xs9 (L9upto j pjv fresh s7 xs9 b)) (rowsR ⟨b, hb⟩))⟩ :: L9upto j pjv fresh s7 xs9 b := by
  rw [L9upto, dif_pos hb]

/-- Along the accumulations of point n: after those into the row blocks below b', every row block below b' holds its
    sum, and every other row block holds the fresh product (block n) or what it held before the point. -/
theorem acc_upto (n : Fin 8) (pjv : FVec F S512x64 .bf16) (fresh : FVec F S512x64 .f32) (s7 : Vec F S8x4096x512 .bf16)
    (xs9 : Vec F S4096x64 .f32) (h7 : ∀ b : Fin 8, b.val ≤ n.val → View.ld s7 (slabR n b) = slabOf n (a b)) :
    ∀ b' : ℕ, b' ≤ n.val + 1 →
      (∀ b : Fin 8, b.val < b' → View.ld (upd9 xs9 (L9upto n pjv fresh s7 xs9 b')) (rowsR b)
          = accOf b pjv (slabOf n (a b)) (if b.val = n.val then fresh else View.ld xs9 (rowsR b)))
      ∧ (∀ b : Fin 8, b' ≤ b.val → View.ld (upd9 xs9 (L9upto n pjv fresh s7 xs9 b')) (rowsR b)
          = if b.val = n.val then fresh else View.ld xs9 (rowsR b)) := by
  intro b'
  induction b' with
  | zero =>
    intro _
    refine ⟨fun b hb => absurd hb (Nat.not_lt_zero _), fun b _ => ?_⟩
    rw [L9upto]
    by_cases hbn : b.val = n.val
    · obtain rfl : b = n := Fin.ext hbn
      rw [if_pos rfl]
      exact ld_upd9_cons_self xs9 (rowsR b) fresh []
    · rw [if_neg hbn]
      exact (ld_upd9_cons_of_disjoint xs9 (rowsR n) fresh [] (rowsR b)
        (rowsR_disjoint n b fun e => hbn (congrArg Fin.val e.symm))).trans
        (congrArg (fun X => View.ld X (rowsR b)) (upd9_nil xs9))
  | succ b' ih =>
    intro hle
    have hb8 : b' < 8 := by have := n.isLt; omega
    obtain ⟨ih1, ih2⟩ := ih (by omega)
    rw [L9upto_succ n pjv fresh s7 xs9 b' hb8]
    refine ⟨fun b hb => ?_, fun b hb => ?_⟩
    · by_cases hbb : b.val = b'
      · obtain rfl : b = ⟨b', hb8⟩ := Fin.ext hbb
        refine (ld_upd9_cons_self xs9 (rowsR ⟨b', hb8⟩) _ _).trans ?_
        rw [h7 ⟨b', hb8⟩ (by show b' ≤ n.val; omega), ih2 ⟨b', hb8⟩ (Nat.le_refl _)]
      · refine (ld_upd9_cons_of_disjoint xs9 (rowsR ⟨b', hb8⟩) _ _ (rowsR b)
          (rowsR_disjoint ⟨b', hb8⟩ b fun e => hbb (congrArg Fin.val e.symm))).trans ?_
        exact ih1 b (by omega)
    · refine (ld_upd9_cons_of_disjoint xs9 (rowsR ⟨b', hb8⟩) _ _ (rowsR b)
        (rowsR_disjoint ⟨b', hb8⟩ b fun e => by
          have h := congrArg Fin.val e
          have h' : b' = b.val := h
          omega)).trans ?_
      exact ih2 b (by omega)

/-- The index of a point below 8 is the point. -/
theorem ofNat_val (n : Fin 8) : Fin.ofNat 8 n.val = n := Fin.ext (Nat.mod_eq_of_lt n.isLt)

/-- The recursion for the accumulator's rows, in one line: at point n the rows of block b ≤ n are the fresh product
    (b = n) or the rows after the point before (b < n), plus the slab of row block b times the projection of point n. -/
theorem accAt_eq (n b : Fin 8) (hb : b.val ≤ n.val) :
    accAt a x2 x3 x4 n.val b
      = accOf b (pj a x2 x3 x4 n) (slabOf n (a b))
          (if b.val = n.val then freshAt a x2 x3 x4 n.val else accAt a x2 x3 x4 (n.val - 1) b) := by
  obtain ⟨nv, hn⟩ := n
  cases nv with
  | zero =>
    have hb0 : b.val = 0 := by simpa using hb
    show accAt a x2 x3 x4 0 b = _
    rw [accAt, if_pos hb0]
    rfl
  | succ m =>
    have e : Fin.ofNat 8 (m + 1) = (⟨m + 1, hn⟩ : Fin 8) := ofNat_val ⟨m + 1, hn⟩
    show accAt a x2 x3 x4 (m + 1) b = _
    rw [accAt, e]
    by_cases hbm : b.val = m + 1
    · rw [if_pos hbm, if_pos hbm]
    · rw [if_neg hbm, if_neg hbm]
      rfl

/-- The accumulator after point n. -/
theorem acc_step (n : Fin 8) (s7 : Vec F S8x4096x512 .bf16) (xs9 : Vec F S4096x64 .f32) (h7 : SlabInv a n.val s7)
    (h9 : n.val = 0 ∨ AccInv a x2 x3 x4 (n.val - 1) xs9) :
    AccInv a x2 x3 x4 n.val (upd9 xs9 (L9 n (pj a x2 x3 x4 n) (freshAt a x2 x3 x4 n.val) s7 xs9)) := by
  intro b hb
  have hu := (acc_upto a n (pj a x2 x3 x4 n) (freshAt a x2 x3 x4 n.val) s7 xs9 (fun b' hb' => h7 b' n hb')
    (n.val + 1) (Nat.le_refl _)).1 b (by omega)
  rw [accAt_eq a x2 x3 x4 n b hb]
  refine hu.trans ?_
  by_cases hbn : b.val = n.val
  · rw [if_pos hbn, if_pos hbn]
  · rw [if_neg hbn, if_neg hbn]
    rcases h9 with h0 | h9
    · omega
    · rw [h9 b (by omega)]

end Acc

/-! ## The slab scratch after a point -/

section Slab

variable (a : Fin 8 → Vec F S512x4096 .f32)

/-- Two slabs with different slab indices are disjoint (along the slab axis). -/
theorem slabR_disjoint_slab (k k' j j' : Fin 8) (h : k ≠ k') : Disjoint (slabR k j).set (slabR k' j').set :=
  Rect.unit_disjoint (0 : Fin 3) (by
    have : k.val ≠ k'.val := fun e => h (Fin.ext e)
    show k.val + 1 ≤ k'.val ∨ k'.val + 1 ≤ k.val
    omega)

/-- Two slabs over different row blocks are disjoint (along the row axis). -/
theorem slabR_disjoint_rows (k k' j j' : Fin 8) (h : j ≠ j') : Disjoint (slabR k j).set (slabR k' j').set :=
  Rect.unit_disjoint (1 : Fin 3) (by
    have : j.val ≠ j'.val := fun e => h (Fin.ext e)
    show j.val * 512 + 512 ≤ j'.val * 512 ∨ j'.val * 512 + 512 ≤ j.val * 512
    omega)

theorem upd7_nil (xs : Vec F S8x4096x512 .bf16) : upd7 xs [] = xs := h7.read_unread xs

theorem ld_upd7_cons_self (xs : Vec F S8x4096x512 .bf16) (r : Rect S8x4096x512) (w : r.shape.Idx → Elt F .bf16)
    (L : List (View.Piece (Elt F) S8x4096x512 .bf16)) : View.ld (upd7 xs (⟨r, w⟩ :: L)) r = w :=
  ld_cons_self _ _ r w L

theorem ld_upd7_cons_of_disjoint (xs : Vec F S8x4096x512 .bf16) (r' : Rect S8x4096x512) (w : r'.shape.Idx → Elt F .bf16)
    (L : List (View.Piece (Elt F) S8x4096x512 .bf16)) (r : Rect S8x4096x512) (h : Disjoint r'.set r.set) :
    View.ld (upd7 xs (⟨r', w⟩ :: L)) r = View.ld (upd7 xs L) r :=
  ld_cons_of_disjoint _ _ ⟨r', w⟩ L r h

/-- The slab stores of point j for a list of slab indices. -/
def slabPieces (j : Fin 8) (x1 : Vec F S512x4096 .f32) (ks : List (Fin 8)) : List (View.Piece (Elt F) S8x4096x512 .bf16) :=
  ks.map fun k => ⟨slabR k j, slabOf k x1⟩

/-- The eight slab stores of point j are those of the slab indices 7, 6, …, 0. -/
theorem L7_eq (j : Fin 8) (x1 : Vec F S512x4096 .f32) : L7 j x1 = slabPieces j x1 [7, 6, 5, 4, 3, 2, 1, 0] := rfl

/-- Through slab k of row block j, after slab stores of that row block among which slab k's is, reads slab k. -/
theorem ld_slabPieces_self (xs : Vec F S8x4096x512 .bf16) (j : Fin 8) (x1 : Vec F S512x4096 .f32) (k : Fin 8) :
    ∀ ks : List (Fin 8), k ∈ ks → View.ld (upd7 xs (slabPieces j x1 ks)) (slabR k j) = slabOf k x1
  | [], h => absurd h List.not_mem_nil
  | k' :: ks, h => by
    show View.ld (upd7 xs (⟨slabR k' j, slabOf k' x1⟩ :: slabPieces j x1 ks)) (slabR k j) = _
    by_cases hk : k' = k
    · subst hk
      exact ld_upd7_cons_self xs (slabR k' j) (slabOf k' x1) _
    · refine (ld_upd7_cons_of_disjoint xs (slabR k' j) (slabOf k' x1) _ (slabR k j) (slabR_disjoint_slab k' k j j hk)).trans ?_
      exact ld_slabPieces_self xs j x1 k ks ((List.mem_cons.mp h).resolve_left fun e => hk e.symm)

/-- Through a slab of another row block the slab stores of row block j are not seen. -/
theorem ld_slabPieces_other (xs : Vec F S8x4096x512 .bf16) (j : Fin 8) (x1 : Vec F S512x4096 .f32) (k i : Fin 8) (hi : j ≠ i) :
    ∀ ks : List (Fin 8), View.ld (upd7 xs (slabPieces j x1 ks)) (slabR k i) = View.ld xs (slabR k i)
  | [] => congrArg (fun X => View.ld X (slabR k i)) (upd7_nil xs)
  | k' :: ks => by
    show View.ld (upd7 xs (⟨slabR k' j, slabOf k' x1⟩ :: slabPieces j x1 ks)) (slabR k i) = _
    refine (ld_upd7_cons_of_disjoint xs (slabR k' j) (slabOf k' x1) _ (slabR k i) (slabR_disjoint_rows k' k j i hi)).trans ?_
    exact ld_slabPieces_other xs j x1 k i hi ks

/-- The slab scratch after point n. -/
theorem slab_step (n : Fin 8) (xs7 : Vec F S8x4096x512 .bf16) (h : n.val = 0 ∨ SlabInv a (n.val - 1) xs7) :
    SlabInv a n.val (upd7 xs7 (L7 n (a n))) := by
  intro i k hi
  rw [L7_eq]
  by_cases hin : i = n
  · subst hin
    exact ld_slabPieces_self xs7 i (a i) k _ (by fin_cases k <;> simp)
  · have hlt : i.val < n.val := by
      have : i.val ≠ n.val := fun e => hin (Fin.ext e)
      omega
    refine (ld_slabPieces_other xs7 n (a n) k i (fun e => hin e.symm) _).trans ?_
    rcases h with h0 | h
    · omega
    · exact h i k (by omega)

end Slab

/-! ## The projection scratch after a point, and the output block -/

section Proj

variable (a : Fin 8 → Vec F S512x4096 .f32) (x2 : Vec F S4096x32 .bf16) (x3 : Vec F S1x32 .f32) (x4 : Vec F S32x64 .bf16)
  (x5 : Vec F S1x64 .f32)

/-- The whole-buffer rectangle holds every index. -/
theorem mem_wholeR (y : S4096x64.Idx) : y ∈ (wholeR).set :=
  Rect.mem_set_unit.mpr fun ax => by
    match ax with
    | ⟨0, h0⟩ =>
      refine ⟨Nat.zero_le _, ?_⟩
      show (y ⟨0, h0⟩).val < 0 + S4096x64.size ⟨0, h0⟩
      rw [Nat.zero_add]
      exact (y ⟨0, h0⟩).isLt
    | ⟨1, h1⟩ =>
      refine ⟨Nat.zero_le _, ?_⟩
      show (y ⟨1, h1⟩).val < 0 + S4096x64.size ⟨1, h1⟩
      rw [Nat.zero_add]
      exact (y ⟨1, h1⟩).isLt

/-- At the first point the zero fill covers the projection scratch, so what it held before is not seen. -/
theorem p_step_zero (xs8 : Vec F S4096x64 .bf16) :
    upd8 xs8 (L8 (0 : Fin 8) (pj a x2 x3 x4 0)) = pAt a x2 x3 x4 0 := by
  show scM8.view.read (Elt F) (scM8.view.writes (Elt F) (h8.unread xs8) (L8 (0 : Fin 8) (pj a x2 x3 x4 0)))
    = View.canon (L8 (0 : Fin 8) (pj a x2 x3 x4 0))
  refine View.read_writes_eq_canon _ _ _ fun y => ?_
  refine ⟨⟨wholeR, k1_pay13⟩, ?_, mem_wholeR y⟩
  have hL : L8 (0 : Fin 8) (pj a x2 x3 x4 0)
      = [⟨rowsR 0, k1_pay26 (pj a x2 x3 x4 0)⟩, ⟨wholeR, (k1_pay13 : FVec F S4096x64 .bf16)⟩] := if_pos rfl
  rw [hL]
  exact List.mem_cons_of_mem _ List.mem_cons_self

/-- At a later point the projection scratch is the recursion's next value. -/
theorem p_step_succ (n : ℕ) :
    upd8 (pAt a x2 x3 x4 n) (L8 (Fin.ofNat 8 (n + 1)) (pj a x2 x3 x4 (Fin.ofNat 8 (n + 1)))) = pAt a x2 x3 x4 (n + 1) := rfl

/-- At the first point the fresh product sees the zero block. -/
theorem pSeen_zero (xs8 : Vec F S4096x64 .bf16) :
    pSeen (0 : Fin 8) xs8 = View.ld (View.canon [⟨wholeR, (k1_pay13 : FVec F S4096x64 .bf16)⟩]) wholeR := if_pos rfl

/-- At a later point it sees the projection scratch as the point before left it. -/
theorem pSeen_pos (n : Fin 8) (hn : n.val ≠ 0) (xs8 : Vec F S4096x64 .bf16) : pSeen n xs8 = View.ld xs8 wholeR := if_neg hn

/-- The output block from the finished accumulator. -/
theorem out_of_acc (s9 : Vec F S4096x64 .f32) (h : AccInv a x2 x3 x4 7 s9) : View.canon (L6 s9 x5) = outModel a x2 x3 x4 x5 := by
  unfold L6 outModel
  rw [h 7 (by decide), h 6 (by decide), h 5 (by decide), h 4 (by decide), h 3 (by decide), h 2 (by decide),
    h 1 (by decide), h 0 (by decide)]

end Proj

/-! ## One point as a whole -/

section Step

variable (a : Fin 8 → Vec F S512x4096 .f32) (x2 : Vec F S4096x32 .bf16) (x3 : Vec F S1x32 .f32) (x4 : Vec F S32x64 .bf16)

/-- The fresh product of point n, with the point's index written as the point. -/
theorem freshAt_eq (n : Fin 8) :
    freshAt a x2 x3 x4 n.val = freshOf (a n) (pSeen n (pAt a x2 x3 x4 (n.val - 1))) := by
  unfold freshAt
  rw [ofNat_val]

/-- What the fresh product sees does not depend on the projection scratch at the first point. -/
theorem pSeen_congr (n : Fin 8) (xs8 ys8 : Vec F S4096x64 .bf16) (h : n.val = 0 ∨ xs8 = ys8) : pSeen n xs8 = pSeen n ys8 := by
  rcases h with h0 | h
  · unfold pSeen
    rw [if_pos h0, if_pos h0]
  · rw [h]

/-- Point n's step carries the three descriptions from point n − 1 to point n (at the first point from anything). -/
theorem step_inv (n : Fin 8) (s : Vec F S8x4096x512 .bf16 × Vec F S4096x64 .bf16 × Vec F S4096x64 .f32)
    (h : n.val = 0 ∨ (SlabInv a (n.val - 1) s.1 ∧ s.2.1 = pAt a x2 x3 x4 (n.val - 1) ∧ AccInv a x2 x3 x4 (n.val - 1) s.2.2)) :
    SlabInv a n.val (step n (a n) x2 x3 x4 s).1 ∧ (step n (a n) x2 x3 x4 s).2.1 = pAt a x2 x3 x4 n.val
      ∧ AccInv a x2 x3 x4 n.val (step n (a n) x2 x3 x4 s).2.2 := by
  have hs7 : SlabInv a n.val (upd7 s.1 (L7 n (a n))) := slab_step a n s.1 (h.imp id fun h' => h'.1)
  unfold step
  dsimp only
  refine ⟨hs7, ?_, ?_⟩
  · show upd8 s.2.1 (L8 n (pj a x2 x3 x4 n)) = pAt a x2 x3 x4 n.val
    obtain ⟨nv, hn⟩ := n
    cases nv with
    | zero => exact p_step_zero a x2 x3 x4 s.2.1
    | succ m =>
      rcases h with h0 | h
      · exact absurd h0 (Nat.succ_ne_zero m)
      · have e : Fin.ofNat 8 (m + 1) = (⟨m + 1, hn⟩ : Fin 8) := ofNat_val ⟨m + 1, hn⟩
        have hp := p_step_succ a x2 x3 x4 m
        rw [e] at hp
        rw [h.2.1]
        exact hp
  · show AccInv a x2 x3 x4 n.val
      (upd9 s.2.2 (L9 n (pj a x2 x3 x4 n) (freshOf (a n) (pSeen n s.2.1)) (upd7 s.1 (L7 n (a n))) s.2.2))
    have hf : freshOf (a n) (pSeen n s.2.1) = freshAt a x2 x3 x4 n.val := by
      rw [freshAt_eq, pSeen_congr n s.2.1 (pAt a x2 x3 x4 (n.val - 1)) (h.imp id fun h' => h'.2.1)]
    rw [hf]
    exact acc_step a x2 x3 x4 n _ s.2.2 hs7 (h.imp id fun h' => h'.2.2)

/-- The three components of a point's step, spelt out. -/
theorem step_fst (j : Fin 8) (x1 : Vec F S512x4096 .f32) (s : Vec F S8x4096x512 .bf16 × Vec F S4096x64 .bf16 × Vec F S4096x64 .f32) :
    (step j x1 x2 x3 x4 s).1 = upd7 s.1 (L7 j x1) := by
  unfold step
  dsimp only
theorem step_snd_fst (j : Fin 8) (x1 : Vec F S512x4096 .f32) (s : Vec F S8x4096x512 .bf16 × Vec F S4096x64 .bf16 × Vec F S4096x64 .f32) :
    (step j x1 x2 x3 x4 s).2.1 = upd8 s.2.1 (L8 j (projOf x1 x2 x3 x4)) := by
  unfold step
  dsimp only
theorem step_snd_snd (j : Fin 8) (x1 : Vec F S512x4096 .f32) (s : Vec F S8x4096x512 .bf16 × Vec F S4096x64 .bf16 × Vec F S4096x64 .f32) :
    (step j x1 x2 x3 x4 s).2.2
      = upd9 s.2.2 (L9 j (projOf x1 x2 x3 x4) (freshOf x1 (pSeen j s.2.1)) (upd7 s.1 (L7 j x1)) s.2.2) := by
  unfold step
  dsimp only

end Step

end Cert.KernelIdeal.GcnModel

end
-- ==== Proof.GcnBody0Ideal.lean ====
/- scratch/gen_cases.js body 0 — case 0 of the table of eight control cases, from the one template -/
/-
  The body obligation of the streamed pass at grid point 0: the operands' buffers hold their blocks, the invariant hands the body
  the scratch buffers at contents satisfying the model's invariants (at anything: the first point), the run's stores are the model's, and the
  step lemmas give the invariants for point 0; the output window is idle and handed back untouched.
-/
import proofs.«150466_g82282983457293_cont_9to1_m_405_12_alg».proof.Proof.GcnWit0Ideal
import proofs.«150466_g82282983457293_cont_9to1_m_405_12_alg».proof.Proof.GcnPostIdeal
import proofs.«150466_g82282983457293_cont_9to1_m_405_12_alg».proof.Proof.GcnStepIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt0 (c : Dev nD) :
    bodyPre1 V c (pt 0) ⊢ wp frame (wpE (defs₀ (F := F)) Variants.none c none) Set.univ (bodyAt1 (pt 0)) (fun _ => bodyPost1 V c (pt 0)) := by
  unfold bodyPre1 bodyPost1 bodyAt1
  simp only [before1_0, before1_1, before1_2, before1_3, before1_4]
  rw [show (dat1 V c).owesAt () (pt 0).succ = (dat1 V c).owesAt () (pt 0).castSucc from rfl]
  rw [show (dat1 V c).Φ (pt 0).succ = PhiS V c 1 from rfl, show (dat1 V c).Φ (pt 0).castSucc = PhiS V c 0 from rfl]
  rw [show (dat1 V c).leavesExact 0 (pt 0) = owns (c : Thread nD τ) (ms1_0 (pt 0)) fullShare ((dat1 V c).after 0 (pt 0)) from by
      unfold Dat.leavesExact; rw [liveAt1_0 (pt 0)], after1_0]
  rw [show (dat1 V c).leavesExact 1 (pt 0) = owns (c : Thread nD τ) (ms1_1 (pt 0)) fullShare ((dat1 V c).after 1 (pt 0)) from by
      unfold Dat.leavesExact; rw [liveAt1_1 (pt 0)], after1_1]
  rw [show (dat1 V c).leavesExact 2 (pt 0) = owns (c : Thread nD τ) (ms1_2 (pt 0)) fullShare ((dat1 V c).after 2 (pt 0)) from by
      unfold Dat.leavesExact; rw [liveAt1_2 (pt 0)], after1_2]
  rw [show (dat1 V c).leavesExact 3 (pt 0) = owns (c : Thread nD τ) (ms1_3 (pt 0)) fullShare ((dat1 V c).after 3 (pt 0)) from by
      unfold Dat.leavesExact; rw [liveAt1_3 (pt 0)], after1_3]
  rw [show (dat1 V c).leavesExact 4 (pt 0) = owns (c : Thread nD τ) (ms1_4 (pt 0)) fullShare ((dat1 V c).after 4 (pt 0)) from by
      unfold Dat.leavesExact; rw [liveAt1_4 (pt 0)], after1_4]
  rw [Dat.leavesExact_idle (dat1 V c) 5 (pt 0) (idleAt1_5 (pt 0) (by decide)) (noFlush1_5 (pt 0) (by decide))]
  rw [blk1_1_const V c 0, blk1_2_const V c 0, blk1_3_const V c 0, blk1_4_const V c 0]
  rw [show blk1 V c 0 (pt 0) = aOf V c 0 from rfl]
  rw [show PhiS V c 0 = _ from PhiS_zero V c, PhiA1_eq]
  rw [show PhiS V c 1 = _ from PhiS_succ V c 0]; unfold rest0
  iintro ⟨⟨⟨Ha, Hb, Hc, Hd, ⟨%s7, H7⟩, ⟨%s8, H8⟩, ⟨%s9, H9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run0 c (grid1.coords (pt 0)) (ms1_0 (pt 0)) (hs1_0 (pt 0)) (ms1_1 (pt 0)) (hs1_1 (pt 0)) (ms1_2 (pt 0)) (hs1_2 (pt 0)) (ms1_3 (pt 0)) (hs1_3 (pt 0)) (ms1_4 (pt 0)) (hs1_4 (pt 0)) (ms1_5 (pt 0)) (hs1_5 (pt 0)) scM7 h7 scM8 h8 scM9 h9 ((hcond1 (pt 0)).mpr rfl) ((hcond2 (pt 0)).mpr (by decide)) (fun h => absurd ((hcond3 (pt 0)).mp h) (by decide)) (fun h => absurd ((hcond4 (pt 0)).mp h) (by decide)) (fun h => absurd ((hcond5 (pt 0)).mp h) (by decide)) (fun h => absurd ((hcond6 (pt 0)).mp h) (by decide)) (fun h => absurd ((hcond7 (pt 0)).mp h) (by decide)) (fun h => absurd ((hcond8 (pt 0)).mp h) (by decide)) (fun h => absurd ((hcond9 (pt 0)).mp h) (by decide)) (fun h => absurd ((hcond10 (pt 0)).mp h) (by decide)) (aOf V c 0) (x2Of V c) (x3Of V c) (x4Of V c) (x5Of V c) s7 s8 s9 := ⟨_, rfl⟩
  obtain ⟨e7, e8, e9⟩ := run0_lists c (ms1_0 (pt 0)) (hs1_0 (pt 0)) (ms1_1 (pt 0)) (hs1_1 (pt 0)) (ms1_2 (pt 0)) (hs1_2 (pt 0)) (ms1_3 (pt 0)) (hs1_3 (pt 0)) (ms1_4 (pt 0)) (hs1_4 (pt 0)) (ms1_5 (pt 0)) (hs1_5 (pt 0)) ((hcond1 (pt 0)).mpr rfl) ((hcond2 (pt 0)).mpr (by decide)) (fun h => absurd ((hcond3 (pt 0)).mp h) (by decide)) (fun h => absurd ((hcond4 (pt 0)).mp h) (by decide)) (fun h => absurd ((hcond5 (pt 0)).mp h) (by decide)) (fun h => absurd ((hcond6 (pt 0)).mp h) (by decide)) (fun h => absurd ((hcond7 (pt 0)).mp h) (by decide)) (fun h => absurd ((hcond8 (pt 0)).mp h) (by decide)) (fun h => absurd ((hcond9 (pt 0)).mp h) (by decide)) (fun h => absurd ((hcond10 (pt 0)).mp h) (by decide)) (aOf V c 0) (x2Of V c) (x3Of V c) (x4Of V c) (x5Of V c) s7 s8 s9
  rw [← hR] at e7 e8 e9
  have h7' : SlabInv (aOf V c) 0 (upd7 s7 R.1) := by
    rw [e7]; exact slab_step (aOf V c) 0 s7 (Or.inl rfl)
  have h8' : upd8 s8 R.2.1 = pAt (aOf V c) (x2Of V c) (x3Of V c) (x4Of V c) 0 := by
    rw [e8]; exact (p_step_zero (aOf V c) (x2Of V c) (x3Of V c) (x4Of V c) s8)
  have h9' : AccInv (aOf V c) (x2Of V c) (x3Of V c) (x4Of V c) 0 (upd9 s9 R.2.2.1) := by
    rw [e9]; exact acc_step (aOf V c) (x2Of V c) (x3Of V c) (x4Of V c) 0 _ s9 (slab_step (aOf V c) 0 s7 (Or.inl rfl)) (Or.inl rfl)
  clear e7 e8 e9
  subst hR
  iapply ((run0 c (grid1.coords (pt 0)) (ms1_0 (pt 0)) (hs1_0 (pt 0)) (ms1_1 (pt 0)) (hs1_1 (pt 0)) (ms1_2 (pt 0)) (hs1_2 (pt 0)) (ms1_3 (pt 0)) (hs1_3 (pt 0)) (ms1_4 (pt 0)) (hs1_4 (pt 0)) (ms1_5 (pt 0)) (hs1_5 (pt 0)) scM7 h7 scM8 h8 scM9 h9 ((hcond1 (pt 0)).mpr rfl) ((hcond2 (pt 0)).mpr (by decide)) (fun h => absurd ((hcond3 (pt 0)).mp h) (by decide)) (fun h => absurd ((hcond4 (pt 0)).mp h) (by decide)) (fun h => absurd ((hcond5 (pt 0)).mp h) (by decide)) (fun h => absurd ((hcond6 (pt 0)).mp h) (by decide)) (fun h => absurd ((hcond7 (pt 0)).mp h) (by decide)) (fun h => absurd ((hcond8 (pt 0)).mp h) (by decide)) (fun h => absurd ((hcond9 (pt 0)).mp h) (by decide)) (fun h => absurd ((hcond10 (pt 0)).mp h) (by decide)) (aOf V c 0) (x2Of V c) (x3Of V c) (x4Of V c) (x5Of V c) s7 s8 s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.KernelIdeal.GcnKit

end
-- ==== Proof.GcnRun1Ideal.lean ====
/- scratch/gen_cases.js run 1 — case 1 of the table of eight control cases, from the one template -/
/-
  The streamed pass's body at grid point 1: the first conditional not taken, the accumulation taken for row blocks 0 … 1.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseIdeal
import Idealize.ShloMosaic.Lib.Pipeline.FrameBody
import Idealize.ShloMosaic.Lib.Ring
import Idealize.ShloMosaic.Lib.Tactic

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run1 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : ¬ k1_cond4 i = 1#1) (hc5 : ¬ k1_cond5 i = 1#1) (hc6 : ¬ k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.KernelIdeal.GcnRun

end
-- ==== Proof.GcnWit1Ideal.lean ====
/- scratch/gen_cases.js wit 1 — case 1 of the table of eight control cases, from the one template -/
/-
  The stores the body's run finds at grid point 1 are the model's: the same rectangles (the offsets computed from the
  grid coordinate are the literal ones) carrying the same arithmetic of the operand blocks and of the scratch contents.
-/
import proofs.«150466_g82282983457293_cont_9to1_m_405_12_alg».proof.Proof.GcnRun1Ideal
import proofs.«150466_g82282983457293_cont_9to1_m_405_12_alg».proof.Proof.GcnKitIdeal
import proofs.«150466_g82282983457293_cont_9to1_m_405_12_alg».proof.Proof.GcnReadIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.Sem

variable {F : FTy → Type} [FloatOps F]

set_option maxHeartbeats 4000000 in
theorem run1_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 1))) (hc2 : k1_cond2 (grid1.coords (pt 1)) = 1#1) (hc3 : k1_cond3 (grid1.coords (pt 1)) = 1#1) (hc4 : ¬ k1_cond4 (grid1.coords (pt 1)) = 1#1) (hc5 : ¬ k1_cond5 (grid1.coords (pt 1)) = 1#1) (hc6 : ¬ k1_cond6 (grid1.coords (pt 1)) = 1#1) (hc7 : ¬ k1_cond7 (grid1.coords (pt 1)) = 1#1) (hc8 : ¬ k1_cond8 (grid1.coords (pt 1)) = 1#1) (hc9 : ¬ k1_cond9 (grid1.coords (pt 1)) = 1#1) (hc10 : ¬ k1_cond10 (grid1.coords (pt 1)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run1 c (grid1.coords (pt 1)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 1 x1
    ∧ (run1 c (grid1.coords (pt 1)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 1 (projOf x1 x2 x3 x4)
    ∧ (run1 c (grid1.coords (pt 1)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 1 (projOf x1 x2 x3 x4) (freshOf x1 (pSeen 1 xs8)) (upd7 xs7 (L7 1 x1)) xs9 := by
  unfold run1
  dsimp only
  sl_unfold_run_names
  simp only [View.readAt_eq_ld, Memref.IsWhole.read_unread, read_unread7, read_unread8, read_unread9]
  refine ⟨?_, ?_, ?_⟩ <;> sl_kernel_rfl

end Cert.KernelIdeal.GcnKit

end
-- ==== Proof.GcnBody1Ideal.lean ====
/- scratch/gen_cases.js body 1 — case 1 of the table of eight control cases, from the one template -/
/-
  The body obligation of the streamed pass at grid point 1: the operands' buffers hold their blocks, the invariant hands the body
  the scratch buffers at contents satisfying the model's invariants for point 0, the run's stores are the model's, and the
  step lemmas give the invariants for point 1; the output window is idle and handed back untouched.
-/
import proofs.«150466_g82282983457293_cont_9to1_m_405_12_alg».proof.Proof.GcnWit1Ideal
import proofs.«150466_g82282983457293_cont_9to1_m_405_12_alg».proof.Proof.GcnPostIdeal
import proofs.«150466_g82282983457293_cont_9to1_m_405_12_alg».proof.Proof.GcnStepIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt1 (c : Dev nD) :
    bodyPre1 V c (pt 1) ⊢ wp frame (wpE (defs₀ (F := F)) Variants.none c none) Set.univ (bodyAt1 (pt 1)) (fun _ => bodyPost1 V c (pt 1)) := by
  unfold bodyPre1 bodyPost1 bodyAt1
  simp only [before1_0, before1_1, before1_2, before1_3, before1_4]
  rw [show (dat1 V c).owesAt () (pt 1).succ = (dat1 V c).owesAt () (pt 1).castSucc from rfl]
  rw [show (dat1 V c).Φ (pt 1).succ = PhiS V c 2 from rfl, show (dat1 V c).Φ (pt 1).castSucc = PhiS V c 1 from rfl]
  rw [show (dat1 V c).leavesExact 0 (pt 1) = owns (c : Thread nD τ) (ms1_0 (pt 1)) fullShare ((dat1 V c).after 0 (pt 1)) from by
      unfold Dat.leavesExact; rw [liveAt1_0 (pt 1)], after1_0]
  rw [show (dat1 V c).leavesExact 1 (pt 1) = owns (c : Thread nD τ) (ms1_1 (pt 1)) fullShare ((dat1 V c).after 1 (pt 1)) from by
      unfold Dat.leavesExact; rw [liveAt1_1 (pt 1)], after1_1]
  rw [show (dat1 V c).leavesExact 2 (pt 1) = owns (c : Thread nD τ) (ms1_2 (pt 1)) fullShare ((dat1 V c).after 2 (pt 1)) from by
      unfold Dat.leavesExact; rw [liveAt1_2 (pt 1)], after1_2]
  rw [show (dat1 V c).leavesExact 3 (pt 1) = owns (c : Thread nD τ) (ms1_3 (pt 1)) fullShare ((dat1 V c).after 3 (pt 1)) from by
      unfold Dat.leavesExact; rw [liveAt1_3 (pt 1)], after1_3]
  rw [show (dat1 V c).leavesExact 4 (pt 1) = owns (c : Thread nD τ) (ms1_4 (pt 1)) fullShare ((dat1 V c).after 4 (pt 1)) from by
      unfold Dat.leavesExact; rw [liveAt1_4 (pt 1)], after1_4]
  rw [Dat.leavesExact_idle (dat1 V c) 5 (pt 1) (idleAt1_5 (pt 1) (by decide)) (noFlush1_5 (pt 1) (by decide))]
  rw [blk1_1_const V c 1, blk1_2_const V c 1, blk1_3_const V c 1, blk1_4_const V c 1]
  rw [show blk1 V c 0 (pt 1) = aOf V c 1 from rfl]
  rw [show PhiS V c 1 = _ from PhiS_succ V c 0]; unfold rest0
  rw [show PhiS V c 2 = _ from PhiS_succ V c 1]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run1 c (grid1.coords (pt 1)) (ms1_0 (pt 1)) (hs1_0 (pt 1)) (ms1_1 (pt 1)) (hs1_1 (pt 1)) (ms1_2 (pt 1)) (hs1_2 (pt 1)) (ms1_3 (pt 1)) (hs1_3 (pt 1)) (ms1_4 (pt 1)) (hs1_4 (pt 1)) (ms1_5 (pt 1)) (hs1_5 (pt 1)) scM7 h7 scM8 h8 scM9 h9 (fun h => absurd ((hcond1 (pt 1)).mp h) (by decide)) ((hcond2 (pt 1)).mpr (by decide)) ((hcond3 (pt 1)).mpr (by decide)) (fun h => absurd ((hcond4 (pt 1)).mp h) (by decide)) (fun h => absurd ((hcond5 (pt 1)).mp h) (by decide)) (fun h => absurd ((hcond6 (pt 1)).mp h) (by decide)) (fun h => absurd ((hcond7 (pt 1)).mp h) (by decide)) (fun h => absurd ((hcond8 (pt 1)).mp h) (by decide)) (fun h => absurd ((hcond9 (pt 1)).mp h) (by decide)) (fun h => absurd ((hcond10 (pt 1)).mp h) (by decide)) (aOf V c 1) (x2Of V c) (x3Of V c) (x4Of V c) (x5Of V c) s7 (pAt (aOf V c) (x2Of V c) (x3Of V c) (x4Of V c) 0) s9 := ⟨_, rfl⟩
  obtain ⟨e7, e8, e9⟩ := run1_lists c (ms1_0 (pt 1)) (hs1_0 (pt 1)) (ms1_1 (pt 1)) (hs1_1 (pt 1)) (ms1_2 (pt 1)) (hs1_2 (pt 1)) (ms1_3 (pt 1)) (hs1_3 (pt 1)) (ms1_4 (pt 1)) (hs1_4 (pt 1)) (ms1_5 (pt 1)) (hs1_5 (pt 1)) (fun h => absurd ((hcond1 (pt 1)).mp h) (by decide)) ((hcond2 (pt 1)).mpr (by decide)) ((hcond3 (pt 1)).mpr (by decide)) (fun h => absurd ((hcond4 (pt 1)).mp h) (by decide)) (fun h => absurd ((hcond5 (pt 1)).mp h) (by decide)) (fun h => absurd ((hcond6 (pt 1)).mp h) (by decide)) (fun h => absurd ((hcond7 (pt 1)).mp h) (by decide)) (fun h => absurd ((hcond8 (pt 1)).mp h) (by decide)) (fun h => absurd ((hcond9 (pt 1)).mp h) (by decide)) (fun h => absurd ((hcond10 (pt 1)).mp h) (by decide)) (aOf V c 1) (x2Of V c) (x3Of V c) (x4Of V c) (x5Of V c) s7 (pAt (aOf V c) (x2Of V c) (x3Of V c) (x4Of V c) 0) s9
  rw [← hR] at e7 e8 e9
  have h7' : SlabInv (aOf V c) 1 (upd7 s7 R.1) := by
    rw [e7]; exact slab_step (aOf V c) 1 s7 (Or.inr hs7)
  have h8' : upd8 (pAt (aOf V c) (x2Of V c) (x3Of V c) (x4Of V c) 0) R.2.1 = pAt (aOf V c) (x2Of V c) (x3Of V c) (x4Of V c) 1 := by
    rw [e8]; exact (p_step_succ (aOf V c) (x2Of V c) (x3Of V c) (x4Of V c) 0)
  have h9' : AccInv (aOf V c) (x2Of V c) (x3Of V c) (x4Of V c) 1 (upd9 s9 R.2.2.1) := by
    rw [e9]; exact acc_step (aOf V c) (x2Of V c) (x3Of V c) (x4Of V c) 1 _ s9 (slab_step (aOf V c) 1 s7 (Or.inr hs7)) (Or.inr hs9)
  clear e7 e8 e9
  subst hR
  iapply ((run1 c (grid1.coords (pt 1)) (ms1_0 (pt 1)) (hs1_0 (pt 1)) (ms1_1 (pt 1)) (hs1_1 (pt 1)) (ms1_2 (pt 1)) (hs1_2 (pt 1)) (ms1_3 (pt 1)) (hs1_3 (pt 1)) (ms1_4 (pt 1)) (hs1_4 (pt 1)) (ms1_5 (pt 1)) (hs1_5 (pt 1)) scM7 h7 scM8 h8 scM9 h9 (fun h => absurd ((hcond1 (pt 1)).mp h) (by decide)) ((hcond2 (pt 1)).mpr (by decide)) ((hcond3 (pt 1)).mpr (by decide)) (fun h => absurd ((hcond4 (pt 1)).mp h) (by decide)) (fun h => absurd ((hcond5 (pt 1)).mp h) (by decide)) (fun h => absurd ((hcond6 (pt 1)).mp h) (by decide)) (fun h => absurd ((hcond7 (pt 1)).mp h) (by decide)) (fun h => absurd ((hcond8 (pt 1)).mp h) (by decide)) (fun h => absurd ((hcond9 (pt 1)).mp h) (by decide)) (fun h => absurd ((hcond10 (pt 1)).mp h) (by decide)) (aOf V c 1) (x2Of V c) (x3Of V c) (x4Of V c) (x5Of V c) s7 (pAt (aOf V c) (x2Of V c) (x3Of V c) (x4Of V c) 0) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.KernelIdeal.GcnKit

end
-- ==== Proof.GcnRun2Ideal.lean ====
/- scratch/gen_cases.js run 2 — case 2 of the table of eight control cases, from the one template -/
/-
  The streamed pass's body at grid point 2: the first conditional not taken, the accumulation taken for row blocks 0 … 2.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseIdeal
import Idealize.ShloMosaic.Lib.Pipeline.FrameBody
import Idealize.ShloMosaic.Lib.Ring
import Idealize.ShloMosaic.Lib.Tactic

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run2 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : ¬ k1_cond5 i = 1#1) (hc6 : ¬ k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.KernelIdeal.GcnRun

end
-- ==== Proof.GcnWit2Ideal.lean ====
/- scratch/gen_cases.js wit 2 — case 2 of the table of eight control cases, from the one template -/
/-
  The stores the body's run finds at grid point 2 are the model's: the same rectangles (the offsets computed from the
  grid coordinate are the literal ones) carrying the same arithmetic of the operand blocks and of the scratch contents.
-/
import proofs.«150466_g82282983457293_cont_9to1_m_405_12_alg».proof.Proof.GcnRun2Ideal
import proofs.«150466_g82282983457293_cont_9to1_m_405_12_alg».proof.Proof.GcnKitIdeal
import proofs.«150466_g82282983457293_cont_9to1_m_405_12_alg».proof.Proof.GcnReadIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.Sem

variable {F : FTy → Type} [FloatOps F]

set_option maxHeartbeats 4000000 in
theorem run2_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 2))) (hc2 : k1_cond2 (grid1.coords (pt 2)) = 1#1) (hc3 : k1_cond3 (grid1.coords (pt 2)) = 1#1) (hc4 : k1_cond4 (grid1.coords (pt 2)) = 1#1) (hc5 : ¬ k1_cond5 (grid1.coords (pt 2)) = 1#1) (hc6 : ¬ k1_cond6 (grid1.coords (pt 2)) = 1#1) (hc7 : ¬ k1_cond7 (grid1.coords (pt 2)) = 1#1) (hc8 : ¬ k1_cond8 (grid1.coords (pt 2)) = 1#1) (hc9 : ¬ k1_cond9 (grid1.coords (pt 2)) = 1#1) (hc10 : ¬ k1_cond10 (grid1.coords (pt 2)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run2 c (grid1.coords (pt 2)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 2 x1
    ∧ (run2 c (grid1.coords (pt 2)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 2 (projOf x1 x2 x3 x4)
    ∧ (run2 c (grid1.coords (pt 2)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 2 (projOf x1 x2 x3 x4) (freshOf x1 (pSeen 2 xs8)) (upd7 xs7 (L7 2 x1)) xs9 := by
  unfold run2
  dsimp only
  sl_unfold_run_names
  simp only [View.readAt_eq_ld, Memref.IsWhole.read_unread, read_unread7, read_unread8, read_unread9]
  refine ⟨?_, ?_, ?_⟩ <;> sl_kernel_rfl

end Cert.KernelIdeal.GcnKit

end
-- ==== Proof.GcnBody2Ideal.lean ====
/- scratch/gen_cases.js body 2 — case 2 of the table of eight control cases, from the one template -/
/-
  The body obligation of the streamed pass at grid point 2: the operands' buffers hold their blocks, the invariant hands the body
  the scratch buffers at contents satisfying the model's invariants for point 1, the run's stores are the model's, and the
  step lemmas give the invariants for point 2; the output window is idle and handed back untouched.
-/
import proofs.«150466_g82282983457293_cont_9to1_m_405_12_alg».proof.Proof.GcnWit2Ideal
import proofs.«150466_g82282983457293_cont_9to1_m_405_12_alg».proof.Proof.GcnPostIdeal
import proofs.«150466_g82282983457293_cont_9to1_m_405_12_alg».proof.Proof.GcnStepIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt2 (c : Dev nD) :
    bodyPre1 V c (pt 2) ⊢ wp frame (wpE (defs₀ (F := F)) Variants.none c none) Set.univ (bodyAt1 (pt 2)) (fun _ => bodyPost1 V c (pt 2)) := by
  unfold bodyPre1 bodyPost1 bodyAt1
  simp only [before1_0, before1_1, before1_2, before1_3, before1_4]
  rw [show (dat1 V c).owesAt () (pt 2).succ = (dat1 V c).owesAt () (pt 2).castSucc from rfl]
  rw [show (dat1 V c).Φ (pt 2).succ = PhiS V c 3 from rfl, show (dat1 V c).Φ (pt 2).castSucc = PhiS V c 2 from rfl]
  rw [show (dat1 V c).leavesExact 0 (pt 2) = owns (c : Thread nD τ) (ms1_0 (pt 2)) fullShare ((dat1 V c).after 0 (pt 2)) from by
      unfold Dat.leavesExact; rw [liveAt1_0 (pt 2)], after1_0]
  rw [show (dat1 V c).leavesExact 1 (pt 2) = owns (c : Thread nD τ) (ms1_1 (pt 2)) fullShare ((dat1 V c).after 1 (pt 2)) from by
      unfold Dat.leavesExact; rw [liveAt1_1 (pt 2)], after1_1]
  rw [show (dat1 V c).leavesExact 2 (pt 2) = owns (c : Thread nD τ) (ms1_2 (pt 2)) fullShare ((dat1 V c).after 2 (pt 2)) from by
      unfold Dat.leavesExact; rw [liveAt1_2 (pt 2)], after1_2]
  rw [show (dat1 V c).leavesExact 3 (pt 2) = owns (c : Thread nD τ) (ms1_3 (pt 2)) fullShare ((dat1 V c).after 3 (pt 2)) from by
      unfold Dat.leavesExact; rw [liveAt1_3 (pt 2)], after1_3]
  rw [show (dat1 V c).leavesExact 4 (pt 2) = owns (c : Thread nD τ) (ms1_4 (pt 2)) fullShare ((dat1 V c).after 4 (pt 2)) from by
      unfold Dat.leavesExact; rw [liveAt1_4 (pt 2)], after1_4]
  rw [Dat.leavesExact_idle (dat1 V c) 5 (pt 2) (idleAt1_5 (pt 2) (by decide)) (noFlush1_5 (pt 2) (by decide))]
  rw [blk1_1_const V c 2, blk1_2_const V c 2, blk1_3_const V c 2, blk1_4_const V c 2]
  rw [show blk1 V c 0 (pt 2) = aOf V c 2 from rfl]
  rw [show PhiS V c 2 = _ from PhiS_succ V c 1]; unfold rest0
  rw [show PhiS V c 3 = _ from PhiS_succ V c 2]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run2 c (grid1.coords (pt 2)) (ms1_0 (pt 2)) (hs1_0 (pt 2)) (ms1_1 (pt 2)) (hs1_1 (pt 2)) (ms1_2 (pt 2)) (hs1_2 (pt 2)) (ms1_3 (pt 2)) (hs1_3 (pt 2)) (ms1_4 (pt 2)) (hs1_4 (pt 2)) (ms1_5 (pt 2)) (hs1_5 (pt 2)) scM7 h7 scM8 h8 scM9 h9 (fun h => absurd ((hcond1 (pt 2)).mp h) (by decide)) ((hcond2 (pt 2)).mpr (by decide)) ((hcond3 (pt 2)).mpr (by decide)) ((hcond4 (pt 2)).mpr (by decide)) (fun h => absurd ((hcond5 (pt 2)).mp h) (by decide)) (fun h => absurd ((hcond6 (pt 2)).mp h) (by decide)) (fun h => absurd ((hcond7 (pt 2)).mp h) (by decide)) (fun h => absurd ((hcond8 (pt 2)).mp h) (by decide)) (fun h => absurd ((hcond9 (pt 2)).mp h) (by decide)) (fun h => absurd ((hcond10 (pt 2)).mp h) (by decide)) (aOf V c 2) (x2Of V c) (x3Of V c) (x4Of V c) (x5Of V c) s7 (pAt (aOf V c) (x2Of V c) (x3Of V c) (x4Of V c) 1) s9 := ⟨_, rfl⟩
  obtain ⟨e7, e8, e9⟩ := run2_lists c (ms1_0 (pt 2)) (hs1_0 (pt 2)) (ms1_1 (pt 2)) (hs1_1 (pt 2)) (ms1_2 (pt 2)) (hs1_2 (pt 2)) (ms1_3 (pt 2)) (hs1_3 (pt 2)) (ms1_4 (pt 2)) (hs1_4 (pt 2)) (ms1_5 (pt 2)) (hs1_5 (pt 2)) (fun h => absurd ((hcond1 (pt 2)).mp h) (by decide)) ((hcond2 (pt 2)).mpr (by decide)) ((hcond3 (pt 2)).mpr (by decide)) ((hcond4 (pt 2)).mpr (by decide)) (fun h => absurd ((hcond5 (pt 2)).mp h) (by decide)) (fun h => absurd ((hcond6 (pt 2)).mp h) (by decide)) (fun h => absurd ((hcond7 (pt 2)).mp h) (by decide)) (fun h => absurd ((hcond8 (pt 2)).mp h) (by decide)) (fun h => absurd ((hcond9 (pt 2)).mp h) (by decide)) (fun h => absurd ((hcond10 (pt 2)).mp h) (by decide)) (aOf V c 2) (x2Of V c) (x3Of V c) (x4Of V c) (x5Of V c) s7 (pAt (aOf V c) (x2Of V c) (x3Of V c) (x4Of V c) 1) s9
  rw [← hR] at e7 e8 e9
  have h7' : SlabInv (aOf V c) 2 (upd7 s7 R.1) := by
    rw [e7]; exact slab_step (aOf V c) 2 s7 (Or.inr hs7)
  have h8' : upd8 (pAt (aOf V c) (x2Of V c) (x3Of V c) (x4Of V c) 1) R.2.1 = pAt (aOf V c) (x2Of V c) (x3Of V c) (x4Of V c) 2 := by
    rw [e8]; exact (p_step_succ (aOf V c) (x2Of V c) (x3Of V c) (x4Of V c) 1)
  have h9' : AccInv (aOf V c) (x2Of V c) (x3Of V c) (x4Of V c) 2 (upd9 s9 R.2.2.1) := by
    rw [e9]; exact acc_step (aOf V c) (x2Of V c) (x3Of V c) (x4Of V c) 2 _ s9 (slab_step (aOf V c) 2 s7 (Or.inr hs7)) (Or.inr hs9)
  clear e7 e8 e9
  subst hR
  iapply ((run2 c (grid1.coords (pt 2)) (ms1_0 (pt 2)) (hs1_0 (pt 2)) (ms1_1 (pt 2)) (hs1_1 (pt 2)) (ms1_2 (pt 2)) (hs1_2 (pt 2)) (ms1_3 (pt 2)) (hs1_3 (pt 2)) (ms1_4 (pt 2)) (hs1_4 (pt 2)) (ms1_5 (pt 2)) (hs1_5 (pt 2)) scM7 h7 scM8 h8 scM9 h9 (fun h => absurd ((hcond1 (pt 2)).mp h) (by decide)) ((hcond2 (pt 2)).mpr (by decide)) ((hcond3 (pt 2)).mpr (by decide)) ((hcond4 (pt 2)).mpr (by decide)) (fun h => absurd ((hcond5 (pt 2)).mp h) (by decide)) (fun h => absurd ((hcond6 (pt 2)).mp h) (by decide)) (fun h => absurd ((hcond7 (pt 2)).mp h) (by decide)) (fun h => absurd ((hcond8 (pt 2)).mp h) (by decide)) (fun h => absurd ((hcond9 (pt 2)).mp h) (by decide)) (fun h => absurd ((hcond10 (pt 2)).mp h) (by decide)) (aOf V c 2) (x2Of V c) (x3Of V c) (x4Of V c) (x5Of V c) s7 (pAt (aOf V c) (x2Of V c) (x3Of V c) (x4Of V c) 1) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.KernelIdeal.GcnKit

end
-- ==== Proof.GcnRun3Ideal.lean ====
/- scratch/gen_cases.js run 3 — case 3 of the table of eight control cases, from the one template -/
/-
  The streamed pass's body at grid point 3: the first conditional not taken, the accumulation taken for row blocks 0 … 3.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseIdeal
import Idealize.ShloMosaic.Lib.Pipeline.FrameBody
import Idealize.ShloMosaic.Lib.Ring
import Idealize.ShloMosaic.Lib.Tactic

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run3 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : ¬ k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.KernelIdeal.GcnRun

end
-- ==== Proof.GcnWit3Ideal.lean ====
/- scratch/gen_cases.js wit 3 — case 3 of the table of eight control cases, from the one template -/
/-
  The stores the body's run finds at grid point 3 are the model's: the same rectangles (the offsets computed from the
  grid coordinate are the literal ones) carrying the same arithmetic of the operand blocks and of the scratch contents.
-/
import proofs.«150466_g82282983457293_cont_9to1_m_405_12_alg».proof.Proof.GcnRun3Ideal
import proofs.«150466_g82282983457293_cont_9to1_m_405_12_alg».proof.Proof.GcnKitIdeal
import proofs.«150466_g82282983457293_cont_9to1_m_405_12_alg».proof.Proof.GcnReadIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.Sem

variable {F : FTy → Type} [FloatOps F]

set_option maxHeartbeats 4000000 in
theorem run3_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 3))) (hc2 : k1_cond2 (grid1.coords (pt 3)) = 1#1) (hc3 : k1_cond3 (grid1.coords (pt 3)) = 1#1) (hc4 : k1_cond4 (grid1.coords (pt 3)) = 1#1) (hc5 : k1_cond5 (grid1.coords (pt 3)) = 1#1) (hc6 : ¬ k1_cond6 (grid1.coords (pt 3)) = 1#1) (hc7 : ¬ k1_cond7 (grid1.coords (pt 3)) = 1#1) (hc8 : ¬ k1_cond8 (grid1.coords (pt 3)) = 1#1) (hc9 : ¬ k1_cond9 (grid1.coords (pt 3)) = 1#1) (hc10 : ¬ k1_cond10 (grid1.coords (pt 3)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run3 c (grid1.coords (pt 3)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 3 x1
    ∧ (run3 c (grid1.coords (pt 3)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 3 (projOf x1 x2 x3 x4)
    ∧ (run3 c (grid1.coords (pt 3)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 3 (projOf x1 x2 x3 x4) (freshOf x1 (pSeen 3 xs8)) (upd7 xs7 (L7 3 x1)) xs9 := by
  unfold run3
  dsimp only
  sl_unfold_run_names
  simp only [View.readAt_eq_ld, Memref.IsWhole.read_unread, read_unread7, read_unread8, read_unread9]
  refine ⟨?_, ?_, ?_⟩ <;> sl_kernel_rfl

end Cert.KernelIdeal.GcnKit

end
-- ==== Proof.GcnBody3Ideal.lean ====
/- scratch/gen_cases.js body 3 — case 3 of the table of eight control cases, from the one template -/
/-
  The body obligation of the streamed pass at grid point 3: the operands' buffers hold their blocks, the invariant hands the body
  the scratch buffers at contents satisfying the model's invariants for point 2, the run's stores are the model's, and the
  step lemmas give the invariants for point 3; the output window is idle and handed back untouched.
-/
import proofs.«150466_g82282983457293_cont_9to1_m_405_12_alg».proof.Proof.GcnWit3Ideal
import proofs.«150466_g82282983457293_cont_9to1_m_405_12_alg».proof.Proof.GcnPostIdeal
import proofs.«150466_g82282983457293_cont_9to1_m_405_12_alg».proof.Proof.GcnStepIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt3 (c : Dev nD) :
    bodyPre1 V c (pt 3) ⊢ wp frame (wpE (defs₀ (F := F)) Variants.none c none) Set.univ (bodyAt1 (pt 3)) (fun _ => bodyPost1 V c (pt 3)) := by
  unfold bodyPre1 bodyPost1 bodyAt1
  simp only [before1_0, before1_1, before1_2, before1_3, before1_4]
  rw [show (dat1 V c).owesAt () (pt 3).succ = (dat1 V c).owesAt () (pt 3).castSucc from rfl]
  rw [show (dat1 V c).Φ (pt 3).succ = PhiS V c 4 from rfl, show (dat1 V c).Φ (pt 3).castSucc = PhiS V c 3 from rfl]
  rw [show (dat1 V c).leavesExact 0 (pt 3) = owns (c : Thread nD τ) (ms1_0 (pt 3)) fullShare ((dat1 V c).after 0 (pt 3)) from by
      unfold Dat.leavesExact; rw [liveAt1_0 (pt 3)], after1_0]
  rw [show (dat1 V c).leavesExact 1 (pt 3) = owns (c : Thread nD τ) (ms1_1 (pt 3)) fullShare ((dat1 V c).after 1 (pt 3)) from by
      unfold Dat.leavesExact; rw [liveAt1_1 (pt 3)], after1_1]
  rw [show (dat1 V c).leavesExact 2 (pt 3) = owns (c : Thread nD τ) (ms1_2 (pt 3)) fullShare ((dat1 V c).after 2 (pt 3)) from by
      unfold Dat.leavesExact; rw [liveAt1_2 (pt 3)], after1_2]
  rw [show (dat1 V c).leavesExact 3 (pt 3) = owns (c : Thread nD τ) (ms1_3 (pt 3)) fullShare ((dat1 V c).after 3 (pt 3)) from by
      unfold Dat.leavesExact; rw [liveAt1_3 (pt 3)], after1_3]
  rw [show (dat1 V c).leavesExact 4 (pt 3) = owns (c : Thread nD τ) (ms1_4 (pt 3)) fullShare ((dat1 V c).after 4 (pt 3)) from by
      unfold Dat.leavesExact; rw [liveAt1_4 (pt 3)], after1_4]
  rw [Dat.leavesExact_idle (dat1 V c) 5 (pt 3) (idleAt1_5 (pt 3) (by decide)) (noFlush1_5 (pt 3) (by decide))]
  rw [blk1_1_const V c 3, blk1_2_const V c 3, blk1_3_const V c 3, blk1_4_const V c 3]
  rw [show blk1 V c 0 (pt 3) = aOf V c 3 from rfl]
  rw [show PhiS V c 3 = _ from PhiS_succ V c 2]; unfold rest0
  rw [show PhiS V c 4 = _ from PhiS_succ V c 3]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run3 c (grid1.coords (pt 3)) (ms1_0 (pt 3)) (hs1_0 (pt 3)) (ms1_1 (pt 3)) (hs1_1 (pt 3)) (ms1_2 (pt 3)) (hs1_2 (pt 3)) (ms1_3 (pt 3)) (hs1_3 (pt 3)) (ms1_4 (pt 3)) (hs1_4 (pt 3)) (ms1_5 (pt 3)) (hs1_5 (pt 3)) scM7 h7 scM8 h8 scM9 h9 (fun h => absurd ((hcond1 (pt 3)).mp h) (by decide)) ((hcond2 (pt 3)).mpr (by decide)) ((hcond3 (pt 3)).mpr (by decide)) ((hcond4 (pt 3)).mpr (by decide)) ((hcond5 (pt 3)).mpr (by decide)) (fun h => absurd ((hcond6 (pt 3)).mp h) (by decide)) (fun h => absurd ((hcond7 (pt 3)).mp h) (by decide)) (fun h => absurd ((hcond8 (pt 3)).mp h) (by decide)) (fun h => absurd ((hcond9 (pt 3)).mp h) (by decide)) (fun h => absurd ((hcond10 (pt 3)).mp h) (by decide)) (aOf V c 3) (x2Of V c) (x3Of V c) (x4Of V c) (x5Of V c) s7 (pAt (aOf V c) (x2Of V c) (x3Of V c) (x4Of V c) 2) s9 := ⟨_, rfl⟩
  obtain ⟨e7, e8, e9⟩ := run3_lists c (ms1_0 (pt 3)) (hs1_0 (pt 3)) (ms1_1 (pt 3)) (hs1_1 (pt 3)) (ms1_2 (pt 3)) (hs1_2 (pt 3)) (ms1_3 (pt 3)) (hs1_3 (pt 3)) (ms1_4 (pt 3)) (hs1_4 (pt 3)) (ms1_5 (pt 3)) (hs1_5 (pt 3)) (fun h => absurd ((hcond1 (pt 3)).mp h) (by decide)) ((hcond2 (pt 3)).mpr (by decide)) ((hcond3 (pt 3)).mpr (by decide)) ((hcond4 (pt 3)).mpr (by decide)) ((hcond5 (pt 3)).mpr (by decide)) (fun h => absurd ((hcond6 (pt 3)).mp h) (by decide)) (fun h => absurd ((hcond7 (pt 3)).mp h) (by decide)) (fun h => absurd ((hcond8 (pt 3)).mp h) (by decide)) (fun h => absurd ((hcond9 (pt 3)).mp h) (by decide)) (fun h => absurd ((hcond10 (pt 3)).mp h) (by decide)) (aOf V c 3) (x2Of V c) (x3Of V c) (x4Of V c) (x5Of V c) s7 (pAt (aOf V c) (x2Of V c) (x3Of V c) (x4Of V c) 2) s9
  rw [← hR] at e7 e8 e9
  have h7' : SlabInv (aOf V c) 3 (upd7 s7 R.1) := by
    rw [e7]; exact slab_step (aOf V c) 3 s7 (Or.inr hs7)
  have h8' : upd8 (pAt (aOf V c) (x2Of V c) (x3Of V c) (x4Of V c) 2) R.2.1 = pAt (aOf V c) (x2Of V c) (x3Of V c) (x4Of V c) 3 := by
    rw [e8]; exact (p_step_succ (aOf V c) (x2Of V c) (x3Of V c) (x4Of V c) 2)
  have h9' : AccInv (aOf V c) (x2Of V c) (x3Of V c) (x4Of V c) 3 (upd9 s9 R.2.2.1) := by
    rw [e9]; exact acc_step (aOf V c) (x2Of V c) (x3Of V c) (x4Of V c) 3 _ s9 (slab_step (aOf V c) 3 s7 (Or.inr hs7)) (Or.inr hs9)
  clear e7 e8 e9
  subst hR
  iapply ((run3 c (grid1.coords (pt 3)) (ms1_0 (pt 3)) (hs1_0 (pt 3)) (ms1_1 (pt 3)) (hs1_1 (pt 3)) (ms1_2 (pt 3)) (hs1_2 (pt 3)) (ms1_3 (pt 3)) (hs1_3 (pt 3)) (ms1_4 (pt 3)) (hs1_4 (pt 3)) (ms1_5 (pt 3)) (hs1_5 (pt 3)) scM7 h7 scM8 h8 scM9 h9 (fun h => absurd ((hcond1 (pt 3)).mp h) (by decide)) ((hcond2 (pt 3)).mpr (by decide)) ((hcond3 (pt 3)).mpr (by decide)) ((hcond4 (pt 3)).mpr (by decide)) ((hcond5 (pt 3)).mpr (by decide)) (fun h => absurd ((hcond6 (pt 3)).mp h) (by decide)) (fun h => absurd ((hcond7 (pt 3)).mp h) (by decide)) (fun h => absurd ((hcond8 (pt 3)).mp h) (by decide)) (fun h => absurd ((hcond9 (pt 3)).mp h) (by decide)) (fun h => absurd ((hcond10 (pt 3)).mp h) (by decide)) (aOf V c 3) (x2Of V c) (x3Of V c) (x4Of V c) (x5Of V c) s7 (pAt (aOf V c) (x2Of V c) (x3Of V c) (x4Of V c) 2) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.KernelIdeal.GcnKit

end
-- ==== Proof.GcnRun4Ideal.lean ====
/- scratch/gen_cases.js run 4 — case 4 of the table of eight control cases, from the one template -/
/-
  The streamed pass's body at grid point 4: the first conditional not taken, the accumulation taken for row blocks 0 … 4.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseIdeal
import Idealize.ShloMosaic.Lib.Pipeline.FrameBody
import Idealize.ShloMosaic.Lib.Ring
import Idealize.ShloMosaic.Lib.Tactic

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run4 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : k1_cond6 i = 1#1) (hc7 : ¬ k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.KernelIdeal.GcnRun

end
-- ==== Proof.GcnWit4Ideal.lean ====
/- scratch/gen_cases.js wit 4 — case 4 of the table of eight control cases, from the one template -/
/-
  The stores the body's run finds at grid point 4 are the model's: the same rectangles (the offsets computed from the
  grid coordinate are the literal ones) carrying the same arithmetic of the operand blocks and of the scratch contents.
-/
import proofs.«150466_g82282983457293_cont_9to1_m_405_12_alg».proof.Proof.GcnRun4Ideal
import proofs.«150466_g82282983457293_cont_9to1_m_405_12_alg».proof.Proof.GcnKitIdeal
import proofs.«150466_g82282983457293_cont_9to1_m_405_12_alg».proof.Proof.GcnReadIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.Sem

variable {F : FTy → Type} [FloatOps F]

set_option maxHeartbeats 4000000 in
theorem run4_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 4))) (hc2 : k1_cond2 (grid1.coords (pt 4)) = 1#1) (hc3 : k1_cond3 (grid1.coords (pt 4)) = 1#1) (hc4 : k1_cond4 (grid1.coords (pt 4)) = 1#1) (hc5 : k1_cond5 (grid1.coords (pt 4)) = 1#1) (hc6 : k1_cond6 (grid1.coords (pt 4)) = 1#1) (hc7 : ¬ k1_cond7 (grid1.coords (pt 4)) = 1#1) (hc8 : ¬ k1_cond8 (grid1.coords (pt 4)) = 1#1) (hc9 : ¬ k1_cond9 (grid1.coords (pt 4)) = 1#1) (hc10 : ¬ k1_cond10 (grid1.coords (pt 4)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run4 c (grid1.coords (pt 4)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 4 x1
    ∧ (run4 c (grid1.coords (pt 4)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 4 (projOf x1 x2 x3 x4)
    ∧ (run4 c (grid1.coords (pt 4)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 4 (projOf x1 x2 x3 x4) (freshOf x1 (pSeen 4 xs8)) (upd7 xs7 (L7 4 x1)) xs9 := by
  unfold run4
  dsimp only
  sl_unfold_run_names
  simp only [View.readAt_eq_ld, Memref.IsWhole.read_unread, read_unread7, read_unread8, read_unread9]
  refine ⟨?_, ?_, ?_⟩ <;> sl_kernel_rfl

end Cert.KernelIdeal.GcnKit

end
-- ==== Proof.GcnBody4Ideal.lean ====
/- scratch/gen_cases.js body 4 — case 4 of the table of eight control cases, from the one template -/
/-
  The body obligation of the streamed pass at grid point 4: the operands' buffers hold their blocks, the invariant hands the body
  the scratch buffers at contents satisfying the model's invariants for point 3, the run's stores are the model's, and the
  step lemmas give the invariants for point 4; the output window is idle and handed back untouched.
-/
import proofs.«150466_g82282983457293_cont_9to1_m_405_12_alg».proof.Proof.GcnWit4Ideal
import proofs.«150466_g82282983457293_cont_9to1_m_405_12_alg».proof.Proof.GcnPostIdeal
import proofs.«150466_g82282983457293_cont_9to1_m_405_12_alg».proof.Proof.GcnStepIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt4 (c : Dev nD) :
    bodyPre1 V c (pt 4) ⊢ wp frame (wpE (defs₀ (F := F)) Variants.none c none) Set.univ (bodyAt1 (pt 4)) (fun _ => bodyPost1 V c (pt 4)) := by
  unfold bodyPre1 bodyPost1 bodyAt1
  simp only [before1_0, before1_1, before1_2, before1_3, before1_4]
  rw [show (dat1 V c).owesAt () (pt 4).succ = (dat1 V c).owesAt () (pt 4).castSucc from rfl]
  rw [show (dat1 V c).Φ (pt 4).succ = PhiS V c 5 from rfl, show (dat1 V c).Φ (pt 4).castSucc = PhiS V c 4 from rfl]
  rw [show (dat1 V c).leavesExact 0 (pt 4) = owns (c : Thread nD τ) (ms1_0 (pt 4)) fullShare ((dat1 V c).after 0 (pt 4)) from by
      unfold Dat.leavesExact; rw [liveAt1_0 (pt 4)], after1_0]
  rw [show (dat1 V c).leavesExact 1 (pt 4) = owns (c : Thread nD τ) (ms1_1 (pt 4)) fullShare ((dat1 V c).after 1 (pt 4)) from by
      unfold Dat.leavesExact; rw [liveAt1_1 (pt 4)], after1_1]
  rw [show (dat1 V c).leavesExact 2 (pt 4) = owns (c : Thread nD τ) (ms1_2 (pt 4)) fullShare ((dat1 V c).after 2 (pt 4)) from by
      unfold Dat.leavesExact; rw [liveAt1_2 (pt 4)], after1_2]
  rw [show (dat1 V c).leavesExact 3 (pt 4) = owns (c : Thread nD τ) (ms1_3 (pt 4)) fullShare ((dat1 V c).after 3 (pt 4)) from by
      unfold Dat.leavesExact; rw [liveAt1_3 (pt 4)], after1_3]
  rw [show (dat1 V c).leavesExact 4 (pt 4) = owns (c : Thread nD τ) (ms1_4 (pt 4)) fullShare ((dat1 V c).after 4 (pt 4)) from by
      unfold Dat.leavesExact; rw [liveAt1_4 (pt 4)], after1_4]
  rw [Dat.leavesExact_idle (dat1 V c) 5 (pt 4) (idleAt1_5 (pt 4) (by decide)) (noFlush1_5 (pt 4) (by decide))]
  rw [blk1_1_const V c 4, blk1_2_const V c 4, blk1_3_const V c 4, blk1_4_const V c 4]
  rw [show blk1 V c 0 (pt 4) = aOf V c 4 from rfl]
  rw [show PhiS V c 4 = _ from PhiS_succ V c 3]; unfold rest0
  rw [show PhiS V c 5 = _ from PhiS_succ V c 4]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run4 c (grid1.coords (pt 4)) (ms1_0 (pt 4)) (hs1_0 (pt 4)) (ms1_1 (pt 4)) (hs1_1 (pt 4)) (ms1_2 (pt 4)) (hs1_2 (pt 4)) (ms1_3 (pt 4)) (hs1_3 (pt 4)) (ms1_4 (pt 4)) (hs1_4 (pt 4)) (ms1_5 (pt 4)) (hs1_5 (pt 4)) scM7 h7 scM8 h8 scM9 h9 (fun h => absurd ((hcond1 (pt 4)).mp h) (by decide)) ((hcond2 (pt 4)).mpr (by decide)) ((hcond3 (pt 4)).mpr (by decide)) ((hcond4 (pt 4)).mpr (by decide)) ((hcond5 (pt 4)).mpr (by decide)) ((hcond6 (pt 4)).mpr (by decide)) (fun h => absurd ((hcond7 (pt 4)).mp h) (by decide)) (fun h => absurd ((hcond8 (pt 4)).mp h) (by decide)) (fun h => absurd ((hcond9 (pt 4)).mp h) (by decide)) (fun h => absurd ((hcond10 (pt 4)).mp h) (by decide)) (aOf V c 4) (x2Of V c) (x3Of V c) (x4Of V c) (x5Of V c) s7 (pAt (aOf V c) (x2Of V c) (x3Of V c) (x4Of V c) 3) s9 := ⟨_, rfl⟩
  obtain ⟨e7, e8, e9⟩ := run4_lists c (ms1_0 (pt 4)) (hs1_0 (pt 4)) (ms1_1 (pt 4)) (hs1_1 (pt 4)) (ms1_2 (pt 4)) (hs1_2 (pt 4)) (ms1_3 (pt 4)) (hs1_3 (pt 4)) (ms1_4 (pt 4)) (hs1_4 (pt 4)) (ms1_5 (pt 4)) (hs1_5 (pt 4)) (fun h => absurd ((hcond1 (pt 4)).mp h) (by decide)) ((hcond2 (pt 4)).mpr (by decide)) ((hcond3 (pt 4)).mpr (by decide)) ((hcond4 (pt 4)).mpr (by decide)) ((hcond5 (pt 4)).mpr (by decide)) ((hcond6 (pt 4)).mpr (by decide)) (fun h => absurd ((hcond7 (pt 4)).mp h) (by decide)) (fun h => absurd ((hcond8 (pt 4)).mp h) (by decide)) (fun h => absurd ((hcond9 (pt 4)).mp h) (by decide)) (fun h => absurd ((hcond10 (pt 4)).mp h) (by decide)) (aOf V c 4) (x2Of V c) (x3Of V c) (x4Of V c) (x5Of V c) s7 (pAt (aOf V c) (x2Of V c) (x3Of V c) (x4Of V c) 3) s9
  rw [← hR] at e7 e8 e9
  have h7' : SlabInv (aOf V c) 4 (upd7 s7 R.1) := by
    rw [e7]; exact slab_step (aOf V c) 4 s7 (Or.inr hs7)
  have h8' : upd8 (pAt (aOf V c) (x2Of V c) (x3Of V c) (x4Of V c) 3) R.2.1 = pAt (aOf V c) (x2Of V c) (x3Of V c) (x4Of V c) 4 := by
    rw [e8]; exact (p_step_succ (aOf V c) (x2Of V c) (x3Of V c) (x4Of V c) 3)
  have h9' : AccInv (aOf V c) (x2Of V c) (x3Of V c) (x4Of V c) 4 (upd9 s9 R.2.2.1) := by
    rw [e9]; exact acc_step (aOf V c) (x2Of V c) (x3Of V c) (x4Of V c) 4 _ s9 (slab_step (aOf V c) 4 s7 (Or.inr hs7)) (Or.inr hs9)
  clear e7 e8 e9
  subst hR
  iapply ((run4 c (grid1.coords (pt 4)) (ms1_0 (pt 4)) (hs1_0 (pt 4)) (ms1_1 (pt 4)) (hs1_1 (pt 4)) (ms1_2 (pt 4)) (hs1_2 (pt 4)) (ms1_3 (pt 4)) (hs1_3 (pt 4)) (ms1_4 (pt 4)) (hs1_4 (pt 4)) (ms1_5 (pt 4)) (hs1_5 (pt 4)) scM7 h7 scM8 h8 scM9 h9 (fun h => absurd ((hcond1 (pt 4)).mp h) (by decide)) ((hcond2 (pt 4)).mpr (by decide)) ((hcond3 (pt 4)).mpr (by decide)) ((hcond4 (pt 4)).mpr (by decide)) ((hcond5 (pt 4)).mpr (by decide)) ((hcond6 (pt 4)).mpr (by decide)) (fun h => absurd ((hcond7 (pt 4)).mp h) (by decide)) (fun h => absurd ((hcond8 (pt 4)).mp h) (by decide)) (fun h => absurd ((hcond9 (pt 4)).mp h) (by decide)) (fun h => absurd ((hcond10 (pt 4)).mp h) (by decide)) (aOf V c 4) (x2Of V c) (x3Of V c) (x4Of V c) (x5Of V c) s7 (pAt (aOf V c) (x2Of V c) (x3Of V c) (x4Of V c) 3) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.KernelIdeal.GcnKit

end
-- ==== Proof.GcnRun5Ideal.lean ====
/- scratch/gen_cases.js run 5 — case 5 of the table of eight control cases, from the one template -/
/-
  The streamed pass's body at grid point 5: the first conditional not taken, the accumulation taken for row blocks 0 … 5.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseIdeal
import Idealize.ShloMosaic.Lib.Pipeline.FrameBody
import Idealize.ShloMosaic.Lib.Ring
import Idealize.ShloMosaic.Lib.Tactic

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run5 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : k1_cond6 i = 1#1) (hc7 : k1_cond7 i = 1#1) (hc8 : ¬ k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.KernelIdeal.GcnRun

end
-- ==== Proof.GcnWit5Ideal.lean ====
/- scratch/gen_cases.js wit 5 — case 5 of the table of eight control cases, from the one template -/
/-
  The stores the body's run finds at grid point 5 are the model's: the same rectangles (the offsets computed from the
  grid coordinate are the literal ones) carrying the same arithmetic of the operand blocks and of the scratch contents.
-/
import proofs.«150466_g82282983457293_cont_9to1_m_405_12_alg».proof.Proof.GcnRun5Ideal
import proofs.«150466_g82282983457293_cont_9to1_m_405_12_alg».proof.Proof.GcnKitIdeal
import proofs.«150466_g82282983457293_cont_9to1_m_405_12_alg».proof.Proof.GcnReadIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.Sem

variable {F : FTy → Type} [FloatOps F]

set_option maxHeartbeats 4000000 in
theorem run5_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 5))) (hc2 : k1_cond2 (grid1.coords (pt 5)) = 1#1) (hc3 : k1_cond3 (grid1.coords (pt 5)) = 1#1) (hc4 : k1_cond4 (grid1.coords (pt 5)) = 1#1) (hc5 : k1_cond5 (grid1.coords (pt 5)) = 1#1) (hc6 : k1_cond6 (grid1.coords (pt 5)) = 1#1) (hc7 : k1_cond7 (grid1.coords (pt 5)) = 1#1) (hc8 : ¬ k1_cond8 (grid1.coords (pt 5)) = 1#1) (hc9 : ¬ k1_cond9 (grid1.coords (pt 5)) = 1#1) (hc10 : ¬ k1_cond10 (grid1.coords (pt 5)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run5 c (grid1.coords (pt 5)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 5 x1
    ∧ (run5 c (grid1.coords (pt 5)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 5 (projOf x1 x2 x3 x4)
    ∧ (run5 c (grid1.coords (pt 5)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 5 (projOf x1 x2 x3 x4) (freshOf x1 (pSeen 5 xs8)) (upd7 xs7 (L7 5 x1)) xs9 := by
  unfold run5
  dsimp only
  sl_unfold_run_names
  simp only [View.readAt_eq_ld, Memref.IsWhole.read_unread, read_unread7, read_unread8, read_unread9]
  refine ⟨?_, ?_, ?_⟩ <;> sl_kernel_rfl

end Cert.KernelIdeal.GcnKit

end
-- ==== Proof.GcnBody5Ideal.lean ====
/- scratch/gen_cases.js body 5 — case 5 of the table of eight control cases, from the one template -/
/-
  The body obligation of the streamed pass at grid point 5: the operands' buffers hold their blocks, the invariant hands the body
  the scratch buffers at contents satisfying the model's invariants for point 4, the run's stores are the model's, and the
  step lemmas give the invariants for point 5; the output window is idle and handed back untouched.
-/
import proofs.«150466_g82282983457293_cont_9to1_m_405_12_alg».proof.Proof.GcnWit5Ideal
import proofs.«150466_g82282983457293_cont_9to1_m_405_12_alg».proof.Proof.GcnPostIdeal
import proofs.«150466_g82282983457293_cont_9to1_m_405_12_alg».proof.Proof.GcnStepIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt5 (c : Dev nD) :
    bodyPre1 V c (pt 5) ⊢ wp frame (wpE (defs₀ (F := F)) Variants.none c none) Set.univ (bodyAt1 (pt 5)) (fun _ => bodyPost1 V c (pt 5)) := by
  unfold bodyPre1 bodyPost1 bodyAt1
  simp only [before1_0, before1_1, before1_2, before1_3, before1_4]
  rw [show (dat1 V c).owesAt () (pt 5).succ = (dat1 V c).owesAt () (pt 5).castSucc from rfl]
  rw [show (dat1 V c).Φ (pt 5).succ = PhiS V c 6 from rfl, show (dat1 V c).Φ (pt 5).castSucc = PhiS V c 5 from rfl]
  rw [show (dat1 V c).leavesExact 0 (pt 5) = owns (c : Thread nD τ) (ms1_0 (pt 5)) fullShare ((dat1 V c).after 0 (pt 5)) from by
      unfold Dat.leavesExact; rw [liveAt1_0 (pt 5)], after1_0]
  rw [show (dat1 V c).leavesExact 1 (pt 5) = owns (c : Thread nD τ) (ms1_1 (pt 5)) fullShare ((dat1 V c).after 1 (pt 5)) from by
      unfold Dat.leavesExact; rw [liveAt1_1 (pt 5)], after1_1]
  rw [show (dat1 V c).leavesExact 2 (pt 5) = owns (c : Thread nD τ) (ms1_2 (pt 5)) fullShare ((dat1 V c).after 2 (pt 5)) from by
      unfold Dat.leavesExact; rw [liveAt1_2 (pt 5)], after1_2]
  rw [show (dat1 V c).leavesExact 3 (pt 5) = owns (c : Thread nD τ) (ms1_3 (pt 5)) fullShare ((dat1 V c).after 3 (pt 5)) from by
      unfold Dat.leavesExact; rw [liveAt1_3 (pt 5)], after1_3]
  rw [show (dat1 V c).leavesExact 4 (pt 5) = owns (c : Thread nD τ) (ms1_4 (pt 5)) fullShare ((dat1 V c).after 4 (pt 5)) from by
      unfold Dat.leavesExact; rw [liveAt1_4 (pt 5)], after1_4]
  rw [Dat.leavesExact_idle (dat1 V c) 5 (pt 5) (idleAt1_5 (pt 5) (by decide)) (noFlush1_5 (pt 5) (by decide))]
  rw [blk1_1_const V c 5, blk1_2_const V c 5, blk1_3_const V c 5, blk1_4_const V c 5]
  rw [show blk1 V c 0 (pt 5) = aOf V c 5 from rfl]
  rw [show PhiS V c 5 = _ from PhiS_succ V c 4]; unfold rest0
  rw [show PhiS V c 6 = _ from PhiS_succ V c 5]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run5 c (grid1.coords (pt 5)) (ms1_0 (pt 5)) (hs1_0 (pt 5)) (ms1_1 (pt 5)) (hs1_1 (pt 5)) (ms1_2 (pt 5)) (hs1_2 (pt 5)) (ms1_3 (pt 5)) (hs1_3 (pt 5)) (ms1_4 (pt 5)) (hs1_4 (pt 5)) (ms1_5 (pt 5)) (hs1_5 (pt 5)) scM7 h7 scM8 h8 scM9 h9 (fun h => absurd ((hcond1 (pt 5)).mp h) (by decide)) ((hcond2 (pt 5)).mpr (by decide)) ((hcond3 (pt 5)).mpr (by decide)) ((hcond4 (pt 5)).mpr (by decide)) ((hcond5 (pt 5)).mpr (by decide)) ((hcond6 (pt 5)).mpr (by decide)) ((hcond7 (pt 5)).mpr (by decide)) (fun h => absurd ((hcond8 (pt 5)).mp h) (by decide)) (fun h => absurd ((hcond9 (pt 5)).mp h) (by decide)) (fun h => absurd ((hcond10 (pt 5)).mp h) (by decide)) (aOf V c 5) (x2Of V c) (x3Of V c) (x4Of V c) (x5Of V c) s7 (pAt (aOf V c) (x2Of V c) (x3Of V c) (x4Of V c) 4) s9 := ⟨_, rfl⟩
  obtain ⟨e7, e8, e9⟩ := run5_lists c (ms1_0 (pt 5)) (hs1_0 (pt 5)) (ms1_1 (pt 5)) (hs1_1 (pt 5)) (ms1_2 (pt 5)) (hs1_2 (pt 5)) (ms1_3 (pt 5)) (hs1_3 (pt 5)) (ms1_4 (pt 5)) (hs1_4 (pt 5)) (ms1_5 (pt 5)) (hs1_5 (pt 5)) (fun h => absurd ((hcond1 (pt 5)).mp h) (by decide)) ((hcond2 (pt 5)).mpr (by decide)) ((hcond3 (pt 5)).mpr (by decide)) ((hcond4 (pt 5)).mpr (by decide)) ((hcond5 (pt 5)).mpr (by decide)) ((hcond6 (pt 5)).mpr (by decide)) ((hcond7 (pt 5)).mpr (by decide)) (fun h => absurd ((hcond8 (pt 5)).mp h) (by decide)) (fun h => absurd ((hcond9 (pt 5)).mp h) (by decide)) (fun h => absurd ((hcond10 (pt 5)).mp h) (by decide)) (aOf V c 5) (x2Of V c) (x3Of V c) (x4Of V c) (x5Of V c) s7 (pAt (aOf V c) (x2Of V c) (x3Of V c) (x4Of V c) 4) s9
  rw [← hR] at e7 e8 e9
  have h7' : SlabInv (aOf V c) 5 (upd7 s7 R.1) := by
    rw [e7]; exact slab_step (aOf V c) 5 s7 (Or.inr hs7)
  have h8' : upd8 (pAt (aOf V c) (x2Of V c) (x3Of V c) (x4Of V c) 4) R.2.1 = pAt (aOf V c) (x2Of V c) (x3Of V c) (x4Of V c) 5 := by
    rw [e8]; exact (p_step_succ (aOf V c) (x2Of V c) (x3Of V c) (x4Of V c) 4)
  have h9' : AccInv (aOf V c) (x2Of V c) (x3Of V c) (x4Of V c) 5 (upd9 s9 R.2.2.1) := by
    rw [e9]; exact acc_step (aOf V c) (x2Of V c) (x3Of V c) (x4Of V c) 5 _ s9 (slab_step (aOf V c) 5 s7 (Or.inr hs7)) (Or.inr hs9)
  clear e7 e8 e9
  subst hR
  iapply ((run5 c (grid1.coords (pt 5)) (ms1_0 (pt 5)) (hs1_0 (pt 5)) (ms1_1 (pt 5)) (hs1_1 (pt 5)) (ms1_2 (pt 5)) (hs1_2 (pt 5)) (ms1_3 (pt 5)) (hs1_3 (pt 5)) (ms1_4 (pt 5)) (hs1_4 (pt 5)) (ms1_5 (pt 5)) (hs1_5 (pt 5)) scM7 h7 scM8 h8 scM9 h9 (fun h => absurd ((hcond1 (pt 5)).mp h) (by decide)) ((hcond2 (pt 5)).mpr (by decide)) ((hcond3 (pt 5)).mpr (by decide)) ((hcond4 (pt 5)).mpr (by decide)) ((hcond5 (pt 5)).mpr (by decide)) ((hcond6 (pt 5)).mpr (by decide)) ((hcond7 (pt 5)).mpr (by decide)) (fun h => absurd ((hcond8 (pt 5)).mp h) (by decide)) (fun h => absurd ((hcond9 (pt 5)).mp h) (by decide)) (fun h => absurd ((hcond10 (pt 5)).mp h) (by decide)) (aOf V c 5) (x2Of V c) (x3Of V c) (x4Of V c) (x5Of V c) s7 (pAt (aOf V c) (x2Of V c) (x3Of V c) (x4Of V c) 4) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.KernelIdeal.GcnKit

end
-- ==== Proof.GcnRun6Ideal.lean ====
/- scratch/gen_cases.js run 6 — case 6 of the table of eight control cases, from the one template -/
/-
  The streamed pass's body at grid point 6: the first conditional not taken, the accumulation taken for row blocks 0 … 6.
  On whole memrefs — the five operand blocks at their contents, the output block handed back untouched, the three scratch buffers at
  the contents `xs·` the point before left — the body runs to the continuation with the operands as they were and each
  scratch buffer at its contents overwritten by the point's stores, listed last first. The lists are
  the witness the symbolic run finds.
-/
import proofs.«150466_g82282983457293_cont_9to1_m_405_12_alg».proof.Proof.GcnBaseIdeal
import Idealize.ShloMosaic.Lib.Pipeline.FrameBody
import Idealize.ShloMosaic.Lib.Ring
import Idealize.ShloMosaic.Lib.Tactic

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run6 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : k1_cond6 i = 1#1) (hc7 : k1_cond7 i = 1#1) (hc8 : k1_cond8 i = 1#1) (hc9 : ¬ k1_cond9 i = 1#1) (hc10 : ¬ k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L7 : List (View.Piece (Elt F) S8x4096x512 .bf16)) (L8 : List (View.Piece (Elt F) S4096x64 .bf16)), { L9 : List (View.Piece (Elt F) S4096x64 .f32) //
      ∀ (xi6 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, fun xi6 E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

end Cert.KernelIdeal.GcnRun

end
-- ==== Proof.GcnWit6Ideal.lean ====
/- scratch/gen_cases.js wit 6 — case 6 of the table of eight control cases, from the one template -/
/-
  The stores the body's run finds at grid point 6 are the model's: the same rectangles (the offsets computed from the
  grid coordinate are the literal ones) carrying the same arithmetic of the operand blocks and of the scratch contents.
-/
import proofs.«150466_g82282983457293_cont_9to1_m_405_12_alg».proof.Proof.GcnRun6Ideal
import proofs.«150466_g82282983457293_cont_9to1_m_405_12_alg».proof.Proof.GcnKitIdeal
import proofs.«150466_g82282983457293_cont_9to1_m_405_12_alg».proof.Proof.GcnReadIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.Sem

variable {F : FTy → Type} [FloatOps F]

set_option maxHeartbeats 4000000 in
theorem run6_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 6))) (hc2 : k1_cond2 (grid1.coords (pt 6)) = 1#1) (hc3 : k1_cond3 (grid1.coords (pt 6)) = 1#1) (hc4 : k1_cond4 (grid1.coords (pt 6)) = 1#1) (hc5 : k1_cond5 (grid1.coords (pt 6)) = 1#1) (hc6 : k1_cond6 (grid1.coords (pt 6)) = 1#1) (hc7 : k1_cond7 (grid1.coords (pt 6)) = 1#1) (hc8 : k1_cond8 (grid1.coords (pt 6)) = 1#1) (hc9 : ¬ k1_cond9 (grid1.coords (pt 6)) = 1#1) (hc10 : ¬ k1_cond10 (grid1.coords (pt 6)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run6 c (grid1.coords (pt 6)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L7 6 x1
    ∧ (run6 c (grid1.coords (pt 6)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L8 6 (projOf x1 x2 x3 x4)
    ∧ (run6 c (grid1.coords (pt 6)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L9 6 (projOf x1 x2 x3 x4) (freshOf x1 (pSeen 6 xs8)) (upd7 xs7 (L7 6 x1)) xs9 := by
  unfold run6
  dsimp only
  sl_unfold_run_names
  simp only [View.readAt_eq_ld, Memref.IsWhole.read_unread, read_unread7, read_unread8, read_unread9]
  refine ⟨?_, ?_, ?_⟩ <;> sl_kernel_rfl

end Cert.KernelIdeal.GcnKit

end
-- ==== Proof.GcnBody6Ideal.lean ====
/- scratch/gen_cases.js body 6 — case 6 of the table of eight control cases, from the one template -/
/-
  The body obligation of the streamed pass at grid point 6: the operands' buffers hold their blocks, the invariant hands the body
  the scratch buffers at contents satisfying the model's invariants for point 5, the run's stores are the model's, and the
  step lemmas give the invariants for point 6; the output window is idle and handed back untouched.
-/
import proofs.«150466_g82282983457293_cont_9to1_m_405_12_alg».proof.Proof.GcnWit6Ideal
import proofs.«150466_g82282983457293_cont_9to1_m_405_12_alg».proof.Proof.GcnPostIdeal
import proofs.«150466_g82282983457293_cont_9to1_m_405_12_alg».proof.Proof.GcnStepIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt6 (c : Dev nD) :
    bodyPre1 V c (pt 6) ⊢ wp frame (wpE (defs₀ (F := F)) Variants.none c none) Set.univ (bodyAt1 (pt 6)) (fun _ => bodyPost1 V c (pt 6)) := by
  unfold bodyPre1 bodyPost1 bodyAt1
  simp only [before1_0, before1_1, before1_2, before1_3, before1_4]
  rw [show (dat1 V c).owesAt () (pt 6).succ = (dat1 V c).owesAt () (pt 6).castSucc from rfl]
  rw [show (dat1 V c).Φ (pt 6).succ = PhiS V c 7 from rfl, show (dat1 V c).Φ (pt 6).castSucc = PhiS V c 6 from rfl]
  rw [show (dat1 V c).leavesExact 0 (pt 6) = owns (c : Thread nD τ) (ms1_0 (pt 6)) fullShare ((dat1 V c).after 0 (pt 6)) from by
      unfold Dat.leavesExact; rw [liveAt1_0 (pt 6)], after1_0]
  rw [show (dat1 V c).leavesExact 1 (pt 6) = owns (c : Thread nD τ) (ms1_1 (pt 6)) fullShare ((dat1 V c).after 1 (pt 6)) from by
      unfold Dat.leavesExact; rw [liveAt1_1 (pt 6)], after1_1]
  rw [show (dat1 V c).leavesExact 2 (pt 6) = owns (c : Thread nD τ) (ms1_2 (pt 6)) fullShare ((dat1 V c).after 2 (pt 6)) from by
      unfold Dat.leavesExact; rw [liveAt1_2 (pt 6)], after1_2]
  rw [show (dat1 V c).leavesExact 3 (pt 6) = owns (c : Thread nD τ) (ms1_3 (pt 6)) fullShare ((dat1 V c).after 3 (pt 6)) from by
      unfold Dat.leavesExact; rw [liveAt1_3 (pt 6)], after1_3]
  rw [show (dat1 V c).leavesExact 4 (pt 6) = owns (c : Thread nD τ) (ms1_4 (pt 6)) fullShare ((dat1 V c).after 4 (pt 6)) from by
      unfold Dat.leavesExact; rw [liveAt1_4 (pt 6)], after1_4]
  rw [Dat.leavesExact_idle (dat1 V c) 5 (pt 6) (idleAt1_5 (pt 6) (by decide)) (noFlush1_5 (pt 6) (by decide))]
  rw [blk1_1_const V c 6, blk1_2_const V c 6, blk1_3_const V c 6, blk1_4_const V c 6]
  rw [show blk1 V c 0 (pt 6) = aOf V c 6 from rfl]
  rw [show PhiS V c 6 = _ from PhiS_succ V c 5]; unfold rest0
  rw [show PhiS V c 7 = _ from PhiS_succ V c 6]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run6 c (grid1.coords (pt 6)) (ms1_0 (pt 6)) (hs1_0 (pt 6)) (ms1_1 (pt 6)) (hs1_1 (pt 6)) (ms1_2 (pt 6)) (hs1_2 (pt 6)) (ms1_3 (pt 6)) (hs1_3 (pt 6)) (ms1_4 (pt 6)) (hs1_4 (pt 6)) (ms1_5 (pt 6)) (hs1_5 (pt 6)) scM7 h7 scM8 h8 scM9 h9 (fun h => absurd ((hcond1 (pt 6)).mp h) (by decide)) ((hcond2 (pt 6)).mpr (by decide)) ((hcond3 (pt 6)).mpr (by decide)) ((hcond4 (pt 6)).mpr (by decide)) ((hcond5 (pt 6)).mpr (by decide)) ((hcond6 (pt 6)).mpr (by decide)) ((hcond7 (pt 6)).mpr (by decide)) ((hcond8 (pt 6)).mpr (by decide)) (fun h => absurd ((hcond9 (pt 6)).mp h) (by decide)) (fun h => absurd ((hcond10 (pt 6)).mp h) (by decide)) (aOf V c 6) (x2Of V c) (x3Of V c) (x4Of V c) (x5Of V c) s7 (pAt (aOf V c) (x2Of V c) (x3Of V c) (x4Of V c) 5) s9 := ⟨_, rfl⟩
  obtain ⟨e7, e8, e9⟩ := run6_lists c (ms1_0 (pt 6)) (hs1_0 (pt 6)) (ms1_1 (pt 6)) (hs1_1 (pt 6)) (ms1_2 (pt 6)) (hs1_2 (pt 6)) (ms1_3 (pt 6)) (hs1_3 (pt 6)) (ms1_4 (pt 6)) (hs1_4 (pt 6)) (ms1_5 (pt 6)) (hs1_5 (pt 6)) (fun h => absurd ((hcond1 (pt 6)).mp h) (by decide)) ((hcond2 (pt 6)).mpr (by decide)) ((hcond3 (pt 6)).mpr (by decide)) ((hcond4 (pt 6)).mpr (by decide)) ((hcond5 (pt 6)).mpr (by decide)) ((hcond6 (pt 6)).mpr (by decide)) ((hcond7 (pt 6)).mpr (by decide)) ((hcond8 (pt 6)).mpr (by decide)) (fun h => absurd ((hcond9 (pt 6)).mp h) (by decide)) (fun h => absurd ((hcond10 (pt 6)).mp h) (by decide)) (aOf V c 6) (x2Of V c) (x3Of V c) (x4Of V c) (x5Of V c) s7 (pAt (aOf V c) (x2Of V c) (x3Of V c) (x4Of V c) 5) s9
  rw [← hR] at e7 e8 e9
  have h7' : SlabInv (aOf V c) 6 (upd7 s7 R.1) := by
    rw [e7]; exact slab_step (aOf V c) 6 s7 (Or.inr hs7)
  have h8' : upd8 (pAt (aOf V c) (x2Of V c) (x3Of V c) (x4Of V c) 5) R.2.1 = pAt (aOf V c) (x2Of V c) (x3Of V c) (x4Of V c) 6 := by
    rw [e8]; exact (p_step_succ (aOf V c) (x2Of V c) (x3Of V c) (x4Of V c) 5)
  have h9' : AccInv (aOf V c) (x2Of V c) (x3Of V c) (x4Of V c) 6 (upd9 s9 R.2.2.1) := by
    rw [e9]; exact acc_step (aOf V c) (x2Of V c) (x3Of V c) (x4Of V c) 6 _ s9 (slab_step (aOf V c) 6 s7 (Or.inr hs7)) (Or.inr hs9)
  clear e7 e8 e9
  subst hR
  iapply ((run6 c (grid1.coords (pt 6)) (ms1_0 (pt 6)) (hs1_0 (pt 6)) (ms1_1 (pt 6)) (hs1_1 (pt 6)) (ms1_2 (pt 6)) (hs1_2 (pt 6)) (ms1_3 (pt 6)) (hs1_3 (pt 6)) (ms1_4 (pt 6)) (hs1_4 (pt 6)) (ms1_5 (pt 6)) (hs1_5 (pt 6)) scM7 h7 scM8 h8 scM9 h9 (fun h => absurd ((hcond1 (pt 6)).mp h) (by decide)) ((hcond2 (pt 6)).mpr (by decide)) ((hcond3 (pt 6)).mpr (by decide)) ((hcond4 (pt 6)).mpr (by decide)) ((hcond5 (pt 6)).mpr (by decide)) ((hcond6 (pt 6)).mpr (by decide)) ((hcond7 (pt 6)).mpr (by decide)) ((hcond8 (pt 6)).mpr (by decide)) (fun h => absurd ((hcond9 (pt 6)).mp h) (by decide)) (fun h => absurd ((hcond10 (pt 6)).mp h) (by decide)) (aOf V c 6) (x2Of V c) (x3Of V c) (x4Of V c) (x5Of V c) s7 (pAt (aOf V c) (x2Of V c) (x3Of V c) (x4Of V c) 5) s9).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iintro ⟨H0, H1, H2, H3, H4, H5, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.KernelIdeal.GcnKit

end
-- ==== Proof.GcnRun7Ideal.lean ====
/- scratch/gen_cases.js run 7 — case 7 of the table of eight control cases, from the one template -/
/-
  The streamed pass's body at grid point 7: the first conditional not taken, the accumulation taken for row blocks 0 … 7, the epilogue taken (the point is the last).
  On whole memrefs — the five operand blocks at their contents, the output block at anything, the three scratch buffers at
  the contents `xs·` the point before left — the body runs to the continuation with the operands as they were and each
  scratch buffer at its contents overwritten by the point's stores, listed last first, the output block by the epilogue's eight row-block stores. The lists are
  the witness the symbolic run finds.
-/
import proofs.«150466_g82282983457293_cont_9to1_m_405_12_alg».proof.Proof.GcnBaseIdeal
import Idealize.ShloMosaic.Lib.Pipeline.FrameBody
import Idealize.ShloMosaic.Lib.Ring
import Idealize.ShloMosaic.Lib.Tactic

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run7 (c : Dev nD) (i : grid1.Coords) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole) (arg7 : Memref sig .tc .vmem S8x4096x512 .bf16) (harg7 : arg7.IsWhole) (arg8 : Memref sig .tc .vmem S4096x64 .bf16) (harg8 : arg8.IsWhole) (arg9 : Memref sig .tc .vmem S4096x64 .f32) (harg9 : arg9.IsWhole)
    (hc1 : ¬ cond1 i) (hc2 : k1_cond2 i = 1#1) (hc3 : k1_cond3 i = 1#1) (hc4 : k1_cond4 i = 1#1) (hc5 : k1_cond5 i = 1#1) (hc6 : k1_cond6 i = 1#1) (hc7 : k1_cond7 i = 1#1) (hc8 : k1_cond8 i = 1#1) (hc9 : k1_cond9 i = 1#1) (hc10 : k1_cond10 i = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    Σ' (L6 : List (View.Piece (Elt F) S4096x64 .f32)) (L7 : List (View.Piece (Elt F) S8x4096x512 .bf16)) (L8 : List (View.Piece (Elt F) S4096x64 .bf16)), { L9 : List (View.Piece (Elt F) S4096x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) arg7 fullShare xs7 ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc1__gcn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc1__gcn_kernel_eq_skeleton]; unfold cc1__gcn_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc1 | exact hc2 | exact hc3 | exact hc4 | exact hc5 | exact hc6 | exact hc7 | exact hc8 | exact hc9 | exact hc10)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    isplitl [H8]; · iexact H8
    iexact H9

end Cert.KernelIdeal.GcnRun

end
-- ==== Proof.GcnEpiIdeal.lean ====
/-
  The last point's epilogue reads the accumulator through loads that the point's own stores cover.

  At point 7 the accumulation stores every one of the eight row blocks of the accumulator, so a load of a row block
  after those stores does not depend on what the buffer held before them: it is the load of the buffer as the stores
  leave it over any earlier contents.  The eight row blocks tile the 4096 × 64 output block: row y lies in block y / 512.
-/
import proofs.«150466_g82282983457293_cont_9to1_m_405_12_alg».proof.Proof.GcnStepIdeal

noncomputable section

namespace Cert.KernelIdeal.GcnModel

open Cert.KernelIdeal Cert.KernelIdeal.Gen
open Idealize.ShloMosaic Idealize.ShloMosaic.TcCoe

variable {F : FTy → Type} [FloatOps F]

/-- The epilogue's stores with the accumulator's row blocks read as covered loads after the stores L9l. -/
def L6c (L9l : List (View.Piece (Elt F) S4096x64 .f32)) (x5 : Vec F S1x64 .f32) : List (View.Piece (Elt F) S4096x64 .f32) :=
  [⟨rowsR 7, lsmOf 7 (scM9.view.readCov L9l (rowsR 7).toLoadRect) x5⟩, ⟨rowsR 6, lsmOf 6 (scM9.view.readCov L9l (rowsR 6).toLoadRect) x5⟩,
   ⟨rowsR 5, lsmOf 5 (scM9.view.readCov L9l (rowsR 5).toLoadRect) x5⟩, ⟨rowsR 4, lsmOf 4 (scM9.view.readCov L9l (rowsR 4).toLoadRect) x5⟩,
   ⟨rowsR 3, lsmOf 3 (scM9.view.readCov L9l (rowsR 3).toLoadRect) x5⟩, ⟨rowsR 2, lsmOf 2 (scM9.view.readCov L9l (rowsR 2).toLoadRect) x5⟩,
   ⟨rowsR 1, lsmOf 1 (scM9.view.readCov L9l (rowsR 1).toLoadRect) x5⟩, ⟨rowsR 0, lsmOf 0 (scM9.view.readCov L9l (rowsR 0).toLoadRect) x5⟩]

/-- After the accumulations into the row blocks below b', each of those row blocks has a store of its own. -/
theorem rows_mem_L9upto (j : Fin 8) (pjv : FVec F S512x64 .bf16) (fresh : FVec F S512x64 .f32) (s7 : Vec F S8x4096x512 .bf16)
    (xs9 : Vec F S4096x64 .f32) :
    ∀ b' : ℕ, b' ≤ 8 → ∀ b : Fin 8, b.val < b' → ∃ w, (⟨rowsR b, w⟩ : View.Piece (Elt F) S4096x64 .f32) ∈ L9upto j pjv fresh s7 xs9 b' := by
  intro b'
  induction b' with
  | zero => intro _ b hb; exact absurd hb (Nat.not_lt_zero _)
  | succ b' ih =>
    intro hle b hb
    have hb8 : b' < 8 := by omega
    rw [L9upto_succ j pjv fresh s7 xs9 b' hb8]
    by_cases hbb : b.val = b'
    · obtain rfl : b = ⟨b', hb8⟩ := Fin.ext hbb
      exact ⟨_, List.mem_cons_self⟩
    · obtain ⟨w, hw⟩ := ih (by omega) b (by omega)
      exact ⟨w, List.mem_cons_of_mem _ hw⟩

/-- At point 7 the accumulator's stores hold every index of every row block. -/
theorem L9_seven_cover (pjv : FVec F S512x64 .bf16) (fresh : FVec F S512x64 .f32) (s7 : Vec F S8x4096x512 .bf16)
    (xs9 : Vec F S4096x64 .f32) (b : Fin 8) (j : (rowsR b).shape.Idx) :
    ∃ p ∈ L9 (7 : Fin 8) pjv fresh s7 xs9, (rowsR b).idx j ∈ p.1.set := by
  obtain ⟨w, hw⟩ := rows_mem_L9upto (7 : Fin 8) pjv fresh s7 xs9 8 (Nat.le_refl _) b b.isLt
  exact ⟨⟨rowsR b, w⟩, hw, (rowsR b).toLoadRect.idx_mem j⟩

/-- A load through a rectangle the stores cover is the load of the buffer as the stores leave it over any contents. -/
theorem readCov_eq_ld_upd9 (xs9 : Vec F S4096x64 .f32) (L : List (View.Piece (Elt F) S4096x64 .f32)) (r : Rect S4096x64)
    (hcov : ∀ j : r.shape.Idx, ∃ p ∈ L, r.idx j ∈ p.1.set) :
    scM9.view.readCov L r.toLoadRect = View.ld (upd9 xs9 L) r :=
  (View.readAt_writes_of_cover scM9.view (h9.unread xs9) L r.toLoadRect hcov).symm

/-- So, when the stores cover every row block, the epilogue's stores are those over the buffer as the stores leave it. -/
theorem L6c_eq_L6 (xs9 : Vec F S4096x64 .f32) (L9l : List (View.Piece (Elt F) S4096x64 .f32)) (x5 : Vec F S1x64 .f32)
    (hcov : ∀ (b : Fin 8) (j : (rowsR b).shape.Idx), ∃ p ∈ L9l, (rowsR b).idx j ∈ p.1.set) :
    L6c L9l x5 = L6 (upd9 xs9 L9l) x5 := by
  unfold L6c L6
  rw [readCov_eq_ld_upd9 xs9 L9l (rowsR 7) (hcov 7), readCov_eq_ld_upd9 xs9 L9l (rowsR 6) (hcov 6),
    readCov_eq_ld_upd9 xs9 L9l (rowsR 5) (hcov 5), readCov_eq_ld_upd9 xs9 L9l (rowsR 4) (hcov 4),
    readCov_eq_ld_upd9 xs9 L9l (rowsR 3) (hcov 3), readCov_eq_ld_upd9 xs9 L9l (rowsR 2) (hcov 2),
    readCov_eq_ld_upd9 xs9 L9l (rowsR 1) (hcov 1), readCov_eq_ld_upd9 xs9 L9l (rowsR 0) (hcov 0)]

section Out

variable (a : Fin 8 → Vec F S512x4096 .f32) (x2 : Vec F S4096x32 .bf16) (x3 : Vec F S1x32 .f32) (x4 : Vec F S32x64 .bf16)
  (x5 : Vec F S1x64 .f32)

/-- The output block from the accumulator as point 7's stores leave it, read through covered loads. -/
theorem out_of_acc_cov (xs9 : Vec F S4096x64 .f32) (pjv : FVec F S512x64 .bf16) (fresh : FVec F S512x64 .f32)
    (s7 : Vec F S8x4096x512 .bf16) (h : AccInv a x2 x3 x4 7 (upd9 xs9 (L9 (7 : Fin 8) pjv fresh s7 xs9))) :
    View.canon (L6c (L9 (7 : Fin 8) pjv fresh s7 xs9) x5) = outModel a x2 x3 x4 x5 := by
  rw [L6c_eq_L6 xs9 _ x5 (L9_seven_cover pjv fresh s7 xs9)]
  exact out_of_acc a x2 x3 x4 x5 _ h

end Out

/-- The epilogue's stores are those of the row blocks 7, 6, …, 0. -/
theorem L6c_eq_map (L9l : List (View.Piece (Elt F) S4096x64 .f32)) (x5 : Vec F S1x64 .f32) :
    L6c L9l x5 = ([7, 6, 5, 4, 3, 2, 1, 0] : List (Fin 8)).map fun b =>
      (⟨rowsR b, lsmOf b (scM9.view.readCov L9l (rowsR b).toLoadRect) x5⟩ : View.Piece (Elt F) S4096x64 .f32) := rfl

/-- The eight row blocks cover the output block: row y lies in block y / 512. -/
theorem L6c_cover (L9l : List (View.Piece (Elt F) S4096x64 .f32)) (x5 : Vec F S1x64 .f32) (y : S4096x64.Idx) :
    ∃ pc ∈ L6c L9l x5, y ∈ pc.1.set := by
  have hy0 : (y (0 : Fin 2)).val < 4096 := (y (0 : Fin 2)).isLt
  obtain ⟨b, hb⟩ : ∃ b : Fin 8, b.val = (y (0 : Fin 2)).val / 512 := ⟨⟨(y (0 : Fin 2)).val / 512, by omega⟩, rfl⟩
  refine ⟨⟨rowsR b, lsmOf b (scM9.view.readCov L9l (rowsR b).toLoadRect) x5⟩, ?_, ?_⟩
  · rw [L6c_eq_map]
    exact List.mem_map.mpr ⟨b, by fin_cases b <;> simp, rfl⟩
  · have hrow : b.val * 512 ≤ (y (0 : Fin 2)).val ∧ (y (0 : Fin 2)).val < b.val * 512 + 512 := ⟨by omega, by omega⟩
    exact (Rect.mem_set_unit (s := S4096x64) (off := ![b.val * 512, 0]) (size := S512x64.size) (inb := rows_inb b)
      (i := y)).mpr (Rect.unit_rows_mem (o := b.val * 512) (W := 512) y rfl rfl hrow)

end Cert.KernelIdeal.GcnModel

end
-- ==== Proof.GcnWit7Ideal.lean ====
/- scratch/gen_cases.js wit 7 — case 7 of the table of eight control cases, from the one template -/
/-
  The stores the body's run finds at grid point 7 are the model's: the same rectangles (the offsets computed from the
  grid coordinate are the literal ones) carrying the same arithmetic of the operand blocks and of the scratch contents.
-/
import proofs.«150466_g82282983457293_cont_9to1_m_405_12_alg».proof.Proof.GcnRun7Ideal
import proofs.«150466_g82282983457293_cont_9to1_m_405_12_alg».proof.Proof.GcnKitIdeal
import proofs.«150466_g82282983457293_cont_9to1_m_405_12_alg».proof.Proof.GcnReadIdeal
import proofs.«150466_g82282983457293_cont_9to1_m_405_12_alg».proof.Proof.GcnEpiIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.Sem

variable {F : FTy → Type} [FloatOps F]

set_option maxHeartbeats 4000000 in
theorem run7_lists (c : Dev nD) (arg1 : Memref sig .tc .vmem S512x4096 .f32) (harg1 : arg1.IsWhole) (arg2 : Memref sig .tc .vmem S4096x32 .bf16) (harg2 : arg2.IsWhole) (arg3 : Memref sig .tc .vmem S1x32 .f32) (harg3 : arg3.IsWhole) (arg4 : Memref sig .tc .vmem S32x64 .bf16) (harg4 : arg4.IsWhole) (arg5 : Memref sig .tc .vmem S1x64 .f32) (harg5 : arg5.IsWhole) (arg6 : Memref sig .tc .vmem S4096x64 .f32) (harg6 : arg6.IsWhole)
    (hc1 : ¬ cond1 (grid1.coords (pt 7))) (hc2 : k1_cond2 (grid1.coords (pt 7)) = 1#1) (hc3 : k1_cond3 (grid1.coords (pt 7)) = 1#1) (hc4 : k1_cond4 (grid1.coords (pt 7)) = 1#1) (hc5 : k1_cond5 (grid1.coords (pt 7)) = 1#1) (hc6 : k1_cond6 (grid1.coords (pt 7)) = 1#1) (hc7 : k1_cond7 (grid1.coords (pt 7)) = 1#1) (hc8 : k1_cond8 (grid1.coords (pt 7)) = 1#1) (hc9 : k1_cond9 (grid1.coords (pt 7)) = 1#1) (hc10 : k1_cond10 (grid1.coords (pt 7)) = 1#1)
    (x1 : Vec F S512x4096 .f32) (x2 : Vec F S4096x32 .bf16) (x3 : Vec F S1x32 .f32) (x4 : Vec F S32x64 .bf16) (x5 : Vec F S1x64 .f32)
    (xs7 : Vec F S8x4096x512 .bf16) (xs8 : Vec F S4096x64 .bf16) (xs9 : Vec F S4096x64 .f32) :
    (run7 c (grid1.coords (pt 7)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.1 = L7 7 x1
    ∧ (run7 c (grid1.coords (pt 7)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.1 = L8 7 (projOf x1 x2 x3 x4)
    ∧ (run7 c (grid1.coords (pt 7)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).2.2.2.1 = L9 7 (projOf x1 x2 x3 x4) (freshOf x1 (pSeen 7 xs8)) (upd7 xs7 (L7 7 x1)) xs9
    ∧ (run7 c (grid1.coords (pt 7)) arg1 harg1 arg2 harg2 arg3 harg3 arg4 harg4 arg5 harg5 arg6 harg6 scM7 h7 scM8 h8 scM9 h9 hc1 hc2 hc3 hc4 hc5 hc6 hc7 hc8 hc9 hc10 x1 x2 x3 x4 x5 xs7 xs8 xs9).1 = L6c (L9 7 (projOf x1 x2 x3 x4) (freshOf x1 (pSeen 7 xs8)) (upd7 xs7 (L7 7 x1)) xs9) x5 := by
  unfold run7
  dsimp only
  sl_unfold_run_names
  simp only [View.readAt_eq_ld, Memref.IsWhole.read_unread, read_unread7, read_unread8, read_unread9]
  refine ⟨?_, ?_, ?_, ?_⟩ <;> sl_kernel_rfl

end Cert.KernelIdeal.GcnKit

end
-- ==== Proof.GcnBody7Ideal.lean ====
/- scratch/gen_cases.js body 7 — case 7 of the table of eight control cases, from the one template -/
/-
  The body obligation of the streamed pass at grid point 7: the operands' buffers hold their blocks, the invariant hands the body
  the scratch buffers at contents satisfying the model's invariants for point 6, the run's stores are the model's, and the
  step lemmas give the invariants for point 7; the output block, live at this last point, is the model's.
-/
import proofs.«150466_g82282983457293_cont_9to1_m_405_12_alg».proof.Proof.GcnWit7Ideal
import proofs.«150466_g82282983457293_cont_9to1_m_405_12_alg».proof.Proof.GcnPostIdeal
import proofs.«150466_g82282983457293_cont_9to1_m_405_12_alg».proof.Proof.GcnStepIdeal
import proofs.«150466_g82282983457293_cont_9to1_m_405_12_alg».proof.Proof.GcnEpiIdeal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_pt7 (c : Dev nD) :
    bodyPre1 V c (pt 7) ⊢ wp frame (wpE (defs₀ (F := F)) Variants.none c none) Set.univ (bodyAt1 (pt 7)) (fun _ => bodyPost1 V c (pt 7)) := by
  unfold bodyPre1 bodyPost1 bodyAt1
  simp only [before1_0, before1_1, before1_2, before1_3, before1_4]
  rw [show (dat1 V c).owesAt () (pt 7).succ = (dat1 V c).owesAt () (pt 7).castSucc from rfl]
  rw [show (dat1 V c).Φ (pt 7).succ = PhiS V c 8 from rfl, show (dat1 V c).Φ (pt 7).castSucc = PhiS V c 7 from rfl]
  rw [show (dat1 V c).leavesExact 0 (pt 7) = owns (c : Thread nD τ) (ms1_0 (pt 7)) fullShare ((dat1 V c).after 0 (pt 7)) from by
      unfold Dat.leavesExact; rw [liveAt1_0 (pt 7)], after1_0]
  rw [show (dat1 V c).leavesExact 1 (pt 7) = owns (c : Thread nD τ) (ms1_1 (pt 7)) fullShare ((dat1 V c).after 1 (pt 7)) from by
      unfold Dat.leavesExact; rw [liveAt1_1 (pt 7)], after1_1]
  rw [show (dat1 V c).leavesExact 2 (pt 7) = owns (c : Thread nD τ) (ms1_2 (pt 7)) fullShare ((dat1 V c).after 2 (pt 7)) from by
      unfold Dat.leavesExact; rw [liveAt1_2 (pt 7)], after1_2]
  rw [show (dat1 V c).leavesExact 3 (pt 7) = owns (c : Thread nD τ) (ms1_3 (pt 7)) fullShare ((dat1 V c).after 3 (pt 7)) from by
      unfold Dat.leavesExact; rw [liveAt1_3 (pt 7)], after1_3]
  rw [show (dat1 V c).leavesExact 4 (pt 7) = owns (c : Thread nD τ) (ms1_4 (pt 7)) fullShare ((dat1 V c).after 4 (pt 7)) from by
      unfold Dat.leavesExact; rw [liveAt1_4 (pt 7)], after1_4]
  rw [show (dat1 V c).leavesExact 5 (pt 7) = owns (c : Thread nD τ) (ms1_5 (pt 7)) fullShare ((dat1 V c).after 5 (pt 7)) from by
      unfold Dat.leavesExact; rw [liveAt1_5 (pt 7) rfl], after1_5]
  rw [blk1_1_const V c 7, blk1_2_const V c 7, blk1_3_const V c 7, blk1_4_const V c 7]
  rw [show blk1 V c 0 (pt 7) = aOf V c 7 from rfl]
  rw [show PhiS V c 7 = _ from PhiS_succ V c 6]; unfold rest0
  rw [show PhiS V c 8 = _ from PhiS_succ V c 7]; unfold rest0
  iintro ⟨⟨⟨⟨Ha, Hb, Hc, Hd⟩, ⟨%s7, H7, %hs7⟩, H8, ⟨%s9, H9, %hs9⟩⟩, Hg⟩, Ho, ⟨%d0, H0⟩, ⟨%d1, H1⟩, ⟨%d2, H2⟩, ⟨%d3, H3⟩, ⟨%d4, H4⟩, ⟨%d5, H5⟩⟩
  obtain ⟨R, hR⟩ : ∃ R, R = run7 c (grid1.coords (pt 7)) (ms1_0 (pt 7)) (hs1_0 (pt 7)) (ms1_1 (pt 7)) (hs1_1 (pt 7)) (ms1_2 (pt 7)) (hs1_2 (pt 7)) (ms1_3 (pt 7)) (hs1_3 (pt 7)) (ms1_4 (pt 7)) (hs1_4 (pt 7)) (ms1_5 (pt 7)) (hs1_5 (pt 7)) scM7 h7 scM8 h8 scM9 h9 (fun h => absurd ((hcond1 (pt 7)).mp h) (by decide)) ((hcond2 (pt 7)).mpr (by decide)) ((hcond3 (pt 7)).mpr (by decide)) ((hcond4 (pt 7)).mpr (by decide)) ((hcond5 (pt 7)).mpr (by decide)) ((hcond6 (pt 7)).mpr (by decide)) ((hcond7 (pt 7)).mpr (by decide)) ((hcond8 (pt 7)).mpr (by decide)) ((hcond9 (pt 7)).mpr (by decide)) ((hcond10 (pt 7)).mpr rfl) (aOf V c 7) (x2Of V c) (x3Of V c) (x4Of V c) (x5Of V c) s7 (pAt (aOf V c) (x2Of V c) (x3Of V c) (x4Of V c) 6) s9 := ⟨_, rfl⟩
  obtain ⟨e7, e8, e9, e6⟩ := run7_lists c (ms1_0 (pt 7)) (hs1_0 (pt 7)) (ms1_1 (pt 7)) (hs1_1 (pt 7)) (ms1_2 (pt 7)) (hs1_2 (pt 7)) (ms1_3 (pt 7)) (hs1_3 (pt 7)) (ms1_4 (pt 7)) (hs1_4 (pt 7)) (ms1_5 (pt 7)) (hs1_5 (pt 7)) (fun h => absurd ((hcond1 (pt 7)).mp h) (by decide)) ((hcond2 (pt 7)).mpr (by decide)) ((hcond3 (pt 7)).mpr (by decide)) ((hcond4 (pt 7)).mpr (by decide)) ((hcond5 (pt 7)).mpr (by decide)) ((hcond6 (pt 7)).mpr (by decide)) ((hcond7 (pt 7)).mpr (by decide)) ((hcond8 (pt 7)).mpr (by decide)) ((hcond9 (pt 7)).mpr (by decide)) ((hcond10 (pt 7)).mpr rfl) (aOf V c 7) (x2Of V c) (x3Of V c) (x4Of V c) (x5Of V c) s7 (pAt (aOf V c) (x2Of V c) (x3Of V c) (x4Of V c) 6) s9
  rw [← hR] at e7 e8 e9 e6
  have h7' : SlabInv (aOf V c) 7 (upd7 s7 R.2.1) := by
    rw [e7]; exact slab_step (aOf V c) 7 s7 (Or.inr hs7)
  have h8' : upd8 (pAt (aOf V c) (x2Of V c) (x3Of V c) (x4Of V c) 6) R.2.2.1 = pAt (aOf V c) (x2Of V c) (x3Of V c) (x4Of V c) 7 := by
    rw [e8]; exact (p_step_succ (aOf V c) (x2Of V c) (x3Of V c) (x4Of V c) 6)
  have h9' : AccInv (aOf V c) (x2Of V c) (x3Of V c) (x4Of V c) 7 (upd9 s9 R.2.2.2.1) := by
    rw [e9]; exact acc_step (aOf V c) (x2Of V c) (x3Of V c) (x4Of V c) 7 _ s9 (slab_step (aOf V c) 7 s7 (Or.inr hs7)) (Or.inr hs9)
  have hcov6 : ∀ y : S4096x64.Idx, ∃ pc ∈ R.1, y ∈ pc.1.set := by rw [e6]; exact L6c_cover _ _
  have h6' : View.canon R.1 = outModel (aOf V c) (x2Of V c) (x3Of V c) (x4Of V c) (x5Of V c) := by
    rw [e6]; exact out_of_acc_cov (aOf V c) (x2Of V c) (x3Of V c) (x4Of V c) (x5Of V c) s9 _ _ _ (acc_step (aOf V c) (x2Of V c) (x3Of V c) (x4Of V c) 7 _ s9 (slab_step (aOf V c) 7 s7 (Or.inr hs7)) (Or.inr hs9))
  clear e7 e8 e9 e6
  subst hR
  iapply ((run7 c (grid1.coords (pt 7)) (ms1_0 (pt 7)) (hs1_0 (pt 7)) (ms1_1 (pt 7)) (hs1_1 (pt 7)) (ms1_2 (pt 7)) (hs1_2 (pt 7)) (ms1_3 (pt 7)) (hs1_3 (pt 7)) (ms1_4 (pt 7)) (hs1_4 (pt 7)) (ms1_5 (pt 7)) (hs1_5 (pt 7)) scM7 h7 scM8 h8 scM9 h9 (fun h => absurd ((hcond1 (pt 7)).mp h) (by decide)) ((hcond2 (pt 7)).mpr (by decide)) ((hcond3 (pt 7)).mpr (by decide)) ((hcond4 (pt 7)).mpr (by decide)) ((hcond5 (pt 7)).mpr (by decide)) ((hcond6 (pt 7)).mpr (by decide)) ((hcond7 (pt 7)).mpr (by decide)) ((hcond8 (pt 7)).mpr (by decide)) ((hcond9 (pt 7)).mpr (by decide)) ((hcond10 (pt 7)).mpr rfl) (aOf V c 7) (x2Of V c) (x3Of V c) (x4Of V c) (x5Of V c) s7 (pAt (aOf V c) (x2Of V c) (x3Of V c) (x4Of V c) 6) s9).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H7]; · iexact H7
  isplitl [H8]; · iexact H8
  isplitl [H9]; · iexact H9
  iintro ⟨H0, H1, H2, H3, H4, ⟨%f6, H5⟩, H7, H8, H9⟩
  isplitl [Ha Hb Hc Hd H7 H8 H9 Hg]
  · isplitl [Ha Hb Hc Hd H7 H8 H9]
    · isplitl [Ha Hb Hc Hd]
      · isplitl [Ha]; · iexact Ha
        isplitl [Hb]; · iexact Hb
        isplitl [Hc]; · iexact Hc
        iexact Hd
      isplitl [H7]
      · iexists _; isplitl [H7]
        · iapply (owns_upd7 c _ _); iexact H7
        ipureintro; exact h7'
      isplitl [H8]
      · rw [← h8']
        iapply (owns_upd8 c _ _); iexact H8
      iexists _; isplitl [H9]
      · iapply (owns_upd9 c _ _); iexact H9
      ipureintro; exact h9'
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  rw [View.read_writes_eq_canon _ _ _ hcov6]
  exact h6'

end Cert.KernelIdeal.GcnKit

end
-- ==== Proof.GcnAllIdeal.lean ====
/-
  The body obligation of the streamed pass at every grid point: each point is one of the eight, and each of the eight has
  been met in its own module.
-/
import proofs.«150466_g82282983457293_cont_9to1_m_405_12_alg».proof.Proof.GcnBody0Ideal
import proofs.«150466_g82282983457293_cont_9to1_m_405_12_alg».proof.Proof.GcnBody1Ideal
import proofs.«150466_g82282983457293_cont_9to1_m_405_12_alg».proof.Proof.GcnBody2Ideal
import proofs.«150466_g82282983457293_cont_9to1_m_405_12_alg».proof.Proof.GcnBody3Ideal
import proofs.«150466_g82282983457293_cont_9to1_m_405_12_alg».proof.Proof.GcnBody4Ideal
import proofs.«150466_g82282983457293_cont_9to1_m_405_12_alg».proof.Proof.GcnBody5Ideal
import proofs.«150466_g82282983457293_cont_9to1_m_405_12_alg».proof.Proof.GcnBody6Ideal
import proofs.«150466_g82282983457293_cont_9to1_m_405_12_alg».proof.Proof.GcnBody7Ideal

set_option maxRecDepth 16384

noncomputable section

namespace Cert.KernelIdeal.GcnKit

open Cert.KernelIdeal Cert.KernelIdeal.Gen Cert.KernelIdeal.GcnModel Cert.KernelIdeal.GcnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body at any point: the point is one of the eight. -/
theorem sound_body1 (c : Dev nD) (t : Fin cfg1.N) :
    bodyPre1 V c t ⊢ wp frame (wpE (defs₀ (F := F)) Variants.none c none) Set.univ (bodyAt1 t) (fun _ => bodyPost1 V c t) := by
  rcases fin_N1 t with h | h | h | h | h | h | h | h <;> subst h
  · exact sound_pt0 V c
  · exact sound_pt1 V c
  · exact sound_pt2 V c
  · exact sound_pt3 V c
  · exact sound_pt4 V c
  · exact sound_pt5 V c
  · exact sound_pt6 V c
  · exact sound_pt7 V c

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.GcnKit

end
-- ==== Proof.PayLsm.lean ====
/-
  The kernel's final log-softmax, read at an index over the extended reals.

  Each of the eight 512-row blocks of the output is produced by the same chain of vector operations on the loaded
  accumulator block  a  (512×64) and the bias row  b  (1×64):
      L = a + (b repeated down the rows),    m_r = max over the 64 lanes of row r of L,    Z = L − m,
      s_r = Σ over the lanes of exp Z,       result = Z − log s.
  Read at row r and lane q this is  (L r q − sup_q' L r q') − log (Σ_q' exp (L r q' − sup_q' L r q')) : the lane maximum
  is the fold of  max  from −∞, which on the extended reals is the supremum of the 64 entries, and the lane sum of the
  exact exponentials is the finite sum.  That is the specification's log-softmax of the row.
-/
import proofs.«150466_g82282983457293_cont_9to1_m_405_12_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«150466_g82282983457293_cont_9to1_m_405_12_alg».proof.Proof.Spec

noncomputable section

namespace Cert.KernelIdeal.PayLsm

open Idealize.ShloMosaic Idealize.ShloMosaic.ValueIdx Cert.KernelIdeal Cert.KernelIdeal.Gen

/-! ## The keep-dimension forms read at an index -/

/-- An [a] array viewed as the column [a, 1] reads, at (i, u), the operand at i: both have row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b lanes reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions read at a row -/

/-- The source index over row r with lane k inserted is (r, k). -/
theorem lift_row (h : S512x64.Reduces [1] S512) (r : Fin 512) (k : Fin 64) : h.lift (ix1 r) k = ix2 r k := by
  funext c
  match c with
  | ⟨0, _⟩ => rfl
  | ⟨1, _⟩ => rfl

/-- The word 0xFF800000 is −∞, the bottom of the extended reals. -/
theorem ofBits_neg_inf : Ideal.ofBits .f32 0xFF800000#32 = (⊥ : EReal) := by
  simp [Ideal.ofBits, Ideal.ieee]

/-- The fold of max from the bottom element over all lanes is the supremum of the lanes. -/
theorem fold_max_bot_eq_sup (f : Fin 64 → EReal) (z : EReal) (hz : z = ⊥) :
    (Finset.univ : Finset (Fin 64)).fold max z f = Finset.univ.sup f := by
  subst hz; rfl

/-- The lane maximum of row r: the supremum of the row's 64 entries. -/
theorem rowMax_apply (L : FVec Ideal S512x64 .f32) (h : S512x64.Reduces [1] S512) (hφ : FKind.Formats .f32)
    (hacc : (0xFF800000#32 : BitVec 32) = FKind.maximumf.neutral .f32 hφ) (r : Fin 512) :
    multiReduction .maximumf [1] S512 L 0xFF800000#32 h hφ hacc (ix1 r) = Finset.univ.sup fun q' : Fin 64 => L (ix2 r q') := by
  refine (Ideal.multiReduction_maximumf_single L 0xFF800000#32 h hφ hacc (ix1 r)).trans ?_
  exact (fold_max_bot_eq_sup (fun k => L (h.lift (ix1 r) k)) _ ofBits_neg_inf).trans
    (congrArg _ (funext fun k => congrArg L (lift_row h r k)))

/-- The lane sum of row r: the sum of the row's 64 entries. -/
theorem rowSum_apply (E : FVec Ideal S512x64 .f32) (h : S512x64.Reduces [1] S512) (hφ : FKind.Formats .f32)
    (hacc : (0x00000000#32 : BitVec 32) = FKind.add.neutral .f32 hφ) (r : Fin 512) :
    multiReduction .add [1] S512 E 0x00000000#32 h hφ hacc (ix1 r) = ∑ q' : Fin 64, E (ix2 r q') := by
  refine (Ideal.multiReduction_add_single E 0x00000000#32 h hφ hacc (ix1 r)).trans ?_
  exact Finset.sum_congr rfl fun k _ => congrArg E (lift_row h r k)

/-! ## The common chain -/

/-- A per-row quantity, kept as a column and repeated along the 64 lanes, reads the row's value at every lane. -/
theorem keepdims_apply (m : FVec Ideal S512 .f32) (h1 : S512.ShapeCasts S512x1) (h2 : S512x1.Broadcasts S512x64)
    (r : Fin 512) (q : Fin 64) :
    broadcastTo S512x64 (shapeCast S512x1 m h1) h2 (ix2 r q) = m (ix1 r) :=
  (broadcastTo_a1_ab_apply _ h2 r q).trans (shapeCast_a_a1_apply m h1 r 0)

/-- The same with the logarithm taken on the column. -/
theorem keepdims_log_apply (m : FVec Ideal S512 .f32) (h1 : S512.ShapeCasts S512x1) (h2 : S512x1.Broadcasts S512x64)
    (r : Fin 512) (q : Fin 64) :
    broadcastTo S512x64 (log (shapeCast S512x1 m h1)) h2 (ix2 r q) = Ideal.log (m (ix1 r)) :=
  (broadcastTo_a1_ab_apply _ h2 r q).trans (congrArg Ideal.log (shapeCast_a_a1_apply m h1 r 0))

/-- The logits of a block: the accumulator plus the bias row repeated down the rows. -/
def logitsV (a : Vec Ideal S512x64 .f32) (b : Vec Ideal S1x64 .f32) : FVec Ideal S512x64 .f32 :=
  addf a (broadcastTo S512x64 (shapeCast S1x64 b shapeCasts_S1x64_S1x64) broadcasts_S1x64_S512x64)

/-- The logits less their row maximum. -/
def centred (L : FVec Ideal S512x64 .f32) : FVec Ideal S512x64 .f32 :=
  subf L (broadcastTo S512x64 (shapeCast S512x1
    (multiReduction .maximumf [1] S512 L 0xFF800000#32 reduces_S512x64_S512 (.inl rfl) rfl) shapeCasts_S512_S512x1)
    broadcasts_S512x1_S512x64)

/-- The logarithm of the row sums of the exponentials, repeated along the lanes. -/
def logSum (Z : FVec Ideal S512x64 .f32) : FVec Ideal S512x64 .f32 :=
  broadcastTo S512x64 (log (shapeCast S512x1
    (multiReduction .add [1] S512 (exp Z) 0x00000000#32 reduces_S512x64_S512 (.inl rfl) rfl) shapeCasts_S512_S512x1))
    broadcasts_S512x1_S512x64

/-- The whole chain on a block. -/
def chain (a : Vec Ideal S512x64 .f32) (b : Vec Ideal S1x64 .f32) : FVec Ideal S512x64 .f32 :=
  subf (centred (logitsV a b)) (logSum (centred (logitsV a b)))

/-- The logits at (r, q). -/
theorem logitsV_apply (a : Vec Ideal S512x64 .f32) (b : Vec Ideal S1x64 .f32) (r : Fin 512) (q : Fin 64) :
    logitsV a b (ix2 r q) = a (ix2 r q) + b (ix2 0 q) := by
  unfold logitsV
  rw [shapeCast_self]
  exact congrArg (a (ix2 r q) + ·) (broadcastTo_1b_ab_apply b broadcasts_S1x64_S512x64 r q)

/-- The centred logits at (r, q). -/
theorem centred_apply (L : FVec Ideal S512x64 .f32) (r : Fin 512) (q : Fin 64) :
    centred L (ix2 r q) = L (ix2 r q) - Finset.univ.sup fun q' : Fin 64 => L (ix2 r q') := by
  unfold centred
  exact congrArg (L (ix2 r q) - ·) ((keepdims_apply _ _ _ r q).trans (rowMax_apply L _ _ _ r))

/-- The logarithm of the row sum at (r, q). -/
theorem logSum_apply (Z : FVec Ideal S512x64 .f32) (r : Fin 512) (q : Fin 64) :
    logSum Z (ix2 r q) = Ideal.log (∑ q' : Fin 64, Ideal.exp (Z (ix2 r q'))) := by
  unfold logSum
  exact (keepdims_log_apply _ _ _ r q).trans (congrArg Ideal.log (rowSum_apply (exp Z) _ _ _ r))

/-- The block's log-softmax as a function of row and lane. -/
def lsmBlock (a : Vec Ideal S512x64 .f32) (b : Vec Ideal S1x64 .f32) : Fin 512 → Fin 64 → EReal := fun r q =>
  let L : Fin 64 → EReal := fun q' => a (ix2 r q') + b (ix2 0 q')
  (L q - Finset.univ.sup L) - Ideal.log (∑ q' : Fin 64, Ideal.exp (L q' - Finset.univ.sup L))

/-- The chain read at (r, q) is the block's log-softmax. -/
theorem chain_apply (a : Vec Ideal S512x64 .f32) (b : Vec Ideal S1x64 .f32) (r : Fin 512) (q : Fin 64) :
    chain a b (ix2 r q) = lsmBlock a b r q := by
  have hL : (fun q' : Fin 64 => logitsV a b (ix2 r q')) = fun q' => a (ix2 r q') + b (ix2 0 q') :=
    funext fun q' => logitsV_apply a b r q'
  have hZ : ∀ q' : Fin 64, centred (logitsV a b) (ix2 r q')
      = (a (ix2 r q') + b (ix2 0 q')) - Finset.univ.sup fun q'' : Fin 64 => a (ix2 r q'') + b (ix2 0 q'') := fun q' => by
    rw [centred_apply, hL, logitsV_apply]
  show centred (logitsV a b) (ix2 r q) - logSum (centred (logitsV a b)) (ix2 r q) = _
  rw [logSum_apply, hZ q]
  simp only [hZ]
  rfl

/-! ## The eight blocks' payloads -/

/-- Block 0. -/
theorem k1_pay3_apply (a : Vec Ideal S512x64 .f32) (b : Vec Ideal S1x64 .f32) (r : Fin 512) (q : Fin 64) :
    k1_pay3 (F := Ideal) a b (ix2 r q) = lsmBlock a b r q :=
  (congrFun (show k1_pay3 (F := Ideal) a b = chain a b from rfl) (ix2 r q)).trans (chain_apply a b r q)

/-- Block 1. -/
theorem k1_pay4_apply (a : Vec Ideal S512x64 .f32) (b : Vec Ideal S1x64 .f32) (r : Fin 512) (q : Fin 64) :
    k1_pay4 (F := Ideal) a b (ix2 r q) = lsmBlock a b r q :=
  (congrFun (show k1_pay4 (F := Ideal) a b = chain a b from rfl) (ix2 r q)).trans (chain_apply a b r q)

/-- Block 2: the logits are formed by one payload and the rest of the chain by the next. -/
theorem k1_pay6_apply (a : Vec Ideal S512x64 .f32) (b : Vec Ideal S1x64 .f32) (r : Fin 512) (q : Fin 64) :
    k1_pay6 (F := Ideal) (k1_pay5 a b) (ix2 r q) = lsmBlock a b r q :=
  (congrFun (show k1_pay6 (F := Ideal) (k1_pay5 a b) = chain a b from rfl) (ix2 r q)).trans (chain_apply a b r q)

/-- Block 3. -/
theorem k1_pay7_apply (a : Vec Ideal S512x64 .f32) (b : Vec Ideal S1x64 .f32) (r : Fin 512) (q : Fin 64) :
    k1_pay7 (F := Ideal) a b (ix2 r q) = lsmBlock a b r q :=
  (congrFun (show k1_pay7 (F := Ideal) a b = chain a b from rfl) (ix2 r q)).trans (chain_apply a b r q)

/-- Block 4: the centred logits and the logarithm of the row sums are two payloads, subtracted by a third. -/
theorem k1_pay10_apply (a : Vec Ideal S512x64 .f32) (b : Vec Ideal S1x64 .f32) (r : Fin 512) (q : Fin 64) :
    k1_pay10 (F := Ideal) (k1_pay8 a b) (k1_pay9 a b) (ix2 r q) = lsmBlock a b r q :=
  (congrFun (show k1_pay10 (F := Ideal) (k1_pay8 a b) (k1_pay9 a b) = chain a b from rfl) (ix2 r q)).trans
    (chain_apply a b r q)

/-- Block 5. -/
theorem k1_pay11_apply (a : Vec Ideal S512x64 .f32) (b : Vec Ideal S1x64 .f32) (r : Fin 512) (q : Fin 64) :
    k1_pay11 (F := Ideal) a b (ix2 r q) = lsmBlock a b r q :=
  (congrFun (show k1_pay11 (F := Ideal) a b = chain a b from rfl) (ix2 r q)).trans (chain_apply a b r q)

/-- Block 6. -/
theorem k1_pay12_apply (a : Vec Ideal S512x64 .f32) (b : Vec Ideal S1x64 .f32) (r : Fin 512) (q : Fin 64) :
    k1_pay12 (F := Ideal) a b (ix2 r q) = lsmBlock a b r q :=
  (congrFun (show k1_pay12 (F := Ideal) a b = chain a b from rfl) (ix2 r q)).trans (chain_apply a b r q)

/-- Block 7. -/
theorem k1_pay2_apply (a : Vec Ideal S512x64 .f32) (b : Vec Ideal S1x64 .f32) (r : Fin 512) (q : Fin 64) :
    k1_pay2 (F := Ideal) a b (ix2 r q) = lsmBlock a b r q :=
  (congrFun (show k1_pay2 (F := Ideal) a b = chain a b from rfl) (ix2 r q)).trans (chain_apply a b r q)

/-! ## The bridge to the specification -/

/-- When the block's logits are rows  blk · 512 + r  of a 4096×64 matrix, the block's log-softmax is the
    specification's log-softmax of that matrix on those rows: the row maximum is the same supremum. -/
theorem lsmBlock_eq (Lg : Cert.Gcn.Mat 4096 64) (blk : Fin 8) (a : Vec Ideal S512x64 .f32) (b : Vec Ideal S1x64 .f32)
    (h : ∀ (r : Fin 512) (q : Fin 64), a (ix2 r q) + b (ix2 0 q) = Lg ⟨blk.val * 512 + r.val, by omega⟩ q)
    (r : Fin 512) (q : Fin 64) :
    lsmBlock a b r q = Cert.Gcn.logSoftmax Lg ⟨blk.val * 512 + r.val, by omega⟩ q := by
  have hL : (fun q' : Fin 64 => a (ix2 r q') + b (ix2 0 q')) = Lg ⟨blk.val * 512 + r.val, by omega⟩ :=
    funext fun q' => h r q'
  unfold lsmBlock Cert.Gcn.logSoftmax Cert.Gcn.rowMax
  simp only [hL, h]

end Cert.KernelIdeal.PayLsm

end
-- ==== Proof.GcnValueIdeal.lean ====
/-
  The value of the streamed pass over the extended reals.

  The adjacency is cut into eight row blocks of 512 rows and, along its columns, into eight slabs of 512 columns.
  Write  P  for the projected hidden rows,  P[k, q] = Σ_j max (Σ_i adj[k, i] · T[i, j] + c_j) 0 · W[j, q] , and, for a
  row n and a number m of column slabs,  part n q m = Σ_k adj[n, k] · (P[k, q] if k < 512 m, else 0)  — the product of
  row n with P cut off after m slabs.  Then
    • after point m the projection buffer holds P in its first 512 (m + 1) rows and zero below;
    • the fresh product of point m is  part · m  on the rows of block m (the rows of P not yet stored are zero, and
      a · 0 = 0  for every extended real a);
    • each accumulation adds one slab:  part · (m + 1) = part · m + Σ_l adj[n, 512 m + l] · P[512 m + l, q] ;
    • so after point 7 the accumulator's rows of every block hold  part · 8 = Σ_k adj[n, k] · P[k, q] , and the output
      block is the log-softmax of that plus the bias row.
  Only commutativity and associativity of the sum of extended reals are used, and  a · 0 = 0 .
-/
import proofs.«150466_g82282983457293_cont_9to1_m_405_12_alg».proof.Proof.GcnInvIdeal
import proofs.«150466_g82282983457293_cont_9to1_m_405_12_alg».proof.Proof.PayMat
import proofs.«150466_g82282983457293_cont_9to1_m_405_12_alg».proof.Proof.PayLsm
import proofs.«150466_g82282983457293_cont_9to1_m_405_12_alg».proof.Proof.SpecLaws
import Idealize.ShloMosaic.Lib.WritesUnit
import Idealize.ShloMosaic.Lib.Pipeline.Value
import Idealize.ShloMosaic.Lib.ValueIdx

noncomputable section

namespace Cert.KernelIdeal.GcnValue

open Cert.KernelIdeal Cert.KernelIdeal.Gen Cert.KernelIdeal.GcnModel
open Idealize.ShloMosaic Idealize.ShloMosaic.ValueIdx

/-! ## Loads through the rectangles of the model -/

theorem zeros2 : (![0, 0] : Fin 2 → ℕ) = fun _ => 0 := funext fun a => by
  match a with
  | ⟨0, _⟩ => rfl
  | ⟨1, _⟩ => rfl

theorem ld_rA (X : Vec Ideal S512x4096 .f32) : View.ld X rA = X := View.ld_unit_zero zeros2 _ X
theorem ld_rT (X : Vec Ideal S4096x32 .bf16) : View.ld X rT = X := View.ld_unit_zero zeros2 _ X
theorem ld_rC (X : Vec Ideal S1x32 .f32) : View.ld X rC = X := View.ld_unit_zero zeros2 _ X
theorem ld_rWa (X : Vec Ideal S32x64 .bf16) : View.ld X rWa = X := View.ld_unit_zero zeros2 _ X
theorem ld_rBa (X : Vec Ideal S1x64 .f32) : View.ld X rBa = X := View.ld_unit_zero zeros2 _ X
theorem ld_wholeR {e : EltTy} (X : Vec Ideal S4096x64 e) : View.ld X wholeR = X := View.ld_unit_zero zeros2 _ X

/-- Row r, column q of row block b is row 512 b + r of the whole buffer. -/
theorem rowsR_emb (b : Fin 8) (r : Fin 512) (q : Fin 64) (k : Fin 4096) (hk : k.val = b.val * 512 + r.val) :
    (rowsR b).emb (ix2 r q) = ix2 k q := funext fun a => Fin.ext (by
  match a with
  | ⟨0, _⟩ => show b.val * 512 + 1 * r.val = k.val; omega
  | ⟨1, _⟩ => show 0 + 1 * q.val = q.val; omega)

theorem ld_rowsR {e : EltTy} (X : Vec Ideal S4096x64 e) (b : Fin 8) (r : Fin 512) (q : Fin 64) (k : Fin 4096)
    (hk : k.val = b.val * 512 + r.val) : View.ld X (rowsR b) (ix2 r q) = X (ix2 k q) :=
  congrArg X (rowsR_emb b r q k hk)

/-! ## The model's per-point functions read at an index -/

theorem slabOf_0 (x1 : Vec Ideal S512x4096 .f32) (r l : Fin 512) (c : Fin 4096) (hc : c.val = 0 * 512 + l.val) :
    slabOf 0 x1 (ix3 0 r l) = x1 (ix2 r c) := by
  show k1_pay15 (View.ld x1 rA) (ix3 0 r l) = x1 (ix2 r c)
  rw [ld_rA, PayMat.k1_pay15_apply]
  exact congrArg (fun c' => x1 (ix2 r c')) (Fin.ext hc.symm)
theorem slabOf_1 (x1 : Vec Ideal S512x4096 .f32) (r l : Fin 512) (c : Fin 4096) (hc : c.val = 1 * 512 + l.val) :
    slabOf 1 x1 (ix3 0 r l) = x1 (ix2 r c) := by
  show k1_pay16 (View.ld x1 rA) (ix3 0 r l) = x1 (ix2 r c)
  rw [ld_rA, PayMat.k1_pay16_apply]
  exact congrArg (fun c' => x1 (ix2 r c')) (Fin.ext hc.symm)
theorem slabOf_2 (x1 : Vec Ideal S512x4096 .f32) (r l : Fin 512) (c : Fin 4096) (hc : c.val = 2 * 512 + l.val) :
    slabOf 2 x1 (ix3 0 r l) = x1 (ix2 r c) := by
  show k1_pay17 (View.ld x1 rA) (ix3 0 r l) = x1 (ix2 r c)
  rw [ld_rA, PayMat.k1_pay17_apply]
  exact congrArg (fun c' => x1 (ix2 r c')) (Fin.ext hc.symm)
theorem slabOf_3 (x1 : Vec Ideal S512x4096 .f32) (r l : Fin 512) (c : Fin 4096) (hc : c.val = 3 * 512 + l.val) :
    slabOf 3 x1 (ix3 0 r l) = x1 (ix2 r c) := by
  show k1_pay18 (View.ld x1 rA) (ix3 0 r l) = x1 (ix2 r c)
  rw [ld_rA, PayMat.k1_pay18_apply]
  exact congrArg (fun c' => x1 (ix2 r c')) (Fin.ext hc.symm)
theorem slabOf_4 (x1 : Vec Ideal S512x4096 .f32) (r l : Fin 512) (c : Fin 4096) (hc : c.val = 4 * 512 + l.val) :
    slabOf 4 x1 (ix3 0 r l) = x1 (ix2 r c) := by
  show k1_pay19 (View.ld x1 rA) (ix3 0 r l) = x1 (ix2 r c)
  rw [ld_rA, PayMat.k1_pay19_apply]
  exact congrArg (fun c' => x1 (ix2 r c')) (Fin.ext hc.symm)
theorem slabOf_5 (x1 : Vec Ideal S512x4096 .f32) (r l : Fin 512) (c : Fin 4096) (hc : c.val = 5 * 512 + l.val) :
    slabOf 5 x1 (ix3 0 r l) = x1 (ix2 r c) := by
  show k1_pay20 (k1_pay14 (View.ld x1 rA)) (ix3 0 r l) = x1 (ix2 r c)
  rw [ld_rA, PayMat.k1_pay14_eq, PayMat.k1_pay20_apply]
  exact congrArg (fun c' => x1 (ix2 r c')) (Fin.ext hc.symm)
theorem slabOf_6 (x1 : Vec Ideal S512x4096 .f32) (r l : Fin 512) (c : Fin 4096) (hc : c.val = 6 * 512 + l.val) :
    slabOf 6 x1 (ix3 0 r l) = x1 (ix2 r c) := by
  show k1_pay21 (k1_pay14 (View.ld x1 rA)) (ix3 0 r l) = x1 (ix2 r c)
  rw [ld_rA, PayMat.k1_pay14_eq, PayMat.k1_pay21_apply]
  exact congrArg (fun c' => x1 (ix2 r c')) (Fin.ext hc.symm)
theorem slabOf_7 (x1 : Vec Ideal S512x4096 .f32) (r l : Fin 512) (c : Fin 4096) (hc : c.val = 7 * 512 + l.val) :
    slabOf 7 x1 (ix3 0 r l) = x1 (ix2 r c) := by
  show k1_pay22 (k1_pay14 (View.ld x1 rA)) (ix3 0 r l) = x1 (ix2 r c)
  rw [ld_rA, PayMat.k1_pay14_eq, PayMat.k1_pay22_apply]
  exact congrArg (fun c' => x1 (ix2 r c')) (Fin.ext hc.symm)

/-- Column slab k of a row block reads column 512 k + l. -/
theorem slabOf_apply (k : Fin 8) (x1 : Vec Ideal S512x4096 .f32) (r l : Fin 512) (c : Fin 4096)
    (hc : c.val = k.val * 512 + l.val) : slabOf k x1 (ix3 0 r l) = x1 (ix2 r c) := by
  obtain ⟨kv, hk⟩ := k
  have hc' : c.val = kv * 512 + l.val := hc
  clear hc
  interval_cases kv
  · exact slabOf_0 x1 r l c hc'
  · exact slabOf_1 x1 r l c hc'
  · exact slabOf_2 x1 r l c hc'
  · exact slabOf_3 x1 r l c hc'
  · exact slabOf_4 x1 r l c hc'
  · exact slabOf_5 x1 r l c hc'
  · exact slabOf_6 x1 r l c hc'
  · exact slabOf_7 x1 r l c hc'

/-- One accumulation adds the slab's product to the running block. -/
theorem accOf_apply (b : Fin 8) (p : FVec Ideal S512x64 .bf16) (s : Vec Ideal S1x512x512 .bf16) (acc : Vec Ideal S512x64 .f32)
    (r : Fin 512) (q : Fin 64) :
    accOf b p s acc (ix2 r q) = acc (ix2 r q) + ∑ l : Fin 512, s (ix3 0 r l) * p (ix2 l q) := by
  obtain ⟨bv, hb⟩ := b
  interval_cases bv
  · exact PayMat.k1_pay27_apply p s acc r q
  · exact PayMat.k1_pay28_apply p s acc r q
  · exact PayMat.k1_pay29_apply p s acc r q
  · exact PayMat.k1_pay30_apply p s acc r q
  · exact PayMat.k1_pay31_apply p s acc r q
  · exact PayMat.k1_pay32_apply p s acc r q
  · exact PayMat.k1_pay33_apply p s acc r q
  · exact PayMat.k1_pay1_apply p s acc r q

theorem lsmOf_0 (acc : Vec Ideal S512x64 .f32) (x5 : Vec Ideal S1x64 .f32) (r : Fin 512) (q : Fin 64) :
    lsmOf 0 acc x5 (ix2 r q) = PayLsm.lsmBlock acc x5 r q := by
  show k1_pay3 acc (View.ld x5 rBa) (ix2 r q) = PayLsm.lsmBlock acc x5 r q
  rw [ld_rBa]
  exact PayLsm.k1_pay3_apply acc x5 r q
theorem lsmOf_1 (acc : Vec Ideal S512x64 .f32) (x5 : Vec Ideal S1x64 .f32) (r : Fin 512) (q : Fin 64) :
    lsmOf 1 acc x5 (ix2 r q) = PayLsm.lsmBlock acc x5 r q := by
  show k1_pay4 acc (View.ld x5 rBa) (ix2 r q) = PayLsm.lsmBlock acc x5 r q
  rw [ld_rBa]
  exact PayLsm.k1_pay4_apply acc x5 r q
theorem lsmOf_2 (acc : Vec Ideal S512x64 .f32) (x5 : Vec Ideal S1x64 .f32) (r : Fin 512) (q : Fin 64) :
    lsmOf 2 acc x5 (ix2 r q) = PayLsm.lsmBlock acc x5 r q := by
  show k1_pay6 (k1_pay5 acc (View.ld x5 rBa)) (ix2 r q) = PayLsm.lsmBlock acc x5 r q
  rw [ld_rBa]
  exact PayLsm.k1_pay6_apply acc x5 r q
theorem lsmOf_3 (acc : Vec Ideal S512x64 .f32) (x5 : Vec Ideal S1x64 .f32) (r : Fin 512) (q : Fin 64) :
    lsmOf 3 acc x5 (ix2 r q) = PayLsm.lsmBlock acc x5 r q := by
  show k1_pay7 acc (View.ld x5 rBa) (ix2 r q) = PayLsm.lsmBlock acc x5 r q
  rw [ld_rBa]
  exact PayLsm.k1_pay7_apply acc x5 r q
theorem lsmOf_4 (acc : Vec Ideal S512x64 .f32) (x5 : Vec Ideal S1x64 .f32) (r : Fin 512) (q : Fin 64) :
    lsmOf 4 acc x5 (ix2 r q) = PayLsm.lsmBlock acc x5 r q := by
  show k1_pay10 (k1_pay8 acc (View.ld x5 rBa)) (k1_pay9 acc (View.ld x5 rBa)) (ix2 r q) = PayLsm.lsmBlock acc x5 r q
  rw [ld_rBa]
  exact PayLsm.k1_pay10_apply acc x5 r q
theorem lsmOf_5 (acc : Vec Ideal S512x64 .f32) (x5 : Vec Ideal S1x64 .f32) (r : Fin 512) (q : Fin 64) :
    lsmOf 5 acc x5 (ix2 r q) = PayLsm.lsmBlock acc x5 r q := by
  show k1_pay11 acc (View.ld x5 rBa) (ix2 r q) = PayLsm.lsmBlock acc x5 r q
  rw [ld_rBa]
  exact PayLsm.k1_pay11_apply acc x5 r q
theorem lsmOf_6 (acc : Vec Ideal S512x64 .f32) (x5 : Vec Ideal S1x64 .f32) (r : Fin 512) (q : Fin 64) :
    lsmOf 6 acc x5 (ix2 r q) = PayLsm.lsmBlock acc x5 r q := by
  show k1_pay12 acc (View.ld x5 rBa) (ix2 r q) = PayLsm.lsmBlock acc x5 r q
  rw [ld_rBa]
  exact PayLsm.k1_pay12_apply acc x5 r q
theorem lsmOf_7 (acc : Vec Ideal S512x64 .f32) (x5 : Vec Ideal S1x64 .f32) (r : Fin 512) (q : Fin 64) :
    lsmOf 7 acc x5 (ix2 r q) = PayLsm.lsmBlock acc x5 r q := by
  show k1_pay2 acc (View.ld x5 rBa) (ix2 r q) = PayLsm.lsmBlock acc x5 r q
  rw [ld_rBa]
  exact PayLsm.k1_pay2_apply acc x5 r q

/-- The epilogue on a row block is the block's log-softmax. -/
theorem lsmOf_apply (b : Fin 8) (acc : Vec Ideal S512x64 .f32) (x5 : Vec Ideal S1x64 .f32) (r : Fin 512) (q : Fin 64) :
    lsmOf b acc x5 (ix2 r q) = PayLsm.lsmBlock acc x5 r q := by
  obtain ⟨bv, hb⟩ := b
  interval_cases bv
  · exact lsmOf_0 acc x5 r q
  · exact lsmOf_1 acc x5 r q
  · exact lsmOf_2 acc x5 r q
  · exact lsmOf_3 acc x5 r q
  · exact lsmOf_4 acc x5 r q
  · exact lsmOf_5 acc x5 r q
  · exact lsmOf_6 acc x5 r q
  · exact lsmOf_7 acc x5 r q

/-- The projection of a row block's hidden rows. -/
theorem projOf_apply (x1 : Vec Ideal S512x4096 .f32) (x2 : Vec Ideal S4096x32 .bf16) (x3 : Vec Ideal S1x32 .f32)
    (x4 : Vec Ideal S32x64 .bf16) (r : Fin 512) (q : Fin 64) :
    projOf x1 x2 x3 x4 (ix2 r q)
      = ∑ j : Fin 32, max ((∑ k : Fin 4096, x1 (ix2 r k) * x2 (ix2 k j)) + x3 (ix2 0 j)) 0 * x4 (ix2 j q) := by
  unfold projOf
  rw [ld_rA, ld_rT, ld_rC, ld_rWa, PayMat.k1_pay14_eq]
  exact PayMat.k1_pay23_apply x1 x2 x3 x4 r q

/-- The fresh product of a row block with the projection buffer. -/
theorem freshOf_apply (x1 : Vec Ideal S512x4096 .f32) (P : Vec Ideal S4096x64 .bf16) (r : Fin 512) (q : Fin 64) :
    freshOf x1 P (ix2 r q) = ∑ k : Fin 4096, x1 (ix2 r k) * P (ix2 k q) := by
  unfold freshOf
  rw [ld_rA, PayMat.k1_pay25_eq, PayMat.k1_pay14_eq]
  exact PayMat.k1_pay24_apply x1 P r q

/-! ## A row block stored into a 4096 × 64 buffer -/

/-- Under the newest piece, a row block, the canon is the piece's payload; -/
theorem canon_rows_mem {e : EltTy} (b : Fin 8) (w : Vec Ideal S512x64 e) (L : List (View.Piece (Elt Ideal) S4096x64 e))
    (r : Fin 512) (q : Fin 64) (k : Fin 4096) (hk : k.val = b.val * 512 + r.val) :
    View.canon (⟨rowsR b, w⟩ :: L) (ix2 k q) = w (ix2 r q) := by
  rw [← rowsR_emb b r q k hk]
  exact View.canon_cons_emb (rowsR b) w L (ix2 r q)

/-- off its rows, the canon of the earlier pieces. -/
theorem canon_rows_not_mem {e : EltTy} (b : Fin 8) (w : Vec Ideal S512x64 e) (L : List (View.Piece (Elt Ideal) S4096x64 e))
    (k : Fin 4096) (q : Fin 64) (hk : k.val < b.val * 512 ∨ b.val * 512 + 512 ≤ k.val) :
    View.canon (⟨rowsR b, w⟩ :: L) (ix2 k q) = View.canon L (ix2 k q) :=
  View.canon_cons_of_not_mem _ L (by
    rw [Rect.mem_set_unit]
    intro hall
    have h0 : b.val * 512 ≤ k.val ∧ k.val < b.val * 512 + 512 := hall 0
    omega)

/-- The projection buffer after one row block is stored: the block's rows read the payload, -/
theorem upd8_rows_mem (xs : Vec Ideal S4096x64 .bf16) (b : Fin 8) (w : FVec Ideal S512x64 .bf16)
    (r : Fin 512) (q : Fin 64) (k : Fin 4096) (hk : k.val = b.val * 512 + r.val) :
    upd8 xs [⟨rowsR b, w⟩] (ix2 k q) = w (ix2 r q) := by
  unfold upd8
  exact View.read_writes_cons_rows_of_mem (Val := Elt Ideal) scM8.view (h8.unread xs) (rows_inb b) w [] (ix2 k q) (ix2 r q)
    rfl hk rfl

/-- the other rows what was there. -/
theorem upd8_rows_not_mem (xs : Vec Ideal S4096x64 .bf16) (b : Fin 8) (w : FVec Ideal S512x64 .bf16)
    (k : Fin 4096) (q : Fin 64) (hk : k.val < b.val * 512 ∨ b.val * 512 + 512 ≤ k.val) :
    upd8 xs [⟨rowsR b, w⟩] (ix2 k q) = xs (ix2 k q) := by
  unfold upd8
  refine (View.read_writes_cons_rows_of_not_mem (Val := Elt Ideal) scM8.view (h8.unread xs) (rows_inb b) w []
    (ix2 k q) rfl rfl hk).trans ?_
  rw [View.writes_nil, h8.read_unread]

/-- The projection buffer's stores at the first point: the zero fill, then the block's rows; -/
theorem L8_zero (p : FVec Ideal S512x64 .bf16) :
    L8 (F := Ideal) (0 : Fin 8) p = [⟨rowsR 0, k1_pay26 p⟩, ⟨wholeR, k1_pay13 (F := Ideal)⟩] := by
  unfold L8
  exact if_pos rfl

/-- at a later point: the block's rows alone. -/
theorem L8_pos (j : Fin 8) (hj : j.val ≠ 0) (p : FVec Ideal S512x64 .bf16) :
    L8 (F := Ideal) j p = [⟨rowsR j, k1_pay26 p⟩] := by
  unfold L8
  exact if_neg hj

/-! ## Arithmetic of the 512-row blocks -/

theorem lt_next_block {k m : ℕ} (h : k < m * 512) : k < (m + 1) * 512 := by omega
theorem sub_block_lt {k m : ℕ} (h1 : ¬ k < m * 512) (h2 : k < (m + 1) * 512) : k - m * 512 < 512 := by omega
theorem eq_block_add_sub {k m : ℕ} (h1 : ¬ k < m * 512) : k = m * 512 + (k - m * 512) := by omega
theorem block_end_le {k m : ℕ} (h2 : ¬ k < (m + 1) * 512) : m * 512 + 512 ≤ k := by omega

/-! ## The projected hidden rows -/

section Value

variable (adj : Cert.Gcn.Mat 4096 4096) (T : Cert.Gcn.Mat 4096 32) (cv : Fin 32 → EReal) (Wc : Cert.Gcn.Mat 32 64)
  (bv : Fin 64 → EReal)

/-- P: the hidden rows (propagate T, add the offset row, clip at zero) times the joined head weights. -/
def Pm : Cert.Gcn.Mat 4096 64 :=
  fun k q => ∑ j : Fin 32, max ((∑ i : Fin 4096, adj k i * T i j) + cv j) 0 * Wc j q

/-- The second propagation plus the bias row. -/
def Lg : Cert.Gcn.Mat 4096 64 := fun n q => (∑ k : Fin 4096, adj n k * Pm adj T cv Wc k q) + bv q

/-- The rows of block i of the projection are rows 512 i … of P. -/
theorem pj_apply (a : Fin 8 → Vec Ideal S512x4096 .f32) (x2 : Vec Ideal S4096x32 .bf16) (x3 : Vec Ideal S1x32 .f32)
    (x4 : Vec Ideal S32x64 .bf16)
    (ha : ∀ (i : Fin 8) (r : Fin 512) (k : Fin 4096), a i (ix2 r k) = adj ⟨i.val * 512 + r.val, by omega⟩ k)
    (h2 : ∀ k j, x2 (ix2 k j) = T k j) (h3 : ∀ j, x3 (ix2 0 j) = cv j) (h4 : ∀ j q, x4 (ix2 j q) = Wc j q)
    (i : Fin 8) (r : Fin 512) (q : Fin 64) (k : Fin 4096) (hk : k.val = i.val * 512 + r.val) :
    pj a x2 x3 x4 i (ix2 r q) = Pm adj T cv Wc k q := by
  unfold pj
  rw [projOf_apply]
  have hk' : (⟨i.val * 512 + r.val, by omega⟩ : Fin 4096) = k := Fin.ext hk.symm
  unfold Pm
  refine Finset.sum_congr rfl fun j _ => ?_
  rw [h3 j, h4 j q]
  refine congrArg (fun t => max (t + cv j) 0 * Wc j q) ?_
  refine Finset.sum_congr rfl fun c _ => ?_
  rw [ha i r c, h2 c j, hk']

/-- After point n the projection buffer holds P in its first 512 (n + 1) rows and zero below. -/
theorem pAt_apply (a : Fin 8 → Vec Ideal S512x4096 .f32) (x2 : Vec Ideal S4096x32 .bf16) (x3 : Vec Ideal S1x32 .f32)
    (x4 : Vec Ideal S32x64 .bf16)
    (ha : ∀ (i : Fin 8) (r : Fin 512) (k : Fin 4096), a i (ix2 r k) = adj ⟨i.val * 512 + r.val, by omega⟩ k)
    (h2 : ∀ k j, x2 (ix2 k j) = T k j) (h3 : ∀ j, x3 (ix2 0 j) = cv j) (h4 : ∀ j q, x4 (ix2 j q) = Wc j q)
    (n : ℕ) (hn : n < 8) (k : Fin 4096) (q : Fin 64) :
    pAt a x2 x3 x4 n (ix2 k q) = if k.val < (n + 1) * 512 then Pm adj T cv Wc k q else 0 := by
  induction n with
  | zero =>
    show View.canon (L8 (0 : Fin 8) (pj a x2 x3 x4 0)) (ix2 k q) = _
    rw [L8_zero]
    by_cases hk : k.val < 512
    · rw [if_pos (by omega), canon_rows_mem 0 _ _ ⟨k.val, hk⟩ q k (by show k.val = 0 * 512 + k.val; omega),
        PayMat.k1_pay26_eq]
      exact pj_apply adj T cv Wc a x2 x3 x4 ha h2 h3 h4 0 ⟨k.val, hk⟩ q k (by show k.val = 0 * 512 + k.val; omega)
    · rw [if_neg (by omega), canon_rows_not_mem 0 _ _ k q (Or.inr (by show 0 * 512 + 512 ≤ k.val; omega)),
        View.canon_unit_zero zeros2]
      exact PayMat.k1_pay13_apply _
  | succ n ih =>
    have ih := ih (Nat.lt_of_succ_lt hn)
    have hj : Fin.ofNat 8 (n + 1) = (⟨n + 1, hn⟩ : Fin 8) := Fin.ext (Nat.mod_eq_of_lt hn)
    show upd8 (pAt a x2 x3 x4 n) (L8 (Fin.ofNat 8 (n + 1)) (pj a x2 x3 x4 (Fin.ofNat 8 (n + 1)))) (ix2 k q) = _
    rw [hj]
    clear hj
    rw [L8_pos ⟨n + 1, hn⟩ (Nat.succ_ne_zero n)]
    by_cases hlo : k.val < (n + 1) * 512
    · have hlo' : k.val < (n + 1 + 1) * 512 := lt_next_block hlo
      rw [if_pos hlo']
      refine (upd8_rows_not_mem _ ⟨n + 1, hn⟩ _ k q (Or.inl hlo)).trans ?_
      rw [ih, if_pos hlo]
    · by_cases hhi : k.val < (n + 1 + 1) * 512
      · have hr : k.val - (n + 1) * 512 < 512 := sub_block_lt hlo hhi
        have hkr : k.val = (n + 1) * 512 + (k.val - (n + 1) * 512) := eq_block_add_sub hlo
        rw [if_pos hhi]
        refine (upd8_rows_mem _ ⟨n + 1, hn⟩ _ ⟨k.val - (n + 1) * 512, hr⟩ q k hkr).trans ?_
        rw [PayMat.k1_pay26_eq]
        exact pj_apply adj T cv Wc a x2 x3 x4 ha h2 h3 h4 ⟨n + 1, hn⟩ ⟨k.val - (n + 1) * 512, hr⟩ q k hkr
      · have hge : (n + 1) * 512 + 512 ≤ k.val := block_end_le hhi
        rw [if_neg hhi]
        refine (upd8_rows_not_mem _ ⟨n + 1, hn⟩ _ k q (Or.inr hge)).trans ?_
        rw [ih, if_neg hlo]

end Value

/-! ## Row sums cut off after m column slabs -/

theorem blk_lt {b l m : ℕ} (hb : b < m) (hl : l < 512) : b * 512 + l < m * 512 := by omega
theorem blk_not_lt {b l m : ℕ} (hb : ¬ b < m) : ¬ b * 512 + l < m * 512 := by omega

section Sums

variable (adj : Cert.Gcn.Mat 4096 4096) (P : Cert.Gcn.Mat 4096 64)

/-- Row n of the adjacency against P with everything from row 512 m on replaced by zero. -/
def part (n : Fin 4096) (q : Fin 64) (m : ℕ) : EReal :=
  ∑ k : Fin 4096, adj n k * (if k.val < m * 512 then P k q else 0)

/-- Row n of the adjacency against the rows of slab m of P. -/
def slabSum (n : Fin 4096) (q : Fin 64) (m : Fin 8) : EReal :=
  ∑ l : Fin 512, adj n ⟨m.val * 512 + l.val, by omega⟩ * P ⟨m.val * 512 + l.val, by omega⟩ q

/-- The cut-off sum is the sum of the slabs below m (a · 0 = 0 on the slabs from m on). -/
theorem part_eq_blocks (n : Fin 4096) (q : Fin 64) (m : ℕ) :
    part adj P n q m = ∑ b : Fin 8, if b.val < m then slabSum adj P n q b else 0 := by
  unfold part
  rw [Cert.Gcn.sum_blocks]
  refine Finset.sum_congr rfl fun b _ => ?_
  by_cases hb : b.val < m
  · rw [if_pos hb]
    unfold slabSum
    refine Finset.sum_congr rfl fun l _ => ?_
    show adj n ⟨b.val * 512 + l.val, _⟩ * (if b.val * 512 + l.val < m * 512 then P ⟨b.val * 512 + l.val, _⟩ q else 0) = _
    rw [if_pos (blk_lt hb l.isLt)]
  · rw [if_neg hb]
    refine Finset.sum_eq_zero fun l _ => ?_
    show adj n ⟨b.val * 512 + l.val, _⟩ * (if b.val * 512 + l.val < m * 512 then P ⟨b.val * 512 + l.val, _⟩ q else 0) = 0
    rw [if_neg (blk_not_lt hb), mul_zero]

/-- One more slab. -/
theorem part_succ (n : Fin 4096) (q : Fin 64) (m : Fin 8) :
    part adj P n q (m.val + 1) = part adj P n q m.val + slabSum adj P n q m := by
  rw [part_eq_blocks, part_eq_blocks]
  have hsplit : ∀ b : Fin 8, (if b.val < m.val + 1 then slabSum adj P n q b else 0)
      = (if b.val < m.val then slabSum adj P n q b else 0) + (if b = m then slabSum adj P n q b else 0) := by
    intro b
    by_cases h1 : b.val < m.val
    · have h2 : b ≠ m := fun h => by rw [h] at h1; exact lt_irrefl _ h1
      rw [if_pos (Nat.lt_succ_of_lt h1), if_pos h1, if_neg h2, add_zero]
    · by_cases h2 : b = m
      · rw [h2, if_pos (Nat.lt_succ_self _), if_neg (lt_irrefl _), if_pos rfl, zero_add]
      · have h3 : ¬ b.val < m.val + 1 := fun h =>
          h2 (Fin.ext (Nat.le_antisymm (Nat.lt_succ_iff.mp h) (not_lt.mp h1)))
        rw [if_neg h3, if_neg h1, if_neg h2, add_zero]
  rw [Finset.sum_congr rfl (fun b _ => hsplit b), Finset.sum_add_distrib, Finset.sum_ite_eq' Finset.univ m,
    if_pos (Finset.mem_univ m)]

/-- All eight slabs: the whole row sum. -/
theorem part_eight (n : Fin 4096) (q : Fin 64) : part adj P n q 8 = ∑ k : Fin 4096, adj n k * P k q := by
  unfold part
  refine Finset.sum_congr rfl fun k _ => ?_
  rw [if_pos (show k.val < 8 * 512 from k.isLt)]

/-- The cut-off sum as a sum over the rows below 512 m. -/
theorem part_eq_filter (n : Fin 4096) (q : Fin 64) (m : ℕ) :
    part adj P n q m = ∑ k ∈ Finset.univ.filter (fun k : Fin 4096 => k.val < m * 512), adj n k * P k q := by
  unfold part
  rw [Finset.sum_filter]
  refine Finset.sum_congr rfl fun k _ => ?_
  by_cases h : k.val < m * 512
  · rw [if_pos h, if_pos h]
  · rw [if_neg h, if_neg h, mul_zero]

end Sums

/-! ## The accumulator -/

section Acc

variable (adj : Cert.Gcn.Mat 4096 4096) (T : Cert.Gcn.Mat 4096 32) (cv : Fin 32 → EReal) (Wc : Cert.Gcn.Mat 32 64)
  (bv : Fin 64 → EReal)

/-- The projection buffer as point n's fresh product finds it: P in the rows below 512 n, zero from there on. -/
theorem pSeen_apply (a : Fin 8 → Vec Ideal S512x4096 .f32) (x2 : Vec Ideal S4096x32 .bf16) (x3 : Vec Ideal S1x32 .f32)
    (x4 : Vec Ideal S32x64 .bf16)
    (ha : ∀ (i : Fin 8) (r : Fin 512) (k : Fin 4096), a i (ix2 r k) = adj ⟨i.val * 512 + r.val, by omega⟩ k)
    (h2 : ∀ k j, x2 (ix2 k j) = T k j) (h3 : ∀ j, x3 (ix2 0 j) = cv j) (h4 : ∀ j q, x4 (ix2 j q) = Wc j q)
    (n : ℕ) (hn : n < 8) (k : Fin 4096) (q : Fin 64) :
    pSeen (⟨n, hn⟩ : Fin 8) (pAt a x2 x3 x4 (n - 1)) (ix2 k q) = if k.val < n * 512 then Pm adj T cv Wc k q else 0 := by
  unfold pSeen
  cases n with
  | zero =>
    rw [if_pos rfl, ld_wholeR, View.canon_unit_zero zeros2, if_neg (by rw [Nat.zero_mul]; exact Nat.not_lt_zero _)]
    exact PayMat.k1_pay13_apply _
  | succ m =>
    rw [if_neg (Nat.succ_ne_zero m), ld_wholeR]
    show pAt a x2 x3 x4 m (ix2 k q) = _
    exact pAt_apply adj T cv Wc a x2 x3 x4 ha h2 h3 h4 m (Nat.lt_of_succ_lt hn) k q

/-- The fresh product of point n on the rows of block n: the row sum cut off after n slabs. -/
theorem fresh_apply (a : Fin 8 → Vec Ideal S512x4096 .f32) (x2 : Vec Ideal S4096x32 .bf16) (x3 : Vec Ideal S1x32 .f32)
    (x4 : Vec Ideal S32x64 .bf16)
    (ha : ∀ (i : Fin 8) (r : Fin 512) (k : Fin 4096), a i (ix2 r k) = adj ⟨i.val * 512 + r.val, by omega⟩ k)
    (h2 : ∀ k j, x2 (ix2 k j) = T k j) (h3 : ∀ j, x3 (ix2 0 j) = cv j) (h4 : ∀ j q, x4 (ix2 j q) = Wc j q)
    (n : ℕ) (hn : n < 8) (r : Fin 512) (q : Fin 64) (row : Fin 4096) (hrow : row.val = n * 512 + r.val) :
    freshAt a x2 x3 x4 n (ix2 r q) = part adj (Pm adj T cv Wc) row q n := by
  have hj : Fin.ofNat 8 n = (⟨n, hn⟩ : Fin 8) := Fin.ext (Nat.mod_eq_of_lt hn)
  unfold freshAt
  rw [hj, freshOf_apply]
  unfold part
  refine Finset.sum_congr rfl fun k _ => ?_
  rw [pSeen_apply adj T cv Wc a x2 x3 x4 ha h2 h3 h4 n hn k q, ha ⟨n, hn⟩ r k]
  exact congrArg (fun t => adj t k * _) (Fin.ext hrow.symm)

/-- One accumulation: from the sum cut off after j slabs to the sum cut off after j + 1. -/
theorem acc_step (a : Fin 8 → Vec Ideal S512x4096 .f32) (x2 : Vec Ideal S4096x32 .bf16) (x3 : Vec Ideal S1x32 .f32)
    (x4 : Vec Ideal S32x64 .bf16)
    (ha : ∀ (i : Fin 8) (r : Fin 512) (k : Fin 4096), a i (ix2 r k) = adj ⟨i.val * 512 + r.val, by omega⟩ k)
    (h2 : ∀ k j, x2 (ix2 k j) = T k j) (h3 : ∀ j, x3 (ix2 0 j) = cv j) (h4 : ∀ j q, x4 (ix2 j q) = Wc j q)
    (j b : Fin 8) (acc : Vec Ideal S512x64 .f32) (r : Fin 512) (q : Fin 64) (row : Fin 4096)
    (hrow : row.val = b.val * 512 + r.val) (hacc : acc (ix2 r q) = part adj (Pm adj T cv Wc) row q j.val) :
    accOf b (pj a x2 x3 x4 j) (slabOf j (a b)) acc (ix2 r q) = part adj (Pm adj T cv Wc) row q (j.val + 1) := by
  rw [accOf_apply, hacc, part_succ]
  refine congrArg (fun t => part adj (Pm adj T cv Wc) row q j.val + t) ?_
  unfold slabSum
  refine Finset.sum_congr rfl fun l _ => ?_
  rw [slabOf_apply j (a b) r l ⟨j.val * 512 + l.val, by omega⟩ rfl, ha b r _,
    pj_apply adj T cv Wc a x2 x3 x4 ha h2 h3 h4 j l q ⟨j.val * 512 + l.val, by omega⟩ rfl]
  exact congrArg (fun t => adj t _ * _) (Fin.ext hrow.symm)

/-- After point n the accumulator's rows of every block b ≤ n hold the row sum cut off after n + 1 slabs. -/
theorem accAt_apply (a : Fin 8 → Vec Ideal S512x4096 .f32) (x2 : Vec Ideal S4096x32 .bf16) (x3 : Vec Ideal S1x32 .f32)
    (x4 : Vec Ideal S32x64 .bf16)
    (ha : ∀ (i : Fin 8) (r : Fin 512) (k : Fin 4096), a i (ix2 r k) = adj ⟨i.val * 512 + r.val, by omega⟩ k)
    (h2 : ∀ k j, x2 (ix2 k j) = T k j) (h3 : ∀ j, x3 (ix2 0 j) = cv j) (h4 : ∀ j q, x4 (ix2 j q) = Wc j q)
    (n : ℕ) (hn : n < 8) (b : Fin 8) (hb : b.val ≤ n) (r : Fin 512) (q : Fin 64) (row : Fin 4096)
    (hrow : row.val = b.val * 512 + r.val) :
    accAt a x2 x3 x4 n b (ix2 r q) = part adj (Pm adj T cv Wc) row q (n + 1) := by
  induction n with
  | zero =>
    have hb0 : b = 0 := Fin.ext (Nat.le_zero.mp hb)
    subst hb0
    show accOf 0 (pj a x2 x3 x4 0) (slabOf 0 (a 0)) (freshAt a x2 x3 x4 0) (ix2 r q) = _
    exact acc_step adj T cv Wc a x2 x3 x4 ha h2 h3 h4 0 0 _ r q row hrow (fresh_apply adj T cv Wc a x2 x3 x4 ha h2 h3 h4 0 hn r q row hrow)
  | succ n ih =>
    have hj : Fin.ofNat 8 (n + 1) = (⟨n + 1, hn⟩ : Fin 8) := Fin.ext (Nat.mod_eq_of_lt hn)
    show (if b.val = n + 1 then
        accOf b (pj a x2 x3 x4 (Fin.ofNat 8 (n + 1))) (slabOf (Fin.ofNat 8 (n + 1)) (a b)) (freshAt a x2 x3 x4 (n + 1))
      else accOf b (pj a x2 x3 x4 (Fin.ofNat 8 (n + 1))) (slabOf (Fin.ofNat 8 (n + 1)) (a b)) (accAt a x2 x3 x4 n b))
        (ix2 r q) = _
    rw [hj]
    by_cases hbn : b.val = n + 1
    · rw [if_pos hbn]
      exact acc_step adj T cv Wc a x2 x3 x4 ha h2 h3 h4 ⟨n + 1, hn⟩ b _ r q row hrow
        (fresh_apply adj T cv Wc a x2 x3 x4 ha h2 h3 h4 (n + 1) hn r q row (by rw [hrow, hbn]))
    · rw [if_neg hbn]
      exact acc_step adj T cv Wc a x2 x3 x4 ha h2 h3 h4 ⟨n + 1, hn⟩ b _ r q row hrow
        (ih (Nat.lt_of_succ_lt hn) (Nat.lt_succ_iff.mp (lt_of_le_of_ne hb hbn)))

/-- After the last point: the whole row sum. -/
theorem accAt_seven (a : Fin 8 → Vec Ideal S512x4096 .f32) (x2 : Vec Ideal S4096x32 .bf16) (x3 : Vec Ideal S1x32 .f32)
    (x4 : Vec Ideal S32x64 .bf16)
    (ha : ∀ (i : Fin 8) (r : Fin 512) (k : Fin 4096), a i (ix2 r k) = adj ⟨i.val * 512 + r.val, by omega⟩ k)
    (h2 : ∀ k j, x2 (ix2 k j) = T k j) (h3 : ∀ j, x3 (ix2 0 j) = cv j) (h4 : ∀ j q, x4 (ix2 j q) = Wc j q)
    (b : Fin 8) (r : Fin 512) (q : Fin 64) (row : Fin 4096) (hrow : row.val = b.val * 512 + r.val) :
    accAt a x2 x3 x4 7 b (ix2 r q) = ∑ k : Fin 4096, adj row k * Pm adj T cv Wc k q :=
  (accAt_apply adj T cv Wc a x2 x3 x4 ha h2 h3 h4 7 (by decide) b (Nat.lt_succ_iff.mp b.isLt) r q row hrow).trans
    (part_eight adj (Pm adj T cv Wc) row q)

end Acc

/-! ## The output block -/

/-- Eight row blocks stored one after the other: row 512 b + r reads block b's payload at row r. -/
theorem canon_rows8 (w : Fin 8 → Vec Ideal S512x64 .f32) (b : Fin 8) (r : Fin 512) (q : Fin 64) (k : Fin 4096)
    (hk : k.val = b.val * 512 + r.val) :
    View.canon (Val := Elt Ideal) [⟨rowsR 7, w 7⟩, ⟨rowsR 6, w 6⟩, ⟨rowsR 5, w 5⟩, ⟨rowsR 4, w 4⟩, ⟨rowsR 3, w 3⟩, ⟨rowsR 2, w 2⟩, ⟨rowsR 1, w 1⟩, ⟨rowsR 0, w 0⟩] (ix2 k q) = w b (ix2 r q) := by
  have hr := r.isLt
  obtain ⟨bv, hb⟩ := b
  interval_cases bv
  · have hk' : k.val = 0 * 512 + r.val := hk
    rw [canon_rows_not_mem 7 _ _ k q (Or.inl (show k.val < 7 * 512 from by omega)),
      canon_rows_not_mem 6 _ _ k q (Or.inl (show k.val < 6 * 512 from by omega)),
      canon_rows_not_mem 5 _ _ k q (Or.inl (show k.val < 5 * 512 from by omega)),
      canon_rows_not_mem 4 _ _ k q (Or.inl (show k.val < 4 * 512 from by omega)),
      canon_rows_not_mem 3 _ _ k q (Or.inl (show k.val < 3 * 512 from by omega)),
      canon_rows_not_mem 2 _ _ k q (Or.inl (show k.val < 2 * 512 from by omega)),
      canon_rows_not_mem 1 _ _ k q (Or.inl (show k.val < 1 * 512 from by omega))]
    exact canon_rows_mem 0 _ _ r q k hk'
  · have hk' : k.val = 1 * 512 + r.val := hk
    rw [canon_rows_not_mem 7 _ _ k q (Or.inl (show k.val < 7 * 512 from by omega)),
      canon_rows_not_mem 6 _ _ k q (Or.inl (show k.val < 6 * 512 from by omega)),
      canon_rows_not_mem 5 _ _ k q (Or.inl (show k.val < 5 * 512 from by omega)),
      canon_rows_not_mem 4 _ _ k q (Or.inl (show k.val < 4 * 512 from by omega)),
      canon_rows_not_mem 3 _ _ k q (Or.inl (show k.val < 3 * 512 from by omega)),
      canon_rows_not_mem 2 _ _ k q (Or.inl (show k.val < 2 * 512 from by omega))]
    exact canon_rows_mem 1 _ _ r q k hk'
  · have hk' : k.val = 2 * 512 + r.val := hk
    rw [canon_rows_not_mem 7 _ _ k q (Or.inl (show k.val < 7 * 512 from by omega)),
      canon_rows_not_mem 6 _ _ k q (Or.inl (show k.val < 6 * 512 from by omega)),
      canon_rows_not_mem 5 _ _ k q (Or.inl (show k.val < 5 * 512 from by omega)),
      canon_rows_not_mem 4 _ _ k q (Or.inl (show k.val < 4 * 512 from by omega)),
      canon_rows_not_mem 3 _ _ k q (Or.inl (show k.val < 3 * 512 from by omega))]
    exact canon_rows_mem 2 _ _ r q k hk'
  · have hk' : k.val = 3 * 512 + r.val := hk
    rw [canon_rows_not_mem 7 _ _ k q (Or.inl (show k.val < 7 * 512 from by omega)),
      canon_rows_not_mem 6 _ _ k q (Or.inl (show k.val < 6 * 512 from by omega)),
      canon_rows_not_mem 5 _ _ k q (Or.inl (show k.val < 5 * 512 from by omega)),
      canon_rows_not_mem 4 _ _ k q (Or.inl (show k.val < 4 * 512 from by omega))]
    exact canon_rows_mem 3 _ _ r q k hk'
  · have hk' : k.val = 4 * 512 + r.val := hk
    rw [canon_rows_not_mem 7 _ _ k q (Or.inl (show k.val < 7 * 512 from by omega)),
      canon_rows_not_mem 6 _ _ k q (Or.inl (show k.val < 6 * 512 from by omega)),
      canon_rows_not_mem 5 _ _ k q (Or.inl (show k.val < 5 * 512 from by omega))]
    exact canon_rows_mem 4 _ _ r q k hk'
  · have hk' : k.val = 5 * 512 + r.val := hk
    rw [canon_rows_not_mem 7 _ _ k q (Or.inl (show k.val < 7 * 512 from by omega)),
      canon_rows_not_mem 6 _ _ k q (Or.inl (show k.val < 6 * 512 from by omega))]
    exact canon_rows_mem 5 _ _ r q k hk'
  · have hk' : k.val = 6 * 512 + r.val := hk
    rw [canon_rows_not_mem 7 _ _ k q (Or.inl (show k.val < 7 * 512 from by omega))]
    exact canon_rows_mem 6 _ _ r q k hk'
  · have hk' : k.val = 7 * 512 + r.val := hk
    exact canon_rows_mem 7 _ _ r q k hk'

section Out

variable (adj : Cert.Gcn.Mat 4096 4096) (T : Cert.Gcn.Mat 4096 32) (cv : Fin 32 → EReal) (Wc : Cert.Gcn.Mat 32 64)
  (bv : Fin 64 → EReal)

/-- One row block of the output: the log-softmax of the second propagation on the block's rows. -/
theorem block_value (a : Fin 8 → Vec Ideal S512x4096 .f32) (x2 : Vec Ideal S4096x32 .bf16) (x3 : Vec Ideal S1x32 .f32)
    (x4 : Vec Ideal S32x64 .bf16)
    (ha : ∀ (i : Fin 8) (r : Fin 512) (k : Fin 4096), a i (ix2 r k) = adj ⟨i.val * 512 + r.val, by omega⟩ k)
    (h2 : ∀ k j, x2 (ix2 k j) = T k j) (h3 : ∀ j, x3 (ix2 0 j) = cv j) (h4 : ∀ j q, x4 (ix2 j q) = Wc j q)
    (x5 : Vec Ideal S1x64 .f32) (h5 : ∀ q, x5 (ix2 0 q) = bv q) (b : Fin 8) (r : Fin 512) (q : Fin 64) :
    lsmOf b (accAt a x2 x3 x4 7 b) x5 (ix2 r q)
      = Cert.Gcn.logSoftmax (Lg adj T cv Wc bv) ⟨b.val * 512 + r.val, by omega⟩ q := by
  rw [lsmOf_apply]
  refine PayLsm.lsmBlock_eq (Lg adj T cv Wc bv) b _ x5 (fun r' q' => ?_) r q
  rw [accAt_seven adj T cv Wc a x2 x3 x4 ha h2 h3 h4 b r' q' ⟨b.val * 512 + r'.val, by omega⟩ rfl, h5 q']
  rfl

/-- THE RESULT: the output block is the log-softmax of the second propagation, index by index. -/
theorem outModel_value (a : Fin 8 → Vec Ideal S512x4096 .f32) (x2 : Vec Ideal S4096x32 .bf16) (x3 : Vec Ideal S1x32 .f32)
    (x4 : Vec Ideal S32x64 .bf16)
    (ha : ∀ (i : Fin 8) (r : Fin 512) (k : Fin 4096), a i (ix2 r k) = adj ⟨i.val * 512 + r.val, by omega⟩ k)
    (h2 : ∀ k j, x2 (ix2 k j) = T k j) (h3 : ∀ j, x3 (ix2 0 j) = cv j) (h4 : ∀ j q, x4 (ix2 j q) = Wc j q)
    (x5 : Vec Ideal S1x64 .f32) (h5 : ∀ q, x5 (ix2 0 q) = bv q) (n : Fin 4096) (q : Fin 64) :
    outModel a x2 x3 x4 x5 (ix2 n q) = Cert.Gcn.logSoftmax (Lg adj T cv Wc bv) n q := by
  have hn := n.isLt
  have hb : n.val / 512 < 8 := by omega
  have hr : n.val % 512 < 512 := Nat.mod_lt _ (by decide)
  have hk : n.val = (⟨n.val / 512, hb⟩ : Fin 8).val * 512 + (⟨n.val % 512, hr⟩ : Fin 512).val := by
    show n.val = n.val / 512 * 512 + n.val % 512
    omega
  unfold outModel
  refine (canon_rows8 (fun b => lsmOf b (accAt a x2 x3 x4 7 b) x5) ⟨n.val / 512, hb⟩ ⟨n.val % 512, hr⟩ q n hk).trans ?_
  refine (block_value adj T cv Wc bv a x2 x3 x4 ha h2 h3 h4 x5 h5 ⟨n.val / 512, hb⟩ ⟨n.val % 512, hr⟩ q).trans ?_
  exact congrArg (fun t => Cert.Gcn.logSoftmax (Lg adj T cv Wc bv) t q) (Fin.ext hk.symm)

end Out

end Cert.KernelIdeal.GcnValue

end
-- ==== Proof.RefValue.lean ====
/-
  The reference program's value.  Its result buffer after the run, read at row n and column q, is the specification's
  `Cert.Gcn.outR` of the ten argument arrays at (n, q), over the extended reals.

  The road follows the program: the first layer (two matrix products, the bias, the normalisation by the batch
  statistics, the clip at zero) is `hidR`; each of the four heads projects it, propagates the projection and adds its bias
  row; the 64 joined columns read column c from head c / 16 at class c % 16, which is `logits`; the row maximum, a fold of
  `max` from −∞, is the supremum of the row; and the subtraction, exponential, row sum, logarithm and second
  subtraction are `logSoftmax`.
-/
import proofs.«150466_g82282983457293_cont_9to1_m_405_12_alg».proof.Proof.RefRead
import proofs.«150466_g82282983457293_cont_9to1_m_405_12_alg».proof.Proof.Spec

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem Cert.Gcn
open scoped BigOperators

/-! ## The arguments

The ten argument arrays, as functions on indices with values in the extended reals. -/

variable (x0 : S4096x256.Idx → EReal) (x1 : S4096x4096.Idx → EReal) (x2 : S256x32.Idx → EReal)
  (x3 x4 x5 x6 x7 : S32.Idx → EReal) (x8 : S4x32x16.Idx → EReal) (x9 : S4x16.Idx → EReal)

/-! ## Where each stage reads its operands

A row vector broadcast down the rows of a matrix is read, at row n and column j, at j; the two matrix products read
row n of the left factor and column j of the right one. -/

theorem idx_b1 (n : Fin 4096) (j : Fin 32) : idx_main_v2 (idx_main_v3 (ix2 n j)) = ix1 j := by
  funext a; apply Fin.ext; match a with | ⟨0, _⟩ => rfl
theorem idx_mean (n : Fin 4096) (j : Fin 32) : idx_main_v5 (idx_main_v6 (ix2 n j)) = ix1 j := by
  funext a; apply Fin.ext; match a with | ⟨0, _⟩ => rfl
theorem idx_var (n : Fin 4096) (j : Fin 32) : idx_main_v11 (idx_main_v12 (ix2 n j)) = ix1 j := by
  funext a; apply Fin.ext; match a with | ⟨0, _⟩ => rfl
theorem idx_gamma (n : Fin 4096) (j : Fin 32) : idx_main_v14 (idx_main_v15 (ix2 n j)) = ix1 j := by
  funext a; apply Fin.ext; match a with | ⟨0, _⟩ => rfl
theorem idx_beta (n : Fin 4096) (j : Fin 32) : idx_main_v17 (idx_main_v18 (ix2 n j)) = ix1 j := by
  funext a; apply Fin.ext; match a with | ⟨0, _⟩ => rfl
theorem lidx_prop1 (n : Fin 4096) (j : Fin 32) (k : Fin 4096) : lidx_main_v1 (ix2 n j) k = ix2 n k := by
  funext a; apply Fin.ext; match a with | ⟨0, _⟩ => rfl | ⟨1, _⟩ => rfl
theorem ridx_prop1 (n : Fin 4096) (j : Fin 32) (k : Fin 4096) : ridx_main_v1 (ix2 n j) k = ix2 k j := by
  funext a; apply Fin.ext; match a with | ⟨0, _⟩ => rfl | ⟨1, _⟩ => rfl
theorem lidx_xw (k : Fin 4096) (j : Fin 32) (l : Fin 256) : lidx_main_v0 (ix2 k j) l = ix2 k l := by
  funext a; apply Fin.ext; match a with | ⟨0, _⟩ => rfl | ⟨1, _⟩ => rfl
theorem ridx_xw (k : Fin 4096) (j : Fin 32) (l : Fin 256) : ridx_main_v0 (ix2 k j) l = ix2 l j := by
  funext a; apply Fin.ext; match a with | ⟨0, _⟩ => rfl | ⟨1, _⟩ => rfl

/-! ## The hidden layer -/

/-- The reference's normalised and clipped first layer is `hidR`, entry by entry. -/
theorem hid_eq (n : Fin 4096) (j : Fin 32) :
    val_main_v20 (F := Ideal) x0 x1 x2 x3 x4 x5 x6 x7 (ix2 n j)
      = hidR (mat2 x0) (mat2 x1) (mat2 x2) (vec1 x3) (vec1 x4) (vec1 x5) (vec1 x6) (vec1 x7) n j := by
  simp only [val_main_v20_apply, val_main_v19_apply, val_main_v16_apply, val_main_v13_apply, val_main_v7_apply,
    val_main_v4_apply, val_main_v1_apply, val_main_v0_apply, val_main_v3_apply, val_main_v2_apply, val_main_v6_apply,
    val_main_v5_apply, val_main_v12_apply, val_main_v11_apply, val_main_v10_apply, val_main_v9_apply, val_main_v8_apply,
    val_main_cst_apply, val_main_v15_apply, val_main_v14_apply, val_main_v18_apply, val_main_v17_apply,
    val_main_call0_v0_apply, val_main_call0_cst_apply,
    idx_b1, idx_mean, idx_var, idx_gamma, idx_beta, lidx_prop1, ridx_prop1, lidx_xw, ridx_xw,
    Ideal.ofBits_def, Ideal.ofBits_zero_f32]
  rfl

/-! ## The four heads

Head a projects the hidden layer by its own 32×16 weights (slice a of the weight tensor), propagates the projection
through the adjacency matrix and adds its own bias row (row a of the bias matrix). -/

/-- Head `a`'s entry at row `n` and class `l`. -/
def headVal (a : Fin 4) (n : Fin 4096) (l : Fin 16) : EReal :=
  (∑ k : Fin 4096, x1 (ix2 n k) *
      ∑ j : Fin 32, val_main_v20 (F := Ideal) x0 x1 x2 x3 x4 x5 x6 x7 (ix2 k j) * x8 (ix3 a j l))
    + x9 (ix2 a l)

/-! Head 0: where its stages read. The slice of the weights, flattened to 32×16, is read at (j, l) at entry
(0, j, l) of the tensor (16 j + l over 16 is j, and its remainder is l); the bias row likewise at (0, l). -/

theorem idx_w0 (j : Fin 32) (l : Fin 16) : idx_main_v21 (idx_main_v22 (ix2 j l)) = ix3 (0 : Fin 4) j l := by
  have hj := j.isLt; have hl := l.isLt
  funext a; apply Fin.ext
  match a with
  | ⟨0, _⟩ => rfl
  | ⟨1, _⟩ => show (j.val * 16 + l.val) / 16 % 32 = j.val; omega
  | ⟨2, _⟩ => show (j.val * 16 + l.val) % 16 = l.val; omega
theorem idx_ba0 (n : Fin 4096) (l : Fin 16) :
    idx_main_v25 (idx_main_v26 (idx_main_v27 (idx_main_v28 (ix2 n l)))) = ix2 (0 : Fin 4) l := by
  have hl := l.isLt
  funext a; apply Fin.ext
  match a with
  | ⟨0, _⟩ => rfl
  | ⟨1, _⟩ => show l.val % 16 = l.val; omega
theorem lidx_proj0 (k : Fin 4096) (l : Fin 16) (j : Fin 32) : lidx_main_v23 (ix2 k l) j = ix2 k j := by
  funext a; apply Fin.ext; match a with | ⟨0, _⟩ => rfl | ⟨1, _⟩ => rfl
theorem ridx_proj0 (k : Fin 4096) (l : Fin 16) (j : Fin 32) : ridx_main_v23 (ix2 k l) j = ix2 j l := by
  funext a; apply Fin.ext; match a with | ⟨0, _⟩ => rfl | ⟨1, _⟩ => rfl
theorem lidx_prop2_0 (n : Fin 4096) (l : Fin 16) (k : Fin 4096) : lidx_main_v24 (ix2 n l) k = ix2 n k := by
  funext a; apply Fin.ext; match a with | ⟨0, _⟩ => rfl | ⟨1, _⟩ => rfl
theorem ridx_prop2_0 (n : Fin 4096) (l : Fin 16) (k : Fin 4096) : ridx_main_v24 (ix2 n l) k = ix2 k l := by
  funext a; apply Fin.ext; match a with | ⟨0, _⟩ => rfl | ⟨1, _⟩ => rfl

/-- Head 0 of the reference, entry by entry. -/
theorem head0_eq (n : Fin 4096) (l : Fin 16) :
    val_main_v29 (F := Ideal) x0 x1 x2 x3 x4 x5 x6 x7 x8 x9 (ix2 n l)
      = headVal x0 x1 x2 x3 x4 x5 x6 x7 x8 x9 0 n l := by
  simp only [val_main_v29_apply, val_main_v24_apply, val_main_v23_apply, val_main_v22_apply, val_main_v21_apply,
    val_main_v28_apply, val_main_v27_apply, val_main_v26_apply, val_main_v25_apply,
    idx_w0, idx_ba0, lidx_proj0, ridx_proj0, lidx_prop2_0, ridx_prop2_0]
  rfl

/-! Head 1: where its stages read. The slice of the weights, flattened to 32×16, is read at (j, l) at entry
(1, j, l) of the tensor (16 j + l over 16 is j, and its remainder is l); the bias row likewise at (1, l). -/

theorem idx_w1 (j : Fin 32) (l : Fin 16) : idx_main_v30 (idx_main_v31 (ix2 j l)) = ix3 (1 : Fin 4) j l := by
  have hj := j.isLt; have hl := l.isLt
  funext a; apply Fin.ext
  match a with
  | ⟨0, _⟩ => rfl
  | ⟨1, _⟩ => show (j.val * 16 + l.val) / 16 % 32 = j.val; omega
  | ⟨2, _⟩ => show (j.val * 16 + l.val) % 16 = l.val; omega
theorem idx_ba1 (n : Fin 4096) (l : Fin 16) :
    idx_main_v34 (idx_main_v35 (idx_main_v36 (idx_main_v37 (ix2 n l)))) = ix2 (1 : Fin 4) l := by
  have hl := l.isLt
  funext a; apply Fin.ext
  match a with
  | ⟨0, _⟩ => rfl
  | ⟨1, _⟩ => show l.val % 16 = l.val; omega
theorem lidx_proj1 (k : Fin 4096) (l : Fin 16) (j : Fin 32) : lidx_main_v32 (ix2 k l) j = ix2 k j := by
  funext a; apply Fin.ext; match a with | ⟨0, _⟩ => rfl | ⟨1, _⟩ => rfl
theorem ridx_proj1 (k : Fin 4096) (l : Fin 16) (j : Fin 32) : ridx_main_v32 (ix2 k l) j = ix2 j l := by
  funext a; apply Fin.ext; match a with | ⟨0, _⟩ => rfl | ⟨1, _⟩ => rfl
theorem lidx_prop2_1 (n : Fin 4096) (l : Fin 16) (k : Fin 4096) : lidx_main_v33 (ix2 n l) k = ix2 n k := by
  funext a; apply Fin.ext; match a with | ⟨0, _⟩ => rfl | ⟨1, _⟩ => rfl
theorem ridx_prop2_1 (n : Fin 4096) (l : Fin 16) (k : Fin 4096) : ridx_main_v33 (ix2 n l) k = ix2 k l := by
  funext a; apply Fin.ext; match a with | ⟨0, _⟩ => rfl | ⟨1, _⟩ => rfl

/-- Head 1 of the reference, entry by entry. -/
theorem head1_eq (n : Fin 4096) (l : Fin 16) :
    val_main_v38 (F := Ideal) x0 x1 x2 x3 x4 x5 x6 x7 x8 x9 (ix2 n l)
      = headVal x0 x1 x2 x3 x4 x5 x6 x7 x8 x9 1 n l := by
  simp only [val_main_v38_apply, val_main_v33_apply, val_main_v32_apply, val_main_v31_apply, val_main_v30_apply,
    val_main_v37_apply, val_main_v36_apply, val_main_v35_apply, val_main_v34_apply,
    idx_w1, idx_ba1, lidx_proj1, ridx_proj1, lidx_prop2_1, ridx_prop2_1]
  rfl

/-! Head 2: where its stages read. The slice of the weights, flattened to 32×16, is read at (j, l) at entry
(2, j, l) of the tensor (16 j + l over 16 is j, and its remainder is l); the bias row likewise at (2, l). -/

theorem idx_w2 (j : Fin 32) (l : Fin 16) : idx_main_v39 (idx_main_v40 (ix2 j l)) = ix3 (2 : Fin 4) j l := by
  have hj := j.isLt; have hl := l.isLt
  funext a; apply Fin.ext
  match a with
  | ⟨0, _⟩ => rfl
  | ⟨1, _⟩ => show (j.val * 16 + l.val) / 16 % 32 = j.val; omega
  | ⟨2, _⟩ => show (j.val * 16 + l.val) % 16 = l.val; omega
theorem idx_ba2 (n : Fin 4096) (l : Fin 16) :
    idx_main_v43 (idx_main_v44 (idx_main_v45 (idx_main_v46 (ix2 n l)))) = ix2 (2 : Fin 4) l := by
  have hl := l.isLt
  funext a; apply Fin.ext
  match a with
  | ⟨0, _⟩ => rfl
  | ⟨1, _⟩ => show l.val % 16 = l.val; omega
theorem lidx_proj2 (k : Fin 4096) (l : Fin 16) (j : Fin 32) : lidx_main_v41 (ix2 k l) j = ix2 k j := by
  funext a; apply Fin.ext; match a with | ⟨0, _⟩ => rfl | ⟨1, _⟩ => rfl
theorem ridx_proj2 (k : Fin 4096) (l : Fin 16) (j : Fin 32) : ridx_main_v41 (ix2 k l) j = ix2 j l := by
  funext a; apply Fin.ext; match a with | ⟨0, _⟩ => rfl | ⟨1, _⟩ => rfl
theorem lidx_prop2_2 (n : Fin 4096) (l : Fin 16) (k : Fin 4096) : lidx_main_v42 (ix2 n l) k = ix2 n k := by
  funext a; apply Fin.ext; match a with | ⟨0, _⟩ => rfl | ⟨1, _⟩ => rfl
theorem ridx_prop2_2 (n : Fin 4096) (l : Fin 16) (k : Fin 4096) : ridx_main_v42 (ix2 n l) k = ix2 k l := by
  funext a; apply Fin.ext; match a with | ⟨0, _⟩ => rfl | ⟨1, _⟩ => rfl

/-- Head 2 of the reference, entry by entry. -/
theorem head2_eq (n : Fin 4096) (l : Fin 16) :
    val_main_v47 (F := Ideal) x0 x1 x2 x3 x4 x5 x6 x7 x8 x9 (ix2 n l)
      = headVal x0 x1 x2 x3 x4 x5 x6 x7 x8 x9 2 n l := by
  simp only [val_main_v47_apply, val_main_v42_apply, val_main_v41_apply, val_main_v40_apply, val_main_v39_apply,
    val_main_v46_apply, val_main_v45_apply, val_main_v44_apply, val_main_v43_apply,
    idx_w2, idx_ba2, lidx_proj2, ridx_proj2, lidx_prop2_2, ridx_prop2_2]
  rfl

/-! Head 3: where its stages read. The slice of the weights, flattened to 32×16, is read at (j, l) at entry
(3, j, l) of the tensor (16 j + l over 16 is j, and its remainder is l); the bias row likewise at (3, l). -/

theorem idx_w3 (j : Fin 32) (l : Fin 16) : idx_main_v48 (idx_main_v49 (ix2 j l)) = ix3 (3 : Fin 4) j l := by
  have hj := j.isLt; have hl := l.isLt
  funext a; apply Fin.ext
  match a with
  | ⟨0, _⟩ => rfl
  | ⟨1, _⟩ => show (j.val * 16 + l.val) / 16 % 32 = j.val; omega
  | ⟨2, _⟩ => show (j.val * 16 + l.val) % 16 = l.val; omega
theorem idx_ba3 (n : Fin 4096) (l : Fin 16) :
    idx_main_v52 (idx_main_v53 (idx_main_v54 (idx_main_v55 (ix2 n l)))) = ix2 (3 : Fin 4) l := by
  have hl := l.isLt
  funext a; apply Fin.ext
  match a with
  | ⟨0, _⟩ => rfl
  | ⟨1, _⟩ => show l.val % 16 = l.val; omega
theorem lidx_proj3 (k : Fin 4096) (l : Fin 16) (j : Fin 32) : lidx_main_v50 (ix2 k l) j = ix2 k j := by
  funext a; apply Fin.ext; match a with | ⟨0, _⟩ => rfl | ⟨1, _⟩ => rfl
theorem ridx_proj3 (k : Fin 4096) (l : Fin 16) (j : Fin 32) : ridx_main_v50 (ix2 k l) j = ix2 j l := by
  funext a; apply Fin.ext; match a with | ⟨0, _⟩ => rfl | ⟨1, _⟩ => rfl
theorem lidx_prop2_3 (n : Fin 4096) (l : Fin 16) (k : Fin 4096) : lidx_main_v51 (ix2 n l) k = ix2 n k := by
  funext a; apply Fin.ext; match a with | ⟨0, _⟩ => rfl | ⟨1, _⟩ => rfl
theorem ridx_prop2_3 (n : Fin 4096) (l : Fin 16) (k : Fin 4096) : ridx_main_v51 (ix2 n l) k = ix2 k l := by
  funext a; apply Fin.ext; match a with | ⟨0, _⟩ => rfl | ⟨1, _⟩ => rfl

/-- Head 3 of the reference, entry by entry. -/
theorem head3_eq (n : Fin 4096) (l : Fin 16) :
    val_main_v56 (F := Ideal) x0 x1 x2 x3 x4 x5 x6 x7 x8 x9 (ix2 n l)
      = headVal x0 x1 x2 x3 x4 x5 x6 x7 x8 x9 3 n l := by
  simp only [val_main_v56_apply, val_main_v51_apply, val_main_v50_apply, val_main_v49_apply, val_main_v48_apply,
    val_main_v55_apply, val_main_v54_apply, val_main_v53_apply, val_main_v52_apply,
    idx_w3, idx_ba3, lidx_proj3, ridx_proj3, lidx_prop2_3, ridx_prop2_3]
  rfl

/-! ## The four heads side by side

The 64 joined columns: column c comes from head c / 16, at class c % 16. -/

theorem joined_eq (n : Fin 4096) (q : Fin 64) :
    val_main_v57 (F := Ideal) x0 x1 x2 x3 x4 x5 x6 x7 x8 x9 (ix2 n q)
      = headVal x0 x1 x2 x3 x4 x5 x6 x7 x8 x9 (headOf q) n (classOf q) := by
  have key := concatenate_ofFn_apply (α := EReal) (t := S4096x64) (s₁ := S4096x16) (1 : Fin S4096x64.rank)
    (![val_main_v29 (F := Ideal) x0 x1 x2 x3 x4 x5 x6 x7 x8 x9, val_main_v38 (F := Ideal) x0 x1 x2 x3 x4 x5 x6 x7 x8 x9,
       val_main_v47 (F := Ideal) x0 x1 x2 x3 x4 x5 x6 x7 x8 x9, val_main_v56 (F := Ideal) x0 x1 x2 x3 x4 x5 x6 x7 x8 x9] : Fin 4 → S4096x16.Idx → EReal)
    concatenates_S4096x16_S4096x16_S4096x16_S4096x16_S4096x64_d1 rfl 16 rfl (ix2 n q) (headOf q) rfl (ix2 n (classOf q)) rfl
    (fun b hb => by
      match b with
      | ⟨0, _⟩ => rfl
      | ⟨1, _⟩ => exact (hb (Fin.ext rfl)).elim)
  refine Eq.trans key ?_
  generalize headOf q = a
  generalize classOf q = l
  match a with
  | ⟨0, _⟩ => exact head0_eq x0 x1 x2 x3 x4 x5 x6 x7 x8 x9 n l
  | ⟨1, _⟩ => exact head1_eq x0 x1 x2 x3 x4 x5 x6 x7 x8 x9 n l
  | ⟨2, _⟩ => exact head2_eq x0 x1 x2 x3 x4 x5 x6 x7 x8 x9 n l
  | ⟨3, _⟩ => exact head3_eq x0 x1 x2 x3 x4 x5 x6 x7 x8 x9 n l

/-- The reference's logits, as the specification spells them. -/
abbrev specLogits : Mat 4096 64 :=
  logits (mat2 x1) (proj (hidR (mat2 x0) (mat2 x1) (mat2 x2) (vec1 x3) (vec1 x4) (vec1 x5) (vec1 x6) (vec1 x7)) (ten3 x8)) (mat2 x9)

/-- The value before the log-softmax is the specification's logits, entry by entry. -/
theorem logits_eq (n : Fin 4096) (q : Fin 64) :
    val_main_v57 (F := Ideal) x0 x1 x2 x3 x4 x5 x6 x7 x8 x9 (ix2 n q) = specLogits x0 x1 x2 x3 x4 x5 x6 x7 x8 x9 n q := by
  rw [joined_eq]
  unfold headVal
  simp only [hid_eq]
  rfl

/-! ## The row maximum

The log-softmax first takes each row's maximum: a fold of `max` from −∞ over the row's 64 entries, which is the supremum
of the row. -/

/-- The f32 word of −∞ is the bottom element of the extended reals. -/
theorem ofBits_neg_inf : Ideal.ofBits .f32 0xFF800000#32 = (⊥ : EReal) := by simp [Ideal.ofBits, Ideal.ieee]

/-- Column `c` inserted into the row index `n` is the entry index (n, c). -/
theorem lift_row (h : S4096x64.Reduces [1] S4096) (n : Fin 4096) (c : Fin 64) : h.lift (ix1 n) c = ix2 n c := by
  funext a; apply Fin.ext; match a with | ⟨0, _⟩ => rfl | ⟨1, _⟩ => rfl

theorem rowmax_eq (n : Fin 4096) :
    val_main_call1_v0 (F := Ideal) x0 x1 x2 x3 x4 x5 x6 x7 x8 x9 (ix1 n)
      = Finset.univ.sup fun c : Fin 64 => val_main_v57 (F := Ideal) x0 x1 x2 x3 x4 x5 x6 x7 x8 x9 (ix2 n c) := by
  have hR : S4096x64.Reduces [1] S4096 := by decide
  unfold val_main_call1_v0
  rw [Host.reduce_eq_fold_single (FloatOps.maximumf (F := Ideal) (φ := .f32)) _ _ reducesTo_S4096x64_S4096_d1 hR h_S_ (ix1 n)]
  show Finset.fold max (Ideal.ofBits .f32 0xFF800000#32)
      (fun c : Fin 64 => val_main_v57 (F := Ideal) x0 x1 x2 x3 x4 x5 x6 x7 x8 x9 (hR.lift (ix1 n) c)) Finset.univ = _
  simp only [lift_row, ofBits_neg_inf]
  rfl

/-! ## The log-softmax

Each entry minus its row's maximum, minus the logarithm of the row's sum of exponentials of such differences. -/

theorem idx_rowmax (n : Fin 4096) (q : Fin 64) : idx_main_call1_v3 (idx_main_call1_v4 (ix2 n q)) = ix1 n := by
  funext a; apply Fin.ext; match a with | ⟨0, _⟩ => rfl
theorem idx_rowsum (n : Fin 4096) (q : Fin 64) : idx_main_call1_v8 (idx_main_call1_v10 (ix2 n q)) = ix1 n := by
  funext a; apply Fin.ext; match a with | ⟨0, _⟩ => rfl
theorem idx_rowsum_col (n : Fin 4096) (c : Fin 64) : idx_main_call1_v7 (ix1 n) c = ix2 n c := by
  funext a; apply Fin.ext; match a with | ⟨0, _⟩ => rfl | ⟨1, _⟩ => rfl

/-- The maximum the reference subtracts, broadcast along row `n`, is the specification's row maximum (the larger of −∞
    and the supremum is the supremum). -/
theorem shift_eq (n : Fin 4096) (c : Fin 64) :
    val_main_call1_v4 (F := Ideal) x0 x1 x2 x3 x4 x5 x6 x7 x8 x9 (ix2 n c) = rowMax (specLogits x0 x1 x2 x3 x4 x5 x6 x7 x8 x9) n := by
  simp only [val_main_call1_v4_apply, val_main_call1_v3_apply, val_main_call1_v2_apply, val_main_call1_v1_apply,
    val_main_call1_cst_0_apply, idx_rowmax, rowmax_eq, logits_eq, Ideal.ofBits_def, ofBits_neg_inf, Ideal.maximumf_def]
  exact max_bot_left _

/-- The reference's result is the specification's `outR`, entry by entry. -/
theorem out_eq (n : Fin 4096) (q : Fin 64) :
    val_main_v58 (F := Ideal) x0 x1 x2 x3 x4 x5 x6 x7 x8 x9 (ix2 n q)
      = outR (mat2 x0) (mat2 x1) (mat2 x2) (vec1 x3) (vec1 x4) (vec1 x5) (vec1 x6) (vec1 x7) (ten3 x8) (mat2 x9) n q := by
  simp only [val_main_v58_apply, val_main_call1_v5_apply, val_main_call1_v10_apply, val_main_call1_v9_apply,
    val_main_call1_v8_apply, val_main_call1_v7_apply, val_main_call1_v6_apply, val_main_call1_cst_1_apply,
    idx_rowsum, idx_rowsum_col, shift_eq, logits_eq, Ideal.ofBits_def, Ideal.ofBits_zero_f32, zero_add]
  rfl

/-! ## The run's result -/

/-- What the reference program leaves in its result buffer is `outR` of its ten arguments, entry by entry. -/
theorem ref_value (m : (ℓ : Loc nD τ sig) → Buf (Elt Ideal) ℓ) (c : Dev nD) (n : Fin 4096) (q : Fin 64) :
    Cert.ReferenceIdeal.ValueP.res_main_v58 (F := Ideal) m c (ix2 n q)
      = outR (mat2 (m ((c.tc : Thread nD τ).loc main_arg0))) (mat2 (m ((c.tc : Thread nD τ).loc main_arg1)))
          (mat2 (m ((c.tc : Thread nD τ).loc main_arg2))) (vec1 (m ((c.tc : Thread nD τ).loc main_arg3)))
          (vec1 (m ((c.tc : Thread nD τ).loc main_arg4))) (vec1 (m ((c.tc : Thread nD τ).loc main_arg5)))
          (vec1 (m ((c.tc : Thread nD τ).loc main_arg6))) (vec1 (m ((c.tc : Thread nD τ).loc main_arg7)))
          (ten3 (m ((c.tc : Thread nD τ).loc main_arg8))) (mat2 (m ((c.tc : Thread nD τ).loc main_arg9))) n q := by
  rw [val_main_v58_eq]
  exact out_eq _ _ _ _ _ _ _ _ _ _ n q

end Cert.ReferenceIdeal.RefValue

end
-- ==== Proof.Claims.lean ====
/-
  The five claims, assembled.

  The word-level kernel and the idealized kernel run through their two pipelines to the end, every argument array as
  launched: the run of the whole program at the second pipeline's proof data, its first conjunct dropped. The reference is
  a list of host operations; its run states the returned array as the operations' composed term and the arguments
  unchanged. No operation was rewritten by the idealization, so there is nothing to preserve.

  The algebraic claim. The kernel returns, on each core, the second pipeline's fold of its output window. Index by index
  over the extended reals this is what the specification says the kernel returns (the folded batch normalisation), and the
  reference's term is what the specification says the reference returns (the unfolded one), of arrays that agree with
  the kernel's. The precondition makes every entry of the ten arrays a real number and every variance a non-negative
  real, and for such arrays the two specifications agree.
-/
import proofs.«150466_g82282983457293_cont_9to1_m_405_12_alg».proof.Defs
import proofs.«150466_g82282983457293_cont_9to1_m_405_12_alg».proof.Proof.Gen.Kernel
import proofs.«150466_g82282983457293_cont_9to1_m_405_12_alg».proof.Proof.Gen.KernelIdeal
import proofs.«150466_g82282983457293_cont_9to1_m_405_12_alg».proof.Proof.Gen.ReferenceIdeal
import proofs.«150466_g82282983457293_cont_9to1_m_405_12_alg».proof.Proof.Gen.Pre_finite_inputs
import proofs.«150466_g82282983457293_cont_9to1_m_405_12_alg».proof.Proof.GcnMainBits
import proofs.«150466_g82282983457293_cont_9to1_m_405_12_alg».proof.Proof.GcnKitBits
import proofs.«150466_g82282983457293_cont_9to1_m_405_12_alg».proof.Proof.GcnMainIdeal
import proofs.«150466_g82282983457293_cont_9to1_m_405_12_alg».proof.Proof.GcnKitIdeal
import proofs.«150466_g82282983457293_cont_9to1_m_405_12_alg».proof.Proof.GcnArrIdeal
import proofs.«150466_g82282983457293_cont_9to1_m_405_12_alg».proof.Proof.KernelValueIdeal
import proofs.«150466_g82282983457293_cont_9to1_m_405_12_alg».proof.Proof.SpecLaws
import proofs.«150466_g82282983457293_cont_9to1_m_405_12_alg».proof.Proof.PreFacts
import proofs.«150466_g82282983457293_cont_9to1_m_405_12_alg».proof.Proof.Spec
import proofs.«150466_g82282983457293_cont_9to1_m_405_12_alg».proof.Proof.GcnAllBits
import proofs.«150466_g82282983457293_cont_9to1_m_405_12_alg».proof.Proof.GcnAllIdeal
import proofs.«150466_g82282983457293_cont_9to1_m_405_12_alg».proof.Proof.GcnValueIdeal
import proofs.«150466_g82282983457293_cont_9to1_m_405_12_alg».proof.Proof.RefRun
import proofs.«150466_g82282983457293_cont_9to1_m_405_12_alg».proof.Proof.RefValue
import Idealize.ShloMosaic.Lib.ValueIdx

set_option maxRecDepth 16384

noncomputable section

namespace Cert.Proof.Claims

open Idealize.ShloMosaic Idealize.SL.Sem Idealize.ShloMosaic.ValueIdx

/-! ## The kernels run, the arguments unchanged -/

/-- The word-level kernel: the whole run at the second pipeline's proof data, the returned array dropped. -/
theorem frame_kernel : @Cert.frame_Kernel Cert.Kernel.Gen.facts Cert.Pre_finite_inputs.Gen.facts := fun m ρ _ =>
  (θ_run (Cert.Kernel.defs (F := Bits)) _ _).mono (fun r h c => (h c).2)
    (Cert.Kernel.GcnMain.run_main (F := Bits) m ρ Cert.Kernel.GcnKit.dat1
      (fun V c w => Cert.Kernel.GcnKit.A_eq1 V c w) (fun _ _ _ => rfl) (fun _ _ _ => rfl) (fun _ _ => rfl)
      (fun V c => Cert.Kernel.GcnKit.body_obligation1 V c)
      (fun V c => Cert.Kernel.GcnKit.hin1 V c) (fun V c => Cert.Kernel.GcnKit.hout1 V c))

section Ideal

open Cert.KernelIdeal Cert.KernelIdeal.Gen

/-- The idealized kernel's whole run: the returned array at the second pipeline's fold of its output window, the
    arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17) = (GcnKit.dat1 (GcnMain.Vin1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  GcnMain.run_main (F := Ideal) m ρ GcnKit.dat1
    (fun V c w => GcnKit.A_eq1 V c w) (fun _ _ _ => rfl) (fun _ _ _ => rfl) (fun _ _ => rfl)
    (fun V c => GcnKit.body_obligation1 V c) (fun V c => GcnKit.hin1 V c) (fun V c => GcnKit.hout1 V c)

theorem frame_kernel_ideal : @Cert.frame_KernelIdeal Cert.KernelIdeal.Gen.facts Cert.Pre_finite_inputs.Gen.facts := fun m ρ _ =>
  (θ_run (defs (F := Ideal)) _ _).mono (fun r h c => (h c).2) (kernel_run m ρ)

/-- THE KERNEL'S VALUE: the returned array, index by index, is what the specification says the kernel returns. Each
    hypothesis of the value theorem is one of the block-to-array facts at the two pipelines' entry contents, or the
    model's output block as the log-softmax of the propagated projection. -/
theorem kernel_value (m : (ℓ : Loc nD τ sig) → Buf (Elt Ideal) ℓ) (ρ : Dev nD → PrngReg) (c : Dev nD)
    (n : Fin 4096) (q : Fin 64) :
    (GcnKit.dat1 (GcnMain.Vin1 m ρ) c).arrAt 5 cfg1.N (ix2 n q)
      = Cert.Gcn.outK (KernelValue.xA m c) (KernelValue.adjA m c) (KernelValue.w1A m c) (KernelValue.b1A m c)
          (KernelValue.gammaA m c) (KernelValue.betaA m c) (KernelValue.meanA m c) (KernelValue.varA m c)
          (KernelValue.waA m c) (KernelValue.baA m c) n q :=
  KernelValue.kernel_value_of m ρ c
    (GcnArr.arrAt3 (GcnMain.Vin0 m ρ) c)
    (GcnArr.prepBlk0_eq (GcnMain.Vin0 m ρ) c) (GcnArr.prepBlk1_eq (GcnMain.Vin0 m ρ) c) (GcnArr.prepBlk2_eq (GcnMain.Vin0 m ρ) c)
    (GcnArr.arrAt5 (GcnMain.Vin1 m ρ) c)
    (fun i r k => GcnArr.aOf_apply (GcnMain.Vin1 m ρ) c i r k)
    (fun k j => congrFun (GcnArr.x2Of_eq (GcnMain.Vin1 m ρ) c) (ix2 k j))
    (fun j => congrFun (GcnArr.x3Of_eq (GcnMain.Vin1 m ρ) c) (ix2 (0 : Fin 1) j))
    (fun j q => congrFun (GcnArr.x4Of_eq (GcnMain.Vin1 m ρ) c) (ix2 j q))
    (fun q => congrFun (GcnArr.x5Of_eq (GcnMain.Vin1 m ρ) c) (ix2 (0 : Fin 1) q))
    (fun adj T cv Wc bv a x2 x3 x4 x5 ha h2 h3 h4 h5 n q =>
      GcnValue.outModel_value adj T cv Wc bv a x2 x3 x4 ha h2 h3 h4 x5 h5 n q)
    n q

end Ideal

/-! ## The reference runs, the arguments unchanged -/

theorem frame_reference : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.ValueP.run (F := Ideal) m ρ)

/-! ## Nothing was rewritten -/

theorem preserves : Cert.preserves_Kernel_KernelIdeal := trivial

/-! ## The two results agree -/

open Cert.Gcn in
/-- The specification's reference output depends on the ten arrays only. -/
theorem outR_congr {x x' : Mat 4096 256} {adj adj' : Mat 4096 4096} {W1 W1' : Mat 256 32}
    {b1 b1' gamma gamma' beta beta' mean mean' var var' : Fin 32 → EReal}
    {Wa Wa' : Fin 4 → Fin 32 → Fin 16 → EReal} {ba ba' : Fin 4 → Fin 16 → EReal}
    (h0 : x' = x) (h1 : adj' = adj) (h2 : W1' = W1) (h3 : b1' = b1) (h4 : gamma' = gamma) (h5 : beta' = beta)
    (h6 : mean' = mean) (h7 : var' = var) (h8 : Wa' = Wa) (h9 : ba' = ba) :
    outR x' adj' W1' b1' gamma' beta' mean' var' Wa' ba' = outR x adj W1 b1 gamma beta mean var Wa ba := by
  subst h0 h1 h2 h3 h4 h5 h6 h7 h8 h9; rfl

open Cert.Gcn in
/-- On each core the reference's returned term, at arrays that agree with the kernel's and satisfy the precondition, is
    the kernel's returned array. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : @Cert.Pre_KernelIdeal Cert.Pre_finite_inputs.Gen.facts m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (n : Fin 4096) (q : Fin 64) :
    Cert.ReferenceIdeal.ValueP.res_main_v58 (F := Ideal) m' c (ix2 n q)
      = (Cert.KernelIdeal.GcnKit.dat1 (Cert.KernelIdeal.GcnMain.Vin1 m ρ) c).arrAt 5 Cert.KernelIdeal.cfg1.N (ix2 n q) := by
  obtain ⟨f0, f1, f2, f3, f4, f5, f6, f7, -, -⟩ := @Cert.Gcn.PreFacts.spec_facts_of_pre Cert.Pre_finite_inputs.Gen.facts _ _ _ _ _ _ _ _ _ _ (hpre c)
  refine (Cert.ReferenceIdeal.RefValue.ref_value m' c n q).trans ?_
  refine Eq.trans ?_ (kernel_value m ρ c n q).symm
  refine Eq.trans ?_ (congrFun (congrFun (out_eq _ _ _ _ _ _ _ _ _ _ f0 f1 f2 f3 f4 f5 f6 f7) n) q).symm
  exact congrFun (congrFun (outR_congr (congrArg (mat2 (a := 4096) (b := 256)) h0) (congrArg (mat2 (a := 4096) (b := 4096)) h1)
    (congrArg (mat2 (a := 256) (b := 32)) h2) (congrArg (vec1 (a := 32)) h3) (congrArg (vec1 (a := 32)) h4) (congrArg (vec1 (a := 32)) h5)
    (congrArg (vec1 (a := 32)) h6) (congrArg (vec1 (a := 32)) h7) (congrArg (ten3 (a := 4) (b := 32) (c := 16)) h8)
    (congrArg (mat2 (a := 4) (b := 16)) h9)) n) q

/-- At the ideal instance the kernel and the reference, from memories agreeing on the arguments, both run, return equal
    arrays, and leave the arguments unchanged. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => (Cert.KernelIdeal.GcnKit.dat1 (Cert.KernelIdeal.GcnMain.Vin1 m ρ) c).arrAt 5 Cert.KernelIdeal.cfg1.N, kernel_run m ρ, ?_⟩
  refine (θ_run (Cert.ReferenceIdeal.defs (F := Ideal)) _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  funext i
  rw [eq_ix2 i]
  exact results_agree m ρ m' hpre c h0 h1 h2 h3 h4 h5 h6 h7 h8 h9 (i 0) (i 1)

/-- All five. -/
theorem all : @Cert.frame_Kernel Cert.Kernel.Gen.facts Cert.Pre_finite_inputs.Gen.facts
    ∧ @Cert.frame_KernelIdeal Cert.KernelIdeal.Gen.facts Cert.Pre_finite_inputs.Gen.facts
    ∧ @Cert.frame_ReferenceIdeal Cert.ReferenceIdeal.Gen.facts Cert.Pre_finite_inputs.Gen.facts
    ∧ Cert.preserves_Kernel_KernelIdeal
    ∧ @Cert.algebraic_KernelIdeal_ReferenceIdeal Cert.KernelIdeal.Gen.facts Cert.ReferenceIdeal.Gen.facts Cert.Pre_finite_inputs.Gen.facts :=
  ⟨frame_kernel, frame_kernel_ideal, frame_reference, preserves, algebraic⟩

end Cert.Proof.Claims

end
-- ==== Proof.lean ====
/-
  A two-layer graph convolution over a dense 4096 × 4096 adjacency, a Pallas kernel against its jnp reference, equal over
  the extended reals.

  The reference: h = relu(BN(adj · (x · W₁) + b₁)) with the batch normalisation's running statistics, then four heads
  adj · (h · Wa[i]) + ba[i] side by side and a log-softmax along the 64 columns. The kernel folds the normalisation into
  a column scale s = γ / √(var + ε) applied to x · W₁ beforehand (its first pallas_call) and an offset (b₁ − mean) · s + β
  added after the propagation; it streams the adjacency ONCE in eight row blocks (its second pallas_call, eight grid
  points): point j keeps a narrowed column-slab copy of its row block, computes the block's hidden rows and their
  projection p_j, adds the fresh block's product with the projections already known (rows ≥ 512 j of the projection
  scratch are still zero) and, for every earlier-or-equal row block b, the slab adj[b, j] · p_j — so that after the last
  point every row block b has met every column block exactly once: Σ_k adj[b, k] · P[k] — and the last point's epilogue
  takes the log-softmax.

  The two hidden layers agree where every entry is a real number and √(var + ε) is a positive real — then
  (a / q) · γ = a · (γ / q) and (Σ aₖ tₖ) · s = Σ aₖ (tₖ · s) hold, which they do not at an infinity —, hence the
  precondition: every float input finite and the variance non-negative (at var = −ε the reference itself divides by zero,
  and the two programs differ there). The rest is regrouping finite sums of extended reals, which needs no finiteness.

  The frames (both kernel programs run to the end, fault nowhere, leave their arguments unchanged) are proved from the
  body's run at each of the eight grid points and an invariant saying what the three scratch buffers hold after point n;
  the same invariant, read at the extended reals, gives the kernel's value. `preserves` is `True`: the idealization
  rewrote nothing.
-/
import proofs.«150466_g82282983457293_cont_9to1_m_405_12_alg».proof.Defs
import proofs.«150466_g82282983457293_cont_9to1_m_405_12_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts, Cert.Proof.Claims.all⟩

end Cert.Proof

end
